-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S262144x170 : Shape := ⟨2, ![262144, 170]⟩
abbrev S262144 : Shape := ⟨1, ![262144]⟩
abbrev S_ : Shape := ⟨0, ![]⟩

class Facts : Prop where
  bcast_S_S262144x170 : S_.BroadcastsInDim S262144x170 (![] : Fin 0 → Fin S262144x170.rank)
  reducesTo_S262144x170_S_d0_1 : S262144x170.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x170 .f32) (main_arg1 : IVec S262144 32) : IVec S_ 1 :=
  let main_v0 : FVec F S262144x170 .f32 := Host.absf main_arg0
  let main_cst : FVec F S_ .f32 := constant S_ .f32 0x7F800000#32
  let main_v1 : FVec F S262144x170 .f32 := broadcastInDim S262144x170 ![] bcast_S_S262144x170 main_cst
  let main_v2 : IVec S262144x170 1 := cmpf .olt main_v0 main_v1
  let main_c : IVec S_ 1 := constantI S_ 1 1#1
  let main_v3 : IVec S_ 1 := (fun x v => Host.reduce IntOp.andi x v reducesTo_S262144x170_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 32 := constantI S_ 32 169#32
  let main_v6 : IVec S262144 32 := broadcastInDim S262144 ![] bcast_S_S262144 main_c_1
  let main_v7 : IVec S262144 1 := cmpi .sle main_arg1 main_v6
  let main_v8 : IVec S262144 1 := andi main_v5 main_v7
  let main_c_2 : IVec S_ 1 := constantI S_ 1 1#1
  let main_v9 : IVec S_ 1 := (fun x v => Host.reduce IntOp.andi x v reducesTo_S262144_S_d0 h_S_) main_v8 main_c_2
  let main_v10 : IVec S_ 1 := andi main_v3 main_v9
  main_v10
-- ==== Kernel.lean ====
abbrev S262144x170 : Shape := ⟨2, ![262144, 170]⟩
abbrev S262144 : Shape := ⟨1, ![262144]⟩
abbrev S32x16 : Shape := ⟨2, ![32, 16]⟩
abbrev S3584 : Shape := ⟨1, ![3584]⟩
abbrev S128x170 : Shape := ⟨2, ![128, 170]⟩
abbrev S16 : Shape := ⟨1, ![16]⟩
abbrev S_ : Shape := ⟨0, ![]⟩
abbrev S1x16 : Shape := ⟨2, ![1, 16]⟩
abbrev S147456 : Shape := ⟨1, ![147456]⟩
abbrev S18x4x2048 : Shape := ⟨3, ![18, 4, 2048]⟩
abbrev S1x1 : Shape := ⟨2, ![1, 1]⟩
abbrev S1x4x2048 : Shape := ⟨3, ![1, 4, 2048]⟩
abbrev S2048x170 : Shape := ⟨2, ![2048, 170]⟩
abbrev S8x170 : Shape := ⟨2, ![8, 170]⟩
abbrev S1x1x2048 : Shape := ⟨3, ![1, 1, 2048]⟩
abbrev S2048 : Shape := ⟨1, ![2048]⟩
abbrev S2048x1 : Shape := ⟨2, ![2048, 1]⟩
abbrev S256x8x170 : Shape := ⟨3, ![256, 8, 170]⟩
abbrev S1x8x170 : Shape := ⟨3, ![1, 8, 170]⟩
abbrev S1 : Shape := ⟨1, ![1]⟩
abbrev S1x1x1 : Shape := ⟨3, ![1, 1, 1]⟩

abbrev nBuf : Table → Nat
  | .hbm => 12
  | .local .tc .vmem => 12
  | .local .tc .smem => 1
  | .local .scVector .vmem => 4
  | _ => 0

abbrev bufTy : (tb : Table) → Fin (nBuf tb) → BufTy
  | .hbm, ⟨0, _⟩ => ⟨S262144x170, .f32⟩
  | .hbm, ⟨1, _⟩ => ⟨S262144, .i32⟩
  | .hbm, ⟨2, _⟩ => ⟨S32x16, .f32⟩
  | .hbm, ⟨3, _⟩ => ⟨S_, .f32⟩
  | .hbm, ⟨4, _⟩ => ⟨S_, .f32⟩
  | .hbm, ⟨5, _⟩ => ⟨S147456, .i32⟩
  | .hbm, ⟨6, _⟩ => ⟨S18x4x2048, .i32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local .tc .vmem, ⟨0, _⟩ => ⟨S1x4x2048, .i32⟩
  | .local .tc .vmem, ⟨1, _⟩ => ⟨S1x4x2048, .i32⟩
  | .local .tc .vmem, ⟨2, _⟩ => ⟨S2048x170, .f32⟩
  | .local .tc .vmem, ⟨3, _⟩ => ⟨S2048x170, .f32⟩
  | .local .tc .vmem, ⟨4, _⟩ => ⟨S2048x170, .f32⟩
  | .local .tc .vmem, ⟨5, _⟩ => ⟨S2048x170, .f32⟩
  | .local .tc .vmem, ⟨6, _⟩ => ⟨S2048x170, .f32⟩
  | .local .tc .vmem, ⟨7, _⟩ => ⟨S2048x170, .f32⟩
  | .local .tc .vmem, ⟨8, _⟩ => ⟨S2048x170, .f32⟩
  | .local .tc .vmem, ⟨9, _⟩ => ⟨S2048x170, .f32⟩
  | .local .tc .vmem, ⟨10, _⟩ => ⟨S8x170, .f32⟩
  | .local .tc .vmem, ⟨11, _⟩ => ⟨S8x170, .f32⟩
  | .local .tc .smem, ⟨0, _⟩ => ⟨S1x1, .f32⟩
  | .local .scVector .vmem, ⟨0, _⟩ => ⟨S3584, .i32⟩
  | .local .scVector .vmem, ⟨1, _⟩ => ⟨S128x170, .f32⟩
  | .local .scVector .vmem, ⟨2, _⟩ => ⟨S128x170, .f32⟩
  | .local .scVector .vmem, ⟨3, _⟩ => ⟨S16, .f32⟩
  | _, _ => ⟨S262144x170, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_scratch0 : Ref sig .tc := ⟨.vmem, 10, rfl⟩
abbrev cc1_scratch1 : Ref sig .tc := ⟨.vmem, 11, rfl⟩
abbrev cc1_stg5_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3584_i32 : BitVec 32 := 3584#32
  let v2 : BitVec 32 := Scalar.muli v1 c3584_i32
  ![v2.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3584_i32 : BitVec 32 := 3584#32
  let v2 : BitVec 32 := Scalar.muli v1 c3584_i32
  let v4 : BitVec 32 := Scalar.addi v2 c0_i32
  let c0_i32_0 : BitVec 32 := 0#32
  ![v4.toNat, 0]
@[reducible] def k0_t1_loop : Scf.Loop 32 :=
  let c0_i32_6 : BitVec 32 := 0#32
  let c8_i32 : BitVec 32 := 8#32
  let v13 : BitVec 32 := Scalar.addi c0_i32_6 c8_i32
  let c1_i32 : BitVec 32 := 1#32
  ⟨c0_i32_6, v13, c1_i32⟩
def k0_off3 (k0_t1 : Fin k0_t1_loop.trips) : Fin 1 → Nat :=
  let c0_i32_222 : BitVec 32 := 0#32
  let c0_i32_6 : BitVec 32 := 0#32
  let c1_i32 : BitVec 32 := 1#32
  let arg11 : BitVec 32 := Scf.iv c0_i32_6 c1_i32 k0_t1
  let c16_i32 : BitVec 32 := 16#32
  let v202 : BitVec 32 := Scalar.muli arg11 c16_i32
  let v203 : BitVec 32 := Scalar.addi c0_i32_222 v202
  let v204 : Index := Scalar.indexCast v203
  ![v204.toNat]

def k0_chk1 (v205 : IVec S16 32) (v208 : IVec S16 32) : Prop :=
  (∀ a x, ((![v208, v205] : Fin 2 → IVec S16 32) a x).toNat < S128x170.size a)
instance k0_chk1.dec : ∀ (v205 : IVec S16 32) (v208 : IVec S16 32), Decidable (k0_chk1 v205 v208) := fun v205 v208 => decidable_of_iff' _ (Iff.of_eq (k0_chk1.eq_1 v205 v208))
theorem k0_idx1_inb : ∀ (v205 : IVec S16 32) (v208 : IVec S16 32) (k0_hw1 : k0_chk1 v205 v208), ∀ a x, ((![v208, v205] : Fin 2 → IVec S16 32) a x).toNat < S128x170.size a := fun v205 v208 k0_hw1 => k0_hw1
@[reducible] def k0_t2_loop : Scf.Loop 32 :=
  let c0_i32_12 : BitVec 32 := 0#32
  let c8_i32_13 : BitVec 32 := 8#32
  let v20 : BitVec 32 := Scalar.addi c0_i32_12 c8_i32_13
  let c1_i32_14 : BitVec 32 := 1#32
  ⟨c0_i32_12, v20, c1_i32_14⟩
def k0_off4 (k0_t2 : Fin k0_t2_loop.trips) : Fin 1 → Nat :=
  let c128_i32_222 : BitVec 32 := 128#32
  let c0_i32_12 : BitVec 32 := 0#32
  let c1_i32_14 : BitVec 32 := 1#32
  let arg11 : BitVec 32 := Scf.iv c0_i32_12 c1_i32_14 k0_t2
  let c16_i32 : BitVec 32 := 16#32
  let v202 : BitVec 32 := Scalar.muli arg11 c16_i32
  let v203 : BitVec 32 := Scalar.addi c128_i32_222 v202
  let v204 : Index := Scalar.indexCast v203
  ![v204.toNat]

def k0_chk2 (v205 : IVec S16 32) (v208 : IVec S16 32) : Prop :=
  (∀ a x, ((![v208, v205] : Fin 2 → IVec S16 32) a x).toNat < S128x170.size a)
instance k0_chk2.dec : ∀ (v205 : IVec S16 32) (v208 : IVec S16 32), Decidable (k0_chk2 v205 v208) := fun v205 v208 => decidable_of_iff' _ (Iff.of_eq (k0_chk2.eq_1 v205 v208))
theorem k0_idx2_inb : ∀ (v205 : IVec S16 32) (v208 : IVec S16 32) (k0_hw2 : k0_chk2 v205 v208), ∀ a x, ((![v208, v205] : Fin 2 → IVec S16 32) a x).toNat < S128x170.size a := fun v205 v208 k0_hw2 => k0_hw2
@[reducible] def k0_t3_loop : Scf.Loop 32 :=
  let c0_i32_20 : BitVec 32 := 0#32
  let c8_i32_21 : BitVec 32 := 8#32
  let v27 : BitVec 32 := Scalar.addi c0_i32_20 c8_i32_21
  let c1_i32_22 : BitVec 32 := 1#32
  ⟨c0_i32_20, v27, c1_i32_22⟩
def k0_off5 (k0_t3 : Fin k0_t3_loop.trips) : Fin 1 → Nat :=
  let c256_i32_222 : BitVec 32 := 256#32
  let c0_i32_20 : BitVec 32 := 0#32
  let c1_i32_22 : BitVec 32 := 1#32
  let arg11 : BitVec 32 := Scf.iv c0_i32_20 c1_i32_22 k0_t3
  let c16_i32 : BitVec 32 := 16#32
  let v202 : BitVec 32 := Scalar.muli arg11 c16_i32
  let v203 : BitVec 32 := Scalar.addi c256_i32_222 v202
  let v204 : Index := Scalar.indexCast v203
  ![v204.toNat]

def k0_chk3 (v205 : IVec S16 32) (v208 : IVec S16 32) : Prop :=
  (∀ a x, ((![v208, v205] : Fin 2 → IVec S16 32) a x).toNat < S128x170.size a)
instance k0_chk3.dec : ∀ (v205 : IVec S16 32) (v208 : IVec S16 32), Decidable (k0_chk3 v205 v208) := fun v205 v208 => decidable_of_iff' _ (Iff.of_eq (k0_chk3.eq_1 v205 v208))
theorem k0_idx3_inb : ∀ (v205 : IVec S16 32) (v208 : IVec S16 32) (k0_hw3 : k0_chk3 v205 v208), ∀ a x, ((![v208, v205] : Fin 2 → IVec S16 32) a x).toNat < S128x170.size a := fun v205 v208 k0_hw3 => k0_hw3
@[reducible] def k0_t4_loop : Scf.Loop 32 :=
  let c0_i32_28 : BitVec 32 := 0#32
  let c8_i32_29 : BitVec 32 := 8#32
  let v34 : BitVec 32 := Scalar.addi c0_i32_28 c8_i32_29
  let c1_i32_30 : BitVec 32 := 1#32
  ⟨c0_i32_28, v34, c1_i32_30⟩
def k0_off6 (k0_t4 : Fin k0_t4_loop.trips) : Fin 1 → Nat :=
  let c384_i32_222 : BitVec 32 := 384#32
  let c0_i32_28 : BitVec 32 := 0#32
  let c1_i32_30 : BitVec 32 := 1#32
  let arg11 : BitVec 32 := Scf.iv c0_i32_28 c1_i32_30 k0_t4
  let c16_i32 : BitVec 32 := 16#32
  let v202 : BitVec 32 := Scalar.muli arg11 c16_i32
  let v203 : BitVec 32 := Scalar.addi c384_i32_222 v202
  let v204 : Index := Scalar.indexCast v203
  ![v204.toNat]

def k0_chk4 (v205 : IVec S16 32) (v208 : IVec S16 32) : Prop :=
  (∀ a x, ((![v208, v205] : Fin 2 → IVec S16 32) a x).toNat < S128x170.size a)
instance k0_chk4.dec : ∀ (v205 : IVec S16 32) (v208 : IVec S16 32), Decidable (k0_chk4 v205 v208) := fun v205 v208 => decidable_of_iff' _ (Iff.of_eq (k0_chk4.eq_1 v205 v208))
theorem k0_idx4_inb : ∀ (v205 : IVec S16 32) (v208 : IVec S16 32) (k0_hw4 : k0_chk4 v205 v208), ∀ a x, ((![v208, v205] : Fin 2 → IVec S16 32) a x).toNat < S128x170.size a := fun v205 v208 k0_hw4 => k0_hw4
@[reducible] def k0_t5_loop : Scf.Loop 32 :=
  let c0_i32_36 : BitVec 32 := 0#32
  let c8_i32_37 : BitVec 32 := 8#32
  let v41 : BitVec 32 := Scalar.addi c0_i32_36 c8_i32_37
  let c1_i32_38 : BitVec 32 := 1#32
  ⟨c0_i32_36, v41, c1_i32_38⟩
def k0_off7 (k0_t5 : Fin k0_t5_loop.trips) : Fin 1 → Nat :=
  let c512_i32_222 : BitVec 32 := 512#32
  let c0_i32_36 : BitVec 32 := 0#32
  let c1_i32_38 : BitVec 32 := 1#32
  let arg11 : BitVec 32 := Scf.iv c0_i32_36 c1_i32_38 k0_t5
  let c16_i32 : BitVec 32 := 16#32
  let v202 : BitVec 32 := Scalar.muli arg11 c16_i32
  let v203 : BitVec 32 := Scalar.addi c512_i32_222 v202
  let v204 : Index := Scalar.indexCast v203
  ![v204.toNat]

def k0_chk5 (v205 : IVec S16 32) (v208 : IVec S16 32) : Prop :=
  (∀ a x, ((![v208, v205] : Fin 2 → IVec S16 32) a x).toNat < S128x170.size a)
instance k0_chk5.dec : ∀ (v205 : IVec S16 32) (v208 : IVec S16 32), Decidable (k0_chk5 v205 v208) := fun v205 v208 => decidable_of_iff' _ (Iff.of_eq (k0_chk5.eq_1 v205 v208))
theorem k0_idx5_inb : ∀ (v205 : IVec S16 32) (v208 : IVec S16 32) (k0_hw5 : k0_chk5 v205 v208), ∀ a x, ((![v208, v205] : Fin 2 → IVec S16 32) a x).toNat < S128x170.size a := fun v205 v208 k0_hw5 => k0_hw5
@[reducible] def k0_t6_loop : Scf.Loop 32 :=
  let c0_i32_44 : BitVec 32 := 0#32
  let c8_i32_45 : BitVec 32 := 8#32
  let v48 : BitVec 32 := Scalar.addi c0_i32_44 c8_i32_45
  let c1_i32_46 : BitVec 32 := 1#32
  ⟨c0_i32_44, v48, c1_i32_46⟩
def k0_off8 (k0_t6 : Fin k0_t6_loop.trips) : Fin 1 → Nat :=
  let c640_i32_222 : BitVec 32 := 640#32
  let c0_i32_44 : BitVec 32 := 0#32
  let c1_i32_46 : BitVec 32 := 1#32
  let arg11 : BitVec 32 := Scf.iv c0_i32_44 c1_i32_46 k0_t6
  let c16_i32 : BitVec 32 := 16#32
  let v202 : BitVec 32 := Scalar.muli arg11 c16_i32
  let v203 : BitVec 32 := Scalar.addi c640_i32_222 v202
  let v204 : Index := Scalar.indexCast v203
  ![v204.toNat]

def k0_chk6 (v205 : IVec S16 32) (v208 : IVec S16 32) : Prop :=
  (∀ a x, ((![v208, v205] : Fin 2 → IVec S16 32) a x).toNat < S128x170.size a)
instance k0_chk6.dec : ∀ (v205 : IVec S16 32) (v208 : IVec S16 32), Decidable (k0_chk6 v205 v208) := fun v205 v208 => decidable_of_iff' _ (Iff.of_eq (k0_chk6.eq_1 v205 v208))
theorem k0_idx6_inb : ∀ (v205 : IVec S16 32) (v208 : IVec S16 32) (k0_hw6 : k0_chk6 v205 v208), ∀ a x, ((![v208, v205] : Fin 2 → IVec S16 32) a x).toNat < S128x170.size a := fun v205 v208 k0_hw6 => k0_hw6
@[reducible] def k0_t7_loop : Scf.Loop 32 :=
  let c0_i32_52 : BitVec 32 := 0#32
  let c8_i32_53 : BitVec 32 := 8#32
  let v55 : BitVec 32 := Scalar.addi c0_i32_52 c8_i32_53
  let c1_i32_54 : BitVec 32 := 1#32
  ⟨c0_i32_52, v55, c1_i32_54⟩
def k0_off9 (k0_t7 : Fin k0_t7_loop.trips) : Fin 1 → Nat :=
  let c768_i32_222 : BitVec 32 := 768#32
  let c0_i32_52 : BitVec 32 := 0#32
  let c1_i32_54 : BitVec 32 := 1#32
  let arg11 : BitVec 32 := Scf.iv c0_i32_52 c1_i32_54 k0_t7
  let c16_i32 : BitVec 32 := 16#32
  let v202 : BitVec 32 := Scalar.muli arg11 c16_i32
  let v203 : BitVec 32 := Scalar.addi c768_i32_222 v202
  let v204 : Index := Scalar.indexCast v203
  ![v204.toNat]

def k0_chk7 (v205 : IVec S16 32) (v208 : IVec S16 32) : Prop :=
  (∀ a x, ((![v208, v205] : Fin 2 → IVec S16 32) a x).toNat < S128x170.size a)
instance k0_chk7.dec : ∀ (v205 : IVec S16 32) (v208 : IVec S16 32), Decidable (k0_chk7 v205 v208) := fun v205 v208 => decidable_of_iff' _ (Iff.of_eq (k0_chk7.eq_1 v205 v208))
theorem k0_idx7_inb : ∀ (v205 : IVec S16 32) (v208 : IVec S16 32) (k0_hw7 : k0_chk7 v205 v208), ∀ a x, ((![v208, v205] : Fin 2 → IVec S16 32) a x).toNat < S128x170.size a := fun v205 v208 k0_hw7 => k0_hw7
@[reducible] def k0_t8_loop : Scf.Loop 32 :=
  let c0_i32_60 : BitVec 32 := 0#32
  let c8_i32_61 : BitVec 32 := 8#32
  let v62 : BitVec 32 := Scalar.addi c0_i32_60 c8_i32_61
  let c1_i32_62 : BitVec 32 := 1#32
  ⟨c0_i32_60, v62, c1_i32_62⟩
def k0_off10 (k0_t8 : Fin k0_t8_loop.trips) : Fin 1 → Nat :=
  let c896_i32_222 : BitVec 32 := 896#32
  let c0_i32_60 : BitVec 32 := 0#32
  let c1_i32_62 : BitVec 32 := 1#32
  let arg11 : BitVec 32 := Scf.iv c0_i32_60 c1_i32_62 k0_t8
  let c16_i32 : BitVec 32 := 16#32
  let v202 : BitVec 32 := Scalar.muli arg11 c16_i32
  let v203 : BitVec 32 := Scalar.addi c896_i32_222 v202
  let v204 : Index := Scalar.indexCast v203
  ![v204.toNat]

def k0_chk8 (v205 : IVec S16 32) (v208 : IVec S16 32) : Prop :=
  (∀ a x, ((![v208, v205] : Fin 2 → IVec S16 32) a x).toNat < S128x170.size a)
instance k0_chk8.dec : ∀ (v205 : IVec S16 32) (v208 : IVec S16 32), Decidable (k0_chk8 v205 v208) := fun v205 v208 => decidable_of_iff' _ (Iff.of_eq (k0_chk8.eq_1 v205 v208))
theorem k0_idx8_inb : ∀ (v205 : IVec S16 32) (v208 : IVec S16 32) (k0_hw8 : k0_chk8 v205 v208), ∀ a x, ((![v208, v205] : Fin 2 → IVec S16 32) a x).toNat < S128x170.size a := fun v205 v208 k0_hw8 => k0_hw8
@[reducible] def k0_t9_loop : Scf.Loop 32 :=
  let c0_i32_68 : BitVec 32 := 0#32
  let c8_i32_69 : BitVec 32 := 8#32
  let v69 : BitVec 32 := Scalar.addi c0_i32_68 c8_i32_69
  let c1_i32_70 : BitVec 32 := 1#32
  ⟨c0_i32_68, v69, c1_i32_70⟩
def k0_off11 (k0_t9 : Fin k0_t9_loop.trips) : Fin 1 → Nat :=
  let c1024_i32_222 : BitVec 32 := 1024#32
  let c0_i32_68 : BitVec 32 := 0#32
  let c1_i32_70 : BitVec 32 := 1#32
  let arg11 : BitVec 32 := Scf.iv c0_i32_68 c1_i32_70 k0_t9
  let c16_i32 : BitVec 32 := 16#32
  let v202 : BitVec 32 := Scalar.muli arg11 c16_i32
  let v203 : BitVec 32 := Scalar.addi c1024_i32_222 v202
  let v204 : Index := Scalar.indexCast v203
  ![v204.toNat]

def k0_chk9 (v205 : IVec S16 32) (v208 : IVec S16 32) : Prop :=
  (∀ a x, ((![v208, v205] : Fin 2 → IVec S16 32) a x).toNat < S128x170.size a)
instance k0_chk9.dec : ∀ (v205 : IVec S16 32) (v208 : IVec S16 32), Decidable (k0_chk9 v205 v208) := fun v205 v208 => decidable_of_iff' _ (Iff.of_eq (k0_chk9.eq_1 v205 v208))
theorem k0_idx9_inb : ∀ (v205 : IVec S16 32) (v208 : IVec S16 32) (k0_hw9 : k0_chk9 v205 v208), ∀ a x, ((![v208, v205] : Fin 2 → IVec S16 32) a x).toNat < S128x170.size a := fun v205 v208 k0_hw9 => k0_hw9
@[reducible] def k0_t10_loop : Scf.Loop 32 :=
  let c0_i32_76 : BitVec 32 := 0#32
  let c8_i32_77 : BitVec 32 := 8#32
  let v76 : BitVec 32 := Scalar.addi c0_i32_76 c8_i32_77
  let c1_i32_78 : BitVec 32 := 1#32
  ⟨c0_i32_76, v76, c1_i32_78⟩
def k0_off12 (k0_t10 : Fin k0_t10_loop.trips) : Fin 1 → Nat :=
  let c1152_i32_222 : BitVec 32 := 1152#32
  let c0_i32_76 : BitVec 32 := 0#32
  let c1_i32_78 : BitVec 32 := 1#32
  let arg11 : BitVec 32 := Scf.iv c0_i32_76 c1_i32_78 k0_t10
  let c16_i32 : BitVec 32 := 16#32
  let v202 : BitVec 32 := Scalar.muli arg11 c16_i32
  let v203 : BitVec 32 := Scalar.addi c1152_i32_222 v202
  let v204 : Index := Scalar.indexCast v203
  ![v204.toNat]

def k0_chk10 (v205 : IVec S16 32) (v208 : IVec S16 32) : Prop :=
  (∀ a x, ((![v208, v205] : Fin 2 → IVec S16 32) a x).toNat < S128x170.size a)
instance k0_chk10.dec : ∀ (v205 : IVec S16 32) (v208 : IVec S16 32), Decidable (k0_chk10 v205 v208) := fun v205 v208 => decidable_of_iff' _ (Iff.of_eq (k0_chk10.eq_1 v205 v208))
theorem k0_idx10_inb : ∀ (v205 : IVec S16 32) (v208 : IVec S16 32) (k0_hw10 : k0_chk10 v205 v208), ∀ a x, ((![v208, v205] : Fin 2 → IVec S16 32) a x).toNat < S128x170.size a := fun v205 v208 k0_hw10 => k0_hw10
@[reducible] def k0_t11_loop : Scf.Loop 32 :=
  let c0_i32_84 : BitVec 32 := 0#32
  let c8_i32_85 : BitVec 32 := 8#32
  let v83 : BitVec 32 := Scalar.addi c0_i32_84 c8_i32_85
  let c1_i32_86 : BitVec 32 := 1#32
  ⟨c0_i32_84, v83, c1_i32_86⟩
def k0_off13 (k0_t11 : Fin k0_t11_loop.trips) : Fin 1 → Nat :=
  let c1280_i32_222 : BitVec 32 := 1280#32
  let c0_i32_84 : BitVec 32 := 0#32
  let c1_i32_86 : BitVec 32 := 1#32
  let arg11 : BitVec 32 := Scf.iv c0_i32_84 c1_i32_86 k0_t11
  let c16_i32 : BitVec 32 := 16#32
  let v202 : BitVec 32 := Scalar.muli arg11 c16_i32
  let v203 : BitVec 32 := Scalar.addi c1280_i32_222 v202
  let v204 : Index := Scalar.indexCast v203
  ![v204.toNat]

def k0_chk11 (v205 : IVec S16 32) (v208 : IVec S16 32) : Prop :=
  (∀ a x, ((![v208, v205] : Fin 2 → IVec S16 32) a x).toNat < S128x170.size a)
instance k0_chk11.dec : ∀ (v205 : IVec S16 32) (v208 : IVec S16 32), Decidable (k0_chk11 v205 v208) := fun v205 v208 => decidable_of_iff' _ (Iff.of_eq (k0_chk11.eq_1 v205 v208))
theorem k0_idx11_inb : ∀ (v205 : IVec S16 32) (v208 : IVec S16 32) (k0_hw11 : k0_chk11 v205 v208), ∀ a x, ((![v208, v205] : Fin 2 → IVec S16 32) a x).toNat < S128x170.size a := fun v205 v208 k0_hw11 => k0_hw11
@[reducible] def k0_t12_loop : Scf.Loop 32 :=
  let c0_i32_92 : BitVec 32 := 0#32
  let c8_i32_93 : BitVec 32 := 8#32
  let v90 : BitVec 32 := Scalar.addi c0_i32_92 c8_i32_93
  let c1_i32_94 : BitVec 32 := 1#32
  ⟨c0_i32_92, v90, c1_i32_94⟩
def k0_off14 (k0_t12 : Fin k0_t12_loop.trips) : Fin 1 → Nat :=
  let c1408_i32_222 : BitVec 32 := 1408#32
  let c0_i32_92 : BitVec 32 := 0#32
  let c1_i32_94 : BitVec 32 := 1#32
  let arg11 : BitVec 32 := Scf.iv c0_i32_92 c1_i32_94 k0_t12
  let c16_i32 : BitVec 32 := 16#32
  let v202 : BitVec 32 := Scalar.muli arg11 c16_i32
  let v203 : BitVec 32 := Scalar.addi c1408_i32_222 v202
  let v204 : Index := Scalar.indexCast v203
  ![v204.toNat]

def k0_chk12 (v205 : IVec S16 32) (v208 : IVec S16 32) : Prop :=
  (∀ a x, ((![v208, v205] : Fin 2 → IVec S16 32) a x).toNat < S128x170.size a)
instance k0_chk12.dec : ∀ (v205 : IVec S16 32) (v208 : IVec S16 32), Decidable (k0_chk12 v205 v208) := fun v205 v208 => decidable_of_iff' _ (Iff.of_eq (k0_chk12.eq_1 v205 v208))
theorem k0_idx12_inb : ∀ (v205 : IVec S16 32) (v208 : IVec S16 32) (k0_hw12 : k0_chk12 v205 v208), ∀ a x, ((![v208, v205] : Fin 2 → IVec S16 32) a x).toNat < S128x170.size a := fun v205 v208 k0_hw12 => k0_hw12
@[reducible] def k0_t13_loop : Scf.Loop 32 :=
  let c0_i32_100 : BitVec 32 := 0#32
  let c8_i32_101 : BitVec 32 := 8#32
  let v97 : BitVec 32 := Scalar.addi c0_i32_100 c8_i32_101
  let c1_i32_102 : BitVec 32 := 1#32
  ⟨c0_i32_100, v97, c1_i32_102⟩
def k0_off15 (k0_t13 : Fin k0_t13_loop.trips) : Fin 1 → Nat :=
  let c1536_i32_222 : BitVec 32 := 1536#32
  let c0_i32_100 : BitVec 32 := 0#32
  let c1_i32_102 : BitVec 32 := 1#32
  let arg11 : BitVec 32 := Scf.iv c0_i32_100 c1_i32_102 k0_t13
  let c16_i32 : BitVec 32 := 16#32
  let v202 : BitVec 32 := Scalar.muli arg11 c16_i32
  let v203 : BitVec 32 := Scalar.addi c1536_i32_222 v202
  let v204 : Index := Scalar.indexCast v203
  ![v204.toNat]

def k0_chk13 (v205 : IVec S16 32) (v208 : IVec S16 32) : Prop :=
  (∀ a x, ((![v208, v205] : Fin 2 → IVec S16 32) a x).toNat < S128x170.size a)
instance k0_chk13.dec : ∀ (v205 : IVec S16 32) (v208 : IVec S16 32), Decidable (k0_chk13 v205 v208) := fun v205 v208 => decidable_of_iff' _ (Iff.of_eq (k0_chk13.eq_1 v205 v208))
theorem k0_idx13_inb : ∀ (v205 : IVec S16 32) (v208 : IVec S16 32) (k0_hw13 : k0_chk13 v205 v208), ∀ a x, ((![v208, v205] : Fin 2 → IVec S16 32) a x).toNat < S128x170.size a := fun v205 v208 k0_hw13 => k0_hw13
@[reducible] def k0_t14_loop : Scf.Loop 32 :=
  let c0_i32_108 : BitVec 32 := 0#32
  let c8_i32_109 : BitVec 32 := 8#32
  let v104 : BitVec 32 := Scalar.addi c0_i32_108 c8_i32_109
  let c1_i32_110 : BitVec 32 := 1#32
  ⟨c0_i32_108, v104, c1_i32_110⟩
def k0_off16 (k0_t14 : Fin k0_t14_loop.trips) : Fin 1 → Nat :=
  let c1664_i32_222 : BitVec 32 := 1664#32
  let c0_i32_108 : BitVec 32 := 0#32
  let c1_i32_110 : BitVec 32 := 1#32
  let arg11 : BitVec 32 := Scf.iv c0_i32_108 c1_i32_110 k0_t14
  let c16_i32 : BitVec 32 := 16#32
  let v202 : BitVec 32 := Scalar.muli arg11 c16_i32
  let v203 : BitVec 32 := Scalar.addi c1664_i32_222 v202
  let v204 : Index := Scalar.indexCast v203
  ![v204.toNat]

def k0_chk14 (v205 : IVec S16 32) (v208 : IVec S16 32) : Prop :=
  (∀ a x, ((![v208, v205] : Fin 2 → IVec S16 32) a x).toNat < S128x170.size a)
instance k0_chk14.dec : ∀ (v205 : IVec S16 32) (v208 : IVec S16 32), Decidable (k0_chk14 v205 v208) := fun v205 v208 => decidable_of_iff' _ (Iff.of_eq (k0_chk14.eq_1 v205 v208))
theorem k0_idx14_inb : ∀ (v205 : IVec S16 32) (v208 : IVec S16 32) (k0_hw14 : k0_chk14 v205 v208), ∀ a x, ((![v208, v205] : Fin 2 → IVec S16 32) a x).toNat < S128x170.size a := fun v205 v208 k0_hw14 => k0_hw14
@[reducible] def k0_t15_loop : Scf.Loop 32 :=
  let c0_i32_116 : BitVec 32 := 0#32
  let c8_i32_117 : BitVec 32 := 8#32
  let v111 : BitVec 32 := Scalar.addi c0_i32_116 c8_i32_117
  let c1_i32_118 : BitVec 32 := 1#32
  ⟨c0_i32_116, v111, c1_i32_118⟩
def k0_off17 (k0_t15 : Fin k0_t15_loop.trips) : Fin 1 → Nat :=
  let c1792_i32_222 : BitVec 32 := 1792#32
  let c0_i32_116 : BitVec 32 := 0#32
  let c1_i32_118 : BitVec 32 := 1#32
  let arg11 : BitVec 32 := Scf.iv c0_i32_116 c1_i32_118 k0_t15
  let c16_i32 : BitVec 32 := 16#32
  let v202 : BitVec 32 := Scalar.muli arg11 c16_i32
  let v203 : BitVec 32 := Scalar.addi c1792_i32_222 v202
  let v204 : Index := Scalar.indexCast v203
  ![v204.toNat]

def k0_chk15 (v205 : IVec S16 32) (v208 : IVec S16 32) : Prop :=
  (∀ a x, ((![v208, v205] : Fin 2 → IVec S16 32) a x).toNat < S128x170.size a)
instance k0_chk15.dec : ∀ (v205 : IVec S16 32) (v208 : IVec S16 32), Decidable (k0_chk15 v205 v208) := fun v205 v208 => decidable_of_iff' _ (Iff.of_eq (k0_chk15.eq_1 v205 v208))
theorem k0_idx15_inb : ∀ (v205 : IVec S16 32) (v208 : IVec S16 32) (k0_hw15 : k0_chk15 v205 v208), ∀ a x, ((![v208, v205] : Fin 2 → IVec S16 32) a x).toNat < S128x170.size a := fun v205 v208 k0_hw15 => k0_hw15
@[reducible] def k0_t16_loop : Scf.Loop 32 :=
  let c0_i32_124 : BitVec 32 := 0#32
  let c8_i32_125 : BitVec 32 := 8#32
  let v118 : BitVec 32 := Scalar.addi c0_i32_124 c8_i32_125
  let c1_i32_126 : BitVec 32 := 1#32
  ⟨c0_i32_124, v118, c1_i32_126⟩
def k0_off18 (k0_t16 : Fin k0_t16_loop.trips) : Fin 1 → Nat :=
  let c1920_i32_222 : BitVec 32 := 1920#32
  let c0_i32_124 : BitVec 32 := 0#32
  let c1_i32_126 : BitVec 32 := 1#32
  let arg11 : BitVec 32 := Scf.iv c0_i32_124 c1_i32_126 k0_t16
  let c16_i32 : BitVec 32 := 16#32
  let v202 : BitVec 32 := Scalar.muli arg11 c16_i32
  let v203 : BitVec 32 := Scalar.addi c1920_i32_222 v202
  let v204 : Index := Scalar.indexCast v203
  ![v204.toNat]

def k0_chk16 (v205 : IVec S16 32) (v208 : IVec S16 32) : Prop :=
  (∀ a x, ((![v208, v205] : Fin 2 → IVec S16 32) a x).toNat < S128x170.size a)
instance k0_chk16.dec : ∀ (v205 : IVec S16 32) (v208 : IVec S16 32), Decidable (k0_chk16 v205 v208) := fun v205 v208 => decidable_of_iff' _ (Iff.of_eq (k0_chk16.eq_1 v205 v208))
theorem k0_idx16_inb : ∀ (v205 : IVec S16 32) (v208 : IVec S16 32) (k0_hw16 : k0_chk16 v205 v208), ∀ a x, ((![v208, v205] : Fin 2 → IVec S16 32) a x).toNat < S128x170.size a := fun v205 v208 k0_hw16 => k0_hw16
@[reducible] def k0_t17_loop : Scf.Loop 32 :=
  let c0_i32_132 : BitVec 32 := 0#32
  let c8_i32_133 : BitVec 32 := 8#32
  let v125 : BitVec 32 := Scalar.addi c0_i32_132 c8_i32_133
  let c1_i32_134 : BitVec 32 := 1#32
  ⟨c0_i32_132, v125, c1_i32_134⟩
def k0_off19 (k0_t17 : Fin k0_t17_loop.trips) : Fin 1 → Nat :=
  let c2048_i32_222 : BitVec 32 := 2048#32
  let c0_i32_132 : BitVec 32 := 0#32
  let c1_i32_134 : BitVec 32 := 1#32
  let arg11 : BitVec 32 := Scf.iv c0_i32_132 c1_i32_134 k0_t17
  let c16_i32 : BitVec 32 := 16#32
  let v202 : BitVec 32 := Scalar.muli arg11 c16_i32
  let v203 : BitVec 32 := Scalar.addi c2048_i32_222 v202
  let v204 : Index := Scalar.indexCast v203
  ![v204.toNat]

def k0_chk17 (v205 : IVec S16 32) (v208 : IVec S16 32) : Prop :=
  (∀ a x, ((![v208, v205] : Fin 2 → IVec S16 32) a x).toNat < S128x170.size a)
instance k0_chk17.dec : ∀ (v205 : IVec S16 32) (v208 : IVec S16 32), Decidable (k0_chk17 v205 v208) := fun v205 v208 => decidable_of_iff' _ (Iff.of_eq (k0_chk17.eq_1 v205 v208))
theorem k0_idx17_inb : ∀ (v205 : IVec S16 32) (v208 : IVec S16 32) (k0_hw17 : k0_chk17 v205 v208), ∀ a x, ((![v208, v205] : Fin 2 → IVec S16 32) a x).toNat < S128x170.size a := fun v205 v208 k0_hw17 => k0_hw17
@[reducible] def k0_t18_loop : Scf.Loop 32 :=
  let c0_i32_140 : BitVec 32 := 0#32
  let c8_i32_141 : BitVec 32 := 8#32
  let v132 : BitVec 32 := Scalar.addi c0_i32_140 c8_i32_141
  let c1_i32_142 : BitVec 32 := 1#32
  ⟨c0_i32_140, v132, c1_i32_142⟩
def k0_off20 (k0_t18 : Fin k0_t18_loop.trips) : Fin 1 → Nat :=
  let c2176_i32_222 : BitVec 32 := 2176#32
  let c0_i32_140 : BitVec 32 := 0#32
  let c1_i32_142 : BitVec 32 := 1#32
  let arg11 : BitVec 32 := Scf.iv c0_i32_140 c1_i32_142 k0_t18
  let c16_i32 : BitVec 32 := 16#32
  let v202 : BitVec 32 := Scalar.muli arg11 c16_i32
  let v203 : BitVec 32 := Scalar.addi c2176_i32_222 v202
  let v204 : Index := Scalar.indexCast v203
  ![v204.toNat]

def k0_chk18 (v205 : IVec S16 32) (v208 : IVec S16 32) : Prop :=
  (∀ a x, ((![v208, v205] : Fin 2 → IVec S16 32) a x).toNat < S128x170.size a)
instance k0_chk18.dec : ∀ (v205 : IVec S16 32) (v208 : IVec S16 32), Decidable (k0_chk18 v205 v208) := fun v205 v208 => decidable_of_iff' _ (Iff.of_eq (k0_chk18.eq_1 v205 v208))
theorem k0_idx18_inb : ∀ (v205 : IVec S16 32) (v208 : IVec S16 32) (k0_hw18 : k0_chk18 v205 v208), ∀ a x, ((![v208, v205] : Fin 2 → IVec S16 32) a x).toNat < S128x170.size a := fun v205 v208 k0_hw18 => k0_hw18
@[reducible] def k0_t19_loop : Scf.Loop 32 :=
  let c0_i32_148 : BitVec 32 := 0#32
  let c8_i32_149 : BitVec 32 := 8#32
  let v139 : BitVec 32 := Scalar.addi c0_i32_148 c8_i32_149
  let c1_i32_150 : BitVec 32 := 1#32
  ⟨c0_i32_148, v139, c1_i32_150⟩
def k0_off21 (k0_t19 : Fin k0_t19_loop.trips) : Fin 1 → Nat :=
  let c2304_i32_222 : BitVec 32 := 2304#32
  let c0_i32_148 : BitVec 32 := 0#32
  let c1_i32_150 : BitVec 32 := 1#32
  let arg11 : BitVec 32 := Scf.iv c0_i32_148 c1_i32_150 k0_t19
  let c16_i32 : BitVec 32 := 16#32
  let v202 : BitVec 32 := Scalar.muli arg11 c16_i32
  let v203 : BitVec 32 := Scalar.addi c2304_i32_222 v202
  let v204 : Index := Scalar.indexCast v203
  ![v204.toNat]

def k0_chk19 (v205 : IVec S16 32) (v208 : IVec S16 32) : Prop :=
  (∀ a x, ((![v208, v205] : Fin 2 → IVec S16 32) a x).toNat < S128x170.size a)
instance k0_chk19.dec : ∀ (v205 : IVec S16 32) (v208 : IVec S16 32), Decidable (k0_chk19 v205 v208) := fun v205 v208 => decidable_of_iff' _ (Iff.of_eq (k0_chk19.eq_1 v205 v208))
theorem k0_idx19_inb : ∀ (v205 : IVec S16 32) (v208 : IVec S16 32) (k0_hw19 : k0_chk19 v205 v208), ∀ a x, ((![v208, v205] : Fin 2 → IVec S16 32) a x).toNat < S128x170.size a := fun v205 v208 k0_hw19 => k0_hw19
@[reducible] def k0_t20_loop : Scf.Loop 32 :=
  let c0_i32_156 : BitVec 32 := 0#32
  let c8_i32_157 : BitVec 32 := 8#32
  let v146 : BitVec 32 := Scalar.addi c0_i32_156 c8_i32_157
  let c1_i32_158 : BitVec 32 := 1#32
  ⟨c0_i32_156, v146, c1_i32_158⟩
def k0_off22 (k0_t20 : Fin k0_t20_loop.trips) : Fin 1 → Nat :=
  let c2432_i32_222 : BitVec 32 := 2432#32
  let c0_i32_156 : BitVec 32 := 0#32
  let c1_i32_158 : BitVec 32 := 1#32
  let arg11 : BitVec 32 := Scf.iv c0_i32_156 c1_i32_158 k0_t20
  let c16_i32 : BitVec 32 := 16#32
  let v202 : BitVec 32 := Scalar.muli arg11 c16_i32
  let v203 : BitVec 32 := Scalar.addi c2432_i32_222 v202
  let v204 : Index := Scalar.indexCast v203
  ![v204.toNat]

def k0_chk20 (v205 : IVec S16 32) (v208 : IVec S16 32) : Prop :=
  (∀ a x, ((![v208, v205] : Fin 2 → IVec S16 32) a x).toNat < S128x170.size a)
instance k0_chk20.dec : ∀ (v205 : IVec S16 32) (v208 : IVec S16 32), Decidable (k0_chk20 v205 v208) := fun v205 v208 => decidable_of_iff' _ (Iff.of_eq (k0_chk20.eq_1 v205 v208))
theorem k0_idx20_inb : ∀ (v205 : IVec S16 32) (v208 : IVec S16 32) (k0_hw20 : k0_chk20 v205 v208), ∀ a x, ((![v208, v205] : Fin 2 → IVec S16 32) a x).toNat < S128x170.size a := fun v205 v208 k0_hw20 => k0_hw20
@[reducible] def k0_t21_loop : Scf.Loop 32 :=
  let c0_i32_164 : BitVec 32 := 0#32
  let c8_i32_165 : BitVec 32 := 8#32
  let v153 : BitVec 32 := Scalar.addi c0_i32_164 c8_i32_165
  let c1_i32_166 : BitVec 32 := 1#32
  ⟨c0_i32_164, v153, c1_i32_166⟩
def k0_off23 (k0_t21 : Fin k0_t21_loop.trips) : Fin 1 → Nat :=
  let c2560_i32_222 : BitVec 32 := 2560#32
  let c0_i32_164 : BitVec 32 := 0#32
  let c1_i32_166 : BitVec 32 := 1#32
  let arg11 : BitVec 32 := Scf.iv c0_i32_164 c1_i32_166 k0_t21
  let c16_i32 : BitVec 32 := 16#32
  let v202 : BitVec 32 := Scalar.muli arg11 c16_i32
  let v203 : BitVec 32 := Scalar.addi c2560_i32_222 v202
  let v204 : Index := Scalar.indexCast v203
  ![v204.toNat]

def k0_chk21 (v205 : IVec S16 32) (v208 : IVec S16 32) : Prop :=
  (∀ a x, ((![v208, v205] : Fin 2 → IVec S16 32) a x).toNat < S128x170.size a)
instance k0_chk21.dec : ∀ (v205 : IVec S16 32) (v208 : IVec S16 32), Decidable (k0_chk21 v205 v208) := fun v205 v208 => decidable_of_iff' _ (Iff.of_eq (k0_chk21.eq_1 v205 v208))
theorem k0_idx21_inb : ∀ (v205 : IVec S16 32) (v208 : IVec S16 32) (k0_hw21 : k0_chk21 v205 v208), ∀ a x, ((![v208, v205] : Fin 2 → IVec S16 32) a x).toNat < S128x170.size a := fun v205 v208 k0_hw21 => k0_hw21
@[reducible] def k0_t22_loop : Scf.Loop 32 :=
  let c0_i32_172 : BitVec 32 := 0#32
  let c8_i32_173 : BitVec 32 := 8#32
  let v160 : BitVec 32 := Scalar.addi c0_i32_172 c8_i32_173
  let c1_i32_174 : BitVec 32 := 1#32
  ⟨c0_i32_172, v160, c1_i32_174⟩
def k0_off24 (k0_t22 : Fin k0_t22_loop.trips) : Fin 1 → Nat :=
  let c2688_i32_222 : BitVec 32 := 2688#32
  let c0_i32_172 : BitVec 32 := 0#32
  let c1_i32_174 : BitVec 32 := 1#32
  let arg11 : BitVec 32 := Scf.iv c0_i32_172 c1_i32_174 k0_t22
  let c16_i32 : BitVec 32 := 16#32
  let v202 : BitVec 32 := Scalar.muli arg11 c16_i32
  let v203 : BitVec 32 := Scalar.addi c2688_i32_222 v202
  let v204 : Index := Scalar.indexCast v203
  ![v204.toNat]

def k0_chk22 (v205 : IVec S16 32) (v208 : IVec S16 32) : Prop :=
  (∀ a x, ((![v208, v205] : Fin 2 → IVec S16 32) a x).toNat < S128x170.size a)
instance k0_chk22.dec : ∀ (v205 : IVec S16 32) (v208 : IVec S16 32), Decidable (k0_chk22 v205 v208) := fun v205 v208 => decidable_of_iff' _ (Iff.of_eq (k0_chk22.eq_1 v205 v208))
theorem k0_idx22_inb : ∀ (v205 : IVec S16 32) (v208 : IVec S16 32) (k0_hw22 : k0_chk22 v205 v208), ∀ a x, ((![v208, v205] : Fin 2 → IVec S16 32) a x).toNat < S128x170.size a := fun v205 v208 k0_hw22 => k0_hw22
@[reducible] def k0_t23_loop : Scf.Loop 32 :=
  let c0_i32_180 : BitVec 32 := 0#32
  let c8_i32_181 : BitVec 32 := 8#32
  let v167 : BitVec 32 := Scalar.addi c0_i32_180 c8_i32_181
  let c1_i32_182 : BitVec 32 := 1#32
  ⟨c0_i32_180, v167, c1_i32_182⟩
def k0_off25 (k0_t23 : Fin k0_t23_loop.trips) : Fin 1 → Nat :=
  let c2816_i32_222 : BitVec 32 := 2816#32
  let c0_i32_180 : BitVec 32 := 0#32
  let c1_i32_182 : BitVec 32 := 1#32
  let arg11 : BitVec 32 := Scf.iv c0_i32_180 c1_i32_182 k0_t23
  let c16_i32 : BitVec 32 := 16#32
  let v202 : BitVec 32 := Scalar.muli arg11 c16_i32
  let v203 : BitVec 32 := Scalar.addi c2816_i32_222 v202
  let v204 : Index := Scalar.indexCast v203
  ![v204.toNat]

def k0_chk23 (v205 : IVec S16 32) (v208 : IVec S16 32) : Prop :=
  (∀ a x, ((![v208, v205] : Fin 2 → IVec S16 32) a x).toNat < S128x170.size a)
instance k0_chk23.dec : ∀ (v205 : IVec S16 32) (v208 : IVec S16 32), Decidable (k0_chk23 v205 v208) := fun v205 v208 => decidable_of_iff' _ (Iff.of_eq (k0_chk23.eq_1 v205 v208))
theorem k0_idx23_inb : ∀ (v205 : IVec S16 32) (v208 : IVec S16 32) (k0_hw23 : k0_chk23 v205 v208), ∀ a x, ((![v208, v205] : Fin 2 → IVec S16 32) a x).toNat < S128x170.size a := fun v205 v208 k0_hw23 => k0_hw23
@[reducible] def k0_t24_loop : Scf.Loop 32 :=
  let c0_i32_188 : BitVec 32 := 0#32
  let c8_i32_189 : BitVec 32 := 8#32
  let v174 : BitVec 32 := Scalar.addi c0_i32_188 c8_i32_189
  let c1_i32_190 : BitVec 32 := 1#32
  ⟨c0_i32_188, v174, c1_i32_190⟩
def k0_off26 (k0_t24 : Fin k0_t24_loop.trips) : Fin 1 → Nat :=
  let c2944_i32_222 : BitVec 32 := 2944#32
  let c0_i32_188 : BitVec 32 := 0#32
  let c1_i32_190 : BitVec 32 := 1#32
  let arg11 : BitVec 32 := Scf.iv c0_i32_188 c1_i32_190 k0_t24
  let c16_i32 : BitVec 32 := 16#32
  let v202 : BitVec 32 := Scalar.muli arg11 c16_i32
  let v203 : BitVec 32 := Scalar.addi c2944_i32_222 v202
  let v204 : Index := Scalar.indexCast v203
  ![v204.toNat]

def k0_chk24 (v205 : IVec S16 32) (v208 : IVec S16 32) : Prop :=
  (∀ a x, ((![v208, v205] : Fin 2 → IVec S16 32) a x).toNat < S128x170.size a)
instance k0_chk24.dec : ∀ (v205 : IVec S16 32) (v208 : IVec S16 32), Decidable (k0_chk24 v205 v208) := fun v205 v208 => decidable_of_iff' _ (Iff.of_eq (k0_chk24.eq_1 v205 v208))
theorem k0_idx24_inb : ∀ (v205 : IVec S16 32) (v208 : IVec S16 32) (k0_hw24 : k0_chk24 v205 v208), ∀ a x, ((![v208, v205] : Fin 2 → IVec S16 32) a x).toNat < S128x170.size a := fun v205 v208 k0_hw24 => k0_hw24
@[reducible] def k0_t25_loop : Scf.Loop 32 :=
  let c0_i32_196 : BitVec 32 := 0#32
  let c8_i32_197 : BitVec 32 := 8#32
  let v181 : BitVec 32 := Scalar.addi c0_i32_196 c8_i32_197
  let c1_i32_198 : BitVec 32 := 1#32
  ⟨c0_i32_196, v181, c1_i32_198⟩
def k0_off27 (k0_t25 : Fin k0_t25_loop.trips) : Fin 1 → Nat :=
  let c3072_i32_222 : BitVec 32 := 3072#32
  let c0_i32_196 : BitVec 32 := 0#32
  let c1_i32_198 : BitVec 32 := 1#32
  let arg11 : BitVec 32 := Scf.iv c0_i32_196 c1_i32_198 k0_t25
  let c16_i32 : BitVec 32 := 16#32
  let v202 : BitVec 32 := Scalar.muli arg11 c16_i32
  let v203 : BitVec 32 := Scalar.addi c3072_i32_222 v202
  let v204 : Index := Scalar.indexCast v203
  ![v204.toNat]

def k0_chk25 (v205 : IVec S16 32) (v208 : IVec S16 32) : Prop :=
  (∀ a x, ((![v208, v205] : Fin 2 → IVec S16 32) a x).toNat < S128x170.size a)
instance k0_chk25.dec : ∀ (v205 : IVec S16 32) (v208 : IVec S16 32), Decidable (k0_chk25 v205 v208) := fun v205 v208 => decidable_of_iff' _ (Iff.of_eq (k0_chk25.eq_1 v205 v208))
theorem k0_idx25_inb : ∀ (v205 : IVec S16 32) (v208 : IVec S16 32) (k0_hw25 : k0_chk25 v205 v208), ∀ a x, ((![v208, v205] : Fin 2 → IVec S16 32) a x).toNat < S128x170.size a := fun v205 v208 k0_hw25 => k0_hw25
@[reducible] def k0_t26_loop : Scf.Loop 32 :=
  let c0_i32_204 : BitVec 32 := 0#32
  let c8_i32_205 : BitVec 32 := 8#32
  let v188 : BitVec 32 := Scalar.addi c0_i32_204 c8_i32_205
  let c1_i32_206 : BitVec 32 := 1#32
  ⟨c0_i32_204, v188, c1_i32_206⟩
def k0_off28 (k0_t26 : Fin k0_t26_loop.trips) : Fin 1 → Nat :=
  let c3200_i32_222 : BitVec 32 := 3200#32
  let c0_i32_204 : BitVec 32 := 0#32
  let c1_i32_206 : BitVec 32 := 1#32
  let arg11 : BitVec 32 := Scf.iv c0_i32_204 c1_i32_206 k0_t26
  let c16_i32 : BitVec 32 := 16#32
  let v202 : BitVec 32 := Scalar.muli arg11 c16_i32
  let v203 : BitVec 32 := Scalar.addi c3200_i32_222 v202
  let v204 : Index := Scalar.indexCast v203
  ![v204.toNat]

def k0_chk26 (v205 : IVec S16 32) (v208 : IVec S16 32) : Prop :=
  (∀ a x, ((![v208, v205] : Fin 2 → IVec S16 32) a x).toNat < S128x170.size a)
instance k0_chk26.dec : ∀ (v205 : IVec S16 32) (v208 : IVec S16 32), Decidable (k0_chk26 v205 v208) := fun v205 v208 => decidable_of_iff' _ (Iff.of_eq (k0_chk26.eq_1 v205 v208))
theorem k0_idx26_inb : ∀ (v205 : IVec S16 32) (v208 : IVec S16 32) (k0_hw26 : k0_chk26 v205 v208), ∀ a x, ((![v208, v205] : Fin 2 → IVec S16 32) a x).toNat < S128x170.size a := fun v205 v208 k0_hw26 => k0_hw26
@[reducible] def k0_t27_loop : Scf.Loop 32 :=
  let c0_i32_212 : BitVec 32 := 0#32
  let c8_i32_213 : BitVec 32 := 8#32
  let v195 : BitVec 32 := Scalar.addi c0_i32_212 c8_i32_213
  let c1_i32_214 : BitVec 32 := 1#32
  ⟨c0_i32_212, v195, c1_i32_214⟩
def k0_off29 (k0_t27 : Fin k0_t27_loop.trips) : Fin 1 → Nat :=
  let c3328_i32_222 : BitVec 32 := 3328#32
  let c0_i32_212 : BitVec 32 := 0#32
  let c1_i32_214 : BitVec 32 := 1#32
  let arg11 : BitVec 32 := Scf.iv c0_i32_212 c1_i32_214 k0_t27
  let c16_i32 : BitVec 32 := 16#32
  let v202 : BitVec 32 := Scalar.muli arg11 c16_i32
  let v203 : BitVec 32 := Scalar.addi c3328_i32_222 v202
  let v204 : Index := Scalar.indexCast v203
  ![v204.toNat]

def k0_chk27 (v205 : IVec S16 32) (v208 : IVec S16 32) : Prop :=
  (∀ a x, ((![v208, v205] : Fin 2 → IVec S16 32) a x).toNat < S128x170.size a)
instance k0_chk27.dec : ∀ (v205 : IVec S16 32) (v208 : IVec S16 32), Decidable (k0_chk27 v205 v208) := fun v205 v208 => decidable_of_iff' _ (Iff.of_eq (k0_chk27.eq_1 v205 v208))
theorem k0_idx27_inb : ∀ (v205 : IVec S16 32) (v208 : IVec S16 32) (k0_hw27 : k0_chk27 v205 v208), ∀ a x, ((![v208, v205] : Fin 2 → IVec S16 32) a x).toNat < S128x170.size a := fun v205 v208 k0_hw27 => k0_hw27
@[reducible] def k0_t28_loop : Scf.Loop 32 :=
  let c0_i32_218 : BitVec 32 := 0#32
  let c8_i32_219 : BitVec 32 := 8#32
  let v199 : BitVec 32 := Scalar.addi c0_i32_218 c8_i32_219
  let c1_i32_220 : BitVec 32 := 1#32
  ⟨c0_i32_218, v199, c1_i32_220⟩
def k0_off30 (k0_t28 : Fin k0_t28_loop.trips) : Fin 1 → Nat :=
  let c3456_i32_222 : BitVec 32 := 3456#32
  let c0_i32_218 : BitVec 32 := 0#32
  let c1_i32_220 : BitVec 32 := 1#32
  let arg11 : BitVec 32 := Scf.iv c0_i32_218 c1_i32_220 k0_t28
  let c16_i32 : BitVec 32 := 16#32
  let v202 : BitVec 32 := Scalar.muli arg11 c16_i32
  let v203 : BitVec 32 := Scalar.addi c3456_i32_222 v202
  let v204 : Index := Scalar.indexCast v203
  ![v204.toNat]

def k0_chk28 (v205 : IVec S16 32) (v208 : IVec S16 32) : Prop :=
  (∀ a x, ((![v208, v205] : Fin 2 → IVec S16 32) a x).toNat < S128x170.size a)
instance k0_chk28.dec : ∀ (v205 : IVec S16 32) (v208 : IVec S16 32), Decidable (k0_chk28 v205 v208) := fun v205 v208 => decidable_of_iff' _ (Iff.of_eq (k0_chk28.eq_1 v205 v208))
theorem k0_idx28_inb : ∀ (v205 : IVec S16 32) (v208 : IVec S16 32) (k0_hw28 : k0_chk28 v205 v208), ∀ a x, ((![v208, v205] : Fin 2 → IVec S16 32) a x).toNat < S128x170.size a := fun v205 v208 k0_hw28 => k0_hw28
def k0_off31 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_222_r1 : BitVec 32 := 0#32
  ![v1.toNat, 0]
abbrev grid1 : Pipeline.Grid := ⟨1, ![18], ![false]⟩

def k1_cond2 (i : grid1.Coords) : BitVec 1 :=
  let arg0 : BitVec 32 := BitVec.ofNat 32 (i 0).val
  let c17_i32 : BitVec 32 := 17#32
  let v76 : BitVec 1 := Scalar.cmpi .eq arg0 c17_i32
  let v77 : BitVec 32 := Scalar.extui v76
  let c0_i32_38 : BitVec 32 := 0#32
  let v78 : BitVec 1 := Scalar.cmpi .ne v77 c0_i32_38
  v78

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c4_i32 : BitVec 32 := 4#32
  let v0 : BitVec 32 := Scalar.muli arg0 c4_i32
  let c56_i32 : BitVec 32 := 56#32
  let v1 : BitVec 32 := Scalar.addi c56_i32 v0
  let c0_i32 : BitVec 32 := 0#32
  let v2 : BitVec 32 := Scalar.addi v1 c0_i32
  let c0_i32_0 : BitVec 32 := 0#32
  let c0_i32_1 : BitVec 32 := 0#32
  ![v2.toNat, c0_i32_0.toNat]

def cc1_transform_2 (i : grid1.Coords) : Fin 2 → Nat :=
  let arg0 : BitVec 32 := BitVec.ofNat 32 (i 0).val
  let c4_i32 : BitVec 32 := 4#32
  let v0 : BitVec 32 := Scalar.muli arg0 c4_i32
  let c56_i32 : BitVec 32 := 56#32
  let v1 : BitVec 32 := Scalar.addi c56_i32 v0
  let c1_i32 : BitVec 32 := 1#32
  let v2 : BitVec 32 := Scalar.addi v1 c1_i32
  let c0_i32 : BitVec 32 := 0#32
  let c0_i32_0 : BitVec 32 := 0#32
  ![v2.toNat, c0_i32.toNat]

def cc1_transform_3 (i : grid1.Coords) : Fin 2 → Nat :=
  let arg0 : BitVec 32 := BitVec.ofNat 32 (i 0).val
  let c4_i32 : BitVec 32 := 4#32
  let v0 : BitVec 32 := Scalar.muli arg0 c4_i32
  let c56_i32 : BitVec 32 := 56#32
  let v1 : BitVec 32 := Scalar.addi c56_i32 v0
  let c2_i32 : BitVec 32 := 2#32
  let v2 : BitVec 32 := Scalar.addi v1 c2_i32
  let c0_i32 : BitVec 32 := 0#32
  let c0_i32_0 : BitVec 32 := 0#32
  ![v2.toNat, c0_i32.toNat]

def cc1_transform_4 (i : grid1.Coords) : Fin 2 → Nat :=
  let arg0 : BitVec 32 := BitVec.ofNat 32 (i 0).val
  let c4_i32 : BitVec 32 := 4#32
  let v0 : BitVec 32 := Scalar.muli arg0 c4_i32
  let c56_i32 : BitVec 32 := 56#32
  let v1 : BitVec 32 := Scalar.addi c56_i32 v0
  let c3_i32 : BitVec 32 := 3#32
  let v2 : BitVec 32 := Scalar.addi v1 c3_i32
  let c0_i32 : BitVec 32 := 0#32
  let c0_i32_0 : BitVec 32 := 0#32
  ![v2.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x4x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x170 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x170 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x170 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x170 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .smem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  iota_S16_d0_w32_scVector : S16.Iotas .scVector 32 [0]
  h_S16 : 0 < S16.numel
  h_S128x170 : 0 < S128x170.numel
  inb_S16_S16_0 : ∀ a, (![0] : Fin 1 → Nat) a + S16.size a ≤ S16.size a
  squeezes_S1x16_S16 : S1x16.Squeezes S16
  reducesTo_S32x16_S_d0_1 : S32x16.ReducesTo [0, 1] S_
  h_S_ : 0 < S_.numel
  slices_S262144_S147456_114688 : S262144.Slices ![114688] S147456
  shapeCasts_S147456_S18x4x2048 : S147456.ShapeCasts S18x4x2048
  inb_S8x170_S8x170_0_0 : ∀ a, (![0, 0] : Fin 2 → Nat) a + S8x170.size a ≤ S8x170.size a
  h_S8x170 : 0 < S8x170.numel
  shapeCasts_S8x170_S8x170 : S8x170.ShapeCasts S8x170
  iota_S2048x170_d1_w32 : S2048x170.Iotas .tc 32 [1]
  inb_S2048x170_S2048x170_0_0 : ∀ a, (![0, 0] : Fin 2 → Nat) a + S2048x170.size a ≤ S2048x170.size a
  h_S2048x170 : 0 < S2048x170.numel
  inb_S1x4x2048_S1x1x2048_0_0_0 : ∀ a, (![0, 0, 0] : Fin 3 → Nat) a + S1x1x2048.size a ≤ S1x4x2048.size a
  h_S1x1x2048 : 0 < S1x1x2048.numel
  shapeCasts_S1x1x2048_S2048 : S1x1x2048.ShapeCasts S2048
  shapeCasts_S2048_S2048x1 : S2048.ShapeCasts S2048x1
  broadcasts_S2048x1_S2048x170 : S2048x1.Broadcasts S2048x170
  shapeCasts_S2048x170_S256x8x170 : S2048x170.ShapeCasts S256x8x170
  reduces_S256x8x170_S8x170 : S256x8x170.Reduces [0] S8x170
  inb_S1x4x2048_S1x1x2048_0_1_0 : ∀ a, (![0, 1, 0] : Fin 3 → Nat) a + S1x1x2048.size a ≤ S1x4x2048.size a
  inb_S1x4x2048_S1x1x2048_0_2_0 : ∀ a, (![0, 2, 0] : Fin 3 → Nat) a + S1x1x2048.size a ≤ S1x4x2048.size a
  inb_S1x4x2048_S1x1x2048_0_3_0 : ∀ a, (![0, 3, 0] : Fin 3 → Nat) a + S1x1x2048.size a ≤ S1x4x2048.size a
  shapeCasts_S8x170_S1x8x170 : S8x170.ShapeCasts S1x8x170
  reduces_S1x8x170_S1 : S1x8x170.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  numel1_S1x1 : S1x1.numel = 1
  shapeCasts_S1x1_S_ : S1x1.ShapeCasts S_
  hcc0_scratch4 : 0 + S_.numel ≤ 15
  hcc0_scratch5 : 1 + S_.numel ≤ 15
  hcc0_scoped0 : 2 + S_.numel ≤ 15
  hcc0_scoped1 : 3 + S_.numel ≤ 15
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S3584.size a ≤ S262144.size a
  k0_off2_inb : ∀ i : grid0.Coords, ∀ (r : Fin 28), ∀ a, (k0_off2 i (BitVec.ofNat 32 (128 * r.val))) a + S128x170.size a ≤ S262144x170.size a
  k0_t1_ok : k0_t1_loop.OK
  k0_off3_inb : ∀ k0_t1 : Fin k0_t1_loop.trips, ∀ a, (k0_off3 k0_t1) a + S16.size a ≤ S3584.size a
  k0_t2_ok : k0_t2_loop.OK
  k0_off4_inb : ∀ k0_t2 : Fin k0_t2_loop.trips, ∀ a, (k0_off4 k0_t2) a + S16.size a ≤ S3584.size a
  k0_t3_ok : k0_t3_loop.OK
  k0_off5_inb : ∀ k0_t3 : Fin k0_t3_loop.trips, ∀ a, (k0_off5 k0_t3) a + S16.size a ≤ S3584.size a
  k0_t4_ok : k0_t4_loop.OK
  k0_off6_inb : ∀ k0_t4 : Fin k0_t4_loop.trips, ∀ a, (k0_off6 k0_t4) a + S16.size a ≤ S3584.size a
  k0_t5_ok : k0_t5_loop.OK
  k0_off7_inb : ∀ k0_t5 : Fin k0_t5_loop.trips, ∀ a, (k0_off7 k0_t5) a + S16.size a ≤ S3584.size a
  k0_t6_ok : k0_t6_loop.OK
  k0_off8_inb : ∀ k0_t6 : Fin k0_t6_loop.trips, ∀ a, (k0_off8 k0_t6) a + S16.size a ≤ S3584.size a
  k0_t7_ok : k0_t7_loop.OK
  k0_off9_inb : ∀ k0_t7 : Fin k0_t7_loop.trips, ∀ a, (k0_off9 k0_t7) a + S16.size a ≤ S3584.size a
  k0_t8_ok : k0_t8_loop.OK
  k0_off10_inb : ∀ k0_t8 : Fin k0_t8_loop.trips, ∀ a, (k0_off10 k0_t8) a + S16.size a ≤ S3584.size a
  k0_t9_ok : k0_t9_loop.OK
  k0_off11_inb : ∀ k0_t9 : Fin k0_t9_loop.trips, ∀ a, (k0_off11 k0_t9) a + S16.size a ≤ S3584.size a
  k0_t10_ok : k0_t10_loop.OK
  k0_off12_inb : ∀ k0_t10 : Fin k0_t10_loop.trips, ∀ a, (k0_off12 k0_t10) a + S16.size a ≤ S3584.size a
  k0_t11_ok : k0_t11_loop.OK
  k0_off13_inb : ∀ k0_t11 : Fin k0_t11_loop.trips, ∀ a, (k0_off13 k0_t11) a + S16.size a ≤ S3584.size a
  k0_t12_ok : k0_t12_loop.OK
  k0_off14_inb : ∀ k0_t12 : Fin k0_t12_loop.trips, ∀ a, (k0_off14 k0_t12) a + S16.size a ≤ S3584.size a
  k0_t13_ok : k0_t13_loop.OK
  k0_off15_inb : ∀ k0_t13 : Fin k0_t13_loop.trips, ∀ a, (k0_off15 k0_t13) a + S16.size a ≤ S3584.size a
  k0_t14_ok : k0_t14_loop.OK
  k0_off16_inb : ∀ k0_t14 : Fin k0_t14_loop.trips, ∀ a, (k0_off16 k0_t14) a + S16.size a ≤ S3584.size a
  k0_t15_ok : k0_t15_loop.OK
  k0_off17_inb : ∀ k0_t15 : Fin k0_t15_loop.trips, ∀ a, (k0_off17 k0_t15) a + S16.size a ≤ S3584.size a
  k0_t16_ok : k0_t16_loop.OK
  k0_off18_inb : ∀ k0_t16 : Fin k0_t16_loop.trips, ∀ a, (k0_off18 k0_t16) a + S16.size a ≤ S3584.size a
  k0_t17_ok : k0_t17_loop.OK
  k0_off19_inb : ∀ k0_t17 : Fin k0_t17_loop.trips, ∀ a, (k0_off19 k0_t17) a + S16.size a ≤ S3584.size a
  k0_t18_ok : k0_t18_loop.OK
  k0_off20_inb : ∀ k0_t18 : Fin k0_t18_loop.trips, ∀ a, (k0_off20 k0_t18) a + S16.size a ≤ S3584.size a
  k0_t19_ok : k0_t19_loop.OK
  k0_off21_inb : ∀ k0_t19 : Fin k0_t19_loop.trips, ∀ a, (k0_off21 k0_t19) a + S16.size a ≤ S3584.size a
  k0_t20_ok : k0_t20_loop.OK
  k0_off22_inb : ∀ k0_t20 : Fin k0_t20_loop.trips, ∀ a, (k0_off22 k0_t20) a + S16.size a ≤ S3584.size a
  k0_t21_ok : k0_t21_loop.OK
  k0_off23_inb : ∀ k0_t21 : Fin k0_t21_loop.trips, ∀ a, (k0_off23 k0_t21) a + S16.size a ≤ S3584.size a
  k0_t22_ok : k0_t22_loop.OK
  k0_off24_inb : ∀ k0_t22 : Fin k0_t22_loop.trips, ∀ a, (k0_off24 k0_t22) a + S16.size a ≤ S3584.size a
  k0_t23_ok : k0_t23_loop.OK
  k0_off25_inb : ∀ k0_t23 : Fin k0_t23_loop.trips, ∀ a, (k0_off25 k0_t23) a + S16.size a ≤ S3584.size a
  k0_t24_ok : k0_t24_loop.OK
  k0_off26_inb : ∀ k0_t24 : Fin k0_t24_loop.trips, ∀ a, (k0_off26 k0_t24) a + S16.size a ≤ S3584.size a
  k0_t25_ok : k0_t25_loop.OK
  k0_off27_inb : ∀ k0_t25 : Fin k0_t25_loop.trips, ∀ a, (k0_off27 k0_t25) a + S16.size a ≤ S3584.size a
  k0_t26_ok : k0_t26_loop.OK
  k0_off28_inb : ∀ k0_t26 : Fin k0_t26_loop.trips, ∀ a, (k0_off28 k0_t26) a + S16.size a ≤ S3584.size a
  k0_t27_ok : k0_t27_loop.OK
  k0_off29_inb : ∀ k0_t27 : Fin k0_t27_loop.trips, ∀ a, (k0_off29 k0_t27) a + S16.size a ≤ S3584.size a
  k0_t28_ok : k0_t28_loop.OK
  k0_off30_inb : ∀ k0_t28 : Fin k0_t28_loop.trips, ∀ a, (k0_off30 k0_t28) a + S16.size a ≤ S3584.size a
  k0_off31_inb : ∀ i : grid0.Coords, ∀ a, (k0_off31 i) a + S1x16.size a ≤ S32x16.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x2048.size a ≤ S18x4x2048.size a
  hwx1_0 : ∀ i : grid1.Coords, EltTy.bits .i32 = 32 ∨ (Rect.block (s := S18x4x2048) S1x4x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x170.size a ≤ S262144x170.size a
  hwx1_1 : ∀ i : grid1.Coords, EltTy.bits .f32 = 32 ∨ (Rect.block (s := S262144x170) S2048x170.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x170.size a ≤ S262144x170.size a
  hwx1_2 : ∀ i : grid1.Coords, EltTy.bits .f32 = 32 ∨ (Rect.block (s := S262144x170) S2048x170.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x170.size a ≤ S262144x170.size a
  hwx1_3 : ∀ i : grid1.Coords, EltTy.bits .f32 = 32 ∨ (Rect.block (s := S262144x170) S2048x170.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x170.size a ≤ S262144x170.size a
  hwx1_4 : ∀ i : grid1.Coords, EltTy.bits .f32 = 32 ∨ (Rect.block (s := S262144x170) S2048x170.size (cc1_transform_4 i) (hinb1_4 i)).WholeWords (EltTy.packing .f32)
  hstage1_5 : ∀ j, (stage1_5 j).IsWhole
  nbuf1_5 : grid1.bufCount reads1_5 false = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1

abbrev win1_0 : Pipeline.Window sig grid1 :=
  Pipeline.Window.ofSpec (Memref.whole main_v3) S1x4x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2048x170.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2048x170.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S2048x170.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S2048x170.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x1.size cc1_transform_5 reads1_5 true false 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S262144x170 : Shape := ⟨2, ![262144, 170]⟩
abbrev S262144 : Shape := ⟨1, ![262144]⟩
abbrev S_ : Shape := ⟨0, ![]⟩
abbrev S262144x1 : Shape := ⟨2, ![262144, 1]⟩
abbrev S262144x1x1 : Shape := ⟨3, ![262144, 1, 1]⟩
abbrev S1 : Shape := ⟨1, ![1]⟩
abbrev S1x1x1 : Shape := ⟨3, ![1, 1, 1]⟩

abbrev nBuf : Space → Nat
  | .hbm => 53
  | .vmem => 0
  | .smem => 0
  | _ => 0

abbrev bufTy : (tb : Table) → Fin (tcTables nBuf tb) → BufTy
  | .hbm, ⟨0, _⟩ => ⟨S262144x170, .f32⟩
  | .hbm, ⟨1, _⟩ => ⟨S262144, .i32⟩
  | .hbm, ⟨2, _⟩ => ⟨S_, .i32⟩
  | .hbm, ⟨3, _⟩ => ⟨S262144, .i32⟩
  | .hbm, ⟨4, _⟩ => ⟨S262144, .i1⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S262144, .i32⟩
  | .hbm, ⟨9, _⟩ => ⟨S262144, .i32⟩
  | .hbm, ⟨10, _⟩ => ⟨S_, .i32⟩
  | .hbm, ⟨11, _⟩ => ⟨S262144, .i32⟩
  | .hbm, ⟨12, _⟩ => ⟨S262144, .i32⟩
  | .hbm, ⟨13, _⟩ => ⟨S262144x1, .i32⟩
  | .hbm, ⟨14, _⟩ => ⟨S_, .i32⟩
  | .hbm, ⟨15, _⟩ => ⟨S262144x1, .i32⟩
  | .hbm, ⟨16, _⟩ => ⟨S262144x1, .i1⟩
  | .hbm, ⟨17, _⟩ => ⟨S_, .i32⟩
  | .hbm, ⟨18, _⟩ => ⟨S262144x1, .i32⟩
  | .hbm, ⟨19, _⟩ => ⟨S262144x1, .i32⟩
  | .hbm, ⟨20, _⟩ => ⟨S262144x1, .i32⟩
  | .hbm, ⟨21, _⟩ => ⟨S262144x1x1, .i32⟩
  | .hbm, ⟨22, _⟩ => ⟨S1, .i32⟩
  | .hbm, ⟨23, _⟩ => ⟨S_, .i32⟩
  | .hbm, ⟨24, _⟩ => ⟨S262144x1x1, .i32⟩
  | .hbm, ⟨25, _⟩ => ⟨S262144x1x1, .i1⟩
  | .hbm, ⟨26, _⟩ => ⟨S1x1x1, .i32⟩
  | .hbm, ⟨27, _⟩ => ⟨S262144x1x1, .i32⟩
  | .hbm, ⟨28, _⟩ => ⟨S262144x1x1, .i1⟩
  | .hbm, ⟨29, _⟩ => ⟨S262144x1x1, .i1⟩
  | .hbm, ⟨30, _⟩ => ⟨S_, .i1⟩
  | .hbm, ⟨31, _⟩ => ⟨S262144x1, .i1⟩
  | .hbm, ⟨32, _⟩ => ⟨S262144x1, .f32⟩
  | .hbm, ⟨33, _⟩ => ⟨S_, .f32⟩
  | .hbm, ⟨34, _⟩ => ⟨S262144x1, .f32⟩
  | .hbm, ⟨35, _⟩ => ⟨S262144x1, .f32⟩
  | .hbm, ⟨36, _⟩ => ⟨S262144, .f32⟩
  | .hbm, ⟨37, _⟩ => ⟨S_, .f32⟩
  | .hbm, ⟨38, _⟩ => ⟨S262144, .f32⟩
  | .hbm, ⟨39, _⟩ => ⟨S262144, .f32⟩
  | .hbm, ⟨40, _⟩ => ⟨S262144, .f32⟩
  | .hbm, ⟨41, _⟩ => ⟨S_, .f32⟩
  | .hbm, ⟨42, _⟩ => ⟨S_, .f32⟩
  | .hbm, ⟨43, _⟩ => ⟨S262144, .f32⟩
  | .hbm, ⟨44, _⟩ => ⟨S262144, .f32⟩
  | .hbm, ⟨45, _⟩ => ⟨S262144, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S262144x170, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_c_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_cst : Ref sig .tc := ⟨.hbm, 33, rfl⟩
abbrev main_call1_v14 : Ref sig .tc := ⟨.hbm, 34, rfl⟩
abbrev main_v4 : Ref sig .tc := ⟨.hbm, 35, rfl⟩
abbrev main_v5 : Ref sig .tc := ⟨.hbm, 36, rfl⟩
abbrev main_cst : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_cst_2 : Ref sig .tc := ⟨.hbm, 41, rfl⟩
abbrev main_call2_v0 : Ref sig .tc := ⟨.hbm, 42, rfl⟩
abbrev main_call2_v1 : Ref sig .tc := ⟨.hbm, 43, rfl⟩
abbrev main_v9 : Ref sig .tc := ⟨.hbm, 44, rfl⟩
abbrev main_v10 : Ref sig .tc := ⟨.hbm, 45, rfl⟩
abbrev main_cst_3 : Ref sig .tc := ⟨.hbm, 46, rfl⟩
abbrev main_v11 : Ref sig .tc := ⟨.hbm, 47, rfl⟩
abbrev main_cst_4 : Ref sig .tc := ⟨.hbm, 48, rfl⟩
abbrev main_v12 : Ref sig .tc := ⟨.hbm, 49, rfl⟩
abbrev main_cst_5 : Ref sig .tc := ⟨.hbm, 50, rfl⟩
abbrev main_v13 : Ref sig .tc := ⟨.hbm, 51, rfl⟩
abbrev main_v14 : Ref sig .tc := ⟨.hbm, 52, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  h_S_ : 0 < S_.numel
  shapeCasts_S262144x1_S262144 : S262144x1.ShapeCasts S262144
  reducesTo_S262144_S_d0 : S262144.ReducesTo [0] S_
  gather_S262144x170_S262144x1x1_S262144x1_n_1_0_0_1_2_11_wf : GatherDims.WF S262144x170 S262144x1x1 S262144x1 [] [1] [0] [1] [0] 2 ![1, 1]

variable [Facts₀]

def gather_S262144x170_S262144x1x1_S262144x1_n_1_0_0_1_2_11 : GatherDims S262144x170 S262144x1x1 S262144x1 where
  offsetDims := []
  collapsedSliceDims := [1]
  operandBatchingDims := [0]
  startIndicesBatchingDims := [0]
  startIndexMap := [1]
  indexVectorDim := 2
  sliceSizes := ![1, 1]
  wf := gather_S262144x170_S262144x1x1_S262144x1_n_1_0_0_1_2_11_wf

class Facts : Prop extends Facts₀ where

variable [Facts]
-- ==== Proof.Spec.lean ====
/-
  The arithmetic of the kernel, free of any program text: what one vector subcore accumulates over its 3584 rows, what the
  TensorCore's two 8×170 accumulators hold after a number of grid points, and the scalar the TensorCore part writes.
  Everything is stated over an arbitrary float instance `F`, with the operations in the order the kernel applies them,
  so that the same definitions are read word for word (instance `Bits`) and as extended reals (instance `Ideal`).

  Rows: the table `x` has 262144 rows of 170 entries, `t r` names a column for row `r`; the entry of interest in row `r`
  is `x[r, t r]` (`pick`). The first 114688 rows go to 32 vector subcores, 3584 rows each, sixteen rows at a time
  (one row per lane): worker `w` owns rows `3584·w … 3584·w + 3583`. The remaining 147456 rows go to the TensorCore in
  18 grid points of four blocks of 2048 rows.
-/
import Idealize.ShloMosaic.PureOps
import Idealize.ShloMosaic.Lib.ValueIdx

noncomputable section

namespace Cert.Spec

open Idealize.ShloMosaic Idealize.ShloMosaic.ValueIdx

variable {F : FTy → Type} [FloatOps F]

abbrev SX : Shape := ⟨2, ![262144, 170]⟩
abbrev ST : Shape := ⟨1, ![262144]⟩
abbrev SL : Shape := ⟨1, ![16]⟩
abbrev SO : Shape := ⟨2, ![32, 16]⟩
abbrev SA : Shape := ⟨2, ![8, 170]⟩
abbrev SB : Shape := ⟨2, ![2048, 170]⟩
abbrev SBT : Shape := ⟨3, ![1, 1, 2048]⟩
abbrev SB1 : Shape := ⟨1, ![2048]⟩
abbrev SBc : Shape := ⟨2, ![2048, 1]⟩
abbrev SG : Shape := ⟨3, ![256, 8, 170]⟩
abbrev SA1 : Shape := ⟨3, ![1, 8, 170]⟩
abbrev S1 : Shape := ⟨1, ![1]⟩
abbrev S111 : Shape := ⟨3, ![1, 1, 1]⟩

theorem iota_SB : SB.Iotas .tc 32 [1] := by decide
theorem sc_SBT_SB1 : SBT.ShapeCasts SB1 := by decide
theorem sc_SB1_SBc : SB1.ShapeCasts SBc := by decide
theorem bc_SBc_SB : SBc.Broadcasts SB := by decide
theorem sc_SB_SG : SB.ShapeCasts SG := by decide
theorem red_SG_SA : SG.Reduces [0] SA := by decide
theorem sc_SA_SA : SA.ShapeCasts SA := by decide
theorem sc_SA_SA1 : SA.ShapeCasts SA1 := by decide
theorem red_SA1_S1 : SA1.Reduces [1, 2] S1 := by decide
theorem sc_S1_S111 : S1.ShapeCasts S111 := by decide
theorem inpos_S111 : ∀ a, (![0, 0, 0] : Fin 3 → Nat) a < S111.size a := by decide
abbrev S0 : Shape := ⟨0, ![]⟩
abbrev S11 : Shape := ⟨2, ![1, 1]⟩
theorem redTo_SO_S0 : SO.ReducesTo [0, 1] S0 := by decide
theorem h_S0 : 0 < S0.numel := by decide
theorem sc_S11_S0 : S11.ShapeCasts S0 := by decide

/-! ## The entry a row contributes -/

/-- The column `t` names for row `r` (a word that names no column read as column 0; under the certificate's
    precondition every word names one). -/
def col (t : IVec ST 32) (r : Fin 262144) : Fin 170 :=
  if h : (t (ix1 r)).toNat < 170 then ⟨(t (ix1 r)).toNat, h⟩ else ⟨0, by decide⟩

/-- Row `r`'s entry at the column `t` names for it. -/
def pick (x : FVec F SX .f32) (t : IVec ST 32) (r : Fin 262144) : F .f32 := x (ix2 r (col t r))

/-- Row number `n`, wrapped into the table (the arithmetic below never wraps). -/
def rowOf (n : ℕ) : Fin 262144 := ⟨n % 262144, Nat.mod_lt _ (by decide)⟩

/-! ## One vector subcore -/

/-- The picked entries of the sixteen rows `r0 … r0 + 15`, one per lane. -/
def lanes16 (x : FVec F SX .f32) (t : IVec ST 32) (r0 : ℕ) : FVec F SL .f32 := fun l => pick x t (rowOf (r0 + (l 0).val))

/-- One step of the accumulator: `a + (1 − v)·(1 − v)`, lane by lane. -/
def sqStep (a v : FVec F SL .f32) : FVec F SL .f32 :=
  addf a (mulf (subf (broadcast SL (Scalar.ofBits .f32 0x3F800000#32)) v) (subf (broadcast SL (Scalar.ofBits .f32 0x3F800000#32)) v))

/-- The accumulator of the worker whose rows start at `base`, after `n` groups of sixteen rows. -/
def tileAcc (x : FVec F SX .f32) (t : IVec ST 32) (base : ℕ) : ℕ → FVec F SL .f32
  | 0 => broadcast SL (Scalar.ofBits .f32 0x00000000#32)
  | n + 1 => sqStep (tileAcc x t base n) (lanes16 x t (base + 16 * n))

/-- The 32×16 array of partial sums: row `w` is worker `w`'s accumulator after all of its 224 groups. -/
def partials (x : FVec F SX .f32) (t : IVec ST 32) : FVec F SO .f32 := fun j => tileAcc x t (3584 * (j 0).val) 224 (ix1 (j 1))

/-! ## The TensorCore part -/

/-- Block number `b` of 2048 rows of `x`. -/
def xBlk (x : FVec F SX .f32) (b : ℕ) : FVec F SB .f32 := fun j => x (ix2 (rowOf (2048 * b + (j 0).val)) (j 1))

/-- The 2048 column words of stream `k` of grid point `i`: rows `114688 + 8192·i + 2048·k + …`. -/
def tBlk (t : IVec ST 32) (i k : ℕ) : IVec SBT 32 := fun j => t (ix1 (rowOf (114688 + 8192 * i + 2048 * k + (j 2).val)))

/-- A block masked to the named column: entry `[r, c]` kept where `c` is the column named for row `r`, zero elsewhere. -/
def masked (X : FVec F SB .f32) (T : IVec SBT 32) : FVec F SB .f32 :=
  select (cmpi .eq (iota .tc SB 32 [1] iota_SB) (broadcastTo SB (shapeCast SBc (shapeCast SB1 T sc_SBT_SB1) sc_SB1_SBc) bc_SBc_SB))
    X (broadcast SB (Scalar.ofBits .f32 0x00000000#32))

/-- 2048 rows folded to 8: row `a` of the result is the sum of rows `a, a + 8, a + 16, …`. -/
def fold8 (Y : FVec F SB .f32) : FVec F SA .f32 :=
  multiReduction .add [0] SA (shapeCast SG Y sc_SB_SG) 0x00000000#32 red_SG_SA (.inl rfl) rfl

def zeroA : FVec F SA .f32 := broadcast SA (Scalar.ofBits .f32 0x00000000#32)

/-- What grid point `i` adds to the first accumulator: the four streams' masked blocks, folded. -/
def inc1 (x : FVec F SX .f32) (t : IVec ST 32) (i : ℕ) : FVec F SA .f32 :=
  addf (addf (addf (addf zeroA (fold8 (masked (xBlk x (56 + 4 * i)) (tBlk t i 0)))) (fold8 (masked (xBlk x (56 + 4 * i + 1)) (tBlk t i 1))))
    (fold8 (masked (xBlk x (56 + 4 * i + 2)) (tBlk t i 2)))) (fold8 (masked (xBlk x (56 + 4 * i + 3)) (tBlk t i 3)))

/-- What grid point `i` adds to the second accumulator: the masked blocks times the blocks, folded. -/
def inc2 (x : FVec F SX .f32) (t : IVec ST 32) (i : ℕ) : FVec F SA .f32 :=
  addf (addf (addf (addf zeroA (fold8 (mulf (masked (xBlk x (56 + 4 * i)) (tBlk t i 0)) (xBlk x (56 + 4 * i)))))
    (fold8 (mulf (masked (xBlk x (56 + 4 * i + 1)) (tBlk t i 1)) (xBlk x (56 + 4 * i + 1)))))
    (fold8 (mulf (masked (xBlk x (56 + 4 * i + 2)) (tBlk t i 2)) (xBlk x (56 + 4 * i + 2)))))
    (fold8 (mulf (masked (xBlk x (56 + 4 * i + 3)) (tBlk t i 3)) (xBlk x (56 + 4 * i + 3))))

/-- The two accumulators after grid points `0 … n − 1` (both start at zero at point 0). -/
def acc1 (x : FVec F SX .f32) (t : IVec ST 32) : ℕ → FVec F SA .f32
  | 0 => zeroA
  | n + 1 => addf (acc1 x t n) (inc1 x t n)
def acc2 (x : FVec F SX .f32) (t : IVec ST 32) : ℕ → FVec F SA .f32
  | 0 => zeroA
  | n + 1 => addf (acc2 x t n) (inc2 x t n)

/-- All 8×170 entries of an accumulator added up. -/
def sumA (s : FVec F SA .f32) : F .f32 :=
  extractAt ![0, 0, 0] (shapeCast S111 (multiReduction .add [1, 2] S1 (shapeCast SA1 s sc_SA_SA1) 0x00000000#32 red_SA1_S1 (.inl rfl) rfl) sc_S1_S111) inpos_S111

/-- The scalar the last grid point writes: `147456 − 2·Σ s1 + Σ s2`. -/
def tcOut (x : FVec F SX .f32) (t : IVec ST 32) : F .f32 :=
  Scalar.addf (Scalar.subf (Scalar.ofBits .f32 0x48100000#32) (Scalar.mulf (Scalar.ofBits .f32 0x40000000#32) (sumA (acc1 x t 18)))) (sumA (acc2 x t 18))

/-! ## The host's last operations -/

/-- What @main makes of the partial sums `p` and of the TensorCore part's scalar `s` (a 1×1 array): all of `p` added up,
    plus `s`, divided by 262144. -/
def kFinal (p : FVec F SO .f32) (s : FVec F S11 .f32) : FVec F S0 .f32 :=
  Host.divf (addf (Host.reduceAdd p (constant S0 .f32 0x00000000#32) redTo_SO_S0 h_S0) (shapeCast S0 s sc_S11_S0))
    (constant S0 .f32 0x48800000#32)

end Cert.Spec

end
-- ==== Proof.KernelIdeal.Iface.lean ====
/-
  Names shared by the modules that prove this program's run: the program as the SparseCore launch theorem sees it, the
  arrays and the scratch of one vector subcore as its kernel addresses them, and — as propositions, proved elsewhere —
  what one vector subcore's task does to its share of the arrays.

  Worker `w = 2·s + c` (vector subcore `s` of SparseCore `c`) reads rows `3584·w … 3584·w + 3583` of the table `x` and of the
  column words `t`, and writes row `w` of the 32×16 array of partial sums: that row ends at `Spec.partials x t`.
-/
import proofs.«213812_g11871289606185_cont_fleet_226_25_alg».proof.KernelIdeal
import proofs.«213812_g11871289606185_cont_fleet_226_25_alg».proof.Proof.Gen.KernelIdeal
import proofs.«213812_g11871289606185_cont_fleet_226_25_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KernelIdeal.Iface

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays and one vector subcore's scratch -/

/-- The table `x`, the column words `t` (the arguments) and the partial sums `o`, as locations of device `d`. -/
abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

abbrev xV : Memref sig .scVector .hbm S262144x170 .f32 := Memref.whole main_arg0_scv
abbrev tV : Memref sig .scVector .hbm S262144 .i32 := Memref.whole main_arg1_scv
abbrev oV : Memref sig .scVector .hbm S32x16 .f32 := Memref.whole main_v0_scv
/-- A vector subcore's scratch: its 3584 column words, the two 128-row buffers, the accumulator's home. -/
abbrev sT : Memref sig .scVector .vmem S3584 .i32 := Memref.whole cc0_scratch0
abbrev sA : Memref sig .scVector .vmem S128x170 .f32 := Memref.whole cc0_scratch1
abbrev sB : Memref sig .scVector .vmem S128x170 .f32 := Memref.whole cc0_scratch2
abbrev sO : Memref sig .scVector .vmem S16 .f32 := Memref.whole cc0_scratch3

abbrev cV (L : grid0.Coords) : Fin τ.nSC := (L 0).castLE hcore0
abbrev jV (L : grid0.Coords) : Fin τ.nSub := (L 1).castLE hsub0

/-- The task of the vector subcore at grid coordinates `L`, as the body table applies the kernel function. -/
abbrev tileProg [FloatOps F] (L : grid0.Coords) :=
  cc0__sc_body (F := F) L xV (Memref.isWhole_whole _) tV (Memref.isWhole_whole _) oV (Memref.isWhole_whole _)
    sT (Memref.isWhole_whole _) sA (Memref.isWhole_whole _) sB (Memref.isWhole_whole _) sO (Memref.isWhole_whole _)
    cc0_scratch4 cc0_scratch5 cc0_scoped0 cc0_scoped1

/-- Row `2·s + c` of the partial sums as the task at `L = (c, s)` slices it: one row of sixteen lanes. -/
abbrev oRect (L : grid0.Coords) : Rect S32x16 := Rect.unit (s := S32x16) (k0_off31 L) S1x16.size (k0_off31_inb L)
abbrev oRowSet (L : grid0.Coords) : Finset S32x16.Idx := ((oV : Memref sig .scVector .hbm S32x16 .f32).view.slice (oRect L)).set

variable {U : Type} [URA U]

local notation "𝕄" => MT nD τ sig (HIx 1) (Elt F) ℕ U ℕ

variable (m : (ℓ : Loc nD τ sig) → Buf (Elt F) ℓ)

/-- Every column word names a column: below 170 (what the certificate's precondition says of `t`). -/
def TgtOK : Prop := ∀ (d : Dev nD) (r : S262144.Idx), (m (tLoc d) r).toNat < 170

variable [FloatOps F]

/-- The partial sums' array as the kernel leaves it: `Spec.partials` of the arguments. -/
def outF (d : Dev nD) : Buf (Elt F) (oLoc d) := Spec.partials (F := F) (m (xLoc d)) (m (tLoc d))

/-- **One vector subcore's task.** From a read share of `x` and of `t` whole (any shares), its own row of `o` at any
    contents, its scoped storage and what it owes, the task at `L` runs to its end, returns the shares, leaves its row of
    `o` at the partial sums' row, and owes what it owed (waits recorded at index `none` only). -/
def TileBody [CountersIn U] : Prop :=
  ∀ (d : Dev nD) (L : grid0.Coords) (qx qt : PosShare TreeShare) (fo : Buf (Elt F) (oLoc d))
    (O : CellTallies nD τ sig (HIx 1)) (W : Waits sig (HIx 1)), (∀ g, O g none = 0) → TgtOK m →
    iprop(levAts (K (F := F)).L (K (F := F)).lev
        ∗ ((xLoc d ↦{qx} m (xLoc d)) ∗ (tLoc d ↦{qt} m (tLoc d)) ∗ (oLoc d ↦[oRowSet L]{fullShare} fo))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ (tileProg (F := F) L)
          fun _ => iprop(((xLoc d ↦{qx} m (xLoc d)) ∗ (tLoc d ↦{qt} m (tLoc d)) ∗ (oLoc d ↦[oRowSet L]{fullShare} outF m d))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

end Cert.KernelIdeal.Iface

end
-- ==== Proof.KernelIdeal.Pay.lean ====
/-
  What the launch's handshakes carry, and the two obligations of the vector-subcore call that follow from one task's run.

  The call hands each SparseCore a read share of the table `x` and of the column words `t` (one of two tokens of the full
  share) and the sixteen rows of the partial sums its tasks write; the sequencer hands task `i` one of sixteen tokens of
  that share and its own row. Back come the same shares and the rows, now holding the partial sums.
-/
import proofs.«213812_g11871289606185_cont_fleet_226_25_alg».proof.Proof.KernelIdeal.Iface

noncomputable section

namespace Cert.KernelIdeal.Launch

open Cert.KernelIdeal Cert.KernelIdeal.Gen Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra: the handshakes' rounds, the pipeline's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans ((Emb.inr : Emb (UP × Counters) UU).trans
    (uEmb (nD := nD) (sig := sig) (Ix := HIx 1) (Val := Elt F) (Name := ℕ) (U := UU) (Lvl := ℕ)).toEmb)
instance EP_landsIn : (EP : Emb UP 𝕄).LandsIn (upEmb : UEmb _ 𝕄) := by unfold EP; infer_instance

/-! ## The grid of the call -/

theorem nCore_zero : (K (F := F)).nCore 0 = 2 := rfl
theorem nSub_zero : (K (F := F)).nSub 0 = 16 := rfl
theorem bound_zero : grid0.bound 0 = 2 := rfl
theorem bound_one : grid0.bound 1 = 16 := rfl

/-- The grid coordinates of vector subcore `s` of SparseCore `c`. -/
def coordsG (c : Fin (grid0.bound 0)) (s : Fin (grid0.bound 1)) : grid0.Coords :=
  fun | 0 => c | 1 => s | ⟨_ + 2, h⟩ => absurd h (Nat.not_lt.2 (Nat.le_add_left _ _))
abbrev coordsV (c : Fin 2) (s : Fin 16) : grid0.Coords := coordsG (Fin.cast bound_zero.symm c) (Fin.cast bound_one.symm s)

/-- SparseCore `c`'s token of the full share, and task `i`'s token of that. -/
abbrev qC (c : Fin 2) : PosShare TreeShare := Transfers.shareTok fullShare 2 c
abbrev qT (c : Fin 2) (i : Fin 16) : PosShare TreeShare := Transfers.shareTok (qC c) 16 i

variable (m : (ℓ : Loc nD τ sig) → Buf (Elt F) ℓ) (ρ : Dev nD → PrngReg)

variable [FloatOps F]

/-- A task's holdings: its tokens of `x` and `t`, its row of the partial sums at contents `f`. -/
abbrev taskPts (d : Dev nD) (c : Fin 2) (i : Fin 16) (f : Buf (Elt F) (oLoc d)) : sProp 𝕄 :=
  iprop((xLoc d ↦{qT c i} m (xLoc d)) ∗ (tLoc d ↦{qT c i} m (tLoc d)) ∗ (oLoc d ↦[oRowSet (coordsV c i)]{fullShare} f))
/-- A SparseCore's holdings: its tokens of `x` and `t`, its tasks' sixteen rows at contents `f`. -/
abbrev corePts (d : Dev nD) (c : Fin 2) (f : Buf (Elt F) (oLoc d)) : sProp 𝕄 :=
  iprop((xLoc d ↦{qC c} m (xLoc d)) ∗ (tLoc d ↦{qC c} m (tLoc d)) ∗ bigSep Finset.univ fun i : Fin 16 => oLoc d ↦[oRowSet (coordsV c i)]{fullShare} f)

def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (outF m d)
  go := fun q d c i => match q with | 0 => taskPts m d (Fin.cast nCore_zero c) (Fin.cast nSub_zero i) (m (oLoc d))
  td := fun q d c i => match q with | 0 => taskPts m d (Fin.cast nCore_zero c) (Fin.cast nSub_zero i) (outF m d)
  x := fun _ _ => iprop(emp)

instance P_storable : (P (F := F) m).IsStorable where
  st q d c := match q with | 0 => (inferInstance : BI.Storable (upEmb : UEmb _ 𝕄) (corePts m d (Fin.cast nCore_zero c) (m (oLoc d))))
  dn q d c := match q with | 0 => (inferInstance : BI.Storable (upEmb : UEmb _ 𝕄) (corePts m d (Fin.cast nCore_zero c) (outF m d)))
  go q d c i := match q with | 0 => (inferInstance : BI.Storable (upEmb : UEmb _ 𝕄) (taskPts m d (Fin.cast nCore_zero c) (Fin.cast nSub_zero i) (m (oLoc d))))
  td q d c i := match q with | 0 => (inferInstance : BI.Storable (upEmb : UEmb _ 𝕄) (taskPts m d (Fin.cast nCore_zero c) (Fin.cast nSub_zero i) (outF m d)))

/-! ## The task's obligation -/

theorem defs₀_vector (c : Fin τ.nSC) (s : Fin τ.nSub) :
    defs₀ (F := F) (.scVector c s) 0 ()
      = SparseCore.onTile hcore0 hsub0 (fun c s => cc0__sc_body (coordsG c s)
          xV (Memref.isWhole_whole _) tV (Memref.isWhole_whole _) oV (Memref.isWhole_whole _)
          sT (Memref.isWhole_whole _) sA (Memref.isWhole_whole _) sB (Memref.isWhole_whole _) sO (Memref.isWhole_whole _)
          cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem go_eq (d : Dev nD) (c : Fin ((K (F := F)).nCore 0)) (i : Fin ((K (F := F)).nSub 0))
    (h1 : ((K (F := F)).core 0 c).val < grid0.bound 0) (h2 : ((K (F := F)).sub 0 i).val < grid0.bound 1) :
    (P m).go 0 d c i = iprop((xLoc d ↦{qT (Fin.cast nCore_zero c) (Fin.cast nSub_zero i)} m (xLoc d))
      ∗ (tLoc d ↦{qT (Fin.cast nCore_zero c) (Fin.cast nSub_zero i)} m (tLoc d))
      ∗ (oLoc d ↦[oRowSet (coordsG ⟨_, h1⟩ ⟨_, h2⟩)]{fullShare} m (oLoc d))) := rfl

theorem tileObl (hT : TileBody (F := F) (U := UU) m) (hpre : TgtOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have key := (hT d (coordsG ⟨_, hc.1⟩ ⟨_, hc.2⟩) (qT (Fin.cast nCore_zero c) (Fin.cast nSub_zero i)) (qT (Fin.cast nCore_zero c) (Fin.cast nSub_zero i))
    (m (oLoc d)) O W hO hpre).trans (wp_mono frame _ _ fun _ => obl_post (q := 0))
  refine BI.Entails.trans ?_ key
  rw [go_eq m d c i hc.1 hc.2]
  show iprop(levAts _ _ ∗ _ ∗ _ ∗ _) ⊢ iprop(levAts _ _ ∗ _ ∗ _)
  iintro ⟨Hlv, -, Hgo, Hrest⟩
  isplitl [Hlv]; · iexact Hlv
  isplitl [Hgo]; · iexact Hgo
  iexact Hrest

/-! ## A SparseCore's operands split into its tasks', its results gathered from theirs -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show corePts m d (Fin.cast nCore_zero c) (m (oLoc d)) ⊢ |={Set.univ}=> iprop(
      (bigSep Finset.univ fun i : Fin ((K (F := F)).nSub 0) => taskPts m d (Fin.cast nCore_zero c) (Fin.cast nSub_zero i) (m (oLoc d)))
      ∗ ((bigSep Finset.univ fun i : Fin ((K (F := F)).nSub 0) => taskPts m d (Fin.cast nCore_zero c) (Fin.cast nSub_zero i) (outF m d))
          -∗ corePts m d (Fin.cast nCore_zero c) (outF m d)))
  rw [bigSep_tasks (F := F) (fun i => taskPts m d (Fin.cast nCore_zero c) i (m (oLoc d))),
    bigSep_tasks (F := F) (fun i => taskPts m d (Fin.cast nCore_zero c) i (outF m d)), bigSep_sep', bigSep_sep', bigSep_sep', bigSep_sep']
  iintro ⟨Hx, Ht, Ho⟩
  ihave Hx' := (Transfers.pointsTo_toks_split (qC (Fin.cast nCore_zero c)) 16) $$ Hx
  ihave Ht' := (Transfers.pointsTo_toks_split (qC (Fin.cast nCore_zero c)) 16) $$ Ht
  icases Hx' with ⟨Hxr, Hxs⟩
  icases Ht' with ⟨Htr, Hts⟩
  imodintro
  isplitl [Hxs Hts Ho]
  · isplitl [Hxs]; · iexact Hxs
    isplitl [Hts]; · iexact Hts
    iexact Ho
  iintro ⟨Hxs, Hts, Ho⟩
  isplitl [Hxr Hxs]
  · iapply (Transfers.pointsTo_toks_join (qC (Fin.cast nCore_zero c)) 16)
    isplitl [Hxr]; · iexact Hxr
    iexact Hxs
  isplitl [Htr Hts]
  · iapply (Transfers.pointsTo_toks_join (qC (Fin.cast nCore_zero c)) 16)
    isplitl [Htr]; · iexact Htr
    iexact Hts
  iexact Ho

end Cert.KernelIdeal.Launch

end
-- ==== Proof.KernelIdeal.Rows.lean ====
/-
  The 32×16 array of partial sums as its 32 rows: worker `2·i + c` (vector subcore `i` of SparseCore `c`) owns row
  `2·i + c`; the rows are pairwise disjoint and cover the array, so the array whole is its rows side by side.
-/
import proofs.«213812_g11871289606185_cont_fleet_226_25_alg».proof.Proof.KernelIdeal.Pay

noncomputable section

namespace Cert.KernelIdeal.Launch

open Cert.KernelIdeal Cert.KernelIdeal.Gen Cert.KernelIdeal.Iface

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

theorem hdiv : 32 ∣ S32x16.size 0 := ⟨1, rfl⟩
abbrev row (w : Fin 32) : Rect S32x16 := Rect.part (s := S32x16) (a₀ := 0) hdiv w

/-- The row of vector subcore `i` of SparseCore `c`. -/
def wid (c : Fin 2) (i : Fin 16) : Fin 32 := ⟨2 * i.val + c.val, by omega⟩

theorem wid_injective : ∀ p p' : Fin 2 × Fin 16, wid p.1 p.2 = wid p'.1 p'.2 → p = p' := by
  rintro ⟨c, i⟩ ⟨c', i'⟩ h
  have h' : 2 * i.val + c.val = 2 * i'.val + c'.val := congrArg Fin.val h
  exact Prod.ext (Fin.ext (by show c.val = c'.val; omega)) (Fin.ext (by show i.val = i'.val; omega))

theorem oRect_eq (c : Fin 2) (i : Fin 16) : oRect (coordsV c i) = row (wid c i) := by
  unfold oRect row Rect.part Rect.block
  congr 1 <;> funext a
  · rw [k0_off31_eq]
    match a with
    | 0 => simp [Shape.partIx, Shape.partSize, coordsG, wid]
    | 1 => simp [Shape.partIx, Shape.partSize]
  · match a with
    | 0 => simp [Shape.partSize]
    | 1 => simp [Shape.partSize]

theorem oRowSet_eq (c : Fin 2) (i : Fin 16) : oRowSet (coordsV c i) = (row (wid c i)).set := by
  show ((View.whole (main_v0_scv : Ref sig .scVector)).slice (oRect (coordsV c i))).set = _
  rw [View.set_slice, oRect_eq]; exact Finset.map_refl

theorem rows_disjoint : ∀ p ∈ (Finset.univ : Finset (Fin 2 × Fin 16)), ∀ p' ∈ (Finset.univ : Finset (Fin 2 × Fin 16)), p ≠ p' →
    Disjoint (oRowSet (coordsV p.1 p.2)) (oRowSet (coordsV p'.1 p'.2)) := fun p _ p' _ h => by
  rw [oRowSet_eq, oRowSet_eq]; exact Rect.part_disjoint hdiv fun e => h (wid_injective p p' e)

theorem rows_cover : (Finset.univ : Finset (Fin 2 × Fin 16)).biUnion (fun p => oRowSet (coordsV p.1 p.2)) = Finset.univ := by
  ext j
  simp only [Finset.mem_biUnion, Finset.mem_univ, true_and, iff_true]
  obtain ⟨w, hw⟩ := Rect.exists_mem_part hdiv j
  refine ⟨(⟨w.val % 2, Nat.mod_lt _ (by decide)⟩, ⟨w.val / 2, by have := w.isLt; omega⟩), ?_⟩
  rw [oRowSet_eq]
  have e : wid (⟨w.val % 2, Nat.mod_lt _ (by decide)⟩ : Fin 2) (⟨w.val / 2, by have := w.isLt; omega⟩ : Fin 16) = w :=
    Fin.ext (by show 2 * (w.val / 2) + w.val % 2 = w.val; omega)
  rw [e]; exact hw

/-- The array whole is its 32 rows, grouped by SparseCore. -/
theorem oPts_rows (d : Dev nD) (f : Buf (Elt F) (oLoc d)) :
    (oLoc d ↦{fullShare} f : sProp 𝕄)
      = bigSep Finset.univ fun c : Fin 2 => bigSep Finset.univ fun i : Fin 16 => oLoc d ↦[oRowSet (coordsV c i)]{fullShare} f := by
  rw [← bigSep_univ_prod (fun p : Fin 2 × Fin 16 => (oLoc d ↦[oRowSet (coordsV p.1 p.2)]{fullShare} f : sProp 𝕄)),
    ← pointsTo_biUnion Finset.univ (ℓ := oLoc d) (fun p : Fin 2 × Fin 16 => oRowSet (coordsV p.1 p.2)) rows_disjoint, rows_cover]; try rfl

end Cert.KernelIdeal.Launch

end
-- ==== Proof.KernelIdeal.Host.lean ====
/-
  The host operations of @main around the two calls, and what they compute: before the TensorCore call, the column words
  of rows 114688… as an 18×4×2048 array (a slice, reshaped); after it, all partial sums added up, plus the TensorCore
  part's scalar, divided by 262144.
-/
import proofs.«213812_g11871289606185_cont_fleet_226_25_alg».proof.Proof.KernelIdeal.Rows
import Idealize.ShloMosaic.Lib.Pipeline.Frame
import Idealize.ShloMosaic.Lib.Pipeline.Value

noncomputable section

namespace Cert.KernelIdeal.Launch

open Cert.KernelIdeal Cert.KernelIdeal.Gen Cert.KernelIdeal.Iface

open Idealize.ShloMosaic Idealize.ShloMosaic.TcCoe
open Idealize.ShloMosaic.SparseCore (S V T)
open Idealize.ShloMosaic.SparseCore.Cfg (HIx Pay)
open Idealize.ShloMosaic.StableHlo (held after)
open Idealize.ShloMosaic.ValueIdx

variable {F : FTy → Type} [FloatOps F]

abbrev x' : DevRef τ sig := Proc.devRef .tc (main_arg0 : Ref sig .tc)
abbrev t' : DevRef τ sig := Proc.devRef .tc (main_arg1 : Ref sig .tc)
abbrev o' : DevRef τ sig := Proc.devRef .tc (main_v0 : Ref sig .tc)
abbrev v3' : DevRef τ sig := Proc.devRef .tc (main_v3 : Ref sig .tc)
abbrev v4' : DevRef τ sig := Proc.devRef .tc (main_v4 : Ref sig .tc)
abbrev v7' : DevRef τ sig := Proc.devRef .tc (main_v7 : Ref sig .tc)

abbrev v3Loc (d : Dev nD) : Loc nD τ sig := (SparseCore.T d).loc main_v3
abbrev v4Loc (d : Dev nD) : Loc nD τ sig := (SparseCore.T d).loc main_v4
abbrev v7Loc (d : Dev nD) : Loc nD τ sig := (SparseCore.T d).loc main_v7

abbrev op1 : HloOp τ sig (Elt F) := StableHlo.nullary main_cst (constant S_ .f32 0x00000000#32)
abbrev op2 : HloOp τ sig (Elt F) := StableHlo.binary main_v0 main_cst main_v1 ((fun x v => Host.reduceAdd x v Facts₀.reducesTo_S32x16_S_d0_1 Facts₀.h_S_) : (⟨S32x16, .f32⟩ : BufTy).Contents (Elt F) → (⟨S_, .f32⟩ : BufTy).Contents (Elt F) → (⟨S_, .f32⟩ : BufTy).Contents (Elt F))
abbrev op3 : HloOp τ sig (Elt F) := StableHlo.unary main_arg1 main_v2 ((extractStridedSlice S147456 ![114688] · Facts₀.slices_S262144_S147456_114688) : (⟨S262144, .i32⟩ : BufTy).Contents (Elt F) → (⟨S147456, .i32⟩ : BufTy).Contents (Elt F))
abbrev op4 : HloOp τ sig (Elt F) := StableHlo.reshape main_v2 main_v3 rfl Facts₀.shapeCasts_S147456_S18x4x2048
abbrev op5 : HloOp τ sig (Elt F) := StableHlo.reshape main_v4 main_v5 rfl Facts₀.shapeCasts_S1x1_S_
abbrev op6 : HloOp τ sig (Elt F) := StableHlo.binary main_v1 main_v5 main_v6 (addf : (⟨S_, .f32⟩ : BufTy).Contents (Elt F) → (⟨S_, .f32⟩ : BufTy).Contents (Elt F) → (⟨S_, .f32⟩ : BufTy).Contents (Elt F))
abbrev op7 : HloOp τ sig (Elt F) := StableHlo.nullary main_cst_0 (constant S_ .f32 0x48800000#32)
abbrev op8 : HloOp τ sig (Elt F) := StableHlo.binary main_v6 main_cst_0 main_v7 (Host.divf : (⟨S_, .f32⟩ : BufTy).Contents (Elt F) → (⟨S_, .f32⟩ : BufTy).Contents (Elt F) → (⟨S_, .f32⟩ : BufTy).Contents (Elt F))

variable (m : (ℓ : Loc nD τ sig) → Buf (Elt F) ℓ)

/-- The launch contents; after the SparseCore call (the partial sums written); after the first four host operations;
    after the TensorCore call (its scalar written); after the last four. -/
def V0 (d : Dev nD) : Valuation τ sig (Elt F) := fun b => m (d, b)
def V1 (d : Dev nD) : Valuation τ sig (Elt F) := Function.update (V0 m d) o' (outF m d)
def V5 (d : Dev nD) : Valuation τ sig (Elt F) := after [op1, op2, op3, op4] (V1 m d)
def V6 (d : Dev nD) : Valuation τ sig (Elt F) := Function.update (V5 m d) v4' (fun _ => Spec.tcOut (F := F) (m (xLoc d)) (m (tLoc d)))
def V10 (d : Dev nD) : Valuation τ sig (Elt F) := after [op5, op6, op7, op8] (V6 m d)

theorem V1_x (d : Dev nD) : V1 m d x' = m (xLoc d) := Function.update_of_ne (show x' ≠ o' by decide) _ _
theorem V1_t (d : Dev nD) : V1 m d t' = m (tLoc d) := Function.update_of_ne (show t' ≠ o' by decide) _ _
theorem V1_o (d : Dev nD) : V1 m d o' = outF m d := Function.update_self _ _ _

open Idealize.ShloMosaic.StableHlo in
theorem V5_x (d : Dev nD) : V5 m d x' = m (xLoc d) := by
  unfold V5; after_results_simp; exact V1_x m d
open Idealize.ShloMosaic.StableHlo in
theorem V5_t (d : Dev nD) : V5 m d t' = m (tLoc d) := by
  unfold V5; after_results_simp; exact V1_t m d
open Idealize.ShloMosaic.StableHlo in
theorem V5_o (d : Dev nD) : V5 m d o' = outF m d := by
  unfold V5; after_results_simp; exact V1_o m d

open Idealize.ShloMosaic.StableHlo in
theorem V5_v3 (d : Dev nD) :
    V5 m d v3' = shapeCast S18x4x2048 (extractStridedSlice S147456 ![114688] (m (tLoc d)) Facts₀.slices_S262144_S147456_114688) Facts₀.shapeCasts_S147456_S18x4x2048 := by
  unfold V5; after_results_simp; rw [V1_t]; rfl

/-- The 18×4×2048 array handed to the TensorCore call holds the column words of rows 114688…, row-major. -/
theorem V5_v3_apply (d : Dev nD) (j : S18x4x2048.Idx) :
    V5 m d v3' j = m (tLoc d) (ix1 (Spec.rowOf (114688 + 8192 * (j 0).val + 2048 * (j 1).val + (j 2).val))) := by
  rw [V5_v3]
  have h0 : (j 0).val < 18 := (j 0).isLt
  have h1 : (j 1).val < 4 := (j 1).isLt
  have h2 : (j 2).val < 2048 := (j 2).isLt
  have hk : 8192 * (j 0).val + 2048 * (j 1).val + (j 2).val < 147456 := by omega
  rw [shapeCast_apply _ _ j (ix1 (⟨8192 * (j 0).val + 2048 * (j 1).val + (j 2).val, hk⟩ : Fin 147456))
    (by rw [Shape.rowMajor_val_one, Shape.rowMajor_val_three]; simp; omega)]
  rw [extractStridedSlice_apply _ _ _ _ (ix1 (Spec.rowOf (114688 + 8192 * (j 0).val + 2048 * (j 1).val + (j 2).val)))
    (by intro a; match a with | ⟨0, _⟩ => simp [Spec.rowOf]; omega)]

theorem V6_v4 (d : Dev nD) : V6 m d v4' = fun _ => Spec.tcOut (F := F) (m (xLoc d)) (m (tLoc d)) := Function.update_self _ _ _
theorem V6_x (d : Dev nD) : V6 m d x' = m (xLoc d) := (Function.update_of_ne (show x' ≠ v4' by decide) _ _).trans (V5_x m d)
theorem V6_t (d : Dev nD) : V6 m d t' = m (tLoc d) := (Function.update_of_ne (show t' ≠ v4' by decide) _ _).trans (V5_t m d)

open Idealize.ShloMosaic.StableHlo in
theorem V5_v1 (d : Dev nD) :
    V5 m d (Proc.devRef .tc (main_v1 : Ref sig .tc))
      = Host.reduceAdd (outF m d) (constant S_ .f32 0x00000000#32) Facts₀.reducesTo_S32x16_S_d0_1 Facts₀.h_S_ := by
  unfold V5; after_results_simp; rw [V1_o]

open Idealize.ShloMosaic.StableHlo in
theorem V10_x (d : Dev nD) : V10 m d x' = m (xLoc d) := by
  unfold V10; after_results_simp; exact V6_x m d
open Idealize.ShloMosaic.StableHlo in
theorem V10_t (d : Dev nD) : V10 m d t' = m (tLoc d) := by
  unfold V10; after_results_simp; exact V6_t m d

open Idealize.ShloMosaic.StableHlo in
/-- The result: the partial sums added up, plus the TensorCore part's scalar, over 262144. -/
theorem V10_v7 (d : Dev nD) :
    V10 m d v7' = Spec.kFinal (F := F) (outF m d) (fun _ => Spec.tcOut (F := F) (m (xLoc d)) (m (tLoc d))) := by
  unfold V10; after_results_simp
  rw [V6_v4, show V6 m d (Proc.devRef .tc (main_v1 : Ref sig .tc)) = V5 m d (Proc.devRef .tc (main_v1 : Ref sig .tc)) from
    Function.update_of_ne (show (Proc.devRef .tc (main_v1 : Ref sig .tc) : DevRef τ sig) ≠ v4' by decide) _ _, V5_v1]
  rfl

end Cert.KernelIdeal.Launch

end
-- ==== Proof.KernelIdeal.Main.lean ====
/-
  @main on the TensorCore: the SparseCore call (the table and the column words lent out as read tokens, the partial sums'
  rows handed over), four host operations, the TensorCore call, four more; what it leaves: the arguments as they were and
  the result at `Spec.kFinal` of the partial sums and the TensorCore part's scalar.
-/
import proofs.«213812_g11871289606185_cont_fleet_226_25_alg».proof.Proof.KernelIdeal.Host
import Idealize.ShloMosaic.Lib.Pipeline.Sound

noncomputable section

namespace Cert.KernelIdeal.Launch

open Cert.KernelIdeal Cert.KernelIdeal.Gen Cert.KernelIdeal.Iface

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within after)
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

variable [FloatOps F]

/-- The 18×4×2048 array holds the column words of rows 114688…, row-major. -/
def V3OK (d : Dev nD) (V3 : Buf (Elt F) (v3Loc d)) : Prop :=
  ∀ j : S18x4x2048.Idx, V3 j = m (tLoc d) (ix1 (Spec.rowOf (114688 + 8192 * (j 0).val + 2048 * (j 1).val + (j 2).val)))

/-- **The TensorCore call**, as a proposition proved elsewhere: from the region boundary, the pipeline's ghost state, the
    column words' array, the table and the output cell, it runs to its end and leaves the output at `Spec.tcOut`. -/
def TcRegion : Prop :=
  ∀ (d : Dev nD) (q3 qx : PosShare TreeShare) (V3 : Buf (Elt F) (v3Loc d)) (f4 : Buf (Elt F) (v4Loc d)), V3OK m d V3 →
    ∀ (O : CellTallies nD τ sig (HIx 1)) (W : Waits sig (HIx 1)), (∀ g, O g none = 0) →
    iprop(boundary (SparseCore.T d) ∗ levAts (K (F := F)).L (K (F := F)).lev
        ∗ Pipeline.cellsGhost cfgs EP 0 d ∗ Pipeline.toksInit cfgs EP 0 d
        ∗ (v3Loc d ↦{q3} V3) ∗ (xLoc d ↦{qx} m (xLoc d)) ∗ (v4Loc d ↦{fullShare} f4) ∗ owes (SparseCore.T d) O W)
      ⊢ (wp frame (wpE ((K (F := F)).defs (D (F := F))) 𝒱 (SparseCore.T d) none) Set.univ
          (Prog.lift (.customCall (SparseCore.inner (Pipeline.entry 0)) ()))
          fun _ => iprop(boundary (SparseCore.T d) ∗ (v3Loc d ↦{q3} V3) ∗ (xLoc d ↦{qx} m (xLoc d))
            ∗ (v4Loc d ↦{fullShare} fun _ => Spec.tcOut (m (xLoc d)) (m (tLoc d))) ∗ ∃ W', ⌜∀ p ∈ W', p ∈ W ∨ p.2 = none⌝ ∗ owes (SparseCore.T d) O W') : sProp 𝕄)

/-! ## The TensorCore's arrays as held sets -/

abbrev Sall : Finset (DevRef τ sig) := Pipeline.ucRefs τ sig
abbrev S3 : Finset (DevRef τ sig) := {x', t', o'}
abbrev R3 : Finset (DevRef τ sig) := {v3', x', v4'}
abbrev F3 : Finset (DevRef τ sig) := {x', t', v7'}

omit [FloatOps F] in
theorem held_S3 (d : Dev nD) (W : Valuation τ sig (Elt F)) :
    (held (T d) S3 W : sProp 𝕄) = iprop((xLoc d ↦{fullShare} W x') ∗ (tLoc d ↦{fullShare} W t') ∗ oLoc d ↦{fullShare} W o') := by
  unfold held S3
  rw [SparseCore.bigSep_insert' (by decide), SparseCore.bigSep_insert' (by decide), bigSep_singleton]
omit [FloatOps F] in
theorem held_R3 (d : Dev nD) (W : Valuation τ sig (Elt F)) :
    (held (T d) R3 W : sProp 𝕄) = iprop((v3Loc d ↦{fullShare} W v3') ∗ (xLoc d ↦{fullShare} W x') ∗ v4Loc d ↦{fullShare} W v4') := by
  unfold held R3
  rw [SparseCore.bigSep_insert' (by decide), SparseCore.bigSep_insert' (by decide), bigSep_singleton]
omit [FloatOps F] in
theorem held_F3 (d : Dev nD) (W : Valuation τ sig (Elt F)) :
    (held (T d) F3 W : sProp 𝕄) = iprop((xLoc d ↦{fullShare} W x') ∗ (tLoc d ↦{fullShare} W t') ∗ v7Loc d ↦{fullShare} W v7') := by
  unfold held F3
  rw [SparseCore.bigSep_insert' (by decide), SparseCore.bigSep_insert' (by decide), bigSep_singleton]

omit [FloatOps F] in
theorem held_S3_V0 (d : Dev nD) :
    (held (T d) S3 (V0 m d) : sProp 𝕄) = iprop((xLoc d ↦{fullShare} m (xLoc d)) ∗ (tLoc d ↦{fullShare} m (tLoc d)) ∗ oLoc d ↦{fullShare} m (oLoc d)) :=
  held_S3 d (V0 m d)

omit [FloatOps F] in
theorem unscoped_held (d : Dev nD) :
    (unscopedBufs d (fun b => m ((SparseCore.T d).loc b)) : sProp 𝕄) = held (SparseCore.T d) Sall (V0 m d) :=
  Pipeline.unscopedBufs_held d (V0 m d)

theorem S3_sub : S3 ⊆ Sall := by decide
theorem R3_sub : R3 ⊆ Sall := by decide
theorem F3_sub : F3 ⊆ Sall := by decide

/-! ## What the call takes for the two SparseCores, and what it hands back -/

theorem st0_eq (d : Dev nD) :
    (bigSep Finset.univ fun c : Fin ((K (F := F)).nCore 0) => (P m).st 0 d c) = bigSep Finset.univ fun c : Fin 2 => corePts m d c (m (oLoc d)) :=
  bigSep_congr fun _ _ => rfl
theorem dn0_eq (d : Dev nD) :
    (bigSep Finset.univ fun c : Fin ((K (F := F)).nCore 0) => (P m).dn 0 d c) = bigSep Finset.univ fun c : Fin 2 => corePts m d c (outF m d) :=
  bigSep_congr fun _ _ => rfl

theorem dn_split (d : Dev nD) :
    (bigSep Finset.univ fun c : Fin ((K (F := F)).nCore 0) => (P m).dn 0 d c)
      = iprop((bigSep Finset.univ fun c : Fin 2 => xLoc d ↦{qC c} m (xLoc d)) ∗ (bigSep Finset.univ fun c : Fin 2 => tLoc d ↦{qC c} m (tLoc d))
          ∗ bigSep Finset.univ fun c : Fin 2 => bigSep Finset.univ fun i : Fin 16 => oLoc d ↦[oRowSet (coordsV c i)]{fullShare} outF m d) := by
  rw [dn0_eq, bigSep_sep', bigSep_sep']

theorem V01 (d : Dev nD) : ∀ b ∈ Sall \ S3, V0 m d b = V1 m d b := fun b hb =>
  (Function.update_of_ne (fun e : b = o' => (Finset.mem_sdiff.mp hb).2 (e.symm ▸ (by decide : o' ∈ S3))) _ _).symm
theorem V56 (d : Dev nD) : ∀ b ∈ Sall \ R3, V5 m d b = V6 m d b := fun b hb =>
  (Function.update_of_ne (fun e : b = v4' => (Finset.mem_sdiff.mp hb).2 (e.symm ▸ (by decide : v4' ∈ R3))) _ _).symm

theorem h_op1 : (op1 (F := F)).bufs ⊆ Sall := Pipeline.sub_ucRefs _ (StableHlo.nullary_bufs_sub ..)
theorem h_op2 : (op2 (F := F)).bufs ⊆ Sall := Pipeline.sub_ucRefs _ (StableHlo.binary_bufs_sub ..)
theorem h_op3 : (op3 (F := F)).bufs ⊆ Sall := Pipeline.sub_ucRefs _ (StableHlo.unary_bufs_sub ..)
theorem h_op4 : (op4 (F := F)).bufs ⊆ Sall := Pipeline.sub_ucRefs _ (StableHlo.reshape_bufs_sub ..)
theorem h_op5 : (op5 (F := F)).bufs ⊆ Sall := Pipeline.sub_ucRefs _ (StableHlo.reshape_bufs_sub ..)
theorem h_op6 : (op6 (F := F)).bufs ⊆ Sall := Pipeline.sub_ucRefs _ (StableHlo.binary_bufs_sub ..)
theorem h_op7 : (op7 (F := F)).bufs ⊆ Sall := Pipeline.sub_ucRefs _ (StableHlo.nullary_bufs_sub ..)
theorem h_op8 : (op8 (F := F)).bufs ⊆ Sall := Pipeline.sub_ucRefs _ (StableHlo.binary_bufs_sub ..)

theorem Otc_one (d : Dev nD) : (K (F := F)).Otc d ((0 : Fin 1).val + 1) = 0 := (K (F := F)).Otc_end d (Nat.le_refl 1)

/-- The TensorCore's handshake state before call `n`, but what it owes. -/
abbrev tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom (Q := 1) n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))
omit [FloatOps F] in
theorem tcSt_open (d : Dev nD) (n : ℕ) :
    ((K (F := F)).tcSt EH d n : sProp 𝕄)
      = iprop((∃ W, ⌜(K (F := F)).WBelow (T d) W (8 * n)⌝ ∗ owes (T d) ((K (F := F)).Otc d n) W) ∗ tcRest (F := F) d n) := by
  unfold SparseCore.Cfg.tcSt; rfl

/-- What the launch element deals the TensorCore of `d` beside the handshakes: the pipeline's ghost state. -/
abbrev G (d : Dev nD) : sProp 𝕄 := iprop(Pipeline.cellsGhost cfgs EP 0 d ∗ Pipeline.toksInit cfgs EP 0 d)

/-- What @main leaves the claim: the arguments at their launch contents and the result. -/
abbrev FIN (d : Dev nD) : sProp 𝕄 :=
  iprop((xLoc d ↦{fullShare} m (xLoc d)) ∗ (tLoc d ↦{fullShare} m (tLoc d))
    ∗ (v7Loc d ↦{fullShare} Spec.kFinal (F := F) (outF m d) (fun _ => Spec.tcOut (F := F) (m (xLoc d)) (m (tLoc d)))))

theorem hmain (hR : TcRegion (F := F) m) (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, ⟨Hcg, Htk⟩⟩
  ihave Hh := (Entails.of_eq (held_sub_split (T d) S3_sub (V0 m d))) $$ Hheld
  icases Hh with ⟨H3, Hrest⟩
  ihave H3' := (Entails.of_eq (held_S3_V0 (F := F) m d)) $$ H3
  icases H3' with ⟨Hx, Ht, Ho⟩
  ihave Hx' := (Transfers.pointsTo_toks_split fullShare 2) $$ Hx
  icases Hx' with ⟨Hxr, Hxs⟩
  ihave Ht' := (Transfers.pointsTo_toks_split fullShare 2) $$ Ht
  icases Ht' with ⟨Htr, Hts⟩
  ihave Ho' := (Entails.of_eq (oPts_rows (F := F) d _)) $$ Ho
  iapply ((K (F := F)).wp_run (D (F := F)) 𝒱 (EH := EH) (P := P m) κ d 0) $$ [Hst Hxs Hts Ho' Hxr Htr Hb Hrest Hcg Htk]
  isplitr; · iexact Hctx
  isplitl [Hst]; · iexact Hst
  isplitl [Hxs Hts Ho']
  · rw [st0_eq, bigSep_sep', bigSep_sep']
    isplitl [Hxs]; · iexact Hxs
    isplitl [Hts]; · iexact Hts
    iexact Ho'
  iintro ⟨Hst, Hdn⟩
  ihave Hdn' := (Entails.of_eq (dn_split m d)) $$ Hdn
  icases Hdn' with ⟨Hxs, Hts, Ho'⟩
  ihave Hx := (Transfers.pointsTo_toks_join fullShare 2) $$ [Hxr Hxs]
  · isplitl [Hxr] <;> iassumption
  ihave Ht := (Transfers.pointsTo_toks_join fullShare 2) $$ [Htr Hts]
  · isplitl [Htr] <;> iassumption
  ihave Ho := (Entails.of_eq (oPts_rows (F := F) d (outF m d)).symm) $$ Ho'
  ihave H3 := (Entails.of_eq (held_S3 (F := F) d (V1 m d)).symm) $$ [Hx Ht Ho]
  · rw [V1_x, V1_t, V1_o]
    isplitl [Hx]; · iexact Hx
    isplitl [Ht]; · iexact Ht
    iexact Ho
  ihave Hrest' := (Entails.of_eq (held_congr (T d) (V01 (F := F) m d))) $$ Hrest
  ihave Hheld := (Entails.of_eq (held_sub_split (T d) S3_sub (V1 m d)).symm) $$ [H3 Hrest']
  · isplitl [H3] <;> iassumption
  -- the four host operations before the TensorCore call
  iapply (wp_hlo_within 𝒱 (SparseCore.T d) none Set.univ (op := op1) (S := Sall) h_op1 (V := V1 m d)) $$ [Hb Hheld]
  · isplitl [Hb] <;> iassumption
  iintro ⟨Hb, Hheld⟩
  rw [wp_ret]; imodintro
  iapply (wp_hlo_within 𝒱 (SparseCore.T d) none Set.univ (op := op2) (S := Sall) h_op2) $$ [Hb Hheld]
  · isplitl [Hb] <;> iassumption
  iintro ⟨Hb, Hheld⟩
  rw [wp_ret]; imodintro
  iapply (wp_hlo_within 𝒱 (SparseCore.T d) none Set.univ (op := op3) (S := Sall) h_op3) $$ [Hb Hheld]
  · isplitl [Hb] <;> iassumption
  iintro ⟨Hb, Hheld⟩
  rw [wp_ret]; imodintro
  iapply (wp_hlo_within 𝒱 (SparseCore.T d) none Set.univ (op := op4) (S := Sall) h_op4) $$ [Hb Hheld]
  · isplitl [Hb] <;> iassumption
  iintro ⟨Hb, Hheld⟩
  rw [wp_ret]; imodintro
  -- the TensorCore call
  ihave Hheld := (Entails.of_eq (show (held (T d) Sall ((op4 (F := F)).result ((op3 (F := F)).result ((op2 (F := F)).result ((op1 (F := F)).result (V1 m d))))) : sProp 𝕄)
      = held (T d) Sall (V5 m d) from rfl)) $$ Hheld
  ihave Hh := (Entails.of_eq (held_sub_split (T d) R3_sub (V5 m d))) $$ Hheld
  icases Hh with ⟨H3, Hrest⟩
  ihave H3' := (Entails.of_eq (held_R3 (F := F) d _)) $$ H3
  icases H3' with ⟨Hv3, Hx, Hv4⟩
  have hopen := tcSt_open (F := F) d ((0 : Fin 1).val + 1)
  ihave Hst' := (Entails.of_eq hopen) $$ Hst
  icases Hst' with ⟨⟨%W, %hW, HO⟩, Hst2⟩
  ihave Hlv := ((K (F := F)).ctx_levAts κ) $$ Hctx
  ihave Hwp := (hR d fullShare fullShare (V5 m d v3') (V5 m d v4') (V5_v3_apply m d) ((K (F := F)).Otc d ((0 : Fin 1).val + 1)) W
      (fun g => by rw [Otc_one]; rfl)) $$ [Hb Hlv Hcg Htk Hv3 Hx Hv4 HO]
  · isplitl [Hb]; · iexact Hb
    isplitl [Hlv]; · iexact Hlv
    isplitl [Hcg]; · iexact Hcg
    isplitl [Htk]; · iexact Htk
    isplitl [Hv3]; · iexact Hv3
    isplitl [Hx]; · rw [V5_x]; iexact Hx
    isplitl [Hv4]; · iexact Hv4
    iexact HO
  iapply (wp_wand frame _ Set.univ) $$ Hwp
  iintro %_ ⟨Hb, Hv3, Hx, Hv4, %W', %hW', HO⟩
  ihave H3 := (Entails.of_eq (held_R3 (F := F) d (V6 m d)).symm) $$ [Hv3 Hx Hv4]
  · rw [V6_x, V6_v4, show V6 m d v3' = V5 m d v3' from Function.update_of_ne (show v3' ≠ v4' by decide) _ _]
    isplitl [Hv3]; · iexact Hv3
    isplitl [Hx]; · iexact Hx
    iexact Hv4
  ihave Hrest' := (Entails.of_eq (held_congr (T d) (V56 (F := F) m d))) $$ Hrest
  ihave Hheld := (Entails.of_eq (held_sub_split (T d) R3_sub (V6 m d)).symm) $$ [H3 Hrest']
  · isplitl [H3] <;> iassumption
  -- the four host operations after it
  iapply (wp_hlo_within 𝒱 (SparseCore.T d) none Set.univ (op := op5) (S := Sall) h_op5 (V := V6 m d)) $$ [Hb Hheld]
  · isplitl [Hb] <;> iassumption
  iintro ⟨Hb, Hheld⟩
  rw [wp_ret]; imodintro
  iapply (wp_hlo_within 𝒱 (SparseCore.T d) none Set.univ (op := op6) (S := Sall) h_op6) $$ [Hb Hheld]
  · isplitl [Hb] <;> iassumption
  iintro ⟨Hb, Hheld⟩
  rw [wp_ret]; imodintro
  iapply (wp_hlo_within 𝒱 (SparseCore.T d) none Set.univ (op := op7) (S := Sall) h_op7) $$ [Hb Hheld]
  · isplitl [Hb] <;> iassumption
  iintro ⟨Hb, Hheld⟩
  rw [wp_ret]; imodintro
  iapply (wp_hlo_within 𝒱 (SparseCore.T d) none Set.univ (op := op8) (S := Sall) h_op8) $$ [Hb Hheld]
  · isplitl [Hb] <;> iassumption
  iintro ⟨Hb, Hheld⟩
  ihave Hheld := (Entails.of_eq (show (held (T d) Sall ((op8 (F := F)).result ((op7 (F := F)).result ((op6 (F := F)).result ((op5 (F := F)).result (V6 m d))))) : sProp 𝕄)
      = held (T d) Sall (V10 m d) from rfl)) $$ Hheld
  ihave Hh := (Entails.of_eq (held_sub_split (T d) F3_sub (V10 m d))) $$ Hheld
  icases Hh with ⟨H3, -⟩
  ihave H3' := (Entails.of_eq (held_F3 (F := F) d _)) $$ H3
  icases H3' with ⟨Hx, Ht, Hv7⟩
  rw [wp_ret]; imodintro; imodintro
  isplitl [Hst2 HO]
  · iapply (Entails.of_eq hopen.symm)
    isplitl [HO]
    · iexists W'; isplitr
      · ipureintro; intro p hp
        rcases hW' p hp with h | h
        · exact hW p h
        · rw [h]; exact Nat.zero_le _
      · iexact HO
    · iexact Hst2
  isplitl [Hx]; · rw [V10_x]; iexact Hx
  isplitl [Ht]; · rw [V10_t]; iexact Ht
  rw [V10_v7]; iexact Hv7

end Cert.KernelIdeal.Launch

end
-- ==== Proof.KernelIdeal.Run.lean ====
/-
  The launch element (the handshakes' rounds, the pipeline's staging cells' ghost state, nothing for the kernels' own
  cells: the tasks' copies are local), how the final memory reads the claim, and the program's run: every weakly fair
  execution of the device's threads ends, with the arguments as they were and the result at `Spec.kFinal`.
-/
import proofs.«213812_g11871289606185_cont_fleet_226_25_alg».proof.Proof.KernelIdeal.Main
import proofs.«213812_g11871289606185_cont_fleet_226_25_alg».proof.Proof.Gen.KernelIdeal.Launch

noncomputable section

namespace Cert.KernelIdeal.Launch

open Cert.KernelIdeal Cert.KernelIdeal.Gen Cert.KernelIdeal.Iface

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

def u₀ : UU :=
  (initOf (K (F := F)).hsCells (K (F := F)).hsToks, (initOf (Pipeline.cells cfgs cellOf_inj) (Pipeline.launchToks cfgs cellOf_inj), 1))

theorem bigSep_emp' {I : Type} (s : Finset I) : (bigSep s fun _ => iprop(emp)) = (iprop(emp) : sProp 𝕄) := bigSep_emp_const s

theorem ghost_one (X : Fin 1 → Dev nD → sProp 𝕄) :
    (bigSep Finset.univ fun c : Dev nD => bigSep Finset.univ fun p : Fin 1 => X p c) = bigSep Finset.univ fun c : Dev nD => X 0 c :=
  bigSep_congr fun _ _ => bigSep_univ_of_subsingleton (0 : Fin 1)

variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP, -⟩
  have e : (BI.own (((Emb.inl : Emb UP (UP × Counters)).trans embR) (initOf (Pipeline.cells cfgs cellOf_inj) (Pipeline.launchToks cfgs cellOf_inj))) : sProp 𝕄)
      = BI.own ((EP (F := F)) (initOf (Pipeline.cells cfgs cellOf_inj) (Pipeline.launchToks cfgs cellOf_inj))) := rfl
  ihave HP := (Entails.of_eq e) $$ HP
  imod (Pipeline.fund_ghost cfgs (EP (F := F)) cellOf_inj) $$ HP with ⟨Hcg, Htk⟩
  imodintro
  isplitl [HH]; · iexact HH
  isplitl [Hcg Htk]
  · unfold G
    rw [bigSep_sep']
    ihave Hcg := (Entails.of_eq (ghost_one (F := F) (fun p c => Pipeline.cellsGhost cfgs EP p c))) $$ Hcg
    ihave Htk := (Entails.of_eq (ghost_one (F := F) (fun p c => Pipeline.toksInit cfgs EP p c))) $$ Htk
    isplitl [Hcg]
    · iexact Hcg
    · iexact Htk
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What the final memory must show on device `d`. -/
def fq (d : Dev nD) (s' : Phys nD τ sig (Elt F)) : Prop :=
  s'.mem.mem (v7Loc d) = Spec.kFinal (F := F) (outF m d) (fun _ => Spec.tcOut (F := F) (m (xLoc d)) (m (tLoc d)))
    ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Hv⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := v7Loc d) (I := Finset.univ) (q := fullShare)) $$ [HSI Hv]
  · isplitl [HSI] <;> iassumption
  icases H with %h3
  ipureintro
  exact ⟨funext fun i => h3 i (Finset.mem_univ i), funext fun i => h1 i (Finset.mem_univ i), funext fun i => h2 i (Finset.mem_univ i)⟩

/-- The run's post: on every device the result at `Spec.kFinal` of the partial sums and the TensorCore part's scalar, the
    arguments unchanged. -/
def QC : PUnit × MemSt nD τ sig (Elt F) → Prop := fun r => ∀ c : Dev nD,
  r.2.mem (v7Loc c) = Spec.kFinal (F := F) (outF m c) (fun _ => Spec.tcOut (F := F) (m (xLoc c)) (m (tLoc c)))
    ∧ r.2.mem (xLoc c) = m (xLoc c) ∧ r.2.mem (tLoc c) = m (tLoc c)

theorem run_main [∀ e, Nonempty (Elt F e)] (hT : TileBody (F := F) (U := UU) m) (hR : TcRegion (F := F) m) (hpre : TgtOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hT hpre)
    (fun q _ => match q with | 0 => SparseCore.Cfg.VecSplit.of_plain (vecSplit m))
    m ρ main (G (F := F)) (FIN m) (u₀ (F := F)) (sep_elim_left.trans (hu₀ m)) (hmain m ρ hR) (fq m) (hfin m) (QC m) (fun _ h => h)

end Cert.KernelIdeal.Launch

end
-- ==== Proof.Kernel.Iface.lean ====
/-
  Names shared by the modules that prove this program's run: the program as the SparseCore launch theorem sees it, the
  arrays and the scratch of one vector subcore as its kernel addresses them, and — as propositions, proved elsewhere —
  what one vector subcore's task does to its share of the arrays.

  Worker `w = 2·s + c` (vector subcore `s` of SparseCore `c`) reads rows `3584·w … 3584·w + 3583` of the table `x` and of the
  column words `t`, and writes row `w` of the 32×16 array of partial sums: that row ends at `Spec.partials x t`.
-/
import proofs.«213812_g11871289606185_cont_fleet_226_25_alg».proof.Kernel
import proofs.«213812_g11871289606185_cont_fleet_226_25_alg».proof.Proof.Gen.Kernel
import proofs.«213812_g11871289606185_cont_fleet_226_25_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Kernel.Iface

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays and one vector subcore's scratch -/

/-- The table `x`, the column words `t` (the arguments) and the partial sums `o`, as locations of device `d`. -/
abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

abbrev xV : Memref sig .scVector .hbm S262144x170 .f32 := Memref.whole main_arg0_scv
abbrev tV : Memref sig .scVector .hbm S262144 .i32 := Memref.whole main_arg1_scv
abbrev oV : Memref sig .scVector .hbm S32x16 .f32 := Memref.whole main_v0_scv
/-- A vector subcore's scratch: its 3584 column words, the two 128-row buffers, the accumulator's home. -/
abbrev sT : Memref sig .scVector .vmem S3584 .i32 := Memref.whole cc0_scratch0
abbrev sA : Memref sig .scVector .vmem S128x170 .f32 := Memref.whole cc0_scratch1
abbrev sB : Memref sig .scVector .vmem S128x170 .f32 := Memref.whole cc0_scratch2
abbrev sO : Memref sig .scVector .vmem S16 .f32 := Memref.whole cc0_scratch3

abbrev cV (L : grid0.Coords) : Fin τ.nSC := (L 0).castLE hcore0
abbrev jV (L : grid0.Coords) : Fin τ.nSub := (L 1).castLE hsub0

/-- The task of the vector subcore at grid coordinates `L`, as the body table applies the kernel function. -/
abbrev tileProg [FloatOps F] (L : grid0.Coords) :=
  cc0__sc_body (F := F) L xV (Memref.isWhole_whole _) tV (Memref.isWhole_whole _) oV (Memref.isWhole_whole _)
    sT (Memref.isWhole_whole _) sA (Memref.isWhole_whole _) sB (Memref.isWhole_whole _) sO (Memref.isWhole_whole _)
    cc0_scratch4 cc0_scratch5 cc0_scoped0 cc0_scoped1

/-- Row `2·s + c` of the partial sums as the task at `L = (c, s)` slices it: one row of sixteen lanes. -/
abbrev oRect (L : grid0.Coords) : Rect S32x16 := Rect.unit (s := S32x16) (k0_off31 L) S1x16.size (k0_off31_inb L)
abbrev oRowSet (L : grid0.Coords) : Finset S32x16.Idx := ((oV : Memref sig .scVector .hbm S32x16 .f32).view.slice (oRect L)).set

variable {U : Type} [URA U]

local notation "𝕄" => MT nD τ sig (HIx 1) (Elt F) ℕ U ℕ

variable (m : (ℓ : Loc nD τ sig) → Buf (Elt F) ℓ)

/-- Every column word names a column: below 170 (what the certificate's precondition says of `t`). -/
def TgtOK : Prop := ∀ (d : Dev nD) (r : S262144.Idx), (m (tLoc d) r).toNat < 170

variable [FloatOps F]

/-- The partial sums' array as the kernel leaves it: `Spec.partials` of the arguments. -/
def outF (d : Dev nD) : Buf (Elt F) (oLoc d) := Spec.partials (F := F) (m (xLoc d)) (m (tLoc d))

/-- **One vector subcore's task.** From a read share of `x` and of `t` whole (any shares), its own row of `o` at any
    contents, its scoped storage and what it owes, the task at `L` runs to its end, returns the shares, leaves its row of
    `o` at the partial sums' row, and owes what it owed (waits recorded at index `none` only). -/
def TileBody [CountersIn U] : Prop :=
  ∀ (d : Dev nD) (L : grid0.Coords) (qx qt : PosShare TreeShare) (fo : Buf (Elt F) (oLoc d))
    (O : CellTallies nD τ sig (HIx 1)) (W : Waits sig (HIx 1)), (∀ g, O g none = 0) → TgtOK m →
    iprop(levAts (K (F := F)).L (K (F := F)).lev
        ∗ ((xLoc d ↦{qx} m (xLoc d)) ∗ (tLoc d ↦{qt} m (tLoc d)) ∗ (oLoc d ↦[oRowSet L]{fullShare} fo))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ (tileProg (F := F) L)
          fun _ => iprop(((xLoc d ↦{qx} m (xLoc d)) ∗ (tLoc d ↦{qt} m (tLoc d)) ∗ (oLoc d ↦[oRowSet L]{fullShare} outF m d))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

end Cert.Kernel.Iface

end
-- ==== Proof.Kernel.Pay.lean ====
/-
  What the launch's handshakes carry, and the two obligations of the vector-subcore call that follow from one task's run.

  The call hands each SparseCore a read share of the table `x` and of the column words `t` (one of two tokens of the full
  share) and the sixteen rows of the partial sums its tasks write; the sequencer hands task `i` one of sixteen tokens of
  that share and its own row. Back come the same shares and the rows, now holding the partial sums.
-/
import proofs.«213812_g11871289606185_cont_fleet_226_25_alg».proof.Proof.Kernel.Iface

noncomputable section

namespace Cert.Kernel.Launch

open Cert.Kernel Cert.Kernel.Gen Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra: the handshakes' rounds, the pipeline's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans ((Emb.inr : Emb (UP × Counters) UU).trans
    (uEmb (nD := nD) (sig := sig) (Ix := HIx 1) (Val := Elt F) (Name := ℕ) (U := UU) (Lvl := ℕ)).toEmb)
instance EP_landsIn : (EP : Emb UP 𝕄).LandsIn (upEmb : UEmb _ 𝕄) := by unfold EP; infer_instance

/-! ## The grid of the call -/

theorem nCore_zero : (K (F := F)).nCore 0 = 2 := rfl
theorem nSub_zero : (K (F := F)).nSub 0 = 16 := rfl
theorem bound_zero : grid0.bound 0 = 2 := rfl
theorem bound_one : grid0.bound 1 = 16 := rfl

/-- The grid coordinates of vector subcore `s` of SparseCore `c`. -/
def coordsG (c : Fin (grid0.bound 0)) (s : Fin (grid0.bound 1)) : grid0.Coords :=
  fun | 0 => c | 1 => s | ⟨_ + 2, h⟩ => absurd h (Nat.not_lt.2 (Nat.le_add_left _ _))
abbrev coordsV (c : Fin 2) (s : Fin 16) : grid0.Coords := coordsG (Fin.cast bound_zero.symm c) (Fin.cast bound_one.symm s)

/-- SparseCore `c`'s token of the full share, and task `i`'s token of that. -/
abbrev qC (c : Fin 2) : PosShare TreeShare := Transfers.shareTok fullShare 2 c
abbrev qT (c : Fin 2) (i : Fin 16) : PosShare TreeShare := Transfers.shareTok (qC c) 16 i

variable (m : (ℓ : Loc nD τ sig) → Buf (Elt F) ℓ) (ρ : Dev nD → PrngReg)

variable [FloatOps F]

/-- A task's holdings: its tokens of `x` and `t`, its row of the partial sums at contents `f`. -/
abbrev taskPts (d : Dev nD) (c : Fin 2) (i : Fin 16) (f : Buf (Elt F) (oLoc d)) : sProp 𝕄 :=
  iprop((xLoc d ↦{qT c i} m (xLoc d)) ∗ (tLoc d ↦{qT c i} m (tLoc d)) ∗ (oLoc d ↦[oRowSet (coordsV c i)]{fullShare} f))
/-- A SparseCore's holdings: its tokens of `x` and `t`, its tasks' sixteen rows at contents `f`. -/
abbrev corePts (d : Dev nD) (c : Fin 2) (f : Buf (Elt F) (oLoc d)) : sProp 𝕄 :=
  iprop((xLoc d ↦{qC c} m (xLoc d)) ∗ (tLoc d ↦{qC c} m (tLoc d)) ∗ bigSep Finset.univ fun i : Fin 16 => oLoc d ↦[oRowSet (coordsV c i)]{fullShare} f)

def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (outF m d)
  go := fun q d c i => match q with | 0 => taskPts m d (Fin.cast nCore_zero c) (Fin.cast nSub_zero i) (m (oLoc d))
  td := fun q d c i => match q with | 0 => taskPts m d (Fin.cast nCore_zero c) (Fin.cast nSub_zero i) (outF m d)
  x := fun _ _ => iprop(emp)

instance P_storable : (P (F := F) m).IsStorable where
  st q d c := match q with | 0 => (inferInstance : BI.Storable (upEmb : UEmb _ 𝕄) (corePts m d (Fin.cast nCore_zero c) (m (oLoc d))))
  dn q d c := match q with | 0 => (inferInstance : BI.Storable (upEmb : UEmb _ 𝕄) (corePts m d (Fin.cast nCore_zero c) (outF m d)))
  go q d c i := match q with | 0 => (inferInstance : BI.Storable (upEmb : UEmb _ 𝕄) (taskPts m d (Fin.cast nCore_zero c) (Fin.cast nSub_zero i) (m (oLoc d))))
  td q d c i := match q with | 0 => (inferInstance : BI.Storable (upEmb : UEmb _ 𝕄) (taskPts m d (Fin.cast nCore_zero c) (Fin.cast nSub_zero i) (outF m d)))

/-! ## The task's obligation -/

theorem defs₀_vector (c : Fin τ.nSC) (s : Fin τ.nSub) :
    defs₀ (F := F) (.scVector c s) 0 ()
      = SparseCore.onTile hcore0 hsub0 (fun c s => cc0__sc_body (coordsG c s)
          xV (Memref.isWhole_whole _) tV (Memref.isWhole_whole _) oV (Memref.isWhole_whole _)
          sT (Memref.isWhole_whole _) sA (Memref.isWhole_whole _) sB (Memref.isWhole_whole _) sO (Memref.isWhole_whole _)
          cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem go_eq (d : Dev nD) (c : Fin ((K (F := F)).nCore 0)) (i : Fin ((K (F := F)).nSub 0))
    (h1 : ((K (F := F)).core 0 c).val < grid0.bound 0) (h2 : ((K (F := F)).sub 0 i).val < grid0.bound 1) :
    (P m).go 0 d c i = iprop((xLoc d ↦{qT (Fin.cast nCore_zero c) (Fin.cast nSub_zero i)} m (xLoc d))
      ∗ (tLoc d ↦{qT (Fin.cast nCore_zero c) (Fin.cast nSub_zero i)} m (tLoc d))
      ∗ (oLoc d ↦[oRowSet (coordsG ⟨_, h1⟩ ⟨_, h2⟩)]{fullShare} m (oLoc d))) := rfl

theorem tileObl (hT : TileBody (F := F) (U := UU) m) (hpre : TgtOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have key := (hT d (coordsG ⟨_, hc.1⟩ ⟨_, hc.2⟩) (qT (Fin.cast nCore_zero c) (Fin.cast nSub_zero i)) (qT (Fin.cast nCore_zero c) (Fin.cast nSub_zero i))
    (m (oLoc d)) O W hO hpre).trans (wp_mono frame _ _ fun _ => obl_post (q := 0))
  refine BI.Entails.trans ?_ key
  rw [go_eq m d c i hc.1 hc.2]
  show iprop(levAts _ _ ∗ _ ∗ _ ∗ _) ⊢ iprop(levAts _ _ ∗ _ ∗ _)
  iintro ⟨Hlv, -, Hgo, Hrest⟩
  isplitl [Hlv]; · iexact Hlv
  isplitl [Hgo]; · iexact Hgo
  iexact Hrest

/-! ## A SparseCore's operands split into its tasks', its results gathered from theirs -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show corePts m d (Fin.cast nCore_zero c) (m (oLoc d)) ⊢ |={Set.univ}=> iprop(
      (bigSep Finset.univ fun i : Fin ((K (F := F)).nSub 0) => taskPts m d (Fin.cast nCore_zero c) (Fin.cast nSub_zero i) (m (oLoc d)))
      ∗ ((bigSep Finset.univ fun i : Fin ((K (F := F)).nSub 0) => taskPts m d (Fin.cast nCore_zero c) (Fin.cast nSub_zero i) (outF m d))
          -∗ corePts m d (Fin.cast nCore_zero c) (outF m d)))
  rw [bigSep_tasks (F := F) (fun i => taskPts m d (Fin.cast nCore_zero c) i (m (oLoc d))),
    bigSep_tasks (F := F) (fun i => taskPts m d (Fin.cast nCore_zero c) i (outF m d)), bigSep_sep', bigSep_sep', bigSep_sep', bigSep_sep']
  iintro ⟨Hx, Ht, Ho⟩
  ihave Hx' := (Transfers.pointsTo_toks_split (qC (Fin.cast nCore_zero c)) 16) $$ Hx
  ihave Ht' := (Transfers.pointsTo_toks_split (qC (Fin.cast nCore_zero c)) 16) $$ Ht
  icases Hx' with ⟨Hxr, Hxs⟩
  icases Ht' with ⟨Htr, Hts⟩
  imodintro
  isplitl [Hxs Hts Ho]
  · isplitl [Hxs]; · iexact Hxs
    isplitl [Hts]; · iexact Hts
    iexact Ho
  iintro ⟨Hxs, Hts, Ho⟩
  isplitl [Hxr Hxs]
  · iapply (Transfers.pointsTo_toks_join (qC (Fin.cast nCore_zero c)) 16)
    isplitl [Hxr]; · iexact Hxr
    iexact Hxs
  isplitl [Htr Hts]
  · iapply (Transfers.pointsTo_toks_join (qC (Fin.cast nCore_zero c)) 16)
    isplitl [Htr]; · iexact Htr
    iexact Hts
  iexact Ho

end Cert.Kernel.Launch

end
-- ==== Proof.Kernel.Rows.lean ====
/-
  The 32×16 array of partial sums as its 32 rows: worker `2·i + c` (vector subcore `i` of SparseCore `c`) owns row
  `2·i + c`; the rows are pairwise disjoint and cover the array, so the array whole is its rows side by side.
-/
import proofs.«213812_g11871289606185_cont_fleet_226_25_alg».proof.Proof.Kernel.Pay

noncomputable section

namespace Cert.Kernel.Launch

open Cert.Kernel Cert.Kernel.Gen Cert.Kernel.Iface

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

theorem hdiv : 32 ∣ S32x16.size 0 := ⟨1, rfl⟩
abbrev row (w : Fin 32) : Rect S32x16 := Rect.part (s := S32x16) (a₀ := 0) hdiv w

/-- The row of vector subcore `i` of SparseCore `c`. -/
def wid (c : Fin 2) (i : Fin 16) : Fin 32 := ⟨2 * i.val + c.val, by omega⟩

theorem wid_injective : ∀ p p' : Fin 2 × Fin 16, wid p.1 p.2 = wid p'.1 p'.2 → p = p' := by
  rintro ⟨c, i⟩ ⟨c', i'⟩ h
  have h' : 2 * i.val + c.val = 2 * i'.val + c'.val := congrArg Fin.val h
  exact Prod.ext (Fin.ext (by show c.val = c'.val; omega)) (Fin.ext (by show i.val = i'.val; omega))

theorem oRect_eq (c : Fin 2) (i : Fin 16) : oRect (coordsV c i) = row (wid c i) := by
  unfold oRect row Rect.part Rect.block
  congr 1 <;> funext a
  · rw [k0_off31_eq]
    match a with
    | 0 => simp [Shape.partIx, Shape.partSize, coordsG, wid]
    | 1 => simp [Shape.partIx, Shape.partSize]
  · match a with
    | 0 => simp [Shape.partSize]
    | 1 => simp [Shape.partSize]

theorem oRowSet_eq (c : Fin 2) (i : Fin 16) : oRowSet (coordsV c i) = (row (wid c i)).set := by
  show ((View.whole (main_v0_scv : Ref sig .scVector)).slice (oRect (coordsV c i))).set = _
  rw [View.set_slice, oRect_eq]; exact Finset.map_refl

theorem rows_disjoint : ∀ p ∈ (Finset.univ : Finset (Fin 2 × Fin 16)), ∀ p' ∈ (Finset.univ : Finset (Fin 2 × Fin 16)), p ≠ p' →
    Disjoint (oRowSet (coordsV p.1 p.2)) (oRowSet (coordsV p'.1 p'.2)) := fun p _ p' _ h => by
  rw [oRowSet_eq, oRowSet_eq]; exact Rect.part_disjoint hdiv fun e => h (wid_injective p p' e)

theorem rows_cover : (Finset.univ : Finset (Fin 2 × Fin 16)).biUnion (fun p => oRowSet (coordsV p.1 p.2)) = Finset.univ := by
  ext j
  simp only [Finset.mem_biUnion, Finset.mem_univ, true_and, iff_true]
  obtain ⟨w, hw⟩ := Rect.exists_mem_part hdiv j
  refine ⟨(⟨w.val % 2, Nat.mod_lt _ (by decide)⟩, ⟨w.val / 2, by have := w.isLt; omega⟩), ?_⟩
  rw [oRowSet_eq]
  have e : wid (⟨w.val % 2, Nat.mod_lt _ (by decide)⟩ : Fin 2) (⟨w.val / 2, by have := w.isLt; omega⟩ : Fin 16) = w :=
    Fin.ext (by show 2 * (w.val / 2) + w.val % 2 = w.val; omega)
  rw [e]; exact hw

/-- The array whole is its 32 rows, grouped by SparseCore. -/
theorem oPts_rows (d : Dev nD) (f : Buf (Elt F) (oLoc d)) :
    (oLoc d ↦{fullShare} f : sProp 𝕄)
      = bigSep Finset.univ fun c : Fin 2 => bigSep Finset.univ fun i : Fin 16 => oLoc d ↦[oRowSet (coordsV c i)]{fullShare} f := by
  rw [← bigSep_univ_prod (fun p : Fin 2 × Fin 16 => (oLoc d ↦[oRowSet (coordsV p.1 p.2)]{fullShare} f : sProp 𝕄)),
    ← pointsTo_biUnion Finset.univ (ℓ := oLoc d) (fun p : Fin 2 × Fin 16 => oRowSet (coordsV p.1 p.2)) rows_disjoint, rows_cover]; try rfl

end Cert.Kernel.Launch

end
-- ==== Proof.Kernel.Host.lean ====
/-
  The host operations of @main around the two calls, and what they compute: before the TensorCore call, the column words
  of rows 114688… as an 18×4×2048 array (a slice, reshaped); after it, all partial sums added up, plus the TensorCore
  part's scalar, divided by 262144.
-/
import proofs.«213812_g11871289606185_cont_fleet_226_25_alg».proof.Proof.Kernel.Rows
import Idealize.ShloMosaic.Lib.Pipeline.Frame
import Idealize.ShloMosaic.Lib.Pipeline.Value

noncomputable section

namespace Cert.Kernel.Launch

open Cert.Kernel Cert.Kernel.Gen Cert.Kernel.Iface

open Idealize.ShloMosaic Idealize.ShloMosaic.TcCoe
open Idealize.ShloMosaic.SparseCore (S V T)
open Idealize.ShloMosaic.SparseCore.Cfg (HIx Pay)
open Idealize.ShloMosaic.StableHlo (held after)
open Idealize.ShloMosaic.ValueIdx

variable {F : FTy → Type} [FloatOps F]

abbrev x' : DevRef τ sig := Proc.devRef .tc (main_arg0 : Ref sig .tc)
abbrev t' : DevRef τ sig := Proc.devRef .tc (main_arg1 : Ref sig .tc)
abbrev o' : DevRef τ sig := Proc.devRef .tc (main_v0 : Ref sig .tc)
abbrev v3' : DevRef τ sig := Proc.devRef .tc (main_v3 : Ref sig .tc)
abbrev v4' : DevRef τ sig := Proc.devRef .tc (main_v4 : Ref sig .tc)
abbrev v7' : DevRef τ sig := Proc.devRef .tc (main_v7 : Ref sig .tc)

abbrev v3Loc (d : Dev nD) : Loc nD τ sig := (SparseCore.T d).loc main_v3
abbrev v4Loc (d : Dev nD) : Loc nD τ sig := (SparseCore.T d).loc main_v4
abbrev v7Loc (d : Dev nD) : Loc nD τ sig := (SparseCore.T d).loc main_v7

abbrev op1 : HloOp τ sig (Elt F) := StableHlo.nullary main_cst (constant S_ .f32 0x00000000#32)
abbrev op2 : HloOp τ sig (Elt F) := StableHlo.binary main_v0 main_cst main_v1 ((fun x v => Host.reduceAdd x v Facts₀.reducesTo_S32x16_S_d0_1 Facts₀.h_S_) : (⟨S32x16, .f32⟩ : BufTy).Contents (Elt F) → (⟨S_, .f32⟩ : BufTy).Contents (Elt F) → (⟨S_, .f32⟩ : BufTy).Contents (Elt F))
abbrev op3 : HloOp τ sig (Elt F) := StableHlo.unary main_arg1 main_v2 ((extractStridedSlice S147456 ![114688] · Facts₀.slices_S262144_S147456_114688) : (⟨S262144, .i32⟩ : BufTy).Contents (Elt F) → (⟨S147456, .i32⟩ : BufTy).Contents (Elt F))
abbrev op4 : HloOp τ sig (Elt F) := StableHlo.reshape main_v2 main_v3 rfl Facts₀.shapeCasts_S147456_S18x4x2048
abbrev op5 : HloOp τ sig (Elt F) := StableHlo.reshape main_v4 main_v5 rfl Facts₀.shapeCasts_S1x1_S_
abbrev op6 : HloOp τ sig (Elt F) := StableHlo.binary main_v1 main_v5 main_v6 (addf : (⟨S_, .f32⟩ : BufTy).Contents (Elt F) → (⟨S_, .f32⟩ : BufTy).Contents (Elt F) → (⟨S_, .f32⟩ : BufTy).Contents (Elt F))
abbrev op7 : HloOp τ sig (Elt F) := StableHlo.nullary main_cst_0 (constant S_ .f32 0x48800000#32)
abbrev op8 : HloOp τ sig (Elt F) := StableHlo.binary main_v6 main_cst_0 main_v7 (Host.divf : (⟨S_, .f32⟩ : BufTy).Contents (Elt F) → (⟨S_, .f32⟩ : BufTy).Contents (Elt F) → (⟨S_, .f32⟩ : BufTy).Contents (Elt F))

variable (m : (ℓ : Loc nD τ sig) → Buf (Elt F) ℓ)

/-- The launch contents; after the SparseCore call (the partial sums written); after the first four host operations;
    after the TensorCore call (its scalar written); after the last four. -/
def V0 (d : Dev nD) : Valuation τ sig (Elt F) := fun b => m (d, b)
def V1 (d : Dev nD) : Valuation τ sig (Elt F) := Function.update (V0 m d) o' (outF m d)
def V5 (d : Dev nD) : Valuation τ sig (Elt F) := after [op1, op2, op3, op4] (V1 m d)
def V6 (d : Dev nD) : Valuation τ sig (Elt F) := Function.update (V5 m d) v4' (fun _ => Spec.tcOut (F := F) (m (xLoc d)) (m (tLoc d)))
def V10 (d : Dev nD) : Valuation τ sig (Elt F) := after [op5, op6, op7, op8] (V6 m d)

theorem V1_x (d : Dev nD) : V1 m d x' = m (xLoc d) := Function.update_of_ne (show x' ≠ o' by decide) _ _
theorem V1_t (d : Dev nD) : V1 m d t' = m (tLoc d) := Function.update_of_ne (show t' ≠ o' by decide) _ _
theorem V1_o (d : Dev nD) : V1 m d o' = outF m d := Function.update_self _ _ _

open Idealize.ShloMosaic.StableHlo in
theorem V5_x (d : Dev nD) : V5 m d x' = m (xLoc d) := by
  unfold V5; after_results_simp; exact V1_x m d
open Idealize.ShloMosaic.StableHlo in
theorem V5_t (d : Dev nD) : V5 m d t' = m (tLoc d) := by
  unfold V5; after_results_simp; exact V1_t m d
open Idealize.ShloMosaic.StableHlo in
theorem V5_o (d : Dev nD) : V5 m d o' = outF m d := by
  unfold V5; after_results_simp; exact V1_o m d

open Idealize.ShloMosaic.StableHlo in
theorem V5_v3 (d : Dev nD) :
    V5 m d v3' = shapeCast S18x4x2048 (extractStridedSlice S147456 ![114688] (m (tLoc d)) Facts₀.slices_S262144_S147456_114688) Facts₀.shapeCasts_S147456_S18x4x2048 := by
  unfold V5; after_results_simp; rw [V1_t]; rfl

/-- The 18×4×2048 array handed to the TensorCore call holds the column words of rows 114688…, row-major. -/
theorem V5_v3_apply (d : Dev nD) (j : S18x4x2048.Idx) :
    V5 m d v3' j = m (tLoc d) (ix1 (Spec.rowOf (114688 + 8192 * (j 0).val + 2048 * (j 1).val + (j 2).val))) := by
  rw [V5_v3]
  have h0 : (j 0).val < 18 := (j 0).isLt
  have h1 : (j 1).val < 4 := (j 1).isLt
  have h2 : (j 2).val < 2048 := (j 2).isLt
  have hk : 8192 * (j 0).val + 2048 * (j 1).val + (j 2).val < 147456 := by omega
  rw [shapeCast_apply _ _ j (ix1 (⟨8192 * (j 0).val + 2048 * (j 1).val + (j 2).val, hk⟩ : Fin 147456))
    (by rw [Shape.rowMajor_val_one, Shape.rowMajor_val_three]; simp; omega)]
  rw [extractStridedSlice_apply _ _ _ _ (ix1 (Spec.rowOf (114688 + 8192 * (j 0).val + 2048 * (j 1).val + (j 2).val)))
    (by intro a; match a with | ⟨0, _⟩ => simp [Spec.rowOf]; omega)]

theorem V6_v4 (d : Dev nD) : V6 m d v4' = fun _ => Spec.tcOut (F := F) (m (xLoc d)) (m (tLoc d)) := Function.update_self _ _ _
theorem V6_x (d : Dev nD) : V6 m d x' = m (xLoc d) := (Function.update_of_ne (show x' ≠ v4' by decide) _ _).trans (V5_x m d)
theorem V6_t (d : Dev nD) : V6 m d t' = m (tLoc d) := (Function.update_of_ne (show t' ≠ v4' by decide) _ _).trans (V5_t m d)

open Idealize.ShloMosaic.StableHlo in
theorem V5_v1 (d : Dev nD) :
    V5 m d (Proc.devRef .tc (main_v1 : Ref sig .tc))
      = Host.reduceAdd (outF m d) (constant S_ .f32 0x00000000#32) Facts₀.reducesTo_S32x16_S_d0_1 Facts₀.h_S_ := by
  unfold V5; after_results_simp; rw [V1_o]

open Idealize.ShloMosaic.StableHlo in
theorem V10_x (d : Dev nD) : V10 m d x' = m (xLoc d) := by
  unfold V10; after_results_simp; exact V6_x m d
open Idealize.ShloMosaic.StableHlo in
theorem V10_t (d : Dev nD) : V10 m d t' = m (tLoc d) := by
  unfold V10; after_results_simp; exact V6_t m d

open Idealize.ShloMosaic.StableHlo in
/-- The result: the partial sums added up, plus the TensorCore part's scalar, over 262144. -/
theorem V10_v7 (d : Dev nD) :
    V10 m d v7' = Spec.kFinal (F := F) (outF m d) (fun _ => Spec.tcOut (F := F) (m (xLoc d)) (m (tLoc d))) := by
  unfold V10; after_results_simp
  rw [V6_v4, show V6 m d (Proc.devRef .tc (main_v1 : Ref sig .tc)) = V5 m d (Proc.devRef .tc (main_v1 : Ref sig .tc)) from
    Function.update_of_ne (show (Proc.devRef .tc (main_v1 : Ref sig .tc) : DevRef τ sig) ≠ v4' by decide) _ _, V5_v1]
  rfl

end Cert.Kernel.Launch

end
-- ==== Proof.Kernel.Main.lean ====
/-
  @main on the TensorCore: the SparseCore call (the table and the column words lent out as read tokens, the partial sums'
  rows handed over), four host operations, the TensorCore call, four more; what it leaves: the arguments as they were and
  the result at `Spec.kFinal` of the partial sums and the TensorCore part's scalar.
-/
import proofs.«213812_g11871289606185_cont_fleet_226_25_alg».proof.Proof.Kernel.Host
import Idealize.ShloMosaic.Lib.Pipeline.Sound

noncomputable section

namespace Cert.Kernel.Launch

open Cert.Kernel Cert.Kernel.Gen Cert.Kernel.Iface

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within after)
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

variable [FloatOps F]

/-- The 18×4×2048 array holds the column words of rows 114688…, row-major. -/
def V3OK (d : Dev nD) (V3 : Buf (Elt F) (v3Loc d)) : Prop :=
  ∀ j : S18x4x2048.Idx, V3 j = m (tLoc d) (ix1 (Spec.rowOf (114688 + 8192 * (j 0).val + 2048 * (j 1).val + (j 2).val)))

/-- **The TensorCore call**, as a proposition proved elsewhere: from the region boundary, the pipeline's ghost state, the
    column words' array, the table and the output cell, it runs to its end and leaves the output at `Spec.tcOut`. -/
def TcRegion : Prop :=
  ∀ (d : Dev nD) (q3 qx : PosShare TreeShare) (V3 : Buf (Elt F) (v3Loc d)) (f4 : Buf (Elt F) (v4Loc d)), V3OK m d V3 →
    ∀ (O : CellTallies nD τ sig (HIx 1)) (W : Waits sig (HIx 1)), (∀ g, O g none = 0) →
    iprop(boundary (SparseCore.T d) ∗ levAts (K (F := F)).L (K (F := F)).lev
        ∗ Pipeline.cellsGhost cfgs EP 0 d ∗ Pipeline.toksInit cfgs EP 0 d
        ∗ (v3Loc d ↦{q3} V3) ∗ (xLoc d ↦{qx} m (xLoc d)) ∗ (v4Loc d ↦{fullShare} f4) ∗ owes (SparseCore.T d) O W)
      ⊢ (wp frame (wpE ((K (F := F)).defs (D (F := F))) 𝒱 (SparseCore.T d) none) Set.univ
          (Prog.lift (.customCall (SparseCore.inner (Pipeline.entry 0)) ()))
          fun _ => iprop(boundary (SparseCore.T d) ∗ (v3Loc d ↦{q3} V3) ∗ (xLoc d ↦{qx} m (xLoc d))
            ∗ (v4Loc d ↦{fullShare} fun _ => Spec.tcOut (m (xLoc d)) (m (tLoc d))) ∗ ∃ W', ⌜∀ p ∈ W', p ∈ W ∨ p.2 = none⌝ ∗ owes (SparseCore.T d) O W') : sProp 𝕄)

/-! ## The TensorCore's arrays as held sets -/

abbrev Sall : Finset (DevRef τ sig) := Pipeline.ucRefs τ sig
abbrev S3 : Finset (DevRef τ sig) := {x', t', o'}
abbrev R3 : Finset (DevRef τ sig) := {v3', x', v4'}
abbrev F3 : Finset (DevRef τ sig) := {x', t', v7'}

omit [FloatOps F] in
theorem held_S3 (d : Dev nD) (W : Valuation τ sig (Elt F)) :
    (held (T d) S3 W : sProp 𝕄) = iprop((xLoc d ↦{fullShare} W x') ∗ (tLoc d ↦{fullShare} W t') ∗ oLoc d ↦{fullShare} W o') := by
  unfold held S3
  rw [SparseCore.bigSep_insert' (by decide), SparseCore.bigSep_insert' (by decide), bigSep_singleton]
omit [FloatOps F] in
theorem held_R3 (d : Dev nD) (W : Valuation τ sig (Elt F)) :
    (held (T d) R3 W : sProp 𝕄) = iprop((v3Loc d ↦{fullShare} W v3') ∗ (xLoc d ↦{fullShare} W x') ∗ v4Loc d ↦{fullShare} W v4') := by
  unfold held R3
  rw [SparseCore.bigSep_insert' (by decide), SparseCore.bigSep_insert' (by decide), bigSep_singleton]
omit [FloatOps F] in
theorem held_F3 (d : Dev nD) (W : Valuation τ sig (Elt F)) :
    (held (T d) F3 W : sProp 𝕄) = iprop((xLoc d ↦{fullShare} W x') ∗ (tLoc d ↦{fullShare} W t') ∗ v7Loc d ↦{fullShare} W v7') := by
  unfold held F3
  rw [SparseCore.bigSep_insert' (by decide), SparseCore.bigSep_insert' (by decide), bigSep_singleton]

omit [FloatOps F] in
theorem held_S3_V0 (d : Dev nD) :
    (held (T d) S3 (V0 m d) : sProp 𝕄) = iprop((xLoc d ↦{fullShare} m (xLoc d)) ∗ (tLoc d ↦{fullShare} m (tLoc d)) ∗ oLoc d ↦{fullShare} m (oLoc d)) :=
  held_S3 d (V0 m d)

omit [FloatOps F] in
theorem unscoped_held (d : Dev nD) :
    (unscopedBufs d (fun b => m ((SparseCore.T d).loc b)) : sProp 𝕄) = held (SparseCore.T d) Sall (V0 m d) :=
  Pipeline.unscopedBufs_held d (V0 m d)

theorem S3_sub : S3 ⊆ Sall := by decide
theorem R3_sub : R3 ⊆ Sall := by decide
theorem F3_sub : F3 ⊆ Sall := by decide

/-! ## What the call takes for the two SparseCores, and what it hands back -/

theorem st0_eq (d : Dev nD) :
    (bigSep Finset.univ fun c : Fin ((K (F := F)).nCore 0) => (P m).st 0 d c) = bigSep Finset.univ fun c : Fin 2 => corePts m d c (m (oLoc d)) :=
  bigSep_congr fun _ _ => rfl
theorem dn0_eq (d : Dev nD) :
    (bigSep Finset.univ fun c : Fin ((K (F := F)).nCore 0) => (P m).dn 0 d c) = bigSep Finset.univ fun c : Fin 2 => corePts m d c (outF m d) :=
  bigSep_congr fun _ _ => rfl

theorem dn_split (d : Dev nD) :
    (bigSep Finset.univ fun c : Fin ((K (F := F)).nCore 0) => (P m).dn 0 d c)
      = iprop((bigSep Finset.univ fun c : Fin 2 => xLoc d ↦{qC c} m (xLoc d)) ∗ (bigSep Finset.univ fun c : Fin 2 => tLoc d ↦{qC c} m (tLoc d))
          ∗ bigSep Finset.univ fun c : Fin 2 => bigSep Finset.univ fun i : Fin 16 => oLoc d ↦[oRowSet (coordsV c i)]{fullShare} outF m d) := by
  rw [dn0_eq, bigSep_sep', bigSep_sep']

theorem V01 (d : Dev nD) : ∀ b ∈ Sall \ S3, V0 m d b = V1 m d b := fun b hb =>
  (Function.update_of_ne (fun e : b = o' => (Finset.mem_sdiff.mp hb).2 (e.symm ▸ (by decide : o' ∈ S3))) _ _).symm
theorem V56 (d : Dev nD) : ∀ b ∈ Sall \ R3, V5 m d b = V6 m d b := fun b hb =>
  (Function.update_of_ne (fun e : b = v4' => (Finset.mem_sdiff.mp hb).2 (e.symm ▸ (by decide : v4' ∈ R3))) _ _).symm

theorem h_op1 : (op1 (F := F)).bufs ⊆ Sall := Pipeline.sub_ucRefs _ (StableHlo.nullary_bufs_sub ..)
theorem h_op2 : (op2 (F := F)).bufs ⊆ Sall := Pipeline.sub_ucRefs _ (StableHlo.binary_bufs_sub ..)
theorem h_op3 : (op3 (F := F)).bufs ⊆ Sall := Pipeline.sub_ucRefs _ (StableHlo.unary_bufs_sub ..)
theorem h_op4 : (op4 (F := F)).bufs ⊆ Sall := Pipeline.sub_ucRefs _ (StableHlo.reshape_bufs_sub ..)
theorem h_op5 : (op5 (F := F)).bufs ⊆ Sall := Pipeline.sub_ucRefs _ (StableHlo.reshape_bufs_sub ..)
theorem h_op6 : (op6 (F := F)).bufs ⊆ Sall := Pipeline.sub_ucRefs _ (StableHlo.binary_bufs_sub ..)
theorem h_op7 : (op7 (F := F)).bufs ⊆ Sall := Pipeline.sub_ucRefs _ (StableHlo.nullary_bufs_sub ..)
theorem h_op8 : (op8 (F := F)).bufs ⊆ Sall := Pipeline.sub_ucRefs _ (StableHlo.binary_bufs_sub ..)

theorem Otc_one (d : Dev nD) : (K (F := F)).Otc d ((0 : Fin 1).val + 1) = 0 := (K (F := F)).Otc_end d (Nat.le_refl 1)

/-- The TensorCore's handshake state before call `n`, but what it owes. -/
abbrev tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom (Q := 1) n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))
omit [FloatOps F] in
theorem tcSt_open (d : Dev nD) (n : ℕ) :
    ((K (F := F)).tcSt EH d n : sProp 𝕄)
      = iprop((∃ W, ⌜(K (F := F)).WBelow (T d) W (8 * n)⌝ ∗ owes (T d) ((K (F := F)).Otc d n) W) ∗ tcRest (F := F) d n) := by
  unfold SparseCore.Cfg.tcSt; rfl

/-- What the launch element deals the TensorCore of `d` beside the handshakes: the pipeline's ghost state. -/
abbrev G (d : Dev nD) : sProp 𝕄 := iprop(Pipeline.cellsGhost cfgs EP 0 d ∗ Pipeline.toksInit cfgs EP 0 d)

/-- What @main leaves the claim: the arguments at their launch contents and the result. -/
abbrev FIN (d : Dev nD) : sProp 𝕄 :=
  iprop((xLoc d ↦{fullShare} m (xLoc d)) ∗ (tLoc d ↦{fullShare} m (tLoc d))
    ∗ (v7Loc d ↦{fullShare} Spec.kFinal (F := F) (outF m d) (fun _ => Spec.tcOut (F := F) (m (xLoc d)) (m (tLoc d)))))

theorem hmain (hR : TcRegion (F := F) m) (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, ⟨Hcg, Htk⟩⟩
  ihave Hh := (Entails.of_eq (held_sub_split (T d) S3_sub (V0 m d))) $$ Hheld
  icases Hh with ⟨H3, Hrest⟩
  ihave H3' := (Entails.of_eq (held_S3_V0 (F := F) m d)) $$ H3
  icases H3' with ⟨Hx, Ht, Ho⟩
  ihave Hx' := (Transfers.pointsTo_toks_split fullShare 2) $$ Hx
  icases Hx' with ⟨Hxr, Hxs⟩
  ihave Ht' := (Transfers.pointsTo_toks_split fullShare 2) $$ Ht
  icases Ht' with ⟨Htr, Hts⟩
  ihave Ho' := (Entails.of_eq (oPts_rows (F := F) d _)) $$ Ho
  iapply ((K (F := F)).wp_run (D (F := F)) 𝒱 (EH := EH) (P := P m) κ d 0) $$ [Hst Hxs Hts Ho' Hxr Htr Hb Hrest Hcg Htk]
  isplitr; · iexact Hctx
  isplitl [Hst]; · iexact Hst
  isplitl [Hxs Hts Ho']
  · rw [st0_eq, bigSep_sep', bigSep_sep']
    isplitl [Hxs]; · iexact Hxs
    isplitl [Hts]; · iexact Hts
    iexact Ho'
  iintro ⟨Hst, Hdn⟩
  ihave Hdn' := (Entails.of_eq (dn_split m d)) $$ Hdn
  icases Hdn' with ⟨Hxs, Hts, Ho'⟩
  ihave Hx := (Transfers.pointsTo_toks_join fullShare 2) $$ [Hxr Hxs]
  · isplitl [Hxr] <;> iassumption
  ihave Ht := (Transfers.pointsTo_toks_join fullShare 2) $$ [Htr Hts]
  · isplitl [Htr] <;> iassumption
  ihave Ho := (Entails.of_eq (oPts_rows (F := F) d (outF m d)).symm) $$ Ho'
  ihave H3 := (Entails.of_eq (held_S3 (F := F) d (V1 m d)).symm) $$ [Hx Ht Ho]
  · rw [V1_x, V1_t, V1_o]
    isplitl [Hx]; · iexact Hx
    isplitl [Ht]; · iexact Ht
    iexact Ho
  ihave Hrest' := (Entails.of_eq (held_congr (T d) (V01 (F := F) m d))) $$ Hrest
  ihave Hheld := (Entails.of_eq (held_sub_split (T d) S3_sub (V1 m d)).symm) $$ [H3 Hrest']
  · isplitl [H3] <;> iassumption
  -- the four host operations before the TensorCore call
  iapply (wp_hlo_within 𝒱 (SparseCore.T d) none Set.univ (op := op1) (S := Sall) h_op1 (V := V1 m d)) $$ [Hb Hheld]
  · isplitl [Hb] <;> iassumption
  iintro ⟨Hb, Hheld⟩
  rw [wp_ret]; imodintro
  iapply (wp_hlo_within 𝒱 (SparseCore.T d) none Set.univ (op := op2) (S := Sall) h_op2) $$ [Hb Hheld]
  · isplitl [Hb] <;> iassumption
  iintro ⟨Hb, Hheld⟩
  rw [wp_ret]; imodintro
  iapply (wp_hlo_within 𝒱 (SparseCore.T d) none Set.univ (op := op3) (S := Sall) h_op3) $$ [Hb Hheld]
  · isplitl [Hb] <;> iassumption
  iintro ⟨Hb, Hheld⟩
  rw [wp_ret]; imodintro
  iapply (wp_hlo_within 𝒱 (SparseCore.T d) none Set.univ (op := op4) (S := Sall) h_op4) $$ [Hb Hheld]
  · isplitl [Hb] <;> iassumption
  iintro ⟨Hb, Hheld⟩
  rw [wp_ret]; imodintro
  -- the TensorCore call
  ihave Hheld := (Entails.of_eq (show (held (T d) Sall ((op4 (F := F)).result ((op3 (F := F)).result ((op2 (F := F)).result ((op1 (F := F)).result (V1 m d))))) : sProp 𝕄)
      = held (T d) Sall (V5 m d) from rfl)) $$ Hheld
  ihave Hh := (Entails.of_eq (held_sub_split (T d) R3_sub (V5 m d))) $$ Hheld
  icases Hh with ⟨H3, Hrest⟩
  ihave H3' := (Entails.of_eq (held_R3 (F := F) d _)) $$ H3
  icases H3' with ⟨Hv3, Hx, Hv4⟩
  have hopen := tcSt_open (F := F) d ((0 : Fin 1).val + 1)
  ihave Hst' := (Entails.of_eq hopen) $$ Hst
  icases Hst' with ⟨⟨%W, %hW, HO⟩, Hst2⟩
  ihave Hlv := ((K (F := F)).ctx_levAts κ) $$ Hctx
  ihave Hwp := (hR d fullShare fullShare (V5 m d v3') (V5 m d v4') (V5_v3_apply m d) ((K (F := F)).Otc d ((0 : Fin 1).val + 1)) W
      (fun g => by rw [Otc_one]; rfl)) $$ [Hb Hlv Hcg Htk Hv3 Hx Hv4 HO]
  · isplitl [Hb]; · iexact Hb
    isplitl [Hlv]; · iexact Hlv
    isplitl [Hcg]; · iexact Hcg
    isplitl [Htk]; · iexact Htk
    isplitl [Hv3]; · iexact Hv3
    isplitl [Hx]; · rw [V5_x]; iexact Hx
    isplitl [Hv4]; · iexact Hv4
    iexact HO
  iapply (wp_wand frame _ Set.univ) $$ Hwp
  iintro %_ ⟨Hb, Hv3, Hx, Hv4, %W', %hW', HO⟩
  ihave H3 := (Entails.of_eq (held_R3 (F := F) d (V6 m d)).symm) $$ [Hv3 Hx Hv4]
  · rw [V6_x, V6_v4, show V6 m d v3' = V5 m d v3' from Function.update_of_ne (show v3' ≠ v4' by decide) _ _]
    isplitl [Hv3]; · iexact Hv3
    isplitl [Hx]; · iexact Hx
    iexact Hv4
  ihave Hrest' := (Entails.of_eq (held_congr (T d) (V56 (F := F) m d))) $$ Hrest
  ihave Hheld := (Entails.of_eq (held_sub_split (T d) R3_sub (V6 m d)).symm) $$ [H3 Hrest']
  · isplitl [H3] <;> iassumption
  -- the four host operations after it
  iapply (wp_hlo_within 𝒱 (SparseCore.T d) none Set.univ (op := op5) (S := Sall) h_op5 (V := V6 m d)) $$ [Hb Hheld]
  · isplitl [Hb] <;> iassumption
  iintro ⟨Hb, Hheld⟩
  rw [wp_ret]; imodintro
  iapply (wp_hlo_within 𝒱 (SparseCore.T d) none Set.univ (op := op6) (S := Sall) h_op6) $$ [Hb Hheld]
  · isplitl [Hb] <;> iassumption
  iintro ⟨Hb, Hheld⟩
  rw [wp_ret]; imodintro
  iapply (wp_hlo_within 𝒱 (SparseCore.T d) none Set.univ (op := op7) (S := Sall) h_op7) $$ [Hb Hheld]
  · isplitl [Hb] <;> iassumption
  iintro ⟨Hb, Hheld⟩
  rw [wp_ret]; imodintro
  iapply (wp_hlo_within 𝒱 (SparseCore.T d) none Set.univ (op := op8) (S := Sall) h_op8) $$ [Hb Hheld]
  · isplitl [Hb] <;> iassumption
  iintro ⟨Hb, Hheld⟩
  ihave Hheld := (Entails.of_eq (show (held (T d) Sall ((op8 (F := F)).result ((op7 (F := F)).result ((op6 (F := F)).result ((op5 (F := F)).result (V6 m d))))) : sProp 𝕄)
      = held (T d) Sall (V10 m d) from rfl)) $$ Hheld
  ihave Hh := (Entails.of_eq (held_sub_split (T d) F3_sub (V10 m d))) $$ Hheld
  icases Hh with ⟨H3, -⟩
  ihave H3' := (Entails.of_eq (held_F3 (F := F) d _)) $$ H3
  icases H3' with ⟨Hx, Ht, Hv7⟩
  rw [wp_ret]; imodintro; imodintro
  isplitl [Hst2 HO]
  · iapply (Entails.of_eq hopen.symm)
    isplitl [HO]
    · iexists W'; isplitr
      · ipureintro; intro p hp
        rcases hW' p hp with h | h
        · exact hW p h
        · rw [h]; exact Nat.zero_le _
      · iexact HO
    · iexact Hst2
  isplitl [Hx]; · rw [V10_x]; iexact Hx
  isplitl [Ht]; · rw [V10_t]; iexact Ht
  rw [V10_v7]; iexact Hv7

end Cert.Kernel.Launch

end
-- ==== Proof.Kernel.Run.lean ====
/-
  The launch element (the handshakes' rounds, the pipeline's staging cells' ghost state, nothing for the kernels' own
  cells: the tasks' copies are local), how the final memory reads the claim, and the program's run: every weakly fair
  execution of the device's threads ends, with the arguments as they were and the result at `Spec.kFinal`.
-/
import proofs.«213812_g11871289606185_cont_fleet_226_25_alg».proof.Proof.Kernel.Main
import proofs.«213812_g11871289606185_cont_fleet_226_25_alg».proof.Proof.Gen.Kernel.Launch

noncomputable section

namespace Cert.Kernel.Launch

open Cert.Kernel Cert.Kernel.Gen Cert.Kernel.Iface

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

def u₀ : UU :=
  (initOf (K (F := F)).hsCells (K (F := F)).hsToks, (initOf (Pipeline.cells cfgs cellOf_inj) (Pipeline.launchToks cfgs cellOf_inj), 1))

theorem bigSep_emp' {I : Type} (s : Finset I) : (bigSep s fun _ => iprop(emp)) = (iprop(emp) : sProp 𝕄) := bigSep_emp_const s

theorem ghost_one (X : Fin 1 → Dev nD → sProp 𝕄) :
    (bigSep Finset.univ fun c : Dev nD => bigSep Finset.univ fun p : Fin 1 => X p c) = bigSep Finset.univ fun c : Dev nD => X 0 c :=
  bigSep_congr fun _ _ => bigSep_univ_of_subsingleton (0 : Fin 1)

variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP, -⟩
  have e : (BI.own (((Emb.inl : Emb UP (UP × Counters)).trans embR) (initOf (Pipeline.cells cfgs cellOf_inj) (Pipeline.launchToks cfgs cellOf_inj))) : sProp 𝕄)
      = BI.own ((EP (F := F)) (initOf (Pipeline.cells cfgs cellOf_inj) (Pipeline.launchToks cfgs cellOf_inj))) := rfl
  ihave HP := (Entails.of_eq e) $$ HP
  imod (Pipeline.fund_ghost cfgs (EP (F := F)) cellOf_inj) $$ HP with ⟨Hcg, Htk⟩
  imodintro
  isplitl [HH]; · iexact HH
  isplitl [Hcg Htk]
  · unfold G
    rw [bigSep_sep']
    ihave Hcg := (Entails.of_eq (ghost_one (F := F) (fun p c => Pipeline.cellsGhost cfgs EP p c))) $$ Hcg
    ihave Htk := (Entails.of_eq (ghost_one (F := F) (fun p c => Pipeline.toksInit cfgs EP p c))) $$ Htk
    isplitl [Hcg]
    · iexact Hcg
    · iexact Htk
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What the final memory must show on device `d`. -/
def fq (d : Dev nD) (s' : Phys nD τ sig (Elt F)) : Prop :=
  s'.mem.mem (v7Loc d) = Spec.kFinal (F := F) (outF m d) (fun _ => Spec.tcOut (F := F) (m (xLoc d)) (m (tLoc d)))
    ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Hv⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := v7Loc d) (I := Finset.univ) (q := fullShare)) $$ [HSI Hv]
  · isplitl [HSI] <;> iassumption
  icases H with %h3
  ipureintro
  exact ⟨funext fun i => h3 i (Finset.mem_univ i), funext fun i => h1 i (Finset.mem_univ i), funext fun i => h2 i (Finset.mem_univ i)⟩

/-- The run's post: on every device the result at `Spec.kFinal` of the partial sums and the TensorCore part's scalar, the
    arguments unchanged. -/
def QC : PUnit × MemSt nD τ sig (Elt F) → Prop := fun r => ∀ c : Dev nD,
  r.2.mem (v7Loc c) = Spec.kFinal (F := F) (outF m c) (fun _ => Spec.tcOut (F := F) (m (xLoc c)) (m (tLoc c)))
    ∧ r.2.mem (xLoc c) = m (xLoc c) ∧ r.2.mem (tLoc c) = m (tLoc c)

theorem run_main [∀ e, Nonempty (Elt F e)] (hT : TileBody (F := F) (U := UU) m) (hR : TcRegion (F := F) m) (hpre : TgtOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hT hpre)
    (fun q _ => match q with | 0 => SparseCore.Cfg.VecSplit.of_plain (vecSplit m))
    m ρ main (G (F := F)) (FIN m) (u₀ (F := F)) (sep_elim_left.trans (hu₀ m)) (hmain m ρ hR) (fq m) (hfin m) (QC m) (fun _ h => h)

end Cert.Kernel.Launch

end
-- ==== Proof.KernelIdeal.TileBase.lean ====
/-
  One vector subcore's task in names: worker `w = 2·s + c` owns rows `base = 3584·w … base + 3583` of the table `x` and of the
  column words `t`; it fetches the 3584 words once and the rows in 28 chunks of 128, and adds `(1 − x[r, t r])²` into a
  sixteen-lane accumulator, sixteen rows (one per lane) at a time. Here: the slices the kernel takes, what a copy reads off
  them, the accumulator after `n` groups (`Spec.tileAcc`), and the one shape all 28 eight-trip loops share.
-/
import proofs.«213812_g11871289606185_cont_fleet_226_25_alg».proof.Proof.KernelIdeal.Iface
import proofs.«213812_g11871289606185_cont_fleet_226_25_alg».proof.Proof.KernelIdeal.SkeletonP

noncomputable section

namespace Cert.KernelIdeal.Tile

open Cert.KernelIdeal Cert.KernelIdeal.Gen Cert.KernelIdeal.GenP Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

/-- The vector subcore the task at `L` runs on. -/
abbrev thr (d : Dev nD) (L : grid0.Coords) : Thread nD τ := V d (cV L) (jV L)

/-- The first of the task's 3584 rows: `3584·(2·s + c)`. -/
def base (L : grid0.Coords) : ℕ := 7168 * (L 1).val + 3584 * (L 0).val

/-- The task's slice of `t`: its 3584 column words, as the kernel slices them. -/
abbrev tSl (L : grid0.Coords) : Memref sig .scVector .hbm S3584 .i32 :=
  (tV : Memref sig .scVector .hbm S262144 .i32).slice (Rect.unit (s := S262144) (k0_off1 L) S3584.size (k0_off1_inb L)) (fun _ => rfl)

/-- A 128-row chunk of `x` at the row word `c` past the task's first row, as the kernel slices it. -/
abbrev xSl (L : grid0.Coords) (c : BitVec 32) (h : ∀ a, (k0_off2 L c) a + S128x170.size a ≤ S262144x170.size a) : Memref sig .scVector .hbm S128x170 .f32 :=
  (xV : Memref sig .scVector .hbm S262144x170 .f32).slice (Rect.unit (s := S262144x170) (k0_off2 L c) S128x170.size h) (fun _ => rfl)

/-- The task's 3584 column words, as its first copy reads them off `t`. -/
def tRd (d : Dev nD) (L : grid0.Coords) : S3584.Idx → Elt F .i32 := (tSl L).view.read (Elt F) (m (tLoc d))

/-- A chunk of the task's rows of `x`, as a copy reads it off `x`. -/
def xRd (d : Dev nD) (L : grid0.Coords) (c : BitVec 32) (h : ∀ a, (k0_off2 L c) a + S128x170.size a ≤ S262144x170.size a) : S128x170.Idx → Elt F .f32 :=
  (xSl L c h).view.read (Elt F) (m (xLoc d))

/-- The accumulator of the task at `L` after `n` groups of sixteen rows. -/
abbrev accAt (d : Dev nD) (L : grid0.Coords) (n : ℕ) : FVec F S16 .f32 := Spec.tileAcc (F := F) (m (xLoc d)) (m (tLoc d)) (base L) n

/-- What a chunk's loop carries over the first buffer: the column words and the chunk held, the accumulator at its
    value after `g + k` groups. -/
def invA (d : Dev nD) (L : grid0.Coords) (c : BitVec 32) (h : ∀ a, (k0_off2 L c) a + S128x170.size a ≤ S262144x170.size a) (g : ℕ) (k : ℕ) (acc : FVec F S16 .f32) : sProp 𝕄 :=
  iprop(⌜acc = accAt m d L (g + k)⌝ ∗ ((sT).view.loc (thr d L) ↦{fullShare} tRd m d L) ∗ ((sA).view.loc (thr d L) ↦{fullShare} xRd m d L c h))
/-- The same over the second buffer. -/
def invB (d : Dev nD) (L : grid0.Coords) (c : BitVec 32) (h : ∀ a, (k0_off2 L c) a + S128x170.size a ≤ S262144x170.size a) (g : ℕ) (k : ℕ) (acc : FVec F S16 .f32) : sProp 𝕄 :=
  iprop(⌜acc = accAt m d L (g + k)⌝ ∗ ((sT).view.loc (thr d L) ↦{fullShare} tRd m d L) ∗ ((sB).view.loc (thr d L) ↦{fullShare} xRd m d L c h))

/-- One trip of a chunk's loop, over what differs between the 28 printed loops: the buffer, the offset of the sixteen
    column words, the row numbers, the check, the accumulator's update. -/
def tripBody (L : grid0.Coords) {lp : Scf.Loop 32} (buf : Memref sig .scVector .vmem S128x170 .f32)
    (off : Fin lp.trips → Fin 1 → Nat) (hoff : ∀ k a, off k a + S16.size a ≤ S3584.size a)
    (pay : Fin lp.trips → IVec S16 32) (chk : IVec S16 32 → IVec S16 32 → Prop) (dec : ∀ v w, Decidable (chk v w))
    (inb : ∀ v w, chk v w → ∀ a x, ((![w, v] : Fin 2 → IVec S16 32) a x).toNat < S128x170.size a)
    (upd : FVec F S16 .f32 → Vec F S16 .f32 → FVec F S16 .f32) :
    Fin lp.trips → FVec F S16 .f32 → Prog (TpuEff nD τ sig (Elt F) Λ₀ (.scVector ((L 0).castLE hcore0) ((L 1).castLE hsub0))) (FVec F S16 .f32) :=
  fun k acc => do
    let v205 : Vec F S16 .i32 ← Prog.lift (.load (sT : Memref sig .scVector .vmem S3584 .i32) (Rect.unit (s := S3584) (off k) S16.size (hoff k)).toLoadRect (View.loadsAt_vmem h_S16))
    have v208 : IVec S16 32 := pay k
    have hw : chk v205 v208 := (← Prog.lift (TpuEff.assume (chk v205 v208) (dec v205 v208))).down
    let v209 : Vec F S16 .f32 ← SparseCore.vectorLoadIdx buf ![v208, v205] (inb v205 v208 hw) (View.loads_vmem h_S128x170)
    pure (upd acc v209)

end Cert.KernelIdeal.Tile
end
-- ==== Proof.KernelIdeal.TileVal.lean ====
/-
  The arithmetic of one trip, free of any program text. With chunk `r` (rows `base + 128·r …`) in a buffer and the task's
  column words in their scratch, trip `k` loads the sixteen words at `128·r + 16·k`, pairs them with the buffer rows
  `16·k + lane` — both in range: rows below 128, words below 170 by the precondition on `t` — and the indexed load returns
  `x[ρ, t ρ]` for the sixteen rows `ρ = base + 16·(8·r + k) + lane`: `Spec.lanes16`, the step of `Spec.tileAcc`.
-/
import proofs.«213812_g11871289606185_cont_fleet_226_25_alg».proof.Proof.KernelIdeal.Iface
import proofs.«213812_g11871289606185_cont_fleet_226_25_alg».proof.Proof.KernelIdeal.SkeletonP
import proofs.«213812_g11871289606185_cont_fleet_226_25_alg».proof.Proof.KernelIdeal.TileBase

noncomputable section

namespace Cert.KernelIdeal.Tile

open Cert.KernelIdeal Cert.KernelIdeal.Gen Cert.KernelIdeal.GenP Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

theorem L0_lt : (L 0).val < 2 := (L 0).isLt
theorem L1_lt : (L 1).val < 16 := (L 1).isLt

/-- The task's rows lie in the first 114688 rows of the table. -/
theorem base_le : base L + 3584 ≤ 114688 := by
  have h0 := L0_lt L; have h1 := L1_lt L; unfold base; omega

omit [FloatOps F] in
/-- Word `j` of the task's column words is word `base + j` of `t`. -/
theorem tRd_eq (j : S3584.Idx) (i : S262144.Idx) (h : (i 0).val = base L + (j 0).val) : tRd m d L j = m (tLoc d) i := by
  unfold tRd
  rw [View.read_apply]
  refine (cast_eq _ _).trans (congrArg (m (tLoc d)) ?_)
  show ((tSl L).view.emb j : S262144.Idx) = i
  refine funext fun (a : Fin 1) => Fin.ext ?_
  obtain rfl : a = 0 := Subsingleton.elim _ _
  rw [h]
  show (k0_off1 L) 0 + 1 * (j 0).val = _
  rw [k0_off1_eq]; unfold base; simp

omit [FloatOps F] in
/-- Entry `[a, c]` of chunk `r` is entry `[base + 128·r + a, c]` of `x`. -/
theorem xRd_eq (r : Fin 28) (j : S128x170.Idx) (i : S262144x170.Idx) (h0 : (i 0).val = base L + 128 * r.val + (j 0).val) (h1 : (i 1).val = (j 1).val) :
    xRd m d L (BitVec.ofNat 32 (128 * r.val)) (k0_off2_inb L r) j = m (xLoc d) i := by
  unfold xRd
  rw [View.read_apply]
  refine (cast_eq _ _).trans (congrArg (m (xLoc d)) ?_)
  show ((xSl L (BitVec.ofNat 32 (128 * r.val)) (k0_off2_inb L r)).view.emb j : S262144x170.Idx) = i
  refine funext fun (a : Fin 2) => Fin.ext ?_
  show (k0_off2 L (BitVec.ofNat 32 (128 * r.val))) a + 1 * (j a).val = _
  rw [k0_off2_eq]
  match a with
  | 0 => rw [h0]; unfold base; simp
  | 1 => rw [h1]; simp

/-- A row number below the table's height is itself as a row. -/
theorem rowOf_val {n : ℕ} (h : n < 262144) : (Spec.rowOf n).val = n := Nat.mod_eq_of_lt h

/-- **The gather.** A buffer `fx` holds rows `r0 − q0 …` of `x` (row `q0 + l` of the buffer is row `r0 + l` of `x`, for the
    sixteen lanes), `rows` names the buffer rows `q0 + l` and `words` the column words of rows `r0 + l`: the indexed load
    of the buffer at `(rows, words)` is the sixteen picked entries. -/
theorem gather_eq (x : FVec F Spec.SX .f32) (t : IVec Spec.ST 32) (r0 q0 : ℕ)
    (fx : Vec F S128x170 .f32) (rows words : IVec S16 32)
    (h : ∀ a l, ((![rows, words] : Fin 2 → IVec S16 32) a l).toNat < S128x170.size a)
    (hrows : ∀ l : S16.Idx, (rows l).toNat = q0 + (l 0).val)
    (hwords : ∀ l : S16.Idx, words l = t (ix1 (Spec.rowOf (r0 + (l 0).val))))
    (hfx : ∀ (l : S16.Idx) (j : S128x170.Idx), (j 0).val = q0 + (l 0).val → fx j = x (ix2 (Spec.rowOf (r0 + (l 0).val)) (j 1))) :
    loadIdx fx ![rows, words] h = Spec.lanes16 x t r0 := by
  funext l
  have hw : (t (ix1 (Spec.rowOf (r0 + (l 0).val)))).toNat < 170 := by rw [← hwords l]; exact h 1 l
  show fx (idxAt ![rows, words] h l) = Spec.pick x t (Spec.rowOf (r0 + (l 0).val))
  rw [hfx l (idxAt ![rows, words] h l) (hrows l)]
  unfold Spec.pick Spec.col
  rw [dif_pos hw]
  congr 1
  refine funext fun (a : Fin 2) => ?_
  match a with
  | 0 => rfl
  | 1 => apply Fin.ext; show (words l).toNat = _; rw [hwords l]

omit [FloatOps F] in
/-- What a trip owes: in trip `kk` of chunk `r`, with `rows` the buffer rows `16·kk + l`, the sixteen column words loaded
    at `16·kk + 128·r` of the task's words pass the kernel's check with `rows` (rows below 128, words below 170). -/
theorem trip_chk (hT : TgtOK m) (r : Fin 28) (kk : ℕ) (hk : kk < 8)
    (o : Fin 1 → ℕ) (ho : ∀ a, o a + S16.size a ≤ S3584.size a) (hoeq : o = ![16 * kk + 128 * r.val])
    (rows : IVec S16 32) (hrows : ∀ l : S16.Idx, (rows l).toNat = 16 * kk + (l 0).val) :
    ∀ a l, ((![rows, (sT : Memref sig .scVector .vmem S3584 .i32).view.readAt (Elt F) (Rect.unit (s := S3584) o S16.size ho).toLoadRect (tRd m d L)] : Fin 2 → IVec S16 32) a l).toNat < S128x170.size a := by
  intro a l
  match a with
  | 0 => show (rows l).toNat < 128; rw [hrows]; have : (l 0).val < 16 := (l 0).isLt; omega
  | 1 =>
    show ((sT : Memref sig .scVector .vmem S3584 .i32).view.readAt (Elt F) (Rect.unit (s := S3584) o S16.size ho).toLoadRect (tRd m d L) l).toNat < 170
    simp only [View.readAt_apply, Memref.view_whole, View.read_whole]
    have hb := base_le L
    rw [tRd_eq m d L _ (ix1 (Spec.rowOf (base L + ((Rect.unit (s := S3584) o S16.size ho).toLoadRect.idx l 0).val))) (rowOf_val (by
      have : ((Rect.unit (s := S3584) o S16.size ho).toLoadRect.idx l 0).val < 3584 := ((Rect.unit (s := S3584) o S16.size ho).toLoadRect.idx l 0).isLt
      omega))]
    exact hT d _

/-- What a trip reads: the indexed load of a buffer holding chunk `r`, at the rows `16·kk + l` and the column words loaded
    at `16·kk + 128·r`, is the sixteen picked entries of rows `base + 16·(8·r + kk) …`. -/
theorem trip_val (r : Fin 28) (kk : ℕ) (hk : kk < 8)
    (o : Fin 1 → ℕ) (ho : ∀ a, o a + S16.size a ≤ S3584.size a) (hoeq : o = ![16 * kk + 128 * r.val])
    (rows : IVec S16 32) (hrows : ∀ l : S16.Idx, (rows l).toNat = 16 * kk + (l 0).val)
    (h : ∀ a l, ((![rows, (sT : Memref sig .scVector .vmem S3584 .i32).view.readAt (Elt F) (Rect.unit (s := S3584) o S16.size ho).toLoadRect (tRd m d L)] : Fin 2 → IVec S16 32) a l).toNat < S128x170.size a)
    (fx : Vec F S128x170 .f32) (hfx : fx = xRd m d L (BitVec.ofNat 32 (128 * r.val)) (k0_off2_inb L r)) :
    loadIdx fx
        ![rows, (sT : Memref sig .scVector .vmem S3584 .i32).view.readAt (Elt F) (Rect.unit (s := S3584) o S16.size ho).toLoadRect (tRd m d L)] h
      = Spec.lanes16 (F := F) (m (xLoc d)) (m (tLoc d)) (base L + 16 * (8 * r.val + kk)) := by
  subst hfx
  have hb := base_le L
  have hr := r.isLt
  refine gather_eq (m (xLoc d)) (m (tLoc d)) _ (16 * kk) _ rows _ h hrows ?_ ?_
  · intro l
    have hl := (l 0).isLt
    simp only [View.readAt_apply, Memref.view_whole, View.read_whole]
    refine tRd_eq m d L _ _ ?_
    rw [show ((ix1 (Spec.rowOf (base L + 16 * (8 * r.val + kk) + (l 0).val)) : S262144.Idx) 0).val = (Spec.rowOf (base L + 16 * (8 * r.val + kk) + (l 0).val)).val from rfl,
      rowOf_val (by show _ < 262144; have : (l 0).val < 16 := hl; omega)]
    show _ = base L + (o 0 + 1 * (l 0).val)
    rw [hoeq]; simp; omega
  · intro l j hj
    have hl := (l 0).isLt
    refine xRd_eq m d L r j _ ?_ rfl
    rw [show ((ix2 (Spec.rowOf (base L + 16 * (8 * r.val + kk) + (l 0).val)) (j 1) : S262144x170.Idx) 0).val = (Spec.rowOf (base L + 16 * (8 * r.val + kk) + (l 0).val)).val from rfl,
      rowOf_val (by show _ < 262144; have : (l 0).val < 16 := hl; omega), hj]
    omega

/-- One more group: the accumulator steps by the sixteen picked entries of the group's rows. -/
theorem acc_step (n : ℕ) :
    accAt (F := F) m d L (n + 1) = Spec.sqStep (accAt m d L n) (Spec.lanes16 (F := F) (m (xLoc d)) (m (tLoc d)) (base L + 16 * n)) := rfl

end Cert.KernelIdeal.Tile
end
-- ==== Proof.KernelIdeal.TileSeg.lean ====
/-
  One trip of a chunk's loop as a step of the accumulator: from the accumulator at `Spec.tileAcc … (8·r + k)` with the column
  words and chunk `r` held, to `Spec.tileAcc … (8·r + k + 1)` with the same held — over either of the two buffers. And what
  the task holds between a chunk's operations: while chunk `r`'s copy is in flight, `x`'s share less that chunk's elements
  and the copy's delivery (the buffer at the chunk, the elements back); otherwise `x` whole and both buffers at a chunk.
-/
import proofs.«213812_g11871289606185_cont_fleet_226_25_alg».proof.Proof.KernelIdeal.Iface
import proofs.«213812_g11871289606185_cont_fleet_226_25_alg».proof.Proof.KernelIdeal.SkeletonP
import proofs.«213812_g11871289606185_cont_fleet_226_25_alg».proof.Proof.KernelIdeal.TileBase
import proofs.«213812_g11871289606185_cont_fleet_226_25_alg».proof.Proof.KernelIdeal.TileVal

noncomputable section

namespace Cert.KernelIdeal.Tile

open Cert.KernelIdeal Cert.KernelIdeal.Gen Cert.KernelIdeal.GenP Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

omit [FloatOps F] in
theorem pts_A_access (f : Buf (Elt F) ((thr d L).loc cc0_scratch1)) :
    (((sA : Memref sig .scVector .vmem S128x170 .f32).access (.whole S128x170)).loc (thr d L) ↦{fullShare} f : sProp 𝕄)
      = ((sA : Memref sig .scVector .vmem S128x170 .f32).view.loc (thr d L) ↦{fullShare} f) := rfl

/-- One trip of chunk `r`'s loop over the first buffer: the sixteen column words loaded, the check owed, the
    indexed load, the accumulator stepped. -/
theorem tripA (hT : TgtOK m) (r : Fin 28) {lp : Scf.Loop 32} (hlp : lp.trips ≤ 8)
    (off : Fin lp.trips → Fin 1 → Nat) (hoff : ∀ k a, off k a + S16.size a ≤ S3584.size a)
    (pay : Fin lp.trips → IVec S16 32) (chk : IVec S16 32 → IVec S16 32 → Prop) (dec : ∀ v w, Decidable (chk v w))
    (inb : ∀ v w, chk v w → ∀ a x, ((![w, v] : Fin 2 → IVec S16 32) a x).toNat < S128x170.size a)
    (upd : FVec F S16 .f32 → Vec F S16 .f32 → FVec F S16 .f32)
    (hoff_eq : ∀ k, off k = ![16 * k.val + 128 * r.val])
    (hpay : ∀ k (l : S16.Idx), (pay k l).toNat = 16 * k.val + (l 0).val)
    (hchk : ∀ v w, (∀ a x, ((![w, v] : Fin 2 → IVec S16 32) a x).toNat < S128x170.size a) → chk v w)
    (hupd : ∀ a v, upd a v = Spec.sqStep a v)
    (k : Fin lp.trips) (acc : FVec F S16 .f32) :
    invA (U := U) m d L (BitVec.ofNat 32 (128 * r.val)) (k0_off2_inb L r) (8 * r.val) k.val acc
      ⊢ wp frame (wpE (defs₀ (F := F)) 𝒱₀ (thr d L) none) Set.univ (tripBody (F := F) L sA off hoff pay chk dec inb upd k acc)
          (invA (U := U) m d L (BitVec.ofNat 32 (128 * r.val)) (k0_off2_inb L r) (8 * r.val) (k.val + 1)) := by
  have hk : k.val < 8 := Nat.lt_of_lt_of_le k.isLt hlp
  unfold tripBody invA
  simp only [Prog.lift, Prog.bind_op, Prog.bind_ret, Prog.pure_eq_ret]
  iintro ⟨%hacc, HsT, Hb⟩
  iapply (wp_load 𝒱₀ (thr d L) none Set.univ (m := (sT : Memref sig .scVector .vmem S3584 .i32)) (S := Finset.univ) (Finset.subset_univ _)) $$ HsT; iintro HsT
  rw [wp_assume_of (U := U) _ _ _ _ (hchk _ _ (trip_chk m d L hT r k.val hk (off k) (hoff k) (hoff_eq k) (pay k) (hpay k)))]
  ihave Hb' := (Entails.of_eq (pts_A_access (F := F) d L _).symm) $$ Hb
  iapply (SparseCore.wp_vectorLoadIdx 𝒱₀ (thr d L) none Set.univ (base := (sA : Memref sig .scVector .vmem S128x170 .f32)) (S := Finset.univ) (q := fullShare) (Finset.subset_univ _)) $$ Hb'; iintro Hb'
  rw [wp_ret]; imodintro
  isplitr
  · ipureintro
    rw [hupd, hacc, trip_val m d L r k.val hk (off k) (hoff k) (hoff_eq k) (pay k) (hpay k) _ _ (Memref.read_access_whole _ _ _)]
    exact (acc_step m d L (8 * r.val + k.val)).symm
  isplitl [HsT]; · iexact HsT
  iexact Hb'

omit [FloatOps F] in
theorem pts_B_access (f : Buf (Elt F) ((thr d L).loc cc0_scratch2)) :
    (((sB : Memref sig .scVector .vmem S128x170 .f32).access (.whole S128x170)).loc (thr d L) ↦{fullShare} f : sProp 𝕄)
      = ((sB : Memref sig .scVector .vmem S128x170 .f32).view.loc (thr d L) ↦{fullShare} f) := rfl

/-- One trip of chunk `r`'s loop over the second buffer: the sixteen column words loaded, the check owed, the
    indexed load, the accumulator stepped. -/
theorem tripB (hT : TgtOK m) (r : Fin 28) {lp : Scf.Loop 32} (hlp : lp.trips ≤ 8)
    (off : Fin lp.trips → Fin 1 → Nat) (hoff : ∀ k a, off k a + S16.size a ≤ S3584.size a)
    (pay : Fin lp.trips → IVec S16 32) (chk : IVec S16 32 → IVec S16 32 → Prop) (dec : ∀ v w, Decidable (chk v w))
    (inb : ∀ v w, chk v w → ∀ a x, ((![w, v] : Fin 2 → IVec S16 32) a x).toNat < S128x170.size a)
    (upd : FVec F S16 .f32 → Vec F S16 .f32 → FVec F S16 .f32)
    (hoff_eq : ∀ k, off k = ![16 * k.val + 128 * r.val])
    (hpay : ∀ k (l : S16.Idx), (pay k l).toNat = 16 * k.val + (l 0).val)
    (hchk : ∀ v w, (∀ a x, ((![w, v] : Fin 2 → IVec S16 32) a x).toNat < S128x170.size a) → chk v w)
    (hupd : ∀ a v, upd a v = Spec.sqStep a v)
    (k : Fin lp.trips) (acc : FVec F S16 .f32) :
    invB (U := U) m d L (BitVec.ofNat 32 (128 * r.val)) (k0_off2_inb L r) (8 * r.val) k.val acc
      ⊢ wp frame (wpE (defs₀ (F := F)) 𝒱₀ (thr d L) none) Set.univ (tripBody (F := F) L sB off hoff pay chk dec inb upd k acc)
          (invB (U := U) m d L (BitVec.ofNat 32 (128 * r.val)) (k0_off2_inb L r) (8 * r.val) (k.val + 1)) := by
  have hk : k.val < 8 := Nat.lt_of_lt_of_le k.isLt hlp
  unfold tripBody invB
  simp only [Prog.lift, Prog.bind_op, Prog.bind_ret, Prog.pure_eq_ret]
  iintro ⟨%hacc, HsT, Hb⟩
  iapply (wp_load 𝒱₀ (thr d L) none Set.univ (m := (sT : Memref sig .scVector .vmem S3584 .i32)) (S := Finset.univ) (Finset.subset_univ _)) $$ HsT; iintro HsT
  rw [wp_assume_of (U := U) _ _ _ _ (hchk _ _ (trip_chk m d L hT r k.val hk (off k) (hoff k) (hoff_eq k) (pay k) (hpay k)))]
  ihave Hb' := (Entails.of_eq (pts_B_access (F := F) d L _).symm) $$ Hb
  iapply (SparseCore.wp_vectorLoadIdx 𝒱₀ (thr d L) none Set.univ (base := (sB : Memref sig .scVector .vmem S128x170 .f32)) (S := Finset.univ) (q := fullShare) (Finset.subset_univ _)) $$ Hb'; iintro Hb'
  rw [wp_ret]; imodintro
  isplitr
  · ipureintro
    rw [hupd, hacc, trip_val m d L r k.val hk (off k) (hoff k) (hoff_eq k) (pay k) (hpay k) _ _ (Memref.read_access_whole _ _ _)]
    exact (acc_step m d L (8 * r.val + k.val)).symm
  isplitl [HsT]; · iexact HsT
  iexact Hb'

/-! ## What the task holds between the operations of a chunk -/

omit [FloatOps F] in
/-- A scratch buffer written whole holds what was written. -/
theorem heldT_write (f v : Buf (Elt F) ((thr d L).loc cc0_scratch0)) :
    ((sT : Memref sig .scVector .vmem S3584 .i32).view.loc (thr d L) ↦{fullShare} (sT : Memref sig .scVector .vmem S3584 .i32).view.write (Elt F) f v Finset.univ : sProp 𝕄)
      = ((sT : Memref sig .scVector .vmem S3584 .i32).view.loc (thr d L) ↦{fullShare} v) := by
  rw [show (sT : Memref sig .scVector .vmem S3584 .i32).view.write (Elt F) f v Finset.univ = v from View.write_whole_univ (Val := Elt F) cc0_scratch0 f v]
omit [FloatOps F] in
theorem heldA_write (f v : Buf (Elt F) ((thr d L).loc cc0_scratch1)) :
    ((sA : Memref sig .scVector .vmem S128x170 .f32).view.loc (thr d L) ↦{fullShare} (sA : Memref sig .scVector .vmem S128x170 .f32).view.write (Elt F) f v Finset.univ : sProp 𝕄)
      = ((sA : Memref sig .scVector .vmem S128x170 .f32).view.loc (thr d L) ↦{fullShare} v) := by
  rw [show (sA : Memref sig .scVector .vmem S128x170 .f32).view.write (Elt F) f v Finset.univ = v from View.write_whole_univ (Val := Elt F) cc0_scratch1 f v]
omit [FloatOps F] in
theorem heldB_write (f v : Buf (Elt F) ((thr d L).loc cc0_scratch2)) :
    ((sB : Memref sig .scVector .vmem S128x170 .f32).view.loc (thr d L) ↦{fullShare} (sB : Memref sig .scVector .vmem S128x170 .f32).view.write (Elt F) f v Finset.univ : sProp 𝕄)
      = ((sB : Memref sig .scVector .vmem S128x170 .f32).view.loc (thr d L) ↦{fullShare} v) := by
  rw [show (sB : Memref sig .scVector .vmem S128x170 .f32).view.write (Elt F) f v Finset.univ = v from View.write_whole_univ (Val := Elt F) cc0_scratch2 f v]

/-- What stays the same from the first chunk's copy to the last: the evidence for the task's waits, `t`'s share, the column
    words in their scratch, the first scoped semaphore at zero, what the task owes. -/
def Core (qt : PosShare TreeShare) (O : CellTallies nD τ sig (HIx 1)) (W : Waits sig (HIx 1)) : sProp 𝕄 :=
  iprop(Transfers.MayWaits (thr d L) (none : HIx 1) O ∗ ((tV).view.loc (thr d L) ↦{qt} m (tLoc d))
    ∗ ((sT).view.loc (thr d L) ↦{fullShare} tRd m d L) ∗ semVal (thr d L, SemLoc.dma cc0_scoped0.sem) 0 ∗ owes (thr d L) O W)

/-- The copy of a chunk into the first buffer, in flight on the first buffer's semaphore: at its wait it delivers the buffer
    holding the chunk, and the chunk's elements of `x` back. -/
def flightA (qx : PosShare TreeShare) (c : BitVec 32) (h : ∀ a, (k0_off2 L c) a + S128x170.size a ≤ S262144x170.size a) : sProp 𝕄 :=
  Transfers.Flight countersEmb (thr d L) (SemLoc.dma cc0_scratch4.sem) (default : HIx 1) 696320
    iprop(((sA).view.loc (thr d L) ↦{fullShare} xRd m d L c h) ∗ ((xV).view.loc (thr d L) ↦[(xSl L c h).view.set]{qx} m (xLoc d)))
/-- The same into the second buffer, on its semaphore. -/
def flightB (qx : PosShare TreeShare) (c : BitVec 32) (h : ∀ a, (k0_off2 L c) a + S128x170.size a ≤ S262144x170.size a) : sProp 𝕄 :=
  Transfers.Flight countersEmb (thr d L) (SemLoc.dma cc0_scratch5.sem) (default : HIx 1) 696320
    iprop(((sB).view.loc (thr d L) ↦{fullShare} xRd m d L c h) ∗ ((xV).view.loc (thr d L) ↦[(xSl L c h).view.set]{qx} m (xLoc d)))
/-- `x`'s share less the chunk a copy in flight has borrowed. -/
def xRest (qx : PosShare TreeShare) (c : BitVec 32) (h : ∀ a, (k0_off2 L c) a + S128x170.size a ≤ S262144x170.size a) : sProp 𝕄 :=
  ((xV).view.loc (thr d L) ↦[Finset.univ \ (xSl L c h).view.set]{qx} m (xLoc d))

omit [FloatOps F] in
/-- A copy in flight into the first buffer delivers the buffer at what is copied, whatever it held. -/
theorem flightA_norm (sm : SemLoc sig) (ι : HIx 1) (N : ℕ)
    (f v : Buf (Elt F) ((thr d L).loc cc0_scratch1)) (R : sProp 𝕄) :
    (Transfers.Flight countersEmb (thr d L) sm ι N
        iprop(((sA).view.loc (thr d L) ↦{fullShare} (sA : Memref sig .scVector .vmem S128x170 .f32).view.write (Elt F) f v Finset.univ) ∗ R) : sProp 𝕄)
      ⊢ Transfers.Flight countersEmb (thr d L) sm ι N
        iprop(((sA).view.loc (thr d L) ↦{fullShare} v) ∗ R) := by
  rw [heldA_write]
omit [FloatOps F] in
theorem flightB_norm (sm : SemLoc sig) (ι : HIx 1) (N : ℕ)
    (f v : Buf (Elt F) ((thr d L).loc cc0_scratch2)) (R : sProp 𝕄) :
    (Transfers.Flight countersEmb (thr d L) sm ι N
        iprop(((sB).view.loc (thr d L) ↦{fullShare} (sB : Memref sig .scVector .vmem S128x170 .f32).view.write (Elt F) f v Finset.univ) ∗ R) : sProp 𝕄)
      ⊢ Transfers.Flight countersEmb (thr d L) sm ι N
        iprop(((sB).view.loc (thr d L) ↦{fullShare} v) ∗ R) := by
  rw [heldB_write]

omit [FloatOps F] [CountersIn U] in
/-- A wait at index `none` recorded keeps the waits within those the task had, or at index `none`. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

end Cert.KernelIdeal.Tile
end
-- ==== Proof.KernelIdeal.TileSeq.lean ====
/-
  Two stretches of the body in sequence: what the first leaves — its result, with the fact stated of it, and the waits it
  recorded, all at index `none` beyond the task's own — is what the second starts from, beside whatever neither touches.
-/
import proofs.«213812_g11871289606185_cont_fleet_226_25_alg».proof.Proof.KernelIdeal.Iface
import proofs.«213812_g11871289606185_cont_fleet_226_25_alg».proof.Proof.KernelIdeal.SkeletonP
import proofs.«213812_g11871289606185_cont_fleet_226_25_alg».proof.Proof.KernelIdeal.TileBase
import proofs.«213812_g11871289606185_cont_fleet_226_25_alg».proof.Proof.KernelIdeal.TileVal
import proofs.«213812_g11871289606185_cont_fleet_226_25_alg».proof.Proof.KernelIdeal.TileSeg

noncomputable section

namespace Cert.KernelIdeal.Tile

open Cert.KernelIdeal Cert.KernelIdeal.Gen Cert.KernelIdeal.GenP Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

omit [FloatOps F] [CountersIn U] in
/-- Two programs in sequence: the first's result and waits handed to the second, beside a frame the first does not touch. -/
theorem seqW [FloatOps F] {α β : Type} (W : Waits sig (HIx 1))
    (p : Prog (TpuEff nD τ sig (Elt F) Λ₀ (.scVector ((L 0).castLE hcore0) ((L 1).castLE hsub0))) α)
    (k : α → Prog (TpuEff nD τ sig (Elt F) Λ₀ (.scVector ((L 0).castLE hcore0) ((L 1).castLE hsub0))) β)
    {P Fr : sProp 𝕄} {φ : α → Prop} {S : α → Waits sig (HIx 1) → sProp 𝕄} {R : β → sProp 𝕄}
    (h1 : P ⊢ wp frame (wpE (defs₀ (F := F)) 𝒱₀ (thr d L) none) Set.univ p
      (fun r => iprop(⌜φ r⌝ ∗ ∃ W', ⌜∀ q ∈ W', q ∈ W ∨ q.2 = none⌝ ∗ S r W')))
    (h2 : ∀ r W', φ r → (∀ q ∈ W', q ∈ W ∨ q.2 = none) → iprop(S r W' ∗ Fr) ⊢ wp frame (wpE (defs₀ (F := F)) 𝒱₀ (thr d L) none) Set.univ (k r) R) :
    iprop(P ∗ Fr) ⊢ wp frame (wpE (defs₀ (F := F)) 𝒱₀ (thr d L) none) Set.univ (p >>= k) R := by
  rw [wp_bind]
  iintro ⟨HP, HF⟩
  ihave H := h1 $$ HP
  iapply (wp_wand_r frame _ _)
  isplitl [H]; · iexact H
  iintro %r ⟨%hφ, %W', %hG, HS⟩
  iapply (h2 r W' hφ hG)
  isplitl [HS]; · iexact HS
  iexact HF

omit [FloatOps F] [CountersIn U] in
/-- Waits within waits within the task's own: the relation the parts' results carry composes. -/
theorem waits_trans {W W₁ W₂ : Waits sig (HIx 1)} (h₁ : ∀ q ∈ W₁, q ∈ W ∨ q.2 = none) (h₂ : ∀ q ∈ W₂, q ∈ W₁ ∨ q.2 = none) :
    ∀ q ∈ W₂, q ∈ W ∨ q.2 = none := fun q hq => (h₂ q hq).elim (h₁ q) .inr

end Cert.KernelIdeal.Tile
end
-- ==== Proof.KernelIdeal.TileEnds.lean ====
/-
  The two ends of one vector subcore's task, as respellings. At its start the subcore's own storage is its four scratch
  buffers at some contents and its four DMA semaphores at zero, plus the rest; the row of the partial sums it writes,
  addressed through the kernel's slice-and-squeeze, is row `2·s + c` of the array; and once the sixteen lanes of the
  accumulator are written there, that row holds `Spec.partials`' row.
-/
import proofs.«213812_g11871289606185_cont_fleet_226_25_alg».proof.Proof.KernelIdeal.Iface

noncomputable section

namespace Cert.KernelIdeal.Tile

open Cert.KernelIdeal Cert.KernelIdeal.Gen Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} {U : Type} [URA U]

local notation "𝕄" => MT nD τ sig (HIx 1) (Elt F) ℕ U ℕ

variable (d : Dev nD) (L : grid0.Coords)

/-- The subcore's four DMA semaphore cells. -/
abbrev c4cell (d : Dev nD) (c : Fin τ.nSC) (i : Fin τ.nSub) : GSem nD τ sig := (V d c i, .dma cc0_scratch4.sem)
abbrev c5cell (d : Dev nD) (c : Fin τ.nSC) (i : Fin τ.nSub) : GSem nD τ sig := (V d c i, .dma cc0_scratch5.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

/-- The four DMA semaphores are among the subcore's own: they are them, at zero, and the rest. -/
theorem ownSems0_V4 :
    (ownSems0 (V d (cV L) (jV L)) : sProp 𝕄)
      = iprop(semVal (c4cell d (cV L) (jV L)) 0 ∗ semVal (c5cell d (cV L) (jV L)) 0 ∗ semVal (cAcell d (cV L) (jV L)) 0
          ∗ semVal (cBcell d (cV L) (jV L)) 0
          ∗ bigSep (((((ownCells (V d (cV L) (jV L))).erase (c4cell d (cV L) (jV L))).erase (c5cell d (cV L) (jV L))).erase
              (cAcell d (cV L) (jV L))).erase (cBcell d (cV L) (jV L))) fun g => semVal g 0) := by
  unfold SparseCore.Cfg.ownSems0
  rw [SparseCore.bigSep_erase' ((mem_ownCells (g := c4cell d (cV L) (jV L))).mpr ⟨rfl, by
      show (SemLoc.dma cc0_scratch4.sem : SemLoc sig).isScoped .scVector = true; decide⟩),
    SparseCore.bigSep_erase' (Finset.mem_erase.mpr ⟨by simp [c4cell, c5cell]; decide, (mem_ownCells (g := c5cell d (cV L) (jV L))).mpr ⟨rfl, by
      show (SemLoc.dma cc0_scratch5.sem : SemLoc sig).isScoped .scVector = true; decide⟩⟩),
    SparseCore.bigSep_erase' (Finset.mem_erase.mpr ⟨by simp [c5cell, cAcell]; decide, Finset.mem_erase.mpr ⟨by simp [c4cell, cAcell]; decide,
      (mem_ownCells (g := cAcell d (cV L) (jV L))).mpr ⟨rfl, by show (SemLoc.dma cc0_scoped0.sem : SemLoc sig).isScoped .scVector = true; decide⟩⟩⟩),
    SparseCore.bigSep_erase' (Finset.mem_erase.mpr ⟨by simp [cAcell, cBcell]; decide, Finset.mem_erase.mpr ⟨by simp [c5cell, cBcell]; decide,
      Finset.mem_erase.mpr ⟨by simp [c4cell, cBcell]; decide,
      (mem_ownCells (g := cBcell d (cV L) (jV L))).mpr ⟨rfl, by show (SemLoc.dma cc0_scoped1.sem : SemLoc sig).isScoped .scVector = true; decide⟩⟩⟩⟩)]

/-- The four scratch buffers are among the subcore's own: they are them, at some contents, and the rest. -/
theorem ownBufs_V4 :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

/-- The subcore's row of the partial sums as its kernel addresses it: the slice of one row, squeezed to sixteen lanes. -/
abbrev oRowM (L : grid0.Coords) : Memref sig .scVector .hbm S16 .f32 :=
  ((oV : Memref sig .scVector .hbm S32x16 .f32).slice (oRect L) (fun _ => rfl)).squeeze S16 squeezes_S1x16_S16

/-- Its elements are the row's. -/
theorem set_oRow : (oRowM L).view.set = oRowSet L := by
  show (((oV : Memref sig .scVector .hbm S32x16 .f32).view.slice (oRect L)).reshape S16 squeezes_S1x16_S16.numel_eq).set
    = ((oV : Memref sig .scVector .hbm S32x16 .f32).view.slice (oRect L)).set
  rw [View.set_reshape]

theorem pts_oRow (f : Buf (Elt F) (oLoc d)) :
    ((oRowM L).view.loc (V d (cV L) (jV L)) ↦[(oRowM L).view.set]{fullShare} f : sProp 𝕄) = (oLoc d ↦[oRowSet L]{fullShare} f) := by
  rw [set_oRow]

/-- Lane `y` of the subcore's row sits in row `2·s + c` of the array … -/
theorem emb_oRow_row (y : S16.Idx) : (((oRowM L).view.emb y) 0).val = 2 * (L 1).val + (L 0).val := by
  have h0 : ((Shape.reshapeEquiv squeezes_S1x16_S16.numel_eq y) 0).val < 1 := (Shape.reshapeEquiv squeezes_S1x16_S16.numel_eq y 0).isLt
  show k0_off31 L 0 + 1 * ((Shape.reshapeEquiv squeezes_S1x16_S16.numel_eq y) 0).val = _
  rw [k0_off31_eq]
  show 2 * (L 1).val + (L 0).val + 1 * ((Shape.reshapeEquiv squeezes_S1x16_S16.numel_eq y) 0).val = _
  omega

/-- … at column `y`. -/
theorem emb_oRow_col (y : S16.Idx) : (((oRowM L).view.emb y) 1).val = (y 0).val := by
  have hz := Shape.rowMajor_reshapeEquiv squeezes_S1x16_S16.numel_eq y
  rw [Shape.rowMajor_val_two, Shape.rowMajor_val_one] at hz
  have hz' : ((Shape.reshapeEquiv squeezes_S1x16_S16.numel_eq y) 0).val * 16 + ((Shape.reshapeEquiv squeezes_S1x16_S16.numel_eq y) 1).val = (y 0).val := hz
  have h0 : ((Shape.reshapeEquiv squeezes_S1x16_S16.numel_eq y) 0).val < 1 := (Shape.reshapeEquiv squeezes_S1x16_S16.numel_eq y 0).isLt
  show k0_off31 L 1 + 1 * ((Shape.reshapeEquiv squeezes_S1x16_S16.numel_eq y) 1).val = _
  rw [k0_off31_eq]
  show 0 + 1 * ((Shape.reshapeEquiv squeezes_S1x16_S16.numel_eq y) 1).val = _
  omega

variable [FloatOps F] (m : (ℓ : Loc nD τ sig) → Buf (Elt F) ℓ)

/-- THE VALUE AT THE END: the subcore's accumulator after all 224 groups, written to its row, is the partial sums' row. -/
theorem pts_oRow_end (fo : Buf (Elt F) (oLoc d)) :
    (oLoc d ↦[oRowSet L]{fullShare} (oRowM L).view.write (Elt F) fo
        (Spec.tileAcc (m (xLoc d)) (m (tLoc d)) (7168 * (L 1).val + 3584 * (L 0).val) 224) Finset.univ : sProp 𝕄)
      = (oLoc d ↦[oRowSet L]{fullShare} outF m d) := by
  refine pointsTo_congr fun i hi => ?_
  rw [← set_oRow] at hi
  obtain ⟨y, -, rfl⟩ := Finset.mem_map.mp hi
  rw [View.write_emb_of_mem _ _ (Finset.mem_univ y)]
  refine (cast_eq _ _).trans ?_
  show Spec.tileAcc (m (xLoc d)) (m (tLoc d)) (7168 * (L 1).val + 3584 * (L 0).val) 224 y
    = Spec.tileAcc (m (xLoc d)) (m (tLoc d)) (3584 * (((oRowM L).view.emb y) 0).val) 224 (ValueIdx.ix1 (((oRowM L).view.emb y) 1))
  have hb : 3584 * (((oRowM L).view.emb y) 0).val = 7168 * (L 1).val + 3584 * (L 0).val := by
    rw [emb_oRow_row]; omega
  have hy : ValueIdx.ix1 (((oRowM L).view.emb y) 1) = y := by
    funext a
    match a with
    | ⟨0, _⟩ => exact Fin.ext (emb_oRow_col L y)
  rw [hb]
  exact congrArg (Spec.tileAcc (m (xLoc d)) (m (tLoc d)) (7168 * (L 1).val + 3584 * (L 0).val) 224) hy.symm

end Cert.KernelIdeal.Tile

end
-- ==== Proof.KernelIdeal.TileFrame.lean ====
/-
  The task's resources spelt out. What the launch hands one vector subcore — the evidence for its waits, its shares of
  the arrays, its scoped storage and semaphores, what it owes — is: leave to wait on its own semaphores, the three
  array shares, its four scratch buffers at some contents, its four DMA semaphores at zero, the rest of its scoped
  storage, and what it owes; and the same resources, with the row of the partial sums at its final value, are what it
  hands back.
-/
import proofs.«213812_g11871289606185_cont_fleet_226_25_alg».proof.Proof.KernelIdeal.Iface
import proofs.«213812_g11871289606185_cont_fleet_226_25_alg».proof.Proof.KernelIdeal.TileEnds

noncomputable section

namespace Cert.KernelIdeal.Tile

open Cert.KernelIdeal Cert.KernelIdeal.Gen Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- The subcore's scoped buffers other than the four scratch buffers, each whole at some contents. -/
def restBufs : sProp 𝕄 :=
  bigSep (((((ownRefs (τ := τ) (.scVector (cV L) (jV L))).erase ((Proc.scVector (cV L) (jV L)).devRef cc0_scratch0)).erase
      ((Proc.scVector (cV L) (jV L)).devRef cc0_scratch1)).erase ((Proc.scVector (cV L) (jV L)).devRef cc0_scratch2)).erase
      ((Proc.scVector (cV L) (jV L)).devRef cc0_scratch3))
    fun b => iprop(∃ f, ((d, b) : Loc nD τ sig) ↦{fullShare} f)

/-- The subcore's scoped semaphores other than the four DMA semaphores, at zero. -/
def restSems : sProp 𝕄 :=
  bigSep (((((ownCells (V d (cV L) (jV L))).erase (c4cell d (cV L) (jV L))).erase (c5cell d (cV L) (jV L))).erase
      (cAcell d (cV L) (jV L))).erase (cBcell d (cV L) (jV L))) fun g => semVal g 0

/-- The subcore's scoped buffers: the four scratch buffers at some contents, and the rest. -/
theorem scopedBufs_eq :
    (scopedBufs (V d (cV L) (jV L)) : sProp 𝕄)
      = iprop((∃ f, (sT).view.loc (V d (cV L) (jV L)) ↦{fullShare} f) ∗ (∃ f, (sA).view.loc (V d (cV L) (jV L)) ↦{fullShare} f)
          ∗ (∃ f, (sB).view.loc (V d (cV L) (jV L)) ↦{fullShare} f) ∗ (∃ f, (sO).view.loc (V d (cV L) (jV L)) ↦{fullShare} f)
          ∗ restBufs (F := F) (U := U) d L) := by
  rw [(K (F := F)).scopedBufs_V facts d (cV L) (jV L), ownBufs_V4]
  rfl

/-- The subcore's scoped semaphores at zero: the four DMA semaphores at zero, and the rest. -/
theorem scopedSems0_eq :
    (scopedSems0 (V d (cV L) (jV L)) : sProp 𝕄)
      = iprop(semVal (V d (cV L) (jV L), SemLoc.dma cc0_scratch4.sem) 0 ∗ semVal (V d (cV L) (jV L), SemLoc.dma cc0_scratch5.sem) 0
          ∗ semVal (V d (cV L) (jV L), SemLoc.dma cc0_scoped0.sem) 0 ∗ semVal (V d (cV L) (jV L), SemLoc.dma cc0_scoped1.sem) 0
          ∗ restSems (F := F) (U := U) d L) := by
  rw [SparseCore.Cfg.scopedSems0_V (Val := Elt F) d (cV L) (jV L), ownSems0_V4]
  rfl

/-- WHAT THE TASK STARTS FROM, spelt out. -/
theorem tile_open (qx qt : PosShare TreeShare) (fo : Buf (Elt F) (oLoc d)) (O : CellTallies nD τ sig (HIx 1)) (W : Waits sig (HIx 1))
    (hO : ∀ g, O g none = 0) :
    (iprop(levAts (K (F := F)).L (K (F := F)).lev
        ∗ ((xLoc d ↦{qx} m (xLoc d)) ∗ (tLoc d ↦{qt} m (tLoc d)) ∗ (oLoc d ↦[oRowSet L]{fullShare} fo))
        ∗ scopedBufs (V d (cV L) (jV L)) ∗ scopedSems0 (V d (cV L) (jV L)) ∗ owes (V d (cV L) (jV L)) O W) : sProp 𝕄)
      ⊢ iprop(Transfers.MayWaits (V d (cV L) (jV L)) (none : HIx 1) O
        ∗ (((xV).view.loc (V d (cV L) (jV L)) ↦{qx} m (xLoc d)) ∗ ((tV).view.loc (V d (cV L) (jV L)) ↦{qt} m (tLoc d))
            ∗ (oLoc d ↦[oRowSet L]{fullShare} fo))
        ∗ ((∃ f, (sT).view.loc (V d (cV L) (jV L)) ↦{fullShare} f) ∗ (∃ f, (sA).view.loc (V d (cV L) (jV L)) ↦{fullShare} f)
            ∗ (∃ f, (sB).view.loc (V d (cV L) (jV L)) ↦{fullShare} f) ∗ (∃ f, (sO).view.loc (V d (cV L) (jV L)) ↦{fullShare} f)
            ∗ restBufs (F := F) (U := U) d L)
        ∗ (semVal (V d (cV L) (jV L), SemLoc.dma cc0_scratch4.sem) 0 ∗ semVal (V d (cV L) (jV L), SemLoc.dma cc0_scratch5.sem) 0
            ∗ semVal (V d (cV L) (jV L), SemLoc.dma cc0_scoped0.sem) 0 ∗ semVal (V d (cV L) (jV L), SemLoc.dma cc0_scoped1.sem) 0
            ∗ restSems (F := F) (U := U) d L)
        ∗ owes (V d (cV L) (jV L)) O W) := by
  rw [scopedBufs_eq, scopedSems0_eq]
  iintro ⟨#Hlv, Harr, Hbufs, Hsems, HO⟩
  isplitr
  · iapply ((K (F := F)).mayWaits_none hO); iexact Hlv
  isplitl [Harr]; · iexact Harr
  isplitl [Hbufs]; · iexact Hbufs
  isplitl [Hsems]; · iexact Hsems
  iexact HO

/-- WHAT THE TASK HANDS BACK, folded up again. -/
theorem tile_close (qx qt : PosShare TreeShare) (O : CellTallies nD τ sig (HIx 1)) (W : Waits sig (HIx 1)) :
    (iprop((((xV).view.loc (V d (cV L) (jV L)) ↦{qx} m (xLoc d)) ∗ ((tV).view.loc (V d (cV L) (jV L)) ↦{qt} m (tLoc d))
            ∗ (oLoc d ↦[oRowSet L]{fullShare} outF m d))
        ∗ ((∃ f, (sT).view.loc (V d (cV L) (jV L)) ↦{fullShare} f) ∗ (∃ f, (sA).view.loc (V d (cV L) (jV L)) ↦{fullShare} f)
            ∗ (∃ f, (sB).view.loc (V d (cV L) (jV L)) ↦{fullShare} f) ∗ (∃ f, (sO).view.loc (V d (cV L) (jV L)) ↦{fullShare} f)
            ∗ restBufs (F := F) (U := U) d L)
        ∗ (semVal (V d (cV L) (jV L), SemLoc.dma cc0_scratch4.sem) 0 ∗ semVal (V d (cV L) (jV L), SemLoc.dma cc0_scratch5.sem) 0
            ∗ semVal (V d (cV L) (jV L), SemLoc.dma cc0_scoped0.sem) 0 ∗ semVal (V d (cV L) (jV L), SemLoc.dma cc0_scoped1.sem) 0
            ∗ restSems (F := F) (U := U) d L)
        ∗ ∃ W', ⌜∀ p ∈ W', p ∈ W ∨ p.2 = none⌝ ∗ owes (V d (cV L) (jV L)) O W') : sProp 𝕄)
      ⊢ iprop(((xLoc d ↦{qx} m (xLoc d)) ∗ (tLoc d ↦{qt} m (tLoc d)) ∗ (oLoc d ↦[oRowSet L]{fullShare} outF m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [scopedBufs_eq, scopedSems0_eq]

end Cert.KernelIdeal.Tile

end
-- ==== Proof.KernelIdeal.TileOut.lean ====
/-
  The end of the task, as the symbolic run leaves it: the accumulator stored whole into its scratch buffer and read
  back is the accumulator; written from there through the whole of the subcore's row of the partial sums, the row
  holds `Spec.partials`' row.
-/
import proofs.«213812_g11871289606185_cont_fleet_226_25_alg».proof.Proof.KernelIdeal.TileBase
import proofs.«213812_g11871289606185_cont_fleet_226_25_alg».proof.Proof.KernelIdeal.TileEnds
import Idealize.ShloMosaic.Lib.Writes

noncomputable section

namespace Cert.KernelIdeal.Tile

open Cert.KernelIdeal Cert.KernelIdeal.Gen Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

omit [FloatOps F] [CountersIn U] in
/-- The accumulator's scratch buffer, stored whole and read back, holds what was stored. -/
theorem sO_read_back (fO : Buf (Elt F) ((thr d L).loc cc0_scratch3)) (acc : S16.Idx → Elt F .f32) :
    View.read (Elt F) (sO : Memref sig .scVector .vmem S16 .f32).view
      ((sO : Memref sig .scVector .vmem S16 .f32).view.writes (Elt F) fO [⟨Rect.unit (s := S16) ![0] S16.size inb_S16_S16_0, acc⟩]) = acc := by
  rw [View.writes_singleton]
  have hw : ((sO : Memref sig .scVector .vmem S16 .f32).view.slice (Rect.unit (s := S16) ![0] S16.size inb_S16_S16_0)).write (Elt F) fO acc Finset.univ = acc :=
    Memref.write_access_unit_zero_univ (Elt F) cc0_scratch3 (off := ![0])
      (funext fun a => by obtain rfl : a = 0 := Subsingleton.elim _ _; rfl) inb_S16_S16_0 fO acc
  rw [hw]
  rfl

omit [FloatOps F] [CountersIn U] in
/-- Writing through the whole of the subcore's row is writing through the row. -/
theorem oRow_write_whole (fo : Buf (Elt F) (oLoc d)) (w : S16.Idx → Elt F .f32) (i : S32x16.Idx) (hi : i ∈ (oRowM L).view.set) :
    (oRowM L).view.writes (Elt F) fo [⟨Rect.whole S16, w⟩] i = (oRowM L).view.write (Elt F) fo w Finset.univ i := by
  obtain ⟨y, -, rfl⟩ := Finset.mem_map.mp hi
  rw [View.writes_singleton, View.write_emb_of_mem _ _ (Finset.mem_univ y)]
  have he : ((oRowM L).view.slice (Rect.whole S16)).emb y = (oRowM L).view.emb y :=
    congrArg (oRowM L).view.emb (Rect.emb_whole_apply S16 y)
  rw [← he]
  exact View.write_emb_of_mem (v := (oRowM L).view.slice (Rect.whole S16)) (Val := Elt F) fo w (M := Finset.univ) (x := y) (Finset.mem_univ y)

/-- THE ROW AT THE END, as the run leaves it: the subcore's row of the partial sums holds `Spec.partials`' row. -/
theorem pts_oRow_final (fo : Buf (Elt F) (oLoc d)) (fO : Buf (Elt F) ((thr d L).loc cc0_scratch3)) :
    ((oRowM L).view.loc (thr d L) ↦[(oRowM L).view.set]{fullShare}
        (oRowM L).view.writes (Elt F) fo [⟨Rect.whole S16, ReadAs.same.apply (View.read (Elt F) (sO : Memref sig .scVector .vmem S16 .f32).view
          ((sO : Memref sig .scVector .vmem S16 .f32).view.writes (Elt F) fO [⟨Rect.unit (s := S16) ![0] S16.size inb_S16_S16_0, accAt m d L 224⟩]))⟩] : sProp 𝕄)
      = (oLoc d ↦[oRowSet L]{fullShare} outF m d) := by
  rw [sO_read_back]
  refine (pts_oRow (F := F) (U := U) d L _).trans ?_
  refine Eq.trans (pointsTo_congr fun i hi => ?_) (pts_oRow_end (F := F) (U := U) d L m fo)
  rw [← set_oRow] at hi
  exact oRow_write_whole d L fo _ i hi

omit [FloatOps F] [CountersIn U] in
/-- The accumulator's scratch buffer held in two pieces at one valuation is held whole. -/
theorem sO_join (g : Buf (Elt F) ((thr d L).loc cc0_scratch3)) :
    (iprop(((sO : Memref sig .scVector .vmem S16 .f32).view.loc (thr d L) ↦[(sO : Memref sig .scVector .vmem S16 .f32).view.set]{fullShare} g)
        ∗ ((sO : Memref sig .scVector .vmem S16 .f32).view.loc (thr d L) ↦[Finset.univ \ (sO : Memref sig .scVector .vmem S16 .f32).view.set]{fullShare} g)) : sProp 𝕄)
      ⊢ ((sO : Memref sig .scVector .vmem S16 .f32).view.loc (thr d L) ↦{fullShare} g) :=
  (pointsTo_split_subset (Finset.subset_univ _)).2

end Cert.KernelIdeal.Tile

end
-- ==== Proof.KernelIdeal.TileP1.lean ====
/-
  Statements 1–60 of the body: the task's 3584 column words fetched; chunks 0 and 1 fetched into the two buffers and summed
  (groups 0 … 15: the accumulator ends at `Spec.tileAcc … 16`); chunk 2's copy into the first buffer started.
-/
import proofs.«213812_g11871289606185_cont_fleet_226_25_alg».proof.Proof.KernelIdeal.Iface
import proofs.«213812_g11871289606185_cont_fleet_226_25_alg».proof.Proof.KernelIdeal.SkeletonP
import proofs.«213812_g11871289606185_cont_fleet_226_25_alg».proof.Proof.KernelIdeal.TileBase
import proofs.«213812_g11871289606185_cont_fleet_226_25_alg».proof.Proof.KernelIdeal.TileVal
import proofs.«213812_g11871289606185_cont_fleet_226_25_alg».proof.Proof.KernelIdeal.TileSeg

noncomputable section

namespace Cert.KernelIdeal.Tile

open Cert.KernelIdeal Cert.KernelIdeal.Gen Cert.KernelIdeal.GenP Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- Statements 1–60: the column words fetched, chunks 0 and 1 fetched and summed, chunk 2's copy started. -/
theorem part1 (hT : TgtOK m) (qx qt : PosShare TreeShare) (O : CellTallies nD τ sig (HIx 1)) (W : Waits sig (HIx 1))
    (fT : Buf (Elt F) ((thr d L).loc cc0_scratch0)) (fA : Buf (Elt F) ((thr d L).loc cc0_scratch1)) (fB : Buf (Elt F) ((thr d L).loc cc0_scratch2)) :
    iprop(Transfers.MayWaits (thr d L) (none : HIx 1) O
        ∗ ((xV).view.loc (thr d L) ↦{qx} m (xLoc d)) ∗ ((tV).view.loc (thr d L) ↦{qt} m (tLoc d))
        ∗ ((sT).view.loc (thr d L) ↦{fullShare} fT) ∗ ((sA).view.loc (thr d L) ↦{fullShare} fA) ∗ ((sB).view.loc (thr d L) ↦{fullShare} fB)
        ∗ semVal (thr d L, SemLoc.dma cc0_scratch4.sem) 0 ∗ semVal (thr d L, SemLoc.dma cc0_scratch5.sem) 0 ∗ semVal (thr d L, SemLoc.dma cc0_scoped0.sem) 0
        ∗ owes (thr d L) O W)
      ⊢ (wp frame (wpE (defs₀ (F := F)) 𝒱₀ (thr d L) none) Set.univ
          (k0_part1 (F := F) L xV (Memref.isWhole_whole _) tV (Memref.isWhole_whole _) oV (Memref.isWhole_whole _)
            sT (Memref.isWhole_whole _) sA (Memref.isWhole_whole _) sB (Memref.isWhole_whole _) sO (Memref.isWhole_whole _)
            cc0_scratch4 cc0_scratch5 cc0_scoped0 cc0_scoped1)
          fun r => iprop(⌜r.2.1 = (iota .scVector S16 32 [0] iota_S16_d0_w32_scVector) ∧ r.2.2 = accAt m d L 16⌝
            ∗ ∃ W', ⌜∀ p ∈ W', p ∈ W ∨ p.2 = none⌝ ∗ Core m d L qt O W' ∗ xRest (F := F) m d L qx 256#32 (k0_off2_inb L 2) ∗ flightA m d L qx 256#32 (k0_off2_inb L 2)
              ∗ ((sB).view.loc (thr d L) ↦{fullShare} xRd m d L 128#32 (k0_off2_inb L 1)) ∗ semVal (thr d L, SemLoc.dma cc0_scratch5.sem) 0) : sProp 𝕄) := by
  iintro ⟨#Hmw, Hx, Ht, HsT, HsA, HsB, Hs4, Hs5, Hc0, HO⟩
  sl_unfold [k0_part1]
  sl_exec
  ihave HsT := (Entails.of_eq (heldT_write (F := F) d L _ _)) $$ HsT
  ihave HsA := (Entails.of_eq (heldA_write (F := F) d L _ _)) $$ HsA
  sl_for (invA m d L 0#32 (k0_off2_inb L 0) 0) $$ [HsT HsA]
  case region =>
    intro k acc
    exact tripA m d L hT 0 k0_t1_abs.2.1 k0_off3 k0_off3_inb k0_pay2 k0_chk1 k0_chk1.dec k0_idx1_inb k0_pay3 k0_off3_eq (by decide +kernel) (fun _ _ h => h) (fun _ _ => rfl) k acc
  · unfold invA
    isplitr; · ipureintro; rfl
    isplitl [HsT]; · iexact HsT
    iexact HsA
  iintro %acc HI
  unfold invA
  icases HI with ⟨%hacc, HsT, HsA⟩
  sl_exec
  ihave HsB := (Entails.of_eq (heldB_write (F := F) d L _ _)) $$ HsB
  sl_for (invB m d L 128#32 (k0_off2_inb L 1) 8) $$ [HsT HsB]
  case region =>
    intro k acc
    exact tripB m d L hT 1 k0_t2_abs.2.1 k0_off4 k0_off4_inb k0_pay4 k0_chk2 k0_chk2.dec k0_idx2_inb k0_pay5 k0_off4_eq (by decide +kernel) (fun _ _ h => h) (fun _ _ => rfl) k acc
  · unfold invB
    isplitr; · ipureintro; exact hacc
    isplitl [HsT]; · iexact HsT
    iexact HsB
  iintro %acc2 HI
  unfold invB
  icases HI with ⟨%hacc2, HsT, HsB⟩
  sl_exec
  sl_step
  ihave Hs4 := (flightA_norm (F := F) d L _ _ _ _ _ _) $$ Hs4
  have h8 : Scf.trips k0_t2_loop.lb k0_t2_loop.ub k0_t2_loop.st = 8 := by decide
  rw [h8] at hacc2
  isplitr; · ipureintro; exact ⟨rfl, hacc2⟩
  iexists _; isplitr
  swap
  · unfold Core xRest flightA
    isplitl [Ht HsT Hc0 HO]
    · isplitr; · iexact Hmw
      isplitl [Ht]; · iexact Ht
      isplitl [HsT]; · iexact HsT
      isplitl [Hc0]; · iexact Hc0
      iexact HO
    isplitl [Hx]; · iexact Hx
    isplitl [Hs4]; · iexact Hs4
    isplitl [HsB]; · iexact HsB
    iexact Hs5
  · ipureintro; exact waits_insert _ (waits_insert _ (waits_insert _ (fun p hp => .inl hp)))

end Cert.KernelIdeal.Tile
end
-- ==== Proof.KernelIdeal.TileP2.lean ====
/-
  Statements 61–120: chunks 2, 3 and 4 summed (groups 16 … 39: the accumulator from `Spec.tileAcc … 16` to `… 40`) while
  chunks 3, 4 and 5 are fetched; at the end no copy is in flight, the buffers hold chunks 4 and 5.
-/
import proofs.«213812_g11871289606185_cont_fleet_226_25_alg».proof.Proof.KernelIdeal.Iface
import proofs.«213812_g11871289606185_cont_fleet_226_25_alg».proof.Proof.KernelIdeal.SkeletonP
import proofs.«213812_g11871289606185_cont_fleet_226_25_alg».proof.Proof.KernelIdeal.TileBase
import proofs.«213812_g11871289606185_cont_fleet_226_25_alg».proof.Proof.KernelIdeal.TileVal
import proofs.«213812_g11871289606185_cont_fleet_226_25_alg».proof.Proof.KernelIdeal.TileSeg

noncomputable section

namespace Cert.KernelIdeal.Tile

open Cert.KernelIdeal Cert.KernelIdeal.Gen Cert.KernelIdeal.GenP Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- Statements 61–120: chunks 2, 3 and 4 summed while chunks 3, 4 and 5 are fetched. -/
theorem part2 (hT : TgtOK m) (qx qt : PosShare TreeShare) (O : CellTallies nD τ sig (HIx 1)) (W : Waits sig (HIx 1)) (v2 : BitVec 32) :
    iprop(Core m d L qt O W ∗ xRest (F := F) m d L qx 256#32 (k0_off2_inb L 2) ∗ flightA m d L qx 256#32 (k0_off2_inb L 2)
        ∗ ((sB).view.loc (thr d L) ↦{fullShare} xRd m d L 128#32 (k0_off2_inb L 1)) ∗ semVal (thr d L, SemLoc.dma cc0_scratch5.sem) 0)
      ⊢ (wp frame (wpE (defs₀ (F := F)) 𝒱₀ (thr d L) none) Set.univ
          (k0_part2 (F := F) L xV (Memref.isWhole_whole _) tV (Memref.isWhole_whole _) oV (Memref.isWhole_whole _)
            sT (Memref.isWhole_whole _) sA (Memref.isWhole_whole _) sB (Memref.isWhole_whole _) sO (Memref.isWhole_whole _)
            cc0_scratch4 cc0_scratch5 cc0_scoped0 cc0_scoped1 v2 (iota .scVector S16 32 [0] iota_S16_d0_w32_scVector) (accAt m d L 16))
          fun r => iprop(⌜r = accAt m d L 40⌝
            ∗ ∃ W', ⌜∀ p ∈ W', p ∈ W ∨ p.2 = none⌝ ∗ Core m d L qt O W' ∗ ((xV).view.loc (thr d L) ↦{qx} m (xLoc d))
              ∗ ((sA).view.loc (thr d L) ↦{fullShare} xRd m d L 512#32 (k0_off2_inb L 4))
              ∗ ((sB).view.loc (thr d L) ↦{fullShare} xRd m d L 640#32 (k0_off2_inb L 5))
              ∗ semVal (thr d L, SemLoc.dma cc0_scratch4.sem) 0 ∗ semVal (thr d L, SemLoc.dma cc0_scratch5.sem) 0) : sProp 𝕄) := by
  try unfold Core
  try unfold xRest
  try unfold flightA
  try unfold flightB
  iintro ⟨⟨#Hmw, Ht, HsT, Hc0, HO⟩, Hx, H4, HB, H5⟩
  sl_unfold [k0_part2]
  sl_exec
  irename H4_dst => HA
  sl_for (invA m d L 256#32 (k0_off2_inb L 2) 16) $$ [HsT HA]
  case region =>
    intro k acc
    exact tripA m d L hT 2 k0_t3_abs.2.1 k0_off5 k0_off5_inb (k0_pay6 (iota .scVector S16 32 [0] iota_S16_d0_w32_scVector)) k0_chk3 k0_chk3.dec k0_idx3_inb k0_pay7 k0_off5_eq (by decide +kernel) (fun _ _ h => h) (fun _ _ => rfl) k acc
  · unfold invA
    isplitr; · ipureintro; rfl
    isplitl [HsT]; · iexact HsT
    iexact HA
  iintro %acc3 HI
  unfold invA
  icases HI with ⟨%hacc3, HsT, HA⟩
  have h8_3 : Scf.trips k0_t3_loop.lb k0_t3_loop.ub k0_t3_loop.st = 8 := by decide
  rw [h8_3] at hacc3
  sl_exec
  ihave HB := (Entails.of_eq (heldB_write (F := F) d L _ _)) $$ HB
  sl_for (invB m d L 384#32 (k0_off2_inb L 3) 24) $$ [HsT HB]
  case region =>
    intro k acc
    exact tripB m d L hT 3 k0_t4_abs.2.1 k0_off6 k0_off6_inb (k0_pay8 (iota .scVector S16 32 [0] iota_S16_d0_w32_scVector)) k0_chk4 k0_chk4.dec k0_idx4_inb k0_pay9 k0_off6_eq (by decide +kernel) (fun _ _ h => h) (fun _ _ => rfl) k acc
  · unfold invB
    isplitr; · ipureintro; exact hacc3
    isplitl [HsT]; · iexact HsT
    iexact HB
  iintro %acc4 HI
  unfold invB
  icases HI with ⟨%hacc4, HsT, HB⟩
  have h8_4 : Scf.trips k0_t4_loop.lb k0_t4_loop.ub k0_t4_loop.st = 8 := by decide
  rw [h8_4] at hacc4
  sl_exec
  ihave HA := (Entails.of_eq (heldA_write (F := F) d L _ _)) $$ HA
  sl_for (invA m d L 512#32 (k0_off2_inb L 4) 32) $$ [HsT HA]
  case region =>
    intro k acc
    exact tripA m d L hT 4 k0_t5_abs.2.1 k0_off7 k0_off7_inb (k0_pay10 (iota .scVector S16 32 [0] iota_S16_d0_w32_scVector)) k0_chk5 k0_chk5.dec k0_idx5_inb k0_pay11 k0_off7_eq (by decide +kernel) (fun _ _ h => h) (fun _ _ => rfl) k acc
  · unfold invA
    isplitr; · ipureintro; exact hacc4
    isplitl [HsT]; · iexact HsT
    iexact HA
  iintro %acc5 HI
  unfold invA
  icases HI with ⟨%hacc5, HsT, HA⟩
  have h8_5 : Scf.trips k0_t5_loop.lb k0_t5_loop.ub k0_t5_loop.st = 8 := by decide
  rw [h8_5] at hacc5
  sl_exec
  ihave HB := (Entails.of_eq (heldB_write (F := F) d L _ _)) $$ HB
  sl_step
  isplitr; · ipureintro; exact hacc5
  iexists _; isplitr
  swap
  · isplitl [Ht HsT Hc0 HO]
    · isplitr; · iexact Hmw
      isplitl [Ht]; · iexact Ht
      isplitl [HsT]; · iexact HsT
      isplitl [Hc0]; · iexact Hc0
      iexact HO
    isplitl [Hx]; · iexact Hx
    isplitl [HA]; · iexact HA
    isplitl [HB]; · iexact HB
    isplitl [H4]; · iexact H4
    iexact H5
  · ipureintro; exact (waits_insert _ (waits_insert _ (waits_insert _ (waits_insert _ (fun p hp => .inl hp)))))

end Cert.KernelIdeal.Tile
end
-- ==== Proof.KernelIdeal.TileP3.lean ====
/-
  Statements 121–180: chunks 5, 6 and 7 summed (groups 40 … 63: the accumulator from `Spec.tileAcc … 40` to `… 64`) while
  chunks 6, 7 and 8 are fetched; chunk 9's copy into the second buffer is left in flight.
-/
import proofs.«213812_g11871289606185_cont_fleet_226_25_alg».proof.Proof.KernelIdeal.Iface
import proofs.«213812_g11871289606185_cont_fleet_226_25_alg».proof.Proof.KernelIdeal.SkeletonP
import proofs.«213812_g11871289606185_cont_fleet_226_25_alg».proof.Proof.KernelIdeal.TileBase
import proofs.«213812_g11871289606185_cont_fleet_226_25_alg».proof.Proof.KernelIdeal.TileVal
import proofs.«213812_g11871289606185_cont_fleet_226_25_alg».proof.Proof.KernelIdeal.TileSeg

noncomputable section

namespace Cert.KernelIdeal.Tile

open Cert.KernelIdeal Cert.KernelIdeal.Gen Cert.KernelIdeal.GenP Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- Statements 121–180: chunks 5, 6 and 7 summed while chunks 6 to 9 are fetched. -/
theorem part3 (hT : TgtOK m) (qx qt : PosShare TreeShare) (O : CellTallies nD τ sig (HIx 1)) (W : Waits sig (HIx 1)) (v2 : BitVec 32) :
    iprop(Core m d L qt O W ∗ ((xV).view.loc (thr d L) ↦{qx} m (xLoc d))
        ∗ ((sA).view.loc (thr d L) ↦{fullShare} xRd m d L 512#32 (k0_off2_inb L 4))
        ∗ ((sB).view.loc (thr d L) ↦{fullShare} xRd m d L 640#32 (k0_off2_inb L 5))
        ∗ semVal (thr d L, SemLoc.dma cc0_scratch4.sem) 0 ∗ semVal (thr d L, SemLoc.dma cc0_scratch5.sem) 0)
      ⊢ (wp frame (wpE (defs₀ (F := F)) 𝒱₀ (thr d L) none) Set.univ
          (k0_part3 (F := F) L xV (Memref.isWhole_whole _) tV (Memref.isWhole_whole _) oV (Memref.isWhole_whole _)
            sT (Memref.isWhole_whole _) sA (Memref.isWhole_whole _) sB (Memref.isWhole_whole _) sO (Memref.isWhole_whole _)
            cc0_scratch4 cc0_scratch5 cc0_scoped0 cc0_scoped1 v2 (iota .scVector S16 32 [0] iota_S16_d0_w32_scVector) (accAt m d L 40))
          fun r => iprop(⌜r.1 = accAt m d L 64 ∧ r.2 = 0#32⌝
            ∗ ∃ W', ⌜∀ p ∈ W', p ∈ W ∨ p.2 = none⌝ ∗ Core m d L qt O W' ∗ xRest (F := F) m d L qx 1152#32 (k0_off2_inb L 9)
              ∗ ((sA).view.loc (thr d L) ↦{fullShare} xRd m d L 1024#32 (k0_off2_inb L 8)) ∗ semVal (thr d L, SemLoc.dma cc0_scratch4.sem) 0 ∗ flightB m d L qx 1152#32 (k0_off2_inb L 9)) : sProp 𝕄) := by
  try unfold Core
  try unfold xRest
  try unfold flightA
  try unfold flightB
  iintro ⟨⟨#Hmw, Ht, HsT, Hc0, HO⟩, Hx, HA, HB, H4, H5⟩
  sl_unfold [k0_part3]
  sl_exec
  sl_for (invB m d L 640#32 (k0_off2_inb L 5) 40) $$ [HsT HB]
  case region =>
    intro k acc
    exact tripB m d L hT 5 k0_t6_abs.2.1 k0_off8 k0_off8_inb (k0_pay12 (iota .scVector S16 32 [0] iota_S16_d0_w32_scVector)) k0_chk6 k0_chk6.dec k0_idx6_inb k0_pay13 k0_off8_eq (by decide +kernel) (fun _ _ h => h) (fun _ _ => rfl) k acc
  · unfold invB
    isplitr; · ipureintro; rfl
    isplitl [HsT]; · iexact HsT
    iexact HB
  iintro %acc6 HI
  unfold invB
  icases HI with ⟨%hacc6, HsT, HB⟩
  have h8_6 : Scf.trips k0_t6_loop.lb k0_t6_loop.ub k0_t6_loop.st = 8 := by decide
  rw [h8_6] at hacc6
  sl_exec
  ihave HA := (Entails.of_eq (heldA_write (F := F) d L _ _)) $$ HA
  sl_for (invA m d L 768#32 (k0_off2_inb L 6) 48) $$ [HsT HA]
  case region =>
    intro k acc
    exact tripA m d L hT 6 k0_t7_abs.2.1 k0_off9 k0_off9_inb (k0_pay14 (iota .scVector S16 32 [0] iota_S16_d0_w32_scVector)) k0_chk7 k0_chk7.dec k0_idx7_inb k0_pay15 k0_off9_eq (by decide +kernel) (fun _ _ h => h) (fun _ _ => rfl) k acc
  · unfold invA
    isplitr; · ipureintro; exact hacc6
    isplitl [HsT]; · iexact HsT
    iexact HA
  iintro %acc7 HI
  unfold invA
  icases HI with ⟨%hacc7, HsT, HA⟩
  have h8_7 : Scf.trips k0_t7_loop.lb k0_t7_loop.ub k0_t7_loop.st = 8 := by decide
  rw [h8_7] at hacc7
  sl_exec
  ihave HB := (Entails.of_eq (heldB_write (F := F) d L _ _)) $$ HB
  sl_for (invB m d L 896#32 (k0_off2_inb L 7) 56) $$ [HsT HB]
  case region =>
    intro k acc
    exact tripB m d L hT 7 k0_t8_abs.2.1 k0_off10 k0_off10_inb (k0_pay16 (iota .scVector S16 32 [0] iota_S16_d0_w32_scVector)) k0_chk8 k0_chk8.dec k0_idx8_inb k0_pay17 k0_off10_eq (by decide +kernel) (fun _ _ h => h) (fun _ _ => rfl) k acc
  · unfold invB
    isplitr; · ipureintro; exact hacc7
    isplitl [HsT]; · iexact HsT
    iexact HB
  iintro %acc8 HI
  unfold invB
  icases HI with ⟨%hacc8, HsT, HB⟩
  have h8_8 : Scf.trips k0_t8_loop.lb k0_t8_loop.ub k0_t8_loop.st = 8 := by decide
  rw [h8_8] at hacc8
  sl_exec
  ihave HA := (Entails.of_eq (heldA_write (F := F) d L _ _)) $$ HA
  sl_step
  ihave H5 := (flightB_norm (F := F) d L _ _ _ _ _ _) $$ H5
  isplitr; · ipureintro; exact ⟨hacc8, rfl⟩
  iexists _; isplitr
  swap
  · isplitl [Ht HsT Hc0 HO]
    · isplitr; · iexact Hmw
      isplitl [Ht]; · iexact Ht
      isplitl [HsT]; · iexact HsT
      isplitl [Hc0]; · iexact Hc0
      iexact HO
    isplitl [Hx]; · iexact Hx
    isplitl [HA]; · iexact HA
    isplitl [H4]; · iexact H4
    iexact H5
  · ipureintro; exact (waits_insert _ (waits_insert _ (waits_insert _ (fun p hp => .inl hp))))

end Cert.KernelIdeal.Tile
end
-- ==== Proof.KernelIdeal.TileP4.lean ====
/-
  Statements 181–240: chunks 8, 9, 10 and 11 summed (groups 64 … 95: the accumulator from `Spec.tileAcc … 64` to `… 96`)
  while chunks 10 and 11 are fetched; chunk 12's copy into the first buffer is left in flight.
-/
import proofs.«213812_g11871289606185_cont_fleet_226_25_alg».proof.Proof.KernelIdeal.Iface
import proofs.«213812_g11871289606185_cont_fleet_226_25_alg».proof.Proof.KernelIdeal.SkeletonP
import proofs.«213812_g11871289606185_cont_fleet_226_25_alg».proof.Proof.KernelIdeal.TileBase
import proofs.«213812_g11871289606185_cont_fleet_226_25_alg».proof.Proof.KernelIdeal.TileVal
import proofs.«213812_g11871289606185_cont_fleet_226_25_alg».proof.Proof.KernelIdeal.TileSeg

noncomputable section

namespace Cert.KernelIdeal.Tile

open Cert.KernelIdeal Cert.KernelIdeal.Gen Cert.KernelIdeal.GenP Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- Statements 181–240: chunks 8 to 11 summed while chunks 10, 11 and 12 are fetched. -/
theorem part4 (hT : TgtOK m) (qx qt : PosShare TreeShare) (O : CellTallies nD τ sig (HIx 1)) (W : Waits sig (HIx 1)) (v2 : BitVec 32) :
    iprop(Core m d L qt O W ∗ xRest (F := F) m d L qx 1152#32 (k0_off2_inb L 9)
        ∗ ((sA).view.loc (thr d L) ↦{fullShare} xRd m d L 1024#32 (k0_off2_inb L 8)) ∗ semVal (thr d L, SemLoc.dma cc0_scratch4.sem) 0 ∗ flightB m d L qx 1152#32 (k0_off2_inb L 9))
      ⊢ (wp frame (wpE (defs₀ (F := F)) 𝒱₀ (thr d L) none) Set.univ
          (k0_part4 (F := F) L xV (Memref.isWhole_whole _) tV (Memref.isWhole_whole _) oV (Memref.isWhole_whole _)
            sT (Memref.isWhole_whole _) sA (Memref.isWhole_whole _) sB (Memref.isWhole_whole _) sO (Memref.isWhole_whole _)
            cc0_scratch4 cc0_scratch5 cc0_scoped0 cc0_scoped1 v2 (iota .scVector S16 32 [0] iota_S16_d0_w32_scVector) (accAt m d L 64) 0#32)
          fun r => iprop(⌜r = accAt m d L 96⌝
            ∗ ∃ W', ⌜∀ p ∈ W', p ∈ W ∨ p.2 = none⌝ ∗ Core m d L qt O W' ∗ xRest (F := F) m d L qx 1536#32 (k0_off2_inb L 12) ∗ flightA m d L qx 1536#32 (k0_off2_inb L 12)
              ∗ ((sB).view.loc (thr d L) ↦{fullShare} xRd m d L 1408#32 (k0_off2_inb L 11)) ∗ semVal (thr d L, SemLoc.dma cc0_scratch5.sem) 0) : sProp 𝕄) := by
  try unfold Core
  try unfold xRest
  try unfold flightA
  try unfold flightB
  iintro ⟨⟨#Hmw, Ht, HsT, Hc0, HO⟩, Hx, HA, H4, H5⟩
  sl_unfold [k0_part4]
  sl_exec
  sl_for (invA m d L 1024#32 (k0_off2_inb L 8) 64) $$ [HsT HA]
  case region =>
    intro k acc
    exact tripA m d L hT 8 k0_t9_abs.2.1 k0_off11 k0_off11_inb (k0_pay18 (iota .scVector S16 32 [0] iota_S16_d0_w32_scVector) 0#32) k0_chk9 k0_chk9.dec k0_idx9_inb k0_pay19 k0_off11_eq (by decide +kernel) (fun _ _ h => h) (fun _ _ => rfl) k acc
  · unfold invA
    isplitr; · ipureintro; rfl
    isplitl [HsT]; · iexact HsT
    iexact HA
  iintro %acc9 HI
  unfold invA
  icases HI with ⟨%hacc9, HsT, HA⟩
  have h8_9 : Scf.trips k0_t9_loop.lb k0_t9_loop.ub k0_t9_loop.st = 8 := by decide
  rw [h8_9] at hacc9
  sl_exec
  irename H5_dst => HB
  sl_for (invB m d L 1152#32 (k0_off2_inb L 9) 72) $$ [HsT HB]
  case region =>
    intro k acc
    exact tripB m d L hT 9 k0_t10_abs.2.1 k0_off12 k0_off12_inb (k0_pay20 (iota .scVector S16 32 [0] iota_S16_d0_w32_scVector)) k0_chk10 k0_chk10.dec k0_idx10_inb k0_pay21 k0_off12_eq (by decide +kernel) (fun _ _ h => h) (fun _ _ => rfl) k acc
  · unfold invB
    isplitr; · ipureintro; exact hacc9
    isplitl [HsT]; · iexact HsT
    iexact HB
  iintro %acc10 HI
  unfold invB
  icases HI with ⟨%hacc10, HsT, HB⟩
  have h8_10 : Scf.trips k0_t10_loop.lb k0_t10_loop.ub k0_t10_loop.st = 8 := by decide
  rw [h8_10] at hacc10
  sl_exec
  ihave HA := (Entails.of_eq (heldA_write (F := F) d L _ _)) $$ HA
  sl_for (invA m d L 1280#32 (k0_off2_inb L 10) 80) $$ [HsT HA]
  case region =>
    intro k acc
    exact tripA m d L hT 10 k0_t11_abs.2.1 k0_off13 k0_off13_inb (k0_pay22 (iota .scVector S16 32 [0] iota_S16_d0_w32_scVector)) k0_chk11 k0_chk11.dec k0_idx11_inb k0_pay23 k0_off13_eq (by decide +kernel) (fun _ _ h => h) (fun _ _ => rfl) k acc
  · unfold invA
    isplitr; · ipureintro; exact hacc10
    isplitl [HsT]; · iexact HsT
    iexact HA
  iintro %acc11 HI
  unfold invA
  icases HI with ⟨%hacc11, HsT, HA⟩
  have h8_11 : Scf.trips k0_t11_loop.lb k0_t11_loop.ub k0_t11_loop.st = 8 := by decide
  rw [h8_11] at hacc11
  sl_exec
  ihave HB := (Entails.of_eq (heldB_write (F := F) d L _ _)) $$ HB
  sl_for (invB m d L 1408#32 (k0_off2_inb L 11) 88) $$ [HsT HB]
  case region =>
    intro k acc
    exact tripB m d L hT 11 k0_t12_abs.2.1 k0_off14 k0_off14_inb (k0_pay24 (iota .scVector S16 32 [0] iota_S16_d0_w32_scVector)) k0_chk12 k0_chk12.dec k0_idx12_inb k0_pay25 k0_off14_eq (by decide +kernel) (fun _ _ h => h) (fun _ _ => rfl) k acc
  · unfold invB
    isplitr; · ipureintro; exact hacc11
    isplitl [HsT]; · iexact HsT
    iexact HB
  iintro %acc12 HI
  unfold invB
  icases HI with ⟨%hacc12, HsT, HB⟩
  have h8_12 : Scf.trips k0_t12_loop.lb k0_t12_loop.ub k0_t12_loop.st = 8 := by decide
  rw [h8_12] at hacc12
  sl_exec
  sl_step
  ihave H4 := (flightA_norm (F := F) d L _ _ _ _ _ _) $$ H4
  isplitr; · ipureintro; exact hacc12
  iexists _; isplitr
  swap
  · isplitl [Ht HsT Hc0 HO]
    · isplitr; · iexact Hmw
      isplitl [Ht]; · iexact Ht
      isplitl [HsT]; · iexact HsT
      isplitl [Hc0]; · iexact Hc0
      iexact HO
    isplitl [Hx]; · iexact Hx
    isplitl [H4]; · iexact H4
    isplitl [HB]; · iexact HB
    iexact H5
  · ipureintro; exact (waits_insert _ (waits_insert _ (waits_insert _ (fun p hp => .inl hp))))

end Cert.KernelIdeal.Tile
end
-- ==== Proof.KernelIdeal.TileP5.lean ====
/-
  Statements 241–300: chunks 12, 13 and 14 summed (groups 96 … 119: the accumulator from `Spec.tileAcc … 96` to `… 120`)
  while chunks 13, 14 and 15 are fetched; at the end no copy is in flight, the buffers hold chunks 14 and 15.
-/
import proofs.«213812_g11871289606185_cont_fleet_226_25_alg».proof.Proof.KernelIdeal.Iface
import proofs.«213812_g11871289606185_cont_fleet_226_25_alg».proof.Proof.KernelIdeal.SkeletonP
import proofs.«213812_g11871289606185_cont_fleet_226_25_alg».proof.Proof.KernelIdeal.TileBase
import proofs.«213812_g11871289606185_cont_fleet_226_25_alg».proof.Proof.KernelIdeal.TileVal
import proofs.«213812_g11871289606185_cont_fleet_226_25_alg».proof.Proof.KernelIdeal.TileSeg

noncomputable section

namespace Cert.KernelIdeal.Tile

open Cert.KernelIdeal Cert.KernelIdeal.Gen Cert.KernelIdeal.GenP Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- Statements 241–300: chunks 12, 13 and 14 summed while chunks 13, 14 and 15 are fetched. -/
theorem part5 (hT : TgtOK m) (qx qt : PosShare TreeShare) (O : CellTallies nD τ sig (HIx 1)) (W : Waits sig (HIx 1)) (v2 : BitVec 32) :
    iprop(Core m d L qt O W ∗ xRest (F := F) m d L qx 1536#32 (k0_off2_inb L 12) ∗ flightA m d L qx 1536#32 (k0_off2_inb L 12)
        ∗ ((sB).view.loc (thr d L) ↦{fullShare} xRd m d L 1408#32 (k0_off2_inb L 11)) ∗ semVal (thr d L, SemLoc.dma cc0_scratch5.sem) 0)
      ⊢ (wp frame (wpE (defs₀ (F := F)) 𝒱₀ (thr d L) none) Set.univ
          (k0_part5 (F := F) L xV (Memref.isWhole_whole _) tV (Memref.isWhole_whole _) oV (Memref.isWhole_whole _)
            sT (Memref.isWhole_whole _) sA (Memref.isWhole_whole _) sB (Memref.isWhole_whole _) sO (Memref.isWhole_whole _)
            cc0_scratch4 cc0_scratch5 cc0_scoped0 cc0_scoped1 v2 (iota .scVector S16 32 [0] iota_S16_d0_w32_scVector) (accAt m d L 96))
          fun r => iprop(⌜r = accAt m d L 120⌝
            ∗ ∃ W', ⌜∀ p ∈ W', p ∈ W ∨ p.2 = none⌝ ∗ Core m d L qt O W' ∗ ((xV).view.loc (thr d L) ↦{qx} m (xLoc d))
              ∗ ((sA).view.loc (thr d L) ↦{fullShare} xRd m d L 1792#32 (k0_off2_inb L 14))
              ∗ ((sB).view.loc (thr d L) ↦{fullShare} xRd m d L 1920#32 (k0_off2_inb L 15))
              ∗ semVal (thr d L, SemLoc.dma cc0_scratch4.sem) 0 ∗ semVal (thr d L, SemLoc.dma cc0_scratch5.sem) 0) : sProp 𝕄) := by
  try unfold Core
  try unfold xRest
  try unfold flightA
  try unfold flightB
  iintro ⟨⟨#Hmw, Ht, HsT, Hc0, HO⟩, Hx, H4, HB, H5⟩
  sl_unfold [k0_part5]
  sl_exec
  irename H4_dst => HA
  sl_for (invA m d L 1536#32 (k0_off2_inb L 12) 96) $$ [HsT HA]
  case region =>
    intro k acc
    exact tripA m d L hT 12 k0_t13_abs.2.1 k0_off15 k0_off15_inb (k0_pay26 (iota .scVector S16 32 [0] iota_S16_d0_w32_scVector)) k0_chk13 k0_chk13.dec k0_idx13_inb k0_pay27 k0_off15_eq (by decide +kernel) (fun _ _ h => h) (fun _ _ => rfl) k acc
  · unfold invA
    isplitr; · ipureintro; rfl
    isplitl [HsT]; · iexact HsT
    iexact HA
  iintro %acc13 HI
  unfold invA
  icases HI with ⟨%hacc13, HsT, HA⟩
  have h8_13 : Scf.trips k0_t13_loop.lb k0_t13_loop.ub k0_t13_loop.st = 8 := by decide
  rw [h8_13] at hacc13
  sl_exec
  ihave HB := (Entails.of_eq (heldB_write (F := F) d L _ _)) $$ HB
  sl_for (invB m d L 1664#32 (k0_off2_inb L 13) 104) $$ [HsT HB]
  case region =>
    intro k acc
    exact tripB m d L hT 13 k0_t14_abs.2.1 k0_off16 k0_off16_inb (k0_pay28 (iota .scVector S16 32 [0] iota_S16_d0_w32_scVector)) k0_chk14 k0_chk14.dec k0_idx14_inb k0_pay29 k0_off16_eq (by decide +kernel) (fun _ _ h => h) (fun _ _ => rfl) k acc
  · unfold invB
    isplitr; · ipureintro; exact hacc13
    isplitl [HsT]; · iexact HsT
    iexact HB
  iintro %acc14 HI
  unfold invB
  icases HI with ⟨%hacc14, HsT, HB⟩
  have h8_14 : Scf.trips k0_t14_loop.lb k0_t14_loop.ub k0_t14_loop.st = 8 := by decide
  rw [h8_14] at hacc14
  sl_exec
  ihave HA := (Entails.of_eq (heldA_write (F := F) d L _ _)) $$ HA
  sl_for (invA m d L 1792#32 (k0_off2_inb L 14) 112) $$ [HsT HA]
  case region =>
    intro k acc
    exact tripA m d L hT 14 k0_t15_abs.2.1 k0_off17 k0_off17_inb (k0_pay30 (iota .scVector S16 32 [0] iota_S16_d0_w32_scVector)) k0_chk15 k0_chk15.dec k0_idx15_inb k0_pay31 k0_off17_eq (by decide +kernel) (fun _ _ h => h) (fun _ _ => rfl) k acc
  · unfold invA
    isplitr; · ipureintro; exact hacc14
    isplitl [HsT]; · iexact HsT
    iexact HA
  iintro %acc15 HI
  unfold invA
  icases HI with ⟨%hacc15, HsT, HA⟩
  have h8_15 : Scf.trips k0_t15_loop.lb k0_t15_loop.ub k0_t15_loop.st = 8 := by decide
  rw [h8_15] at hacc15
  sl_exec
  ihave HB := (Entails.of_eq (heldB_write (F := F) d L _ _)) $$ HB
  sl_step
  isplitr; · ipureintro; exact hacc15
  iexists _; isplitr
  swap
  · isplitl [Ht HsT Hc0 HO]
    · isplitr; · iexact Hmw
      isplitl [Ht]; · iexact Ht
      isplitl [HsT]; · iexact HsT
      isplitl [Hc0]; · iexact Hc0
      iexact HO
    isplitl [Hx]; · iexact Hx
    isplitl [HA]; · iexact HA
    isplitl [HB]; · iexact HB
    isplitl [H4]; · iexact H4
    iexact H5
  · ipureintro; exact (waits_insert _ (waits_insert _ (waits_insert _ (waits_insert _ (fun p hp => .inl hp)))))

end Cert.KernelIdeal.Tile
end
-- ==== Proof.KernelIdeal.TileP6.lean ====
/-
  Statements 301–360: chunks 15, 16 and 17 summed (groups 120 … 143: the accumulator from `Spec.tileAcc … 120` to `… 144`)
  while chunks 16, 17 and 18 are fetched; chunk 19's copy into the second buffer is left in flight.
-/
import proofs.«213812_g11871289606185_cont_fleet_226_25_alg».proof.Proof.KernelIdeal.Iface
import proofs.«213812_g11871289606185_cont_fleet_226_25_alg».proof.Proof.KernelIdeal.SkeletonP
import proofs.«213812_g11871289606185_cont_fleet_226_25_alg».proof.Proof.KernelIdeal.TileBase
import proofs.«213812_g11871289606185_cont_fleet_226_25_alg».proof.Proof.KernelIdeal.TileVal
import proofs.«213812_g11871289606185_cont_fleet_226_25_alg».proof.Proof.KernelIdeal.TileSeg

noncomputable section

namespace Cert.KernelIdeal.Tile

open Cert.KernelIdeal Cert.KernelIdeal.Gen Cert.KernelIdeal.GenP Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- Statements 301–360: chunks 15, 16 and 17 summed while chunks 16 to 19 are fetched. -/
theorem part6 (hT : TgtOK m) (qx qt : PosShare TreeShare) (O : CellTallies nD τ sig (HIx 1)) (W : Waits sig (HIx 1)) (v2 : BitVec 32) :
    iprop(Core m d L qt O W ∗ ((xV).view.loc (thr d L) ↦{qx} m (xLoc d))
        ∗ ((sA).view.loc (thr d L) ↦{fullShare} xRd m d L 1792#32 (k0_off2_inb L 14))
        ∗ ((sB).view.loc (thr d L) ↦{fullShare} xRd m d L 1920#32 (k0_off2_inb L 15))
        ∗ semVal (thr d L, SemLoc.dma cc0_scratch4.sem) 0 ∗ semVal (thr d L, SemLoc.dma cc0_scratch5.sem) 0)
      ⊢ (wp frame (wpE (defs₀ (F := F)) 𝒱₀ (thr d L) none) Set.univ
          (k0_part6 (F := F) L xV (Memref.isWhole_whole _) tV (Memref.isWhole_whole _) oV (Memref.isWhole_whole _)
            sT (Memref.isWhole_whole _) sA (Memref.isWhole_whole _) sB (Memref.isWhole_whole _) sO (Memref.isWhole_whole _)
            cc0_scratch4 cc0_scratch5 cc0_scoped0 cc0_scoped1 v2 (iota .scVector S16 32 [0] iota_S16_d0_w32_scVector) (accAt m d L 120))
          fun r => iprop(⌜r.1 = accAt m d L 144 ∧ r.2 = 0#32⌝
            ∗ ∃ W', ⌜∀ p ∈ W', p ∈ W ∨ p.2 = none⌝ ∗ Core m d L qt O W' ∗ xRest (F := F) m d L qx 2432#32 (k0_off2_inb L 19)
              ∗ ((sA).view.loc (thr d L) ↦{fullShare} xRd m d L 2304#32 (k0_off2_inb L 18)) ∗ semVal (thr d L, SemLoc.dma cc0_scratch4.sem) 0 ∗ flightB m d L qx 2432#32 (k0_off2_inb L 19)) : sProp 𝕄) := by
  try unfold Core
  try unfold xRest
  try unfold flightA
  try unfold flightB
  iintro ⟨⟨#Hmw, Ht, HsT, Hc0, HO⟩, Hx, HA, HB, H4, H5⟩
  sl_unfold [k0_part6]
  sl_exec
  sl_for (invB m d L 1920#32 (k0_off2_inb L 15) 120) $$ [HsT HB]
  case region =>
    intro k acc
    exact tripB m d L hT 15 k0_t16_abs.2.1 k0_off18 k0_off18_inb (k0_pay32 (iota .scVector S16 32 [0] iota_S16_d0_w32_scVector)) k0_chk16 k0_chk16.dec k0_idx16_inb k0_pay33 k0_off18_eq (by decide +kernel) (fun _ _ h => h) (fun _ _ => rfl) k acc
  · unfold invB
    isplitr; · ipureintro; rfl
    isplitl [HsT]; · iexact HsT
    iexact HB
  iintro %acc16 HI
  unfold invB
  icases HI with ⟨%hacc16, HsT, HB⟩
  have h8_16 : Scf.trips k0_t16_loop.lb k0_t16_loop.ub k0_t16_loop.st = 8 := by decide
  rw [h8_16] at hacc16
  sl_exec
  ihave HA := (Entails.of_eq (heldA_write (F := F) d L _ _)) $$ HA
  sl_for (invA m d L 2048#32 (k0_off2_inb L 16) 128) $$ [HsT HA]
  case region =>
    intro k acc
    exact tripA m d L hT 16 k0_t17_abs.2.1 k0_off19 k0_off19_inb (k0_pay34 (iota .scVector S16 32 [0] iota_S16_d0_w32_scVector)) k0_chk17 k0_chk17.dec k0_idx17_inb k0_pay35 k0_off19_eq (by decide +kernel) (fun _ _ h => h) (fun _ _ => rfl) k acc
  · unfold invA
    isplitr; · ipureintro; exact hacc16
    isplitl [HsT]; · iexact HsT
    iexact HA
  iintro %acc17 HI
  unfold invA
  icases HI with ⟨%hacc17, HsT, HA⟩
  have h8_17 : Scf.trips k0_t17_loop.lb k0_t17_loop.ub k0_t17_loop.st = 8 := by decide
  rw [h8_17] at hacc17
  sl_exec
  ihave HB := (Entails.of_eq (heldB_write (F := F) d L _ _)) $$ HB
  sl_for (invB m d L 2176#32 (k0_off2_inb L 17) 136) $$ [HsT HB]
  case region =>
    intro k acc
    exact tripB m d L hT 17 k0_t18_abs.2.1 k0_off20 k0_off20_inb (k0_pay36 (iota .scVector S16 32 [0] iota_S16_d0_w32_scVector)) k0_chk18 k0_chk18.dec k0_idx18_inb k0_pay37 k0_off20_eq (by decide +kernel) (fun _ _ h => h) (fun _ _ => rfl) k acc
  · unfold invB
    isplitr; · ipureintro; exact hacc17
    isplitl [HsT]; · iexact HsT
    iexact HB
  iintro %acc18 HI
  unfold invB
  icases HI with ⟨%hacc18, HsT, HB⟩
  have h8_18 : Scf.trips k0_t18_loop.lb k0_t18_loop.ub k0_t18_loop.st = 8 := by decide
  rw [h8_18] at hacc18
  sl_exec
  ihave HA := (Entails.of_eq (heldA_write (F := F) d L _ _)) $$ HA
  sl_step
  ihave H5 := (flightB_norm (F := F) d L _ _ _ _ _ _) $$ H5
  isplitr; · ipureintro; exact ⟨hacc18, rfl⟩
  iexists _; isplitr
  swap
  · isplitl [Ht HsT Hc0 HO]
    · isplitr; · iexact Hmw
      isplitl [Ht]; · iexact Ht
      isplitl [HsT]; · iexact HsT
      isplitl [Hc0]; · iexact Hc0
      iexact HO
    isplitl [Hx]; · iexact Hx
    isplitl [HA]; · iexact HA
    isplitl [H4]; · iexact H4
    iexact H5
  · ipureintro; exact (waits_insert _ (waits_insert _ (waits_insert _ (fun p hp => .inl hp))))

end Cert.KernelIdeal.Tile
end
-- ==== Proof.KernelIdeal.TileP7.lean ====
/-
  Statements 361–420: chunks 18, 19, 20 and 21 summed (groups 144 … 175: the accumulator from `Spec.tileAcc … 144` to
  `… 176`) while chunks 20 and 21 are fetched; chunk 22's copy into the first buffer is left in flight.
-/
import proofs.«213812_g11871289606185_cont_fleet_226_25_alg».proof.Proof.KernelIdeal.Iface
import proofs.«213812_g11871289606185_cont_fleet_226_25_alg».proof.Proof.KernelIdeal.SkeletonP
import proofs.«213812_g11871289606185_cont_fleet_226_25_alg».proof.Proof.KernelIdeal.TileBase
import proofs.«213812_g11871289606185_cont_fleet_226_25_alg».proof.Proof.KernelIdeal.TileVal
import proofs.«213812_g11871289606185_cont_fleet_226_25_alg».proof.Proof.KernelIdeal.TileSeg

noncomputable section

namespace Cert.KernelIdeal.Tile

open Cert.KernelIdeal Cert.KernelIdeal.Gen Cert.KernelIdeal.GenP Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- Statements 361–420: chunks 18, 19, 20 and 21 summed, each next chunk's copy waited for and the one after it started
    in between; chunk 22's copy is in flight at the end. -/
theorem part7 (hT : TgtOK m) (qx qt : PosShare TreeShare) (O : CellTallies nD τ sig (HIx 1)) (W : Waits sig (HIx 1)) (v2 : BitVec 32) :
    iprop(Core m d L qt O W ∗ xRest (F := F) m d L qx 2432#32 (k0_off2_inb L 19)
        ∗ ((sA).view.loc (thr d L) ↦{fullShare} xRd m d L 2304#32 (k0_off2_inb L 18))
        ∗ semVal (thr d L, SemLoc.dma cc0_scratch4.sem) 0 ∗ flightB m d L qx 2432#32 (k0_off2_inb L 19))
      ⊢ (wp frame (wpE (defs₀ (F := F)) 𝒱₀ (thr d L) none) Set.univ
          (k0_part7 (F := F) L xV (Memref.isWhole_whole _) tV (Memref.isWhole_whole _) oV (Memref.isWhole_whole _)
            sT (Memref.isWhole_whole _) sA (Memref.isWhole_whole _) sB (Memref.isWhole_whole _) sO (Memref.isWhole_whole _)
            cc0_scratch4 cc0_scratch5 cc0_scoped0 cc0_scoped1 v2 (iota .scVector S16 32 [0] iota_S16_d0_w32_scVector) (accAt m d L 144) 0#32)
          fun r => iprop(⌜r = accAt m d L 176⌝
            ∗ ∃ W', ⌜∀ p ∈ W', p ∈ W ∨ p.2 = none⌝ ∗ Core m d L qt O W' ∗ xRest (F := F) m d L qx 2816#32 (k0_off2_inb L 22)
              ∗ flightA m d L qx 2816#32 (k0_off2_inb L 22)
              ∗ ((sB).view.loc (thr d L) ↦{fullShare} xRd m d L 2688#32 (k0_off2_inb L 21))
              ∗ semVal (thr d L, SemLoc.dma cc0_scratch5.sem) 0) : sProp 𝕄) := by
  unfold Core xRest flightB
  iintro ⟨⟨#Hmw, Ht, HsT, Hc0, HO⟩, Hx, HsA, Hs4, Hs5⟩
  sl_unfold [k0_part7]
  sl_exec
  sl_for (invA m d L 2304#32 (k0_off2_inb L 18) 144) $$ [HsT HsA]
  case region =>
    intro k acc
    exact tripA m d L hT 18 k0_t19_abs.2.1 k0_off21 k0_off21_inb (k0_pay38 (iota .scVector S16 32 [0] iota_S16_d0_w32_scVector) 0#32) k0_chk19 k0_chk19.dec k0_idx19_inb k0_pay39 k0_off21_eq (by decide +kernel) (fun _ _ h => h) (fun _ _ => rfl) k acc
  · unfold invA
    isplitr; · ipureintro; rfl
    isplitl [HsT]; · iexact HsT
    iexact HsA
  iintro %acc1 HI
  unfold invA
  icases HI with ⟨%hacc1, HsT, HsA⟩
  have h19 : Scf.trips k0_t19_loop.lb k0_t19_loop.ub k0_t19_loop.st = 8 := by decide
  rw [h19] at hacc1
  sl_exec
  sl_for (invB m d L 2432#32 (k0_off2_inb L 19) 152) $$ [HsT Hs5_dst]
  case region =>
    intro k acc
    exact tripB m d L hT 19 k0_t20_abs.2.1 k0_off22 k0_off22_inb (k0_pay40 (iota .scVector S16 32 [0] iota_S16_d0_w32_scVector)) k0_chk20 k0_chk20.dec k0_idx20_inb k0_pay41 k0_off22_eq (by decide +kernel) (fun _ _ h => h) (fun _ _ => rfl) k acc
  · unfold invB
    isplitr; · ipureintro; exact hacc1
    isplitl [HsT]; · iexact HsT
    iexact Hs5_dst
  iintro %acc2 HI
  unfold invB
  icases HI with ⟨%hacc2, HsT, HsB⟩
  have h20 : Scf.trips k0_t20_loop.lb k0_t20_loop.ub k0_t20_loop.st = 8 := by decide
  rw [h20] at hacc2
  sl_exec
  ihave HsA := (Entails.of_eq (heldA_write (F := F) d L _ _)) $$ HsA
  sl_for (invA m d L 2560#32 (k0_off2_inb L 20) 160) $$ [HsT HsA]
  case region =>
    intro k acc
    exact tripA m d L hT 20 k0_t21_abs.2.1 k0_off23 k0_off23_inb (k0_pay42 (iota .scVector S16 32 [0] iota_S16_d0_w32_scVector)) k0_chk21 k0_chk21.dec k0_idx21_inb k0_pay43 k0_off23_eq (by decide +kernel) (fun _ _ h => h) (fun _ _ => rfl) k acc
  · unfold invA
    isplitr; · ipureintro; exact hacc2
    isplitl [HsT]; · iexact HsT
    iexact HsA
  iintro %acc3 HI
  unfold invA
  icases HI with ⟨%hacc3, HsT, HsA⟩
  have h21 : Scf.trips k0_t21_loop.lb k0_t21_loop.ub k0_t21_loop.st = 8 := by decide
  rw [h21] at hacc3
  sl_exec
  ihave HsB := (Entails.of_eq (heldB_write (F := F) d L _ _)) $$ HsB
  sl_for (invB m d L 2688#32 (k0_off2_inb L 21) 168) $$ [HsT HsB]
  case region =>
    intro k acc
    exact tripB m d L hT 21 k0_t22_abs.2.1 k0_off24 k0_off24_inb (k0_pay44 (iota .scVector S16 32 [0] iota_S16_d0_w32_scVector)) k0_chk22 k0_chk22.dec k0_idx22_inb k0_pay45 k0_off24_eq (by decide +kernel) (fun _ _ h => h) (fun _ _ => rfl) k acc
  · unfold invB
    isplitr; · ipureintro; exact hacc3
    isplitl [HsT]; · iexact HsT
    iexact HsB
  iintro %acc4 HI
  unfold invB
  icases HI with ⟨%hacc4, HsT, HsB⟩
  have h22 : Scf.trips k0_t22_loop.lb k0_t22_loop.ub k0_t22_loop.st = 8 := by decide
  rw [h22] at hacc4
  sl_exec
  sl_step
  ihave Hs4 := (flightA_norm (F := F) d L _ _ _ _ _ _) $$ Hs4
  isplitr; · ipureintro; exact hacc4
  iexists _; isplitr
  swap
  · unfold flightA
    isplitl [Ht HsT Hc0 HO]
    · isplitr; · iexact Hmw
      isplitl [Ht]; · iexact Ht
      isplitl [HsT]; · iexact HsT
      isplitl [Hc0]; · iexact Hc0
      iexact HO
    isplitl [Hx]; · iexact Hx
    isplitl [Hs4]; · iexact Hs4
    isplitl [HsB]; · iexact HsB
    iexact Hs5
  · ipureintro; exact waits_insert _ (waits_insert _ (waits_insert _ (fun p hp => .inl hp)))

end Cert.KernelIdeal.Tile
end
-- ==== Proof.KernelIdeal.TileP8.lean ====
/-
  Statements 421–480: chunks 22, 23 and 24 summed (groups 176 … 199: the accumulator from `Spec.tileAcc … 176` to `… 200`)
  while chunks 23, 24 and 25 are fetched; at the end no copy is in flight, the buffers hold chunks 24 and 25.
-/
import proofs.«213812_g11871289606185_cont_fleet_226_25_alg».proof.Proof.KernelIdeal.Iface
import proofs.«213812_g11871289606185_cont_fleet_226_25_alg».proof.Proof.KernelIdeal.SkeletonP
import proofs.«213812_g11871289606185_cont_fleet_226_25_alg».proof.Proof.KernelIdeal.TileBase
import proofs.«213812_g11871289606185_cont_fleet_226_25_alg».proof.Proof.KernelIdeal.TileVal
import proofs.«213812_g11871289606185_cont_fleet_226_25_alg».proof.Proof.KernelIdeal.TileSeg

noncomputable section

namespace Cert.KernelIdeal.Tile

open Cert.KernelIdeal Cert.KernelIdeal.Gen Cert.KernelIdeal.GenP Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- Statements 421–480: chunks 22, 23 and 24 summed while chunks 23, 24 and 25 are fetched. -/
theorem part8 (hT : TgtOK m) (qx qt : PosShare TreeShare) (O : CellTallies nD τ sig (HIx 1)) (W : Waits sig (HIx 1)) (v2 : BitVec 32) :
    iprop(Core m d L qt O W ∗ xRest (F := F) m d L qx 2816#32 (k0_off2_inb L 22) ∗ flightA m d L qx 2816#32 (k0_off2_inb L 22)
        ∗ ((sB).view.loc (thr d L) ↦{fullShare} xRd m d L 2688#32 (k0_off2_inb L 21)) ∗ semVal (thr d L, SemLoc.dma cc0_scratch5.sem) 0)
      ⊢ (wp frame (wpE (defs₀ (F := F)) 𝒱₀ (thr d L) none) Set.univ
          (k0_part8 (F := F) L xV (Memref.isWhole_whole _) tV (Memref.isWhole_whole _) oV (Memref.isWhole_whole _)
            sT (Memref.isWhole_whole _) sA (Memref.isWhole_whole _) sB (Memref.isWhole_whole _) sO (Memref.isWhole_whole _)
            cc0_scratch4 cc0_scratch5 cc0_scoped0 cc0_scoped1 v2 (iota .scVector S16 32 [0] iota_S16_d0_w32_scVector) (accAt m d L 176))
          fun r => iprop(⌜r = accAt m d L 200⌝
            ∗ ∃ W', ⌜∀ p ∈ W', p ∈ W ∨ p.2 = none⌝ ∗ Core m d L qt O W' ∗ ((xV).view.loc (thr d L) ↦{qx} m (xLoc d))
              ∗ ((sA).view.loc (thr d L) ↦{fullShare} xRd m d L 3072#32 (k0_off2_inb L 24))
              ∗ ((sB).view.loc (thr d L) ↦{fullShare} xRd m d L 3200#32 (k0_off2_inb L 25))
              ∗ semVal (thr d L, SemLoc.dma cc0_scratch4.sem) 0 ∗ semVal (thr d L, SemLoc.dma cc0_scratch5.sem) 0) : sProp 𝕄) := by
  try unfold Core
  try unfold xRest
  try unfold flightA
  try unfold flightB
  iintro ⟨⟨#Hmw, Ht, HsT, Hc0, HO⟩, Hx, H4, HB, H5⟩
  sl_unfold [k0_part8]
  sl_exec
  irename H4_dst => HA
  sl_for (invA m d L 2816#32 (k0_off2_inb L 22) 176) $$ [HsT HA]
  case region =>
    intro k acc
    exact tripA m d L hT 22 k0_t23_abs.2.1 k0_off25 k0_off25_inb (k0_pay46 (iota .scVector S16 32 [0] iota_S16_d0_w32_scVector)) k0_chk23 k0_chk23.dec k0_idx23_inb k0_pay47 k0_off25_eq (by decide +kernel) (fun _ _ h => h) (fun _ _ => rfl) k acc
  · unfold invA
    isplitr; · ipureintro; rfl
    isplitl [HsT]; · iexact HsT
    iexact HA
  iintro %acc23 HI
  unfold invA
  icases HI with ⟨%hacc23, HsT, HA⟩
  have h8_23 : Scf.trips k0_t23_loop.lb k0_t23_loop.ub k0_t23_loop.st = 8 := by decide
  rw [h8_23] at hacc23
  sl_exec
  ihave HB := (Entails.of_eq (heldB_write (F := F) d L _ _)) $$ HB
  sl_for (invB m d L 2944#32 (k0_off2_inb L 23) 184) $$ [HsT HB]
  case region =>
    intro k acc
    exact tripB m d L hT 23 k0_t24_abs.2.1 k0_off26 k0_off26_inb (k0_pay48 (iota .scVector S16 32 [0] iota_S16_d0_w32_scVector)) k0_chk24 k0_chk24.dec k0_idx24_inb k0_pay49 k0_off26_eq (by decide +kernel) (fun _ _ h => h) (fun _ _ => rfl) k acc
  · unfold invB
    isplitr; · ipureintro; exact hacc23
    isplitl [HsT]; · iexact HsT
    iexact HB
  iintro %acc24 HI
  unfold invB
  icases HI with ⟨%hacc24, HsT, HB⟩
  have h8_24 : Scf.trips k0_t24_loop.lb k0_t24_loop.ub k0_t24_loop.st = 8 := by decide
  rw [h8_24] at hacc24
  sl_exec
  ihave HA := (Entails.of_eq (heldA_write (F := F) d L _ _)) $$ HA
  sl_for (invA m d L 3072#32 (k0_off2_inb L 24) 192) $$ [HsT HA]
  case region =>
    intro k acc
    exact tripA m d L hT 24 k0_t25_abs.2.1 k0_off27 k0_off27_inb (k0_pay50 (iota .scVector S16 32 [0] iota_S16_d0_w32_scVector)) k0_chk25 k0_chk25.dec k0_idx25_inb k0_pay51 k0_off27_eq (by decide +kernel) (fun _ _ h => h) (fun _ _ => rfl) k acc
  · unfold invA
    isplitr; · ipureintro; exact hacc24
    isplitl [HsT]; · iexact HsT
    iexact HA
  iintro %acc25 HI
  unfold invA
  icases HI with ⟨%hacc25, HsT, HA⟩
  have h8_25 : Scf.trips k0_t25_loop.lb k0_t25_loop.ub k0_t25_loop.st = 8 := by decide
  rw [h8_25] at hacc25
  sl_exec
  ihave HB := (Entails.of_eq (heldB_write (F := F) d L _ _)) $$ HB
  sl_step
  isplitr; · ipureintro; exact hacc25
  iexists _; isplitr
  swap
  · isplitl [Ht HsT Hc0 HO]
    · isplitr; · iexact Hmw
      isplitl [Ht]; · iexact Ht
      isplitl [HsT]; · iexact HsT
      isplitl [Hc0]; · iexact Hc0
      iexact HO
    isplitl [Hx]; · iexact Hx
    isplitl [HA]; · iexact HA
    isplitl [HB]; · iexact HB
    isplitl [H4]; · iexact H4
    iexact H5
  · ipureintro; exact (waits_insert _ (waits_insert _ (waits_insert _ (waits_insert _ (fun p hp => .inl hp)))))

end Cert.KernelIdeal.Tile
end
-- ==== Proof.KernelIdeal.TileP9.lean ====
/-
  The body's statements in sequence: the eight stretches before, then chunks 25, 26 and 27 summed while chunks 26 and 27 are
  fetched (groups 200 … 223: the accumulator ends at `Spec.tileAcc … 224`, the worker's row of `Spec.partials`), the sixteen
  lane sums stored into their scratch and the copy of that scratch into the worker's row of the partial sums started.
-/
import proofs.«213812_g11871289606185_cont_fleet_226_25_alg».proof.Proof.KernelIdeal.Iface
import proofs.«213812_g11871289606185_cont_fleet_226_25_alg».proof.Proof.KernelIdeal.SkeletonP
import proofs.«213812_g11871289606185_cont_fleet_226_25_alg».proof.Proof.KernelIdeal.TileBase
import proofs.«213812_g11871289606185_cont_fleet_226_25_alg».proof.Proof.KernelIdeal.TileVal
import proofs.«213812_g11871289606185_cont_fleet_226_25_alg».proof.Proof.KernelIdeal.TileSeg
import proofs.«213812_g11871289606185_cont_fleet_226_25_alg».proof.Proof.KernelIdeal.TileSeq
import proofs.«213812_g11871289606185_cont_fleet_226_25_alg».proof.Proof.KernelIdeal.TileEnds
import proofs.«213812_g11871289606185_cont_fleet_226_25_alg».proof.Proof.KernelIdeal.TileP1
import proofs.«213812_g11871289606185_cont_fleet_226_25_alg».proof.Proof.KernelIdeal.TileP2
import proofs.«213812_g11871289606185_cont_fleet_226_25_alg».proof.Proof.KernelIdeal.TileP3
import proofs.«213812_g11871289606185_cont_fleet_226_25_alg».proof.Proof.KernelIdeal.TileP4
import proofs.«213812_g11871289606185_cont_fleet_226_25_alg».proof.Proof.KernelIdeal.TileP5
import proofs.«213812_g11871289606185_cont_fleet_226_25_alg».proof.Proof.KernelIdeal.TileP6
import proofs.«213812_g11871289606185_cont_fleet_226_25_alg».proof.Proof.KernelIdeal.TileP7
import proofs.«213812_g11871289606185_cont_fleet_226_25_alg».proof.Proof.KernelIdeal.TileP8

noncomputable section

namespace Cert.KernelIdeal.Tile

open Cert.KernelIdeal Cert.KernelIdeal.Gen Cert.KernelIdeal.GenP Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- The body's nine parts in sequence: the eight before it, then chunks 25, 26 and 27 summed, the accumulator stored and
    its copy into the task's row of the partial sums started. -/
theorem part9 (hT : TgtOK m) (qx qt : PosShare TreeShare) (O : CellTallies nD τ sig (HIx 1)) (W : Waits sig (HIx 1))
    (fT : Buf (Elt F) ((thr d L).loc cc0_scratch0)) (fA : Buf (Elt F) ((thr d L).loc cc0_scratch1)) (fB : Buf (Elt F) ((thr d L).loc cc0_scratch2))
    (fO : Buf (Elt F) ((thr d L).loc cc0_scratch3)) (fo : Buf (Elt F) (oLoc d)) :
    iprop((Transfers.MayWaits (thr d L) (none : HIx 1) O
        ∗ ((xV).view.loc (thr d L) ↦{qx} m (xLoc d)) ∗ ((tV).view.loc (thr d L) ↦{qt} m (tLoc d))
        ∗ ((sT).view.loc (thr d L) ↦{fullShare} fT) ∗ ((sA).view.loc (thr d L) ↦{fullShare} fA) ∗ ((sB).view.loc (thr d L) ↦{fullShare} fB)
        ∗ semVal (thr d L, SemLoc.dma cc0_scratch4.sem) 0 ∗ semVal (thr d L, SemLoc.dma cc0_scratch5.sem) 0 ∗ semVal (thr d L, SemLoc.dma cc0_scoped0.sem) 0
        ∗ owes (thr d L) O W)
        ∗ (((sO).view.loc (thr d L) ↦{fullShare} fO) ∗ ((oRowM L).view.loc (thr d L) ↦[(oRowM L).view.set]{fullShare} fo)
          ∗ semVal (thr d L, SemLoc.dma cc0_scoped1.sem) 0))
      ⊢ (wp frame (wpE (defs₀ (F := F)) 𝒱₀ (thr d L) none) Set.univ
          (k0_part9 (F := F) L xV (Memref.isWhole_whole _) tV (Memref.isWhole_whole _) oV (Memref.isWhole_whole _)
            sT (Memref.isWhole_whole _) sA (Memref.isWhole_whole _) sB (Memref.isWhole_whole _) sO (Memref.isWhole_whole _)
            cc0_scratch4 cc0_scratch5 cc0_scoped0 cc0_scoped1)
          fun _ => iprop(∃ W', ⌜∀ p ∈ W', p ∈ W ∨ p.2 = none⌝ ∗ Core m d L qt O W' ∗ ((xV).view.loc (thr d L) ↦{qx} m (xLoc d))
            ∗ ((sA).view.loc (thr d L) ↦{fullShare} xRd m d L 3328#32 (k0_off2_inb L 26))
            ∗ ((sB).view.loc (thr d L) ↦{fullShare} xRd m d L 3456#32 (k0_off2_inb L 27))
            ∗ semVal (thr d L, SemLoc.dma cc0_scratch4.sem) 0 ∗ semVal (thr d L, SemLoc.dma cc0_scratch5.sem) 0
            ∗ Transfers.Flight countersEmb (thr d L) (SemLoc.dma cc0_scoped1.sem) (default : HIx 1) 512
                iprop(((oRowM L).view.loc (thr d L) ↦[(oRowM L).view.set]{fullShare}
                      (oRowM L).view.writes (Elt F) fo [⟨Rect.whole S16, ReadAs.same.apply (View.read (Elt F) (sO).view ((sO).view.writes (Elt F) fO [⟨Rect.unit (s := S16) ![0] S16.size inb_S16_S16_0, accAt m d L 224⟩]))⟩])
                  ∗ ((sO).view.loc (thr d L) ↦[(sO).view.set]{fullShare} ((sO).view.writes (Elt F) fO [⟨Rect.unit (s := S16) ![0] S16.size inb_S16_S16_0, accAt m d L 224⟩])))
            ∗ ((sO).view.loc (thr d L) ↦[Finset.univ \ (sO).view.set]{fullShare} ((sO).view.writes (Elt F) fO [⟨Rect.unit (s := S16) ![0] S16.size inb_S16_S16_0, accAt m d L 224⟩]))) : sProp 𝕄) := by
  sl_unfold [k0_part9]
  refine seqW d L W _ _ (part1 m d L hT qx qt O W fT fA fB) (fun r W1 hr hW1 => ?_)
  obtain ⟨v2, v3, v21⟩ := r
  obtain ⟨rfl, rfl⟩ := hr
  refine seqW d L W1 _ _ (part2 m d L hT qx qt O W1 v2) (fun r W2 hr hW2 => ?_)
  subst hr
  refine seqW d L W2 _ _ (part3 m d L hT qx qt O W2 v2) (fun r W3 hr hW3 => ?_)
  obtain ⟨v63, c68⟩ := r
  obtain ⟨rfl, rfl⟩ := hr
  refine seqW d L W3 _ _ (part4 m d L hT qx qt O W3 v2) (fun r W4 hr hW4 => ?_)
  subst hr
  refine seqW d L W4 _ _ (part5 m d L hT qx qt O W4 v2) (fun r W5 hr hW5 => ?_)
  subst hr
  refine seqW d L W5 _ _ (part6 m d L hT qx qt O W5 v2) (fun r W6 hr hW6 => ?_)
  obtain ⟨v133, c148⟩ := r
  obtain ⟨rfl, rfl⟩ := hr
  refine seqW d L W6 _ _ (part7 m d L hT qx qt O W6 v2) (fun r W7 hr hW7 => ?_)
  subst hr
  refine seqW d L W7 _ _ (part8 m d L hT qx qt O W7 v2) (fun r W8 hr hW8 => ?_)
  subst hr
  have hW : ∀ q ∈ W8, q ∈ W ∨ q.2 = none :=
    waits_trans (waits_trans (waits_trans (waits_trans (waits_trans (waits_trans (waits_trans hW1 hW2) hW3) hW4) hW5) hW6) hW7) hW8
  try unfold Core
  iintro ⟨⟨⟨#Hmw, Ht, HsT, Hc0, HO⟩, Hx, HA, HB, H4, H5⟩, HsO, Ho, Hc1⟩
  sl_exec
  sl_for (invB m d L 3200#32 (k0_off2_inb L 25) 200) $$ [HsT HB]
  case region =>
    intro k acc
    exact tripB m d L hT 25 k0_t26_abs.2.1 k0_off28 k0_off28_inb (k0_pay52 (iota .scVector S16 32 [0] iota_S16_d0_w32_scVector)) k0_chk26 k0_chk26.dec k0_idx26_inb k0_pay53 k0_off28_eq (by decide +kernel) (fun _ _ h => h) (fun _ _ => rfl) k acc
  · unfold invB
    isplitr; · ipureintro; rfl
    isplitl [HsT]; · iexact HsT
    iexact HB
  iintro %acc26 HI
  unfold invB
  icases HI with ⟨%hacc26, HsT, HB⟩
  have h8_26 : Scf.trips k0_t26_loop.lb k0_t26_loop.ub k0_t26_loop.st = 8 := by decide
  rw [h8_26] at hacc26
  sl_exec
  ihave HA := (Entails.of_eq (heldA_write (F := F) d L _ _)) $$ HA
  sl_for (invA m d L 3328#32 (k0_off2_inb L 26) 208) $$ [HsT HA]
  case region =>
    intro k acc
    exact tripA m d L hT 26 k0_t27_abs.2.1 k0_off29 k0_off29_inb (k0_pay54 (iota .scVector S16 32 [0] iota_S16_d0_w32_scVector)) k0_chk27 k0_chk27.dec k0_idx27_inb k0_pay55 k0_off29_eq (by decide +kernel) (fun _ _ h => h) (fun _ _ => rfl) k acc
  · unfold invA
    isplitr; · ipureintro; exact hacc26
    isplitl [HsT]; · iexact HsT
    iexact HA
  iintro %acc27 HI
  unfold invA
  icases HI with ⟨%hacc27, HsT, HA⟩
  have h8_27 : Scf.trips k0_t27_loop.lb k0_t27_loop.ub k0_t27_loop.st = 8 := by decide
  rw [h8_27] at hacc27
  sl_exec
  ihave HB := (Entails.of_eq (heldB_write (F := F) d L _ _)) $$ HB
  sl_for (invB m d L 3456#32 (k0_off2_inb L 27) 216) $$ [HsT HB]
  case region =>
    intro k acc
    exact tripB m d L hT 27 k0_t28_abs.2.1 k0_off30 k0_off30_inb (k0_pay56 (iota .scVector S16 32 [0] iota_S16_d0_w32_scVector)) k0_chk28 k0_chk28.dec k0_idx28_inb k0_pay57 k0_off30_eq (by decide +kernel) (fun _ _ h => h) (fun _ _ => rfl) k acc
  · unfold invB
    isplitr; · ipureintro; exact hacc27
    isplitl [HsT]; · iexact HsT
    iexact HB
  iintro %acc28 HI
  unfold invB
  icases HI with ⟨%hacc28, HsT, HB⟩
  have h8_28 : Scf.trips k0_t28_loop.lb k0_t28_loop.ub k0_t28_loop.st = 8 := by decide
  rw [h8_28] at hacc28
  sl_exec
  sl_step
  subst hacc28
  iexists _; isplitr
  swap
  · isplitl [Ht HsT Hc0 HO]
    · isplitr; · iexact Hmw
      isplitl [Ht]; · iexact Ht
      isplitl [HsT]; · iexact HsT
      isplitl [Hc0]; · iexact Hc0
      iexact HO
    isplitl [Hx]; · iexact Hx
    isplitl [HA]; · iexact HA
    isplitl [HB]; · iexact HB
    isplitl [H4]; · iexact H4
    isplitl [H5]; · iexact H5
    isplitl [Hc1]; · iexact Hc1
    iexact HsO
  · ipureintro; exact waits_insert _ (waits_insert _ hW)

end Cert.KernelIdeal.Tile
end
-- ==== Proof.KernelIdeal.Tile.lean ====
/-
  One vector subcore's task, whole: from read shares of `x` and `t`, its own row of the 32×16 array of partial sums and its
  scoped storage, the task runs to its end, hands the shares back unchanged and leaves its row at
  `Spec.partials x t`'s row `2·s + c`: the sixteen lane sums of `(1 − x[r, t r])²` over its 3584 rows.
-/
import proofs.«213812_g11871289606185_cont_fleet_226_25_alg».proof.Proof.KernelIdeal.Iface
import proofs.«213812_g11871289606185_cont_fleet_226_25_alg».proof.Proof.KernelIdeal.SkeletonP
import proofs.«213812_g11871289606185_cont_fleet_226_25_alg».proof.Proof.KernelIdeal.TileBase
import proofs.«213812_g11871289606185_cont_fleet_226_25_alg».proof.Proof.KernelIdeal.TileVal
import proofs.«213812_g11871289606185_cont_fleet_226_25_alg».proof.Proof.KernelIdeal.TileSeg
import proofs.«213812_g11871289606185_cont_fleet_226_25_alg».proof.Proof.KernelIdeal.TileSeq
import proofs.«213812_g11871289606185_cont_fleet_226_25_alg».proof.Proof.KernelIdeal.TileEnds
import proofs.«213812_g11871289606185_cont_fleet_226_25_alg».proof.Proof.KernelIdeal.TileFrame
import proofs.«213812_g11871289606185_cont_fleet_226_25_alg».proof.Proof.KernelIdeal.TileOut
import proofs.«213812_g11871289606185_cont_fleet_226_25_alg».proof.Proof.KernelIdeal.TileP9

noncomputable section

namespace Cert.KernelIdeal.Tile

open Cert.KernelIdeal Cert.KernelIdeal.Gen Cert.KernelIdeal.GenP Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

/-- **One vector subcore's task**: the column words fetched, the 28 chunks of 128 rows fetched in turn into two buffers and
    summed sixteen rows at a time, the sixteen lane sums copied into the task's row of the partial sums. -/
theorem tile_body : Cert.KernelIdeal.Iface.TileBody (F := F) (U := U) m := by
  intro d L qx qt fo O W hO hT
  iintro H
  ihave H := (tile_open (F := F) (U := U) m d L qx qt fo O W hO) $$ H
  icases H with ⟨#Hmw, ⟨Hx, Ht, Ho⟩, ⟨⟨%fT, HsT⟩, ⟨%fA, HsA⟩, ⟨%fB, HsB⟩, ⟨%fO, HsO⟩, Hrb⟩, ⟨Hs4, Hs5, Hc0, Hc1, Hrs⟩, HO⟩
  ihave Ho := (Entails.of_eq (pts_oRow (F := F) (U := U) d L fo).symm) $$ Ho
  sl_unfold [tileProg]
  sl_unfold [cc0__sc_body]
  sl_unfold [cc0__sc_body_skel]
  rw [wp_bind]
  iapply (wp_wand_r frame _ _)
  isplitl [Hx Ht HsT HsA HsB Hs4 Hs5 Hc0 HO HsO Ho Hc1]
  · iapply (part9 m d L hT qx qt O W fT fA fB fO fo)
    isplitl [Hx Ht HsT HsA HsB Hs4 Hs5 Hc0 HO]
    · isplitr; · iexact Hmw
      isplitl [Hx]; · iexact Hx
      isplitl [Ht]; · iexact Ht
      isplitl [HsT]; · iexact HsT
      isplitl [HsA]; · iexact HsA
      isplitl [HsB]; · iexact HsB
      isplitl [Hs4]; · iexact Hs4
      isplitl [Hs5]; · iexact Hs5
      isplitl [Hc0]; · iexact Hc0
      iexact HO
    isplitl [HsO]; · iexact HsO
    isplitl [Ho]; · iexact Ho
    iexact Hc1
  unfold Core
  iintro %_ ⟨%W', %hW', ⟨-, Ht, HsT, Hc0, HO⟩, Hx, HA, HB, H4, H5, Hc1, HsO⟩
  sl_exec
  sl_step
  ihave Ho := (Entails.of_eq (pts_oRow_final (F := F) (U := U) m d L _ _)) $$ Hc1_dst
  iapply (tile_close (F := F) (U := U) m d L qx qt O W)
  isplitl [Hx Ht Ho]
  · isplitl [Hx]; · iexact Hx
    isplitl [Ht]; · iexact Ht
    iexact Ho
  isplitl [HsT HA HB HsO Hrb]
  · isplitl [HsT]; · iexists _; iexact HsT
    isplitl [HA]; · iexists _; iexact HA
    isplitl [HB]; · iexists _; iexact HB
    isplitl [HsO]; · iexists _; iexact HsO
    iexact Hrb
  isplitl [H4 H5 Hc0 Hc1 Hrs]
  · isplitl [H4]; · iexact H4
    isplitl [H5]; · iexact H5
    isplitl [Hc0]; · iexact Hc0
    isplitl [Hc1]; · iexact Hc1
    iexact Hrs
  iexists _; isplitr
  swap
  · iexact HO
  · ipureintro; exact waits_insert _ hW'

end Cert.KernelIdeal.Tile
end
-- ==== Proof.Kernel.TileBase.lean ====
/-
  One vector subcore's task in names: worker `w = 2·s + c` owns rows `base = 3584·w … base + 3583` of the table `x` and of the
  column words `t`; it fetches the 3584 words once and the rows in 28 chunks of 128, and adds `(1 − x[r, t r])²` into a
  sixteen-lane accumulator, sixteen rows (one per lane) at a time. Here: the slices the kernel takes, what a copy reads off
  them, the accumulator after `n` groups (`Spec.tileAcc`), and the one shape all 28 eight-trip loops share.
-/
import proofs.«213812_g11871289606185_cont_fleet_226_25_alg».proof.Proof.Kernel.Iface
import proofs.«213812_g11871289606185_cont_fleet_226_25_alg».proof.Proof.Kernel.SkeletonP

noncomputable section

namespace Cert.Kernel.Tile

open Cert.Kernel Cert.Kernel.Gen Cert.Kernel.GenP Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

/-- The vector subcore the task at `L` runs on. -/
abbrev thr (d : Dev nD) (L : grid0.Coords) : Thread nD τ := V d (cV L) (jV L)

/-- The first of the task's 3584 rows: `3584·(2·s + c)`. -/
def base (L : grid0.Coords) : ℕ := 7168 * (L 1).val + 3584 * (L 0).val

/-- The task's slice of `t`: its 3584 column words, as the kernel slices them. -/
abbrev tSl (L : grid0.Coords) : Memref sig .scVector .hbm S3584 .i32 :=
  (tV : Memref sig .scVector .hbm S262144 .i32).slice (Rect.unit (s := S262144) (k0_off1 L) S3584.size (k0_off1_inb L)) (fun _ => rfl)

/-- A 128-row chunk of `x` at the row word `c` past the task's first row, as the kernel slices it. -/
abbrev xSl (L : grid0.Coords) (c : BitVec 32) (h : ∀ a, (k0_off2 L c) a + S128x170.size a ≤ S262144x170.size a) : Memref sig .scVector .hbm S128x170 .f32 :=
  (xV : Memref sig .scVector .hbm S262144x170 .f32).slice (Rect.unit (s := S262144x170) (k0_off2 L c) S128x170.size h) (fun _ => rfl)

/-- The task's 3584 column words, as its first copy reads them off `t`. -/
def tRd (d : Dev nD) (L : grid0.Coords) : S3584.Idx → Elt F .i32 := (tSl L).view.read (Elt F) (m (tLoc d))

/-- A chunk of the task's rows of `x`, as a copy reads it off `x`. -/
def xRd (d : Dev nD) (L : grid0.Coords) (c : BitVec 32) (h : ∀ a, (k0_off2 L c) a + S128x170.size a ≤ S262144x170.size a) : S128x170.Idx → Elt F .f32 :=
  (xSl L c h).view.read (Elt F) (m (xLoc d))

/-- The accumulator of the task at `L` after `n` groups of sixteen rows. -/
abbrev accAt (d : Dev nD) (L : grid0.Coords) (n : ℕ) : FVec F S16 .f32 := Spec.tileAcc (F := F) (m (xLoc d)) (m (tLoc d)) (base L) n

/-- What a chunk's loop carries over the first buffer: the column words and the chunk held, the accumulator at its
    value after `g + k` groups. -/
def invA (d : Dev nD) (L : grid0.Coords) (c : BitVec 32) (h : ∀ a, (k0_off2 L c) a + S128x170.size a ≤ S262144x170.size a) (g : ℕ) (k : ℕ) (acc : FVec F S16 .f32) : sProp 𝕄 :=
  iprop(⌜acc = accAt m d L (g + k)⌝ ∗ ((sT).view.loc (thr d L) ↦{fullShare} tRd m d L) ∗ ((sA).view.loc (thr d L) ↦{fullShare} xRd m d L c h))
/-- The same over the second buffer. -/
def invB (d : Dev nD) (L : grid0.Coords) (c : BitVec 32) (h : ∀ a, (k0_off2 L c) a + S128x170.size a ≤ S262144x170.size a) (g : ℕ) (k : ℕ) (acc : FVec F S16 .f32) : sProp 𝕄 :=
  iprop(⌜acc = accAt m d L (g + k)⌝ ∗ ((sT).view.loc (thr d L) ↦{fullShare} tRd m d L) ∗ ((sB).view.loc (thr d L) ↦{fullShare} xRd m d L c h))

/-- One trip of a chunk's loop, over what differs between the 28 printed loops: the buffer, the offset of the sixteen
    column words, the row numbers, the check, the accumulator's update. -/
def tripBody (L : grid0.Coords) {lp : Scf.Loop 32} (buf : Memref sig .scVector .vmem S128x170 .f32)
    (off : Fin lp.trips → Fin 1 → Nat) (hoff : ∀ k a, off k a + S16.size a ≤ S3584.size a)
    (pay : Fin lp.trips → IVec S16 32) (chk : IVec S16 32 → IVec S16 32 → Prop) (dec : ∀ v w, Decidable (chk v w))
    (inb : ∀ v w, chk v w → ∀ a x, ((![w, v] : Fin 2 → IVec S16 32) a x).toNat < S128x170.size a)
    (upd : FVec F S16 .f32 → Vec F S16 .f32 → FVec F S16 .f32) :
    Fin lp.trips → FVec F S16 .f32 → Prog (TpuEff nD τ sig (Elt F) Λ₀ (.scVector ((L 0).castLE hcore0) ((L 1).castLE hsub0))) (FVec F S16 .f32) :=
  fun k acc => do
    let v205 : Vec F S16 .i32 ← Prog.lift (.load (sT : Memref sig .scVector .vmem S3584 .i32) (Rect.unit (s := S3584) (off k) S16.size (hoff k)).toLoadRect (View.loadsAt_vmem h_S16))
    have v208 : IVec S16 32 := pay k
    have hw : chk v205 v208 := (← Prog.lift (TpuEff.assume (chk v205 v208) (dec v205 v208))).down
    let v209 : Vec F S16 .f32 ← SparseCore.vectorLoadIdx buf ![v208, v205] (inb v205 v208 hw) (View.loads_vmem h_S128x170)
    pure (upd acc v209)

end Cert.Kernel.Tile
end
-- ==== Proof.Kernel.TileVal.lean ====
/-
  The arithmetic of one trip, free of any program text. With chunk `r` (rows `base + 128·r …`) in a buffer and the task's
  column words in their scratch, trip `k` loads the sixteen words at `128·r + 16·k`, pairs them with the buffer rows
  `16·k + lane` — both in range: rows below 128, words below 170 by the precondition on `t` — and the indexed load returns
  `x[ρ, t ρ]` for the sixteen rows `ρ = base + 16·(8·r + k) + lane`: `Spec.lanes16`, the step of `Spec.tileAcc`.
-/
import proofs.«213812_g11871289606185_cont_fleet_226_25_alg».proof.Proof.Kernel.Iface
import proofs.«213812_g11871289606185_cont_fleet_226_25_alg».proof.Proof.Kernel.SkeletonP
import proofs.«213812_g11871289606185_cont_fleet_226_25_alg».proof.Proof.Kernel.TileBase

noncomputable section

namespace Cert.Kernel.Tile

open Cert.Kernel Cert.Kernel.Gen Cert.Kernel.GenP Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

theorem L0_lt : (L 0).val < 2 := (L 0).isLt
theorem L1_lt : (L 1).val < 16 := (L 1).isLt

/-- The task's rows lie in the first 114688 rows of the table. -/
theorem base_le : base L + 3584 ≤ 114688 := by
  have h0 := L0_lt L; have h1 := L1_lt L; unfold base; omega

omit [FloatOps F] in
/-- Word `j` of the task's column words is word `base + j` of `t`. -/
theorem tRd_eq (j : S3584.Idx) (i : S262144.Idx) (h : (i 0).val = base L + (j 0).val) : tRd m d L j = m (tLoc d) i := by
  unfold tRd
  rw [View.read_apply]
  refine (cast_eq _ _).trans (congrArg (m (tLoc d)) ?_)
  show ((tSl L).view.emb j : S262144.Idx) = i
  refine funext fun (a : Fin 1) => Fin.ext ?_
  obtain rfl : a = 0 := Subsingleton.elim _ _
  rw [h]
  show (k0_off1 L) 0 + 1 * (j 0).val = _
  rw [k0_off1_eq]; unfold base; simp

omit [FloatOps F] in
/-- Entry `[a, c]` of chunk `r` is entry `[base + 128·r + a, c]` of `x`. -/
theorem xRd_eq (r : Fin 28) (j : S128x170.Idx) (i : S262144x170.Idx) (h0 : (i 0).val = base L + 128 * r.val + (j 0).val) (h1 : (i 1).val = (j 1).val) :
    xRd m d L (BitVec.ofNat 32 (128 * r.val)) (k0_off2_inb L r) j = m (xLoc d) i := by
  unfold xRd
  rw [View.read_apply]
  refine (cast_eq _ _).trans (congrArg (m (xLoc d)) ?_)
  show ((xSl L (BitVec.ofNat 32 (128 * r.val)) (k0_off2_inb L r)).view.emb j : S262144x170.Idx) = i
  refine funext fun (a : Fin 2) => Fin.ext ?_
  show (k0_off2 L (BitVec.ofNat 32 (128 * r.val))) a + 1 * (j a).val = _
  rw [k0_off2_eq]
  match a with
  | 0 => rw [h0]; unfold base; simp
  | 1 => rw [h1]; simp

/-- A row number below the table's height is itself as a row. -/
theorem rowOf_val {n : ℕ} (h : n < 262144) : (Spec.rowOf n).val = n := Nat.mod_eq_of_lt h

/-- **The gather.** A buffer `fx` holds rows `r0 − q0 …` of `x` (row `q0 + l` of the buffer is row `r0 + l` of `x`, for the
    sixteen lanes), `rows` names the buffer rows `q0 + l` and `words` the column words of rows `r0 + l`: the indexed load
    of the buffer at `(rows, words)` is the sixteen picked entries. -/
theorem gather_eq (x : FVec F Spec.SX .f32) (t : IVec Spec.ST 32) (r0 q0 : ℕ)
    (fx : Vec F S128x170 .f32) (rows words : IVec S16 32)
    (h : ∀ a l, ((![rows, words] : Fin 2 → IVec S16 32) a l).toNat < S128x170.size a)
    (hrows : ∀ l : S16.Idx, (rows l).toNat = q0 + (l 0).val)
    (hwords : ∀ l : S16.Idx, words l = t (ix1 (Spec.rowOf (r0 + (l 0).val))))
    (hfx : ∀ (l : S16.Idx) (j : S128x170.Idx), (j 0).val = q0 + (l 0).val → fx j = x (ix2 (Spec.rowOf (r0 + (l 0).val)) (j 1))) :
    loadIdx fx ![rows, words] h = Spec.lanes16 x t r0 := by
  funext l
  have hw : (t (ix1 (Spec.rowOf (r0 + (l 0).val)))).toNat < 170 := by rw [← hwords l]; exact h 1 l
  show fx (idxAt ![rows, words] h l) = Spec.pick x t (Spec.rowOf (r0 + (l 0).val))
  rw [hfx l (idxAt ![rows, words] h l) (hrows l)]
  unfold Spec.pick Spec.col
  rw [dif_pos hw]
  congr 1
  refine funext fun (a : Fin 2) => ?_
  match a with
  | 0 => rfl
  | 1 => apply Fin.ext; show (words l).toNat = _; rw [hwords l]

omit [FloatOps F] in
/-- What a trip owes: in trip `kk` of chunk `r`, with `rows` the buffer rows `16·kk + l`, the sixteen column words loaded
    at `16·kk + 128·r` of the task's words pass the kernel's check with `rows` (rows below 128, words below 170). -/
theorem trip_chk (hT : TgtOK m) (r : Fin 28) (kk : ℕ) (hk : kk < 8)
    (o : Fin 1 → ℕ) (ho : ∀ a, o a + S16.size a ≤ S3584.size a) (hoeq : o = ![16 * kk + 128 * r.val])
    (rows : IVec S16 32) (hrows : ∀ l : S16.Idx, (rows l).toNat = 16 * kk + (l 0).val) :
    ∀ a l, ((![rows, (sT : Memref sig .scVector .vmem S3584 .i32).view.readAt (Elt F) (Rect.unit (s := S3584) o S16.size ho).toLoadRect (tRd m d L)] : Fin 2 → IVec S16 32) a l).toNat < S128x170.size a := by
  intro a l
  match a with
  | 0 => show (rows l).toNat < 128; rw [hrows]; have : (l 0).val < 16 := (l 0).isLt; omega
  | 1 =>
    show ((sT : Memref sig .scVector .vmem S3584 .i32).view.readAt (Elt F) (Rect.unit (s := S3584) o S16.size ho).toLoadRect (tRd m d L) l).toNat < 170
    simp only [View.readAt_apply, Memref.view_whole, View.read_whole]
    have hb := base_le L
    rw [tRd_eq m d L _ (ix1 (Spec.rowOf (base L + ((Rect.unit (s := S3584) o S16.size ho).toLoadRect.idx l 0).val))) (rowOf_val (by
      have : ((Rect.unit (s := S3584) o S16.size ho).toLoadRect.idx l 0).val < 3584 := ((Rect.unit (s := S3584) o S16.size ho).toLoadRect.idx l 0).isLt
      omega))]
    exact hT d _

/-- What a trip reads: the indexed load of a buffer holding chunk `r`, at the rows `16·kk + l` and the column words loaded
    at `16·kk + 128·r`, is the sixteen picked entries of rows `base + 16·(8·r + kk) …`. -/
theorem trip_val (r : Fin 28) (kk : ℕ) (hk : kk < 8)
    (o : Fin 1 → ℕ) (ho : ∀ a, o a + S16.size a ≤ S3584.size a) (hoeq : o = ![16 * kk + 128 * r.val])
    (rows : IVec S16 32) (hrows : ∀ l : S16.Idx, (rows l).toNat = 16 * kk + (l 0).val)
    (h : ∀ a l, ((![rows, (sT : Memref sig .scVector .vmem S3584 .i32).view.readAt (Elt F) (Rect.unit (s := S3584) o S16.size ho).toLoadRect (tRd m d L)] : Fin 2 → IVec S16 32) a l).toNat < S128x170.size a)
    (fx : Vec F S128x170 .f32) (hfx : fx = xRd m d L (BitVec.ofNat 32 (128 * r.val)) (k0_off2_inb L r)) :
    loadIdx fx
        ![rows, (sT : Memref sig .scVector .vmem S3584 .i32).view.readAt (Elt F) (Rect.unit (s := S3584) o S16.size ho).toLoadRect (tRd m d L)] h
      = Spec.lanes16 (F := F) (m (xLoc d)) (m (tLoc d)) (base L + 16 * (8 * r.val + kk)) := by
  subst hfx
  have hb := base_le L
  have hr := r.isLt
  refine gather_eq (m (xLoc d)) (m (tLoc d)) _ (16 * kk) _ rows _ h hrows ?_ ?_
  · intro l
    have hl := (l 0).isLt
    simp only [View.readAt_apply, Memref.view_whole, View.read_whole]
    refine tRd_eq m d L _ _ ?_
    rw [show ((ix1 (Spec.rowOf (base L + 16 * (8 * r.val + kk) + (l 0).val)) : S262144.Idx) 0).val = (Spec.rowOf (base L + 16 * (8 * r.val + kk) + (l 0).val)).val from rfl,
      rowOf_val (by show _ < 262144; have : (l 0).val < 16 := hl; omega)]
    show _ = base L + (o 0 + 1 * (l 0).val)
    rw [hoeq]; simp; omega
  · intro l j hj
    have hl := (l 0).isLt
    refine xRd_eq m d L r j _ ?_ rfl
    rw [show ((ix2 (Spec.rowOf (base L + 16 * (8 * r.val + kk) + (l 0).val)) (j 1) : S262144x170.Idx) 0).val = (Spec.rowOf (base L + 16 * (8 * r.val + kk) + (l 0).val)).val from rfl,
      rowOf_val (by show _ < 262144; have : (l 0).val < 16 := hl; omega), hj]
    omega

/-- One more group: the accumulator steps by the sixteen picked entries of the group's rows. -/
theorem acc_step (n : ℕ) :
    accAt (F := F) m d L (n + 1) = Spec.sqStep (accAt m d L n) (Spec.lanes16 (F := F) (m (xLoc d)) (m (tLoc d)) (base L + 16 * n)) := rfl

end Cert.Kernel.Tile
end
-- ==== Proof.Kernel.TileSeg.lean ====
/-
  One trip of a chunk's loop as a step of the accumulator: from the accumulator at `Spec.tileAcc … (8·r + k)` with the column
  words and chunk `r` held, to `Spec.tileAcc … (8·r + k + 1)` with the same held — over either of the two buffers. And what
  the task holds between a chunk's operations: while chunk `r`'s copy is in flight, `x`'s share less that chunk's elements
  and the copy's delivery (the buffer at the chunk, the elements back); otherwise `x` whole and both buffers at a chunk.
-/
import proofs.«213812_g11871289606185_cont_fleet_226_25_alg».proof.Proof.Kernel.Iface
import proofs.«213812_g11871289606185_cont_fleet_226_25_alg».proof.Proof.Kernel.SkeletonP
import proofs.«213812_g11871289606185_cont_fleet_226_25_alg».proof.Proof.Kernel.TileBase
import proofs.«213812_g11871289606185_cont_fleet_226_25_alg».proof.Proof.Kernel.TileVal

noncomputable section

namespace Cert.Kernel.Tile

open Cert.Kernel Cert.Kernel.Gen Cert.Kernel.GenP Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

omit [FloatOps F] in
theorem pts_A_access (f : Buf (Elt F) ((thr d L).loc cc0_scratch1)) :
    (((sA : Memref sig .scVector .vmem S128x170 .f32).access (.whole S128x170)).loc (thr d L) ↦{fullShare} f : sProp 𝕄)
      = ((sA : Memref sig .scVector .vmem S128x170 .f32).view.loc (thr d L) ↦{fullShare} f) := rfl

/-- One trip of chunk `r`'s loop over the first buffer: the sixteen column words loaded, the check owed, the
    indexed load, the accumulator stepped. -/
theorem tripA (hT : TgtOK m) (r : Fin 28) {lp : Scf.Loop 32} (hlp : lp.trips ≤ 8)
    (off : Fin lp.trips → Fin 1 → Nat) (hoff : ∀ k a, off k a + S16.size a ≤ S3584.size a)
    (pay : Fin lp.trips → IVec S16 32) (chk : IVec S16 32 → IVec S16 32 → Prop) (dec : ∀ v w, Decidable (chk v w))
    (inb : ∀ v w, chk v w → ∀ a x, ((![w, v] : Fin 2 → IVec S16 32) a x).toNat < S128x170.size a)
    (upd : FVec F S16 .f32 → Vec F S16 .f32 → FVec F S16 .f32)
    (hoff_eq : ∀ k, off k = ![16 * k.val + 128 * r.val])
    (hpay : ∀ k (l : S16.Idx), (pay k l).toNat = 16 * k.val + (l 0).val)
    (hchk : ∀ v w, (∀ a x, ((![w, v] : Fin 2 → IVec S16 32) a x).toNat < S128x170.size a) → chk v w)
    (hupd : ∀ a v, upd a v = Spec.sqStep a v)
    (k : Fin lp.trips) (acc : FVec F S16 .f32) :
    invA (U := U) m d L (BitVec.ofNat 32 (128 * r.val)) (k0_off2_inb L r) (8 * r.val) k.val acc
      ⊢ wp frame (wpE (defs₀ (F := F)) 𝒱₀ (thr d L) none) Set.univ (tripBody (F := F) L sA off hoff pay chk dec inb upd k acc)
          (invA (U := U) m d L (BitVec.ofNat 32 (128 * r.val)) (k0_off2_inb L r) (8 * r.val) (k.val + 1)) := by
  have hk : k.val < 8 := Nat.lt_of_lt_of_le k.isLt hlp
  unfold tripBody invA
  simp only [Prog.lift, Prog.bind_op, Prog.bind_ret, Prog.pure_eq_ret]
  iintro ⟨%hacc, HsT, Hb⟩
  iapply (wp_load 𝒱₀ (thr d L) none Set.univ (m := (sT : Memref sig .scVector .vmem S3584 .i32)) (S := Finset.univ) (Finset.subset_univ _)) $$ HsT; iintro HsT
  rw [wp_assume_of (U := U) _ _ _ _ (hchk _ _ (trip_chk m d L hT r k.val hk (off k) (hoff k) (hoff_eq k) (pay k) (hpay k)))]
  ihave Hb' := (Entails.of_eq (pts_A_access (F := F) d L _).symm) $$ Hb
  iapply (SparseCore.wp_vectorLoadIdx 𝒱₀ (thr d L) none Set.univ (base := (sA : Memref sig .scVector .vmem S128x170 .f32)) (S := Finset.univ) (q := fullShare) (Finset.subset_univ _)) $$ Hb'; iintro Hb'
  rw [wp_ret]; imodintro
  isplitr
  · ipureintro
    rw [hupd, hacc, trip_val m d L r k.val hk (off k) (hoff k) (hoff_eq k) (pay k) (hpay k) _ _ (Memref.read_access_whole _ _ _)]
    exact (acc_step m d L (8 * r.val + k.val)).symm
  isplitl [HsT]; · iexact HsT
  iexact Hb'

omit [FloatOps F] in
theorem pts_B_access (f : Buf (Elt F) ((thr d L).loc cc0_scratch2)) :
    (((sB : Memref sig .scVector .vmem S128x170 .f32).access (.whole S128x170)).loc (thr d L) ↦{fullShare} f : sProp 𝕄)
      = ((sB : Memref sig .scVector .vmem S128x170 .f32).view.loc (thr d L) ↦{fullShare} f) := rfl

/-- One trip of chunk `r`'s loop over the second buffer: the sixteen column words loaded, the check owed, the
    indexed load, the accumulator stepped. -/
theorem tripB (hT : TgtOK m) (r : Fin 28) {lp : Scf.Loop 32} (hlp : lp.trips ≤ 8)
    (off : Fin lp.trips → Fin 1 → Nat) (hoff : ∀ k a, off k a + S16.size a ≤ S3584.size a)
    (pay : Fin lp.trips → IVec S16 32) (chk : IVec S16 32 → IVec S16 32 → Prop) (dec : ∀ v w, Decidable (chk v w))
    (inb : ∀ v w, chk v w → ∀ a x, ((![w, v] : Fin 2 → IVec S16 32) a x).toNat < S128x170.size a)
    (upd : FVec F S16 .f32 → Vec F S16 .f32 → FVec F S16 .f32)
    (hoff_eq : ∀ k, off k = ![16 * k.val + 128 * r.val])
    (hpay : ∀ k (l : S16.Idx), (pay k l).toNat = 16 * k.val + (l 0).val)
    (hchk : ∀ v w, (∀ a x, ((![w, v] : Fin 2 → IVec S16 32) a x).toNat < S128x170.size a) → chk v w)
    (hupd : ∀ a v, upd a v = Spec.sqStep a v)
    (k : Fin lp.trips) (acc : FVec F S16 .f32) :
    invB (U := U) m d L (BitVec.ofNat 32 (128 * r.val)) (k0_off2_inb L r) (8 * r.val) k.val acc
      ⊢ wp frame (wpE (defs₀ (F := F)) 𝒱₀ (thr d L) none) Set.univ (tripBody (F := F) L sB off hoff pay chk dec inb upd k acc)
          (invB (U := U) m d L (BitVec.ofNat 32 (128 * r.val)) (k0_off2_inb L r) (8 * r.val) (k.val + 1)) := by
  have hk : k.val < 8 := Nat.lt_of_lt_of_le k.isLt hlp
  unfold tripBody invB
  simp only [Prog.lift, Prog.bind_op, Prog.bind_ret, Prog.pure_eq_ret]
  iintro ⟨%hacc, HsT, Hb⟩
  iapply (wp_load 𝒱₀ (thr d L) none Set.univ (m := (sT : Memref sig .scVector .vmem S3584 .i32)) (S := Finset.univ) (Finset.subset_univ _)) $$ HsT; iintro HsT
  rw [wp_assume_of (U := U) _ _ _ _ (hchk _ _ (trip_chk m d L hT r k.val hk (off k) (hoff k) (hoff_eq k) (pay k) (hpay k)))]
  ihave Hb' := (Entails.of_eq (pts_B_access (F := F) d L _).symm) $$ Hb
  iapply (SparseCore.wp_vectorLoadIdx 𝒱₀ (thr d L) none Set.univ (base := (sB : Memref sig .scVector .vmem S128x170 .f32)) (S := Finset.univ) (q := fullShare) (Finset.subset_univ _)) $$ Hb'; iintro Hb'
  rw [wp_ret]; imodintro
  isplitr
  · ipureintro
    rw [hupd, hacc, trip_val m d L r k.val hk (off k) (hoff k) (hoff_eq k) (pay k) (hpay k) _ _ (Memref.read_access_whole _ _ _)]
    exact (acc_step m d L (8 * r.val + k.val)).symm
  isplitl [HsT]; · iexact HsT
  iexact Hb'

/-! ## What the task holds between the operations of a chunk -/

omit [FloatOps F] in
/-- A scratch buffer written whole holds what was written. -/
theorem heldT_write (f v : Buf (Elt F) ((thr d L).loc cc0_scratch0)) :
    ((sT : Memref sig .scVector .vmem S3584 .i32).view.loc (thr d L) ↦{fullShare} (sT : Memref sig .scVector .vmem S3584 .i32).view.write (Elt F) f v Finset.univ : sProp 𝕄)
      = ((sT : Memref sig .scVector .vmem S3584 .i32).view.loc (thr d L) ↦{fullShare} v) := by
  rw [show (sT : Memref sig .scVector .vmem S3584 .i32).view.write (Elt F) f v Finset.univ = v from View.write_whole_univ (Val := Elt F) cc0_scratch0 f v]
omit [FloatOps F] in
theorem heldA_write (f v : Buf (Elt F) ((thr d L).loc cc0_scratch1)) :
    ((sA : Memref sig .scVector .vmem S128x170 .f32).view.loc (thr d L) ↦{fullShare} (sA : Memref sig .scVector .vmem S128x170 .f32).view.write (Elt F) f v Finset.univ : sProp 𝕄)
      = ((sA : Memref sig .scVector .vmem S128x170 .f32).view.loc (thr d L) ↦{fullShare} v) := by
  rw [show (sA : Memref sig .scVector .vmem S128x170 .f32).view.write (Elt F) f v Finset.univ = v from View.write_whole_univ (Val := Elt F) cc0_scratch1 f v]
omit [FloatOps F] in
theorem heldB_write (f v : Buf (Elt F) ((thr d L).loc cc0_scratch2)) :
    ((sB : Memref sig .scVector .vmem S128x170 .f32).view.loc (thr d L) ↦{fullShare} (sB : Memref sig .scVector .vmem S128x170 .f32).view.write (Elt F) f v Finset.univ : sProp 𝕄)
      = ((sB : Memref sig .scVector .vmem S128x170 .f32).view.loc (thr d L) ↦{fullShare} v) := by
  rw [show (sB : Memref sig .scVector .vmem S128x170 .f32).view.write (Elt F) f v Finset.univ = v from View.write_whole_univ (Val := Elt F) cc0_scratch2 f v]

/-- What stays the same from the first chunk's copy to the last: the evidence for the task's waits, `t`'s share, the column
    words in their scratch, the first scoped semaphore at zero, what the task owes. -/
def Core (qt : PosShare TreeShare) (O : CellTallies nD τ sig (HIx 1)) (W : Waits sig (HIx 1)) : sProp 𝕄 :=
  iprop(Transfers.MayWaits (thr d L) (none : HIx 1) O ∗ ((tV).view.loc (thr d L) ↦{qt} m (tLoc d))
    ∗ ((sT).view.loc (thr d L) ↦{fullShare} tRd m d L) ∗ semVal (thr d L, SemLoc.dma cc0_scoped0.sem) 0 ∗ owes (thr d L) O W)

/-- The copy of a chunk into the first buffer, in flight on the first buffer's semaphore: at its wait it delivers the buffer
    holding the chunk, and the chunk's elements of `x` back. -/
def flightA (qx : PosShare TreeShare) (c : BitVec 32) (h : ∀ a, (k0_off2 L c) a + S128x170.size a ≤ S262144x170.size a) : sProp 𝕄 :=
  Transfers.Flight countersEmb (thr d L) (SemLoc.dma cc0_scratch4.sem) (default : HIx 1) 696320
    iprop(((sA).view.loc (thr d L) ↦{fullShare} xRd m d L c h) ∗ ((xV).view.loc (thr d L) ↦[(xSl L c h).view.set]{qx} m (xLoc d)))
/-- The same into the second buffer, on its semaphore. -/
def flightB (qx : PosShare TreeShare) (c : BitVec 32) (h : ∀ a, (k0_off2 L c) a + S128x170.size a ≤ S262144x170.size a) : sProp 𝕄 :=
  Transfers.Flight countersEmb (thr d L) (SemLoc.dma cc0_scratch5.sem) (default : HIx 1) 696320
    iprop(((sB).view.loc (thr d L) ↦{fullShare} xRd m d L c h) ∗ ((xV).view.loc (thr d L) ↦[(xSl L c h).view.set]{qx} m (xLoc d)))
/-- `x`'s share less the chunk a copy in flight has borrowed. -/
def xRest (qx : PosShare TreeShare) (c : BitVec 32) (h : ∀ a, (k0_off2 L c) a + S128x170.size a ≤ S262144x170.size a) : sProp 𝕄 :=
  ((xV).view.loc (thr d L) ↦[Finset.univ \ (xSl L c h).view.set]{qx} m (xLoc d))

omit [FloatOps F] in
/-- A copy in flight into the first buffer delivers the buffer at what is copied, whatever it held. -/
theorem flightA_norm (sm : SemLoc sig) (ι : HIx 1) (N : ℕ)
    (f v : Buf (Elt F) ((thr d L).loc cc0_scratch1)) (R : sProp 𝕄) :
    (Transfers.Flight countersEmb (thr d L) sm ι N
        iprop(((sA).view.loc (thr d L) ↦{fullShare} (sA : Memref sig .scVector .vmem S128x170 .f32).view.write (Elt F) f v Finset.univ) ∗ R) : sProp 𝕄)
      ⊢ Transfers.Flight countersEmb (thr d L) sm ι N
        iprop(((sA).view.loc (thr d L) ↦{fullShare} v) ∗ R) := by
  rw [heldA_write]
omit [FloatOps F] in
theorem flightB_norm (sm : SemLoc sig) (ι : HIx 1) (N : ℕ)
    (f v : Buf (Elt F) ((thr d L).loc cc0_scratch2)) (R : sProp 𝕄) :
    (Transfers.Flight countersEmb (thr d L) sm ι N
        iprop(((sB).view.loc (thr d L) ↦{fullShare} (sB : Memref sig .scVector .vmem S128x170 .f32).view.write (Elt F) f v Finset.univ) ∗ R) : sProp 𝕄)
      ⊢ Transfers.Flight countersEmb (thr d L) sm ι N
        iprop(((sB).view.loc (thr d L) ↦{fullShare} v) ∗ R) := by
  rw [heldB_write]

omit [FloatOps F] [CountersIn U] in
/-- A wait at index `none` recorded keeps the waits within those the task had, or at index `none`. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

end Cert.Kernel.Tile
end
-- ==== Proof.Kernel.TileSeq.lean ====
/-
  Two stretches of the body in sequence: what the first leaves — its result, with the fact stated of it, and the waits it
  recorded, all at index `none` beyond the task's own — is what the second starts from, beside whatever neither touches.
-/
import proofs.«213812_g11871289606185_cont_fleet_226_25_alg».proof.Proof.Kernel.Iface
import proofs.«213812_g11871289606185_cont_fleet_226_25_alg».proof.Proof.Kernel.SkeletonP
import proofs.«213812_g11871289606185_cont_fleet_226_25_alg».proof.Proof.Kernel.TileBase
import proofs.«213812_g11871289606185_cont_fleet_226_25_alg».proof.Proof.Kernel.TileVal
import proofs.«213812_g11871289606185_cont_fleet_226_25_alg».proof.Proof.Kernel.TileSeg

noncomputable section

namespace Cert.Kernel.Tile

open Cert.Kernel Cert.Kernel.Gen Cert.Kernel.GenP Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

omit [FloatOps F] [CountersIn U] in
/-- Two programs in sequence: the first's result and waits handed to the second, beside a frame the first does not touch. -/
theorem seqW [FloatOps F] {α β : Type} (W : Waits sig (HIx 1))
    (p : Prog (TpuEff nD τ sig (Elt F) Λ₀ (.scVector ((L 0).castLE hcore0) ((L 1).castLE hsub0))) α)
    (k : α → Prog (TpuEff nD τ sig (Elt F) Λ₀ (.scVector ((L 0).castLE hcore0) ((L 1).castLE hsub0))) β)
    {P Fr : sProp 𝕄} {φ : α → Prop} {S : α → Waits sig (HIx 1) → sProp 𝕄} {R : β → sProp 𝕄}
    (h1 : P ⊢ wp frame (wpE (defs₀ (F := F)) 𝒱₀ (thr d L) none) Set.univ p
      (fun r => iprop(⌜φ r⌝ ∗ ∃ W', ⌜∀ q ∈ W', q ∈ W ∨ q.2 = none⌝ ∗ S r W')))
    (h2 : ∀ r W', φ r → (∀ q ∈ W', q ∈ W ∨ q.2 = none) → iprop(S r W' ∗ Fr) ⊢ wp frame (wpE (defs₀ (F := F)) 𝒱₀ (thr d L) none) Set.univ (k r) R) :
    iprop(P ∗ Fr) ⊢ wp frame (wpE (defs₀ (F := F)) 𝒱₀ (thr d L) none) Set.univ (p >>= k) R := by
  rw [wp_bind]
  iintro ⟨HP, HF⟩
  ihave H := h1 $$ HP
  iapply (wp_wand_r frame _ _)
  isplitl [H]; · iexact H
  iintro %r ⟨%hφ, %W', %hG, HS⟩
  iapply (h2 r W' hφ hG)
  isplitl [HS]; · iexact HS
  iexact HF

omit [FloatOps F] [CountersIn U] in
/-- Waits within waits within the task's own: the relation the parts' results carry composes. -/
theorem waits_trans {W W₁ W₂ : Waits sig (HIx 1)} (h₁ : ∀ q ∈ W₁, q ∈ W ∨ q.2 = none) (h₂ : ∀ q ∈ W₂, q ∈ W₁ ∨ q.2 = none) :
    ∀ q ∈ W₂, q ∈ W ∨ q.2 = none := fun q hq => (h₂ q hq).elim (h₁ q) .inr

end Cert.Kernel.Tile
end
-- ==== Proof.Kernel.TileEnds.lean ====
/-
  The two ends of one vector subcore's task, as respellings. At its start the subcore's own storage is its four scratch
  buffers at some contents and its four DMA semaphores at zero, plus the rest; the row of the partial sums it writes,
  addressed through the kernel's slice-and-squeeze, is row `2·s + c` of the array; and once the sixteen lanes of the
  accumulator are written there, that row holds `Spec.partials`' row.
-/
import proofs.«213812_g11871289606185_cont_fleet_226_25_alg».proof.Proof.Kernel.Iface

noncomputable section

namespace Cert.Kernel.Tile

open Cert.Kernel Cert.Kernel.Gen Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} {U : Type} [URA U]

local notation "𝕄" => MT nD τ sig (HIx 1) (Elt F) ℕ U ℕ

variable (d : Dev nD) (L : grid0.Coords)

/-- The subcore's four DMA semaphore cells. -/
abbrev c4cell (d : Dev nD) (c : Fin τ.nSC) (i : Fin τ.nSub) : GSem nD τ sig := (V d c i, .dma cc0_scratch4.sem)
abbrev c5cell (d : Dev nD) (c : Fin τ.nSC) (i : Fin τ.nSub) : GSem nD τ sig := (V d c i, .dma cc0_scratch5.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

/-- The four DMA semaphores are among the subcore's own: they are them, at zero, and the rest. -/
theorem ownSems0_V4 :
    (ownSems0 (V d (cV L) (jV L)) : sProp 𝕄)
      = iprop(semVal (c4cell d (cV L) (jV L)) 0 ∗ semVal (c5cell d (cV L) (jV L)) 0 ∗ semVal (cAcell d (cV L) (jV L)) 0
          ∗ semVal (cBcell d (cV L) (jV L)) 0
          ∗ bigSep (((((ownCells (V d (cV L) (jV L))).erase (c4cell d (cV L) (jV L))).erase (c5cell d (cV L) (jV L))).erase
              (cAcell d (cV L) (jV L))).erase (cBcell d (cV L) (jV L))) fun g => semVal g 0) := by
  unfold SparseCore.Cfg.ownSems0
  rw [SparseCore.bigSep_erase' ((mem_ownCells (g := c4cell d (cV L) (jV L))).mpr ⟨rfl, by
      show (SemLoc.dma cc0_scratch4.sem : SemLoc sig).isScoped .scVector = true; decide⟩),
    SparseCore.bigSep_erase' (Finset.mem_erase.mpr ⟨by simp [c4cell, c5cell]; decide, (mem_ownCells (g := c5cell d (cV L) (jV L))).mpr ⟨rfl, by
      show (SemLoc.dma cc0_scratch5.sem : SemLoc sig).isScoped .scVector = true; decide⟩⟩),
    SparseCore.bigSep_erase' (Finset.mem_erase.mpr ⟨by simp [c5cell, cAcell]; decide, Finset.mem_erase.mpr ⟨by simp [c4cell, cAcell]; decide,
      (mem_ownCells (g := cAcell d (cV L) (jV L))).mpr ⟨rfl, by show (SemLoc.dma cc0_scoped0.sem : SemLoc sig).isScoped .scVector = true; decide⟩⟩⟩),
    SparseCore.bigSep_erase' (Finset.mem_erase.mpr ⟨by simp [cAcell, cBcell]; decide, Finset.mem_erase.mpr ⟨by simp [c5cell, cBcell]; decide,
      Finset.mem_erase.mpr ⟨by simp [c4cell, cBcell]; decide,
      (mem_ownCells (g := cBcell d (cV L) (jV L))).mpr ⟨rfl, by show (SemLoc.dma cc0_scoped1.sem : SemLoc sig).isScoped .scVector = true; decide⟩⟩⟩⟩)]

/-- The four scratch buffers are among the subcore's own: they are them, at some contents, and the rest. -/
theorem ownBufs_V4 :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

/-- The subcore's row of the partial sums as its kernel addresses it: the slice of one row, squeezed to sixteen lanes. -/
abbrev oRowM (L : grid0.Coords) : Memref sig .scVector .hbm S16 .f32 :=
  ((oV : Memref sig .scVector .hbm S32x16 .f32).slice (oRect L) (fun _ => rfl)).squeeze S16 squeezes_S1x16_S16

/-- Its elements are the row's. -/
theorem set_oRow : (oRowM L).view.set = oRowSet L := by
  show (((oV : Memref sig .scVector .hbm S32x16 .f32).view.slice (oRect L)).reshape S16 squeezes_S1x16_S16.numel_eq).set
    = ((oV : Memref sig .scVector .hbm S32x16 .f32).view.slice (oRect L)).set
  rw [View.set_reshape]

theorem pts_oRow (f : Buf (Elt F) (oLoc d)) :
    ((oRowM L).view.loc (V d (cV L) (jV L)) ↦[(oRowM L).view.set]{fullShare} f : sProp 𝕄) = (oLoc d ↦[oRowSet L]{fullShare} f) := by
  rw [set_oRow]

/-- Lane `y` of the subcore's row sits in row `2·s + c` of the array … -/
theorem emb_oRow_row (y : S16.Idx) : (((oRowM L).view.emb y) 0).val = 2 * (L 1).val + (L 0).val := by
  have h0 : ((Shape.reshapeEquiv squeezes_S1x16_S16.numel_eq y) 0).val < 1 := (Shape.reshapeEquiv squeezes_S1x16_S16.numel_eq y 0).isLt
  show k0_off31 L 0 + 1 * ((Shape.reshapeEquiv squeezes_S1x16_S16.numel_eq y) 0).val = _
  rw [k0_off31_eq]
  show 2 * (L 1).val + (L 0).val + 1 * ((Shape.reshapeEquiv squeezes_S1x16_S16.numel_eq y) 0).val = _
  omega

/-- … at column `y`. -/
theorem emb_oRow_col (y : S16.Idx) : (((oRowM L).view.emb y) 1).val = (y 0).val := by
  have hz := Shape.rowMajor_reshapeEquiv squeezes_S1x16_S16.numel_eq y
  rw [Shape.rowMajor_val_two, Shape.rowMajor_val_one] at hz
  have hz' : ((Shape.reshapeEquiv squeezes_S1x16_S16.numel_eq y) 0).val * 16 + ((Shape.reshapeEquiv squeezes_S1x16_S16.numel_eq y) 1).val = (y 0).val := hz
  have h0 : ((Shape.reshapeEquiv squeezes_S1x16_S16.numel_eq y) 0).val < 1 := (Shape.reshapeEquiv squeezes_S1x16_S16.numel_eq y 0).isLt
  show k0_off31 L 1 + 1 * ((Shape.reshapeEquiv squeezes_S1x16_S16.numel_eq y) 1).val = _
  rw [k0_off31_eq]
  show 0 + 1 * ((Shape.reshapeEquiv squeezes_S1x16_S16.numel_eq y) 1).val = _
  omega

variable [FloatOps F] (m : (ℓ : Loc nD τ sig) → Buf (Elt F) ℓ)

/-- THE VALUE AT THE END: the subcore's accumulator after all 224 groups, written to its row, is the partial sums' row. -/
theorem pts_oRow_end (fo : Buf (Elt F) (oLoc d)) :
    (oLoc d ↦[oRowSet L]{fullShare} (oRowM L).view.write (Elt F) fo
        (Spec.tileAcc (m (xLoc d)) (m (tLoc d)) (7168 * (L 1).val + 3584 * (L 0).val) 224) Finset.univ : sProp 𝕄)
      = (oLoc d ↦[oRowSet L]{fullShare} outF m d) := by
  refine pointsTo_congr fun i hi => ?_
  rw [← set_oRow] at hi
  obtain ⟨y, -, rfl⟩ := Finset.mem_map.mp hi
  rw [View.write_emb_of_mem _ _ (Finset.mem_univ y)]
  refine (cast_eq _ _).trans ?_
  show Spec.tileAcc (m (xLoc d)) (m (tLoc d)) (7168 * (L 1).val + 3584 * (L 0).val) 224 y
    = Spec.tileAcc (m (xLoc d)) (m (tLoc d)) (3584 * (((oRowM L).view.emb y) 0).val) 224 (ValueIdx.ix1 (((oRowM L).view.emb y) 1))
  have hb : 3584 * (((oRowM L).view.emb y) 0).val = 7168 * (L 1).val + 3584 * (L 0).val := by
    rw [emb_oRow_row]; omega
  have hy : ValueIdx.ix1 (((oRowM L).view.emb y) 1) = y := by
    funext a
    match a with
    | ⟨0, _⟩ => exact Fin.ext (emb_oRow_col L y)
  rw [hb]
  exact congrArg (Spec.tileAcc (m (xLoc d)) (m (tLoc d)) (7168 * (L 1).val + 3584 * (L 0).val) 224) hy.symm

end Cert.Kernel.Tile

end
-- ==== Proof.Kernel.TileFrame.lean ====
/-
  The task's resources spelt out. What the launch hands one vector subcore — the evidence for its waits, its shares of
  the arrays, its scoped storage and semaphores, what it owes — is: leave to wait on its own semaphores, the three
  array shares, its four scratch buffers at some contents, its four DMA semaphores at zero, the rest of its scoped
  storage, and what it owes; and the same resources, with the row of the partial sums at its final value, are what it
  hands back.
-/
import proofs.«213812_g11871289606185_cont_fleet_226_25_alg».proof.Proof.Kernel.Iface
import proofs.«213812_g11871289606185_cont_fleet_226_25_alg».proof.Proof.Kernel.TileEnds

noncomputable section

namespace Cert.Kernel.Tile

open Cert.Kernel Cert.Kernel.Gen Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- The subcore's scoped buffers other than the four scratch buffers, each whole at some contents. -/
def restBufs : sProp 𝕄 :=
  bigSep (((((ownRefs (τ := τ) (.scVector (cV L) (jV L))).erase ((Proc.scVector (cV L) (jV L)).devRef cc0_scratch0)).erase
      ((Proc.scVector (cV L) (jV L)).devRef cc0_scratch1)).erase ((Proc.scVector (cV L) (jV L)).devRef cc0_scratch2)).erase
      ((Proc.scVector (cV L) (jV L)).devRef cc0_scratch3))
    fun b => iprop(∃ f, ((d, b) : Loc nD τ sig) ↦{fullShare} f)

/-- The subcore's scoped semaphores other than the four DMA semaphores, at zero. -/
def restSems : sProp 𝕄 :=
  bigSep (((((ownCells (V d (cV L) (jV L))).erase (c4cell d (cV L) (jV L))).erase (c5cell d (cV L) (jV L))).erase
      (cAcell d (cV L) (jV L))).erase (cBcell d (cV L) (jV L))) fun g => semVal g 0

/-- The subcore's scoped buffers: the four scratch buffers at some contents, and the rest. -/
theorem scopedBufs_eq :
    (scopedBufs (V d (cV L) (jV L)) : sProp 𝕄)
      = iprop((∃ f, (sT).view.loc (V d (cV L) (jV L)) ↦{fullShare} f) ∗ (∃ f, (sA).view.loc (V d (cV L) (jV L)) ↦{fullShare} f)
          ∗ (∃ f, (sB).view.loc (V d (cV L) (jV L)) ↦{fullShare} f) ∗ (∃ f, (sO).view.loc (V d (cV L) (jV L)) ↦{fullShare} f)
          ∗ restBufs (F := F) (U := U) d L) := by
  rw [(K (F := F)).scopedBufs_V facts d (cV L) (jV L), ownBufs_V4]
  rfl

/-- The subcore's scoped semaphores at zero: the four DMA semaphores at zero, and the rest. -/
theorem scopedSems0_eq :
    (scopedSems0 (V d (cV L) (jV L)) : sProp 𝕄)
      = iprop(semVal (V d (cV L) (jV L), SemLoc.dma cc0_scratch4.sem) 0 ∗ semVal (V d (cV L) (jV L), SemLoc.dma cc0_scratch5.sem) 0
          ∗ semVal (V d (cV L) (jV L), SemLoc.dma cc0_scoped0.sem) 0 ∗ semVal (V d (cV L) (jV L), SemLoc.dma cc0_scoped1.sem) 0
          ∗ restSems (F := F) (U := U) d L) := by
  rw [SparseCore.Cfg.scopedSems0_V (Val := Elt F) d (cV L) (jV L), ownSems0_V4]
  rfl

/-- WHAT THE TASK STARTS FROM, spelt out. -/
theorem tile_open (qx qt : PosShare TreeShare) (fo : Buf (Elt F) (oLoc d)) (O : CellTallies nD τ sig (HIx 1)) (W : Waits sig (HIx 1))
    (hO : ∀ g, O g none = 0) :
    (iprop(levAts (K (F := F)).L (K (F := F)).lev
        ∗ ((xLoc d ↦{qx} m (xLoc d)) ∗ (tLoc d ↦{qt} m (tLoc d)) ∗ (oLoc d ↦[oRowSet L]{fullShare} fo))
        ∗ scopedBufs (V d (cV L) (jV L)) ∗ scopedSems0 (V d (cV L) (jV L)) ∗ owes (V d (cV L) (jV L)) O W) : sProp 𝕄)
      ⊢ iprop(Transfers.MayWaits (V d (cV L) (jV L)) (none : HIx 1) O
        ∗ (((xV).view.loc (V d (cV L) (jV L)) ↦{qx} m (xLoc d)) ∗ ((tV).view.loc (V d (cV L) (jV L)) ↦{qt} m (tLoc d))
            ∗ (oLoc d ↦[oRowSet L]{fullShare} fo))
        ∗ ((∃ f, (sT).view.loc (V d (cV L) (jV L)) ↦{fullShare} f) ∗ (∃ f, (sA).view.loc (V d (cV L) (jV L)) ↦{fullShare} f)
            ∗ (∃ f, (sB).view.loc (V d (cV L) (jV L)) ↦{fullShare} f) ∗ (∃ f, (sO).view.loc (V d (cV L) (jV L)) ↦{fullShare} f)
            ∗ restBufs (F := F) (U := U) d L)
        ∗ (semVal (V d (cV L) (jV L), SemLoc.dma cc0_scratch4.sem) 0 ∗ semVal (V d (cV L) (jV L), SemLoc.dma cc0_scratch5.sem) 0
            ∗ semVal (V d (cV L) (jV L), SemLoc.dma cc0_scoped0.sem) 0 ∗ semVal (V d (cV L) (jV L), SemLoc.dma cc0_scoped1.sem) 0
            ∗ restSems (F := F) (U := U) d L)
        ∗ owes (V d (cV L) (jV L)) O W) := by
  rw [scopedBufs_eq, scopedSems0_eq]
  iintro ⟨#Hlv, Harr, Hbufs, Hsems, HO⟩
  isplitr
  · iapply ((K (F := F)).mayWaits_none hO); iexact Hlv
  isplitl [Harr]; · iexact Harr
  isplitl [Hbufs]; · iexact Hbufs
  isplitl [Hsems]; · iexact Hsems
  iexact HO

/-- WHAT THE TASK HANDS BACK, folded up again. -/
theorem tile_close (qx qt : PosShare TreeShare) (O : CellTallies nD τ sig (HIx 1)) (W : Waits sig (HIx 1)) :
    (iprop((((xV).view.loc (V d (cV L) (jV L)) ↦{qx} m (xLoc d)) ∗ ((tV).view.loc (V d (cV L) (jV L)) ↦{qt} m (tLoc d))
            ∗ (oLoc d ↦[oRowSet L]{fullShare} outF m d))
        ∗ ((∃ f, (sT).view.loc (V d (cV L) (jV L)) ↦{fullShare} f) ∗ (∃ f, (sA).view.loc (V d (cV L) (jV L)) ↦{fullShare} f)
            ∗ (∃ f, (sB).view.loc (V d (cV L) (jV L)) ↦{fullShare} f) ∗ (∃ f, (sO).view.loc (V d (cV L) (jV L)) ↦{fullShare} f)
            ∗ restBufs (F := F) (U := U) d L)
        ∗ (semVal (V d (cV L) (jV L), SemLoc.dma cc0_scratch4.sem) 0 ∗ semVal (V d (cV L) (jV L), SemLoc.dma cc0_scratch5.sem) 0
            ∗ semVal (V d (cV L) (jV L), SemLoc.dma cc0_scoped0.sem) 0 ∗ semVal (V d (cV L) (jV L), SemLoc.dma cc0_scoped1.sem) 0
            ∗ restSems (F := F) (U := U) d L)
        ∗ ∃ W', ⌜∀ p ∈ W', p ∈ W ∨ p.2 = none⌝ ∗ owes (V d (cV L) (jV L)) O W') : sProp 𝕄)
      ⊢ iprop(((xLoc d ↦{qx} m (xLoc d)) ∗ (tLoc d ↦{qt} m (tLoc d)) ∗ (oLoc d ↦[oRowSet L]{fullShare} outF m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [scopedBufs_eq, scopedSems0_eq]

end Cert.Kernel.Tile

end
-- ==== Proof.Kernel.TileOut.lean ====
/-
  The end of the task, as the symbolic run leaves it: the accumulator stored whole into its scratch buffer and read
  back is the accumulator; written from there through the whole of the subcore's row of the partial sums, the row
  holds `Spec.partials`' row.
-/
import proofs.«213812_g11871289606185_cont_fleet_226_25_alg».proof.Proof.Kernel.TileBase
import proofs.«213812_g11871289606185_cont_fleet_226_25_alg».proof.Proof.Kernel.TileEnds
import Idealize.ShloMosaic.Lib.Writes

noncomputable section

namespace Cert.Kernel.Tile

open Cert.Kernel Cert.Kernel.Gen Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

omit [FloatOps F] [CountersIn U] in
/-- The accumulator's scratch buffer, stored whole and read back, holds what was stored. -/
theorem sO_read_back (fO : Buf (Elt F) ((thr d L).loc cc0_scratch3)) (acc : S16.Idx → Elt F .f32) :
    View.read (Elt F) (sO : Memref sig .scVector .vmem S16 .f32).view
      ((sO : Memref sig .scVector .vmem S16 .f32).view.writes (Elt F) fO [⟨Rect.unit (s := S16) ![0] S16.size inb_S16_S16_0, acc⟩]) = acc := by
  rw [View.writes_singleton]
  have hw : ((sO : Memref sig .scVector .vmem S16 .f32).view.slice (Rect.unit (s := S16) ![0] S16.size inb_S16_S16_0)).write (Elt F) fO acc Finset.univ = acc :=
    Memref.write_access_unit_zero_univ (Elt F) cc0_scratch3 (off := ![0])
      (funext fun a => by obtain rfl : a = 0 := Subsingleton.elim _ _; rfl) inb_S16_S16_0 fO acc
  rw [hw]
  rfl

omit [FloatOps F] [CountersIn U] in
/-- Writing through the whole of the subcore's row is writing through the row. -/
theorem oRow_write_whole (fo : Buf (Elt F) (oLoc d)) (w : S16.Idx → Elt F .f32) (i : S32x16.Idx) (hi : i ∈ (oRowM L).view.set) :
    (oRowM L).view.writes (Elt F) fo [⟨Rect.whole S16, w⟩] i = (oRowM L).view.write (Elt F) fo w Finset.univ i := by
  obtain ⟨y, -, rfl⟩ := Finset.mem_map.mp hi
  rw [View.writes_singleton, View.write_emb_of_mem _ _ (Finset.mem_univ y)]
  have he : ((oRowM L).view.slice (Rect.whole S16)).emb y = (oRowM L).view.emb y :=
    congrArg (oRowM L).view.emb (Rect.emb_whole_apply S16 y)
  rw [← he]
  exact View.write_emb_of_mem (v := (oRowM L).view.slice (Rect.whole S16)) (Val := Elt F) fo w (M := Finset.univ) (x := y) (Finset.mem_univ y)

/-- THE ROW AT THE END, as the run leaves it: the subcore's row of the partial sums holds `Spec.partials`' row. -/
theorem pts_oRow_final (fo : Buf (Elt F) (oLoc d)) (fO : Buf (Elt F) ((thr d L).loc cc0_scratch3)) :
    ((oRowM L).view.loc (thr d L) ↦[(oRowM L).view.set]{fullShare}
        (oRowM L).view.writes (Elt F) fo [⟨Rect.whole S16, ReadAs.same.apply (View.read (Elt F) (sO : Memref sig .scVector .vmem S16 .f32).view
          ((sO : Memref sig .scVector .vmem S16 .f32).view.writes (Elt F) fO [⟨Rect.unit (s := S16) ![0] S16.size inb_S16_S16_0, accAt m d L 224⟩]))⟩] : sProp 𝕄)
      = (oLoc d ↦[oRowSet L]{fullShare} outF m d) := by
  rw [sO_read_back]
  refine (pts_oRow (F := F) (U := U) d L _).trans ?_
  refine Eq.trans (pointsTo_congr fun i hi => ?_) (pts_oRow_end (F := F) (U := U) d L m fo)
  rw [← set_oRow] at hi
  exact oRow_write_whole d L fo _ i hi

omit [FloatOps F] [CountersIn U] in
/-- The accumulator's scratch buffer held in two pieces at one valuation is held whole. -/
theorem sO_join (g : Buf (Elt F) ((thr d L).loc cc0_scratch3)) :
    (iprop(((sO : Memref sig .scVector .vmem S16 .f32).view.loc (thr d L) ↦[(sO : Memref sig .scVector .vmem S16 .f32).view.set]{fullShare} g)
        ∗ ((sO : Memref sig .scVector .vmem S16 .f32).view.loc (thr d L) ↦[Finset.univ \ (sO : Memref sig .scVector .vmem S16 .f32).view.set]{fullShare} g)) : sProp 𝕄)
      ⊢ ((sO : Memref sig .scVector .vmem S16 .f32).view.loc (thr d L) ↦{fullShare} g) :=
  (pointsTo_split_subset (Finset.subset_univ _)).2

end Cert.Kernel.Tile

end
-- ==== Proof.Kernel.TileP1.lean ====
/-
  Statements 1–60 of the body: the task's 3584 column words fetched; chunks 0 and 1 fetched into the two buffers and summed
  (groups 0 … 15: the accumulator ends at `Spec.tileAcc … 16`); chunk 2's copy into the first buffer started.
-/
import proofs.«213812_g11871289606185_cont_fleet_226_25_alg».proof.Proof.Kernel.Iface
import proofs.«213812_g11871289606185_cont_fleet_226_25_alg».proof.Proof.Kernel.SkeletonP
import proofs.«213812_g11871289606185_cont_fleet_226_25_alg».proof.Proof.Kernel.TileBase
import proofs.«213812_g11871289606185_cont_fleet_226_25_alg».proof.Proof.Kernel.TileVal
import proofs.«213812_g11871289606185_cont_fleet_226_25_alg».proof.Proof.Kernel.TileSeg

noncomputable section

namespace Cert.Kernel.Tile

open Cert.Kernel Cert.Kernel.Gen Cert.Kernel.GenP Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- Statements 1–60: the column words fetched, chunks 0 and 1 fetched and summed, chunk 2's copy started. -/
theorem part1 (hT : TgtOK m) (qx qt : PosShare TreeShare) (O : CellTallies nD τ sig (HIx 1)) (W : Waits sig (HIx 1))
    (fT : Buf (Elt F) ((thr d L).loc cc0_scratch0)) (fA : Buf (Elt F) ((thr d L).loc cc0_scratch1)) (fB : Buf (Elt F) ((thr d L).loc cc0_scratch2)) :
    iprop(Transfers.MayWaits (thr d L) (none : HIx 1) O
        ∗ ((xV).view.loc (thr d L) ↦{qx} m (xLoc d)) ∗ ((tV).view.loc (thr d L) ↦{qt} m (tLoc d))
        ∗ ((sT).view.loc (thr d L) ↦{fullShare} fT) ∗ ((sA).view.loc (thr d L) ↦{fullShare} fA) ∗ ((sB).view.loc (thr d L) ↦{fullShare} fB)
        ∗ semVal (thr d L, SemLoc.dma cc0_scratch4.sem) 0 ∗ semVal (thr d L, SemLoc.dma cc0_scratch5.sem) 0 ∗ semVal (thr d L, SemLoc.dma cc0_scoped0.sem) 0
        ∗ owes (thr d L) O W)
      ⊢ (wp frame (wpE (defs₀ (F := F)) 𝒱₀ (thr d L) none) Set.univ
          (k0_part1 (F := F) L xV (Memref.isWhole_whole _) tV (Memref.isWhole_whole _) oV (Memref.isWhole_whole _)
            sT (Memref.isWhole_whole _) sA (Memref.isWhole_whole _) sB (Memref.isWhole_whole _) sO (Memref.isWhole_whole _)
            cc0_scratch4 cc0_scratch5 cc0_scoped0 cc0_scoped1)
          fun r => iprop(⌜r.2.1 = (iota .scVector S16 32 [0] iota_S16_d0_w32_scVector) ∧ r.2.2 = accAt m d L 16⌝
            ∗ ∃ W', ⌜∀ p ∈ W', p ∈ W ∨ p.2 = none⌝ ∗ Core m d L qt O W' ∗ xRest (F := F) m d L qx 256#32 (k0_off2_inb L 2) ∗ flightA m d L qx 256#32 (k0_off2_inb L 2)
              ∗ ((sB).view.loc (thr d L) ↦{fullShare} xRd m d L 128#32 (k0_off2_inb L 1)) ∗ semVal (thr d L, SemLoc.dma cc0_scratch5.sem) 0) : sProp 𝕄) := by
  iintro ⟨#Hmw, Hx, Ht, HsT, HsA, HsB, Hs4, Hs5, Hc0, HO⟩
  sl_unfold [k0_part1]
  sl_exec
  ihave HsT := (Entails.of_eq (heldT_write (F := F) d L _ _)) $$ HsT
  ihave HsA := (Entails.of_eq (heldA_write (F := F) d L _ _)) $$ HsA
  sl_for (invA m d L 0#32 (k0_off2_inb L 0) 0) $$ [HsT HsA]
  case region =>
    intro k acc
    exact tripA m d L hT 0 k0_t1_abs.2.1 k0_off3 k0_off3_inb k0_pay2 k0_chk1 k0_chk1.dec k0_idx1_inb k0_pay3 k0_off3_eq (by decide +kernel) (fun _ _ h => h) (fun _ _ => rfl) k acc
  · unfold invA
    isplitr; · ipureintro; rfl
    isplitl [HsT]; · iexact HsT
    iexact HsA
  iintro %acc HI
  unfold invA
  icases HI with ⟨%hacc, HsT, HsA⟩
  sl_exec
  ihave HsB := (Entails.of_eq (heldB_write (F := F) d L _ _)) $$ HsB
  sl_for (invB m d L 128#32 (k0_off2_inb L 1) 8) $$ [HsT HsB]
  case region =>
    intro k acc
    exact tripB m d L hT 1 k0_t2_abs.2.1 k0_off4 k0_off4_inb k0_pay4 k0_chk2 k0_chk2.dec k0_idx2_inb k0_pay5 k0_off4_eq (by decide +kernel) (fun _ _ h => h) (fun _ _ => rfl) k acc
  · unfold invB
    isplitr; · ipureintro; exact hacc
    isplitl [HsT]; · iexact HsT
    iexact HsB
  iintro %acc2 HI
  unfold invB
  icases HI with ⟨%hacc2, HsT, HsB⟩
  sl_exec
  sl_step
  ihave Hs4 := (flightA_norm (F := F) d L _ _ _ _ _ _) $$ Hs4
  have h8 : Scf.trips k0_t2_loop.lb k0_t2_loop.ub k0_t2_loop.st = 8 := by decide
  rw [h8] at hacc2
  isplitr; · ipureintro; exact ⟨rfl, hacc2⟩
  iexists _; isplitr
  swap
  · unfold Core xRest flightA
    isplitl [Ht HsT Hc0 HO]
    · isplitr; · iexact Hmw
      isplitl [Ht]; · iexact Ht
      isplitl [HsT]; · iexact HsT
      isplitl [Hc0]; · iexact Hc0
      iexact HO
    isplitl [Hx]; · iexact Hx
    isplitl [Hs4]; · iexact Hs4
    isplitl [HsB]; · iexact HsB
    iexact Hs5
  · ipureintro; exact waits_insert _ (waits_insert _ (waits_insert _ (fun p hp => .inl hp)))

end Cert.Kernel.Tile
end
-- ==== Proof.Kernel.TileP2.lean ====
/-
  Statements 61–120: chunks 2, 3 and 4 summed (groups 16 … 39: the accumulator from `Spec.tileAcc … 16` to `… 40`) while
  chunks 3, 4 and 5 are fetched; at the end no copy is in flight, the buffers hold chunks 4 and 5.
-/
import proofs.«213812_g11871289606185_cont_fleet_226_25_alg».proof.Proof.Kernel.Iface
import proofs.«213812_g11871289606185_cont_fleet_226_25_alg».proof.Proof.Kernel.SkeletonP
import proofs.«213812_g11871289606185_cont_fleet_226_25_alg».proof.Proof.Kernel.TileBase
import proofs.«213812_g11871289606185_cont_fleet_226_25_alg».proof.Proof.Kernel.TileVal
import proofs.«213812_g11871289606185_cont_fleet_226_25_alg».proof.Proof.Kernel.TileSeg

noncomputable section

namespace Cert.Kernel.Tile

open Cert.Kernel Cert.Kernel.Gen Cert.Kernel.GenP Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- Statements 61–120: chunks 2, 3 and 4 summed while chunks 3, 4 and 5 are fetched. -/
theorem part2 (hT : TgtOK m) (qx qt : PosShare TreeShare) (O : CellTallies nD τ sig (HIx 1)) (W : Waits sig (HIx 1)) (v2 : BitVec 32) :
    iprop(Core m d L qt O W ∗ xRest (F := F) m d L qx 256#32 (k0_off2_inb L 2) ∗ flightA m d L qx 256#32 (k0_off2_inb L 2)
        ∗ ((sB).view.loc (thr d L) ↦{fullShare} xRd m d L 128#32 (k0_off2_inb L 1)) ∗ semVal (thr d L, SemLoc.dma cc0_scratch5.sem) 0)
      ⊢ (wp frame (wpE (defs₀ (F := F)) 𝒱₀ (thr d L) none) Set.univ
          (k0_part2 (F := F) L xV (Memref.isWhole_whole _) tV (Memref.isWhole_whole _) oV (Memref.isWhole_whole _)
            sT (Memref.isWhole_whole _) sA (Memref.isWhole_whole _) sB (Memref.isWhole_whole _) sO (Memref.isWhole_whole _)
            cc0_scratch4 cc0_scratch5 cc0_scoped0 cc0_scoped1 v2 (iota .scVector S16 32 [0] iota_S16_d0_w32_scVector) (accAt m d L 16))
          fun r => iprop(⌜r = accAt m d L 40⌝
            ∗ ∃ W', ⌜∀ p ∈ W', p ∈ W ∨ p.2 = none⌝ ∗ Core m d L qt O W' ∗ ((xV).view.loc (thr d L) ↦{qx} m (xLoc d))
              ∗ ((sA).view.loc (thr d L) ↦{fullShare} xRd m d L 512#32 (k0_off2_inb L 4))
              ∗ ((sB).view.loc (thr d L) ↦{fullShare} xRd m d L 640#32 (k0_off2_inb L 5))
              ∗ semVal (thr d L, SemLoc.dma cc0_scratch4.sem) 0 ∗ semVal (thr d L, SemLoc.dma cc0_scratch5.sem) 0) : sProp 𝕄) := by
  try unfold Core
  try unfold xRest
  try unfold flightA
  try unfold flightB
  iintro ⟨⟨#Hmw, Ht, HsT, Hc0, HO⟩, Hx, H4, HB, H5⟩
  sl_unfold [k0_part2]
  sl_exec
  irename H4_dst => HA
  sl_for (invA m d L 256#32 (k0_off2_inb L 2) 16) $$ [HsT HA]
  case region =>
    intro k acc
    exact tripA m d L hT 2 k0_t3_abs.2.1 k0_off5 k0_off5_inb (k0_pay6 (iota .scVector S16 32 [0] iota_S16_d0_w32_scVector)) k0_chk3 k0_chk3.dec k0_idx3_inb k0_pay7 k0_off5_eq (by decide +kernel) (fun _ _ h => h) (fun _ _ => rfl) k acc
  · unfold invA
    isplitr; · ipureintro; rfl
    isplitl [HsT]; · iexact HsT
    iexact HA
  iintro %acc3 HI
  unfold invA
  icases HI with ⟨%hacc3, HsT, HA⟩
  have h8_3 : Scf.trips k0_t3_loop.lb k0_t3_loop.ub k0_t3_loop.st = 8 := by decide
  rw [h8_3] at hacc3
  sl_exec
  ihave HB := (Entails.of_eq (heldB_write (F := F) d L _ _)) $$ HB
  sl_for (invB m d L 384#32 (k0_off2_inb L 3) 24) $$ [HsT HB]
  case region =>
    intro k acc
    exact tripB m d L hT 3 k0_t4_abs.2.1 k0_off6 k0_off6_inb (k0_pay8 (iota .scVector S16 32 [0] iota_S16_d0_w32_scVector)) k0_chk4 k0_chk4.dec k0_idx4_inb k0_pay9 k0_off6_eq (by decide +kernel) (fun _ _ h => h) (fun _ _ => rfl) k acc
  · unfold invB
    isplitr; · ipureintro; exact hacc3
    isplitl [HsT]; · iexact HsT
    iexact HB
  iintro %acc4 HI
  unfold invB
  icases HI with ⟨%hacc4, HsT, HB⟩
  have h8_4 : Scf.trips k0_t4_loop.lb k0_t4_loop.ub k0_t4_loop.st = 8 := by decide
  rw [h8_4] at hacc4
  sl_exec
  ihave HA := (Entails.of_eq (heldA_write (F := F) d L _ _)) $$ HA
  sl_for (invA m d L 512#32 (k0_off2_inb L 4) 32) $$ [HsT HA]
  case region =>
    intro k acc
    exact tripA m d L hT 4 k0_t5_abs.2.1 k0_off7 k0_off7_inb (k0_pay10 (iota .scVector S16 32 [0] iota_S16_d0_w32_scVector)) k0_chk5 k0_chk5.dec k0_idx5_inb k0_pay11 k0_off7_eq (by decide +kernel) (fun _ _ h => h) (fun _ _ => rfl) k acc
  · unfold invA
    isplitr; · ipureintro; exact hacc4
    isplitl [HsT]; · iexact HsT
    iexact HA
  iintro %acc5 HI
  unfold invA
  icases HI with ⟨%hacc5, HsT, HA⟩
  have h8_5 : Scf.trips k0_t5_loop.lb k0_t5_loop.ub k0_t5_loop.st = 8 := by decide
  rw [h8_5] at hacc5
  sl_exec
  ihave HB := (Entails.of_eq (heldB_write (F := F) d L _ _)) $$ HB
  sl_step
  isplitr; · ipureintro; exact hacc5
  iexists _; isplitr
  swap
  · isplitl [Ht HsT Hc0 HO]
    · isplitr; · iexact Hmw
      isplitl [Ht]; · iexact Ht
      isplitl [HsT]; · iexact HsT
      isplitl [Hc0]; · iexact Hc0
      iexact HO
    isplitl [Hx]; · iexact Hx
    isplitl [HA]; · iexact HA
    isplitl [HB]; · iexact HB
    isplitl [H4]; · iexact H4
    iexact H5
  · ipureintro; exact (waits_insert _ (waits_insert _ (waits_insert _ (waits_insert _ (fun p hp => .inl hp)))))

end Cert.Kernel.Tile
end
-- ==== Proof.Kernel.TileP3.lean ====
/-
  Statements 121–180: chunks 5, 6 and 7 summed (groups 40 … 63: the accumulator from `Spec.tileAcc … 40` to `… 64`) while
  chunks 6, 7 and 8 are fetched; chunk 9's copy into the second buffer is left in flight.
-/
import proofs.«213812_g11871289606185_cont_fleet_226_25_alg».proof.Proof.Kernel.Iface
import proofs.«213812_g11871289606185_cont_fleet_226_25_alg».proof.Proof.Kernel.SkeletonP
import proofs.«213812_g11871289606185_cont_fleet_226_25_alg».proof.Proof.Kernel.TileBase
import proofs.«213812_g11871289606185_cont_fleet_226_25_alg».proof.Proof.Kernel.TileVal
import proofs.«213812_g11871289606185_cont_fleet_226_25_alg».proof.Proof.Kernel.TileSeg

noncomputable section

namespace Cert.Kernel.Tile

open Cert.Kernel Cert.Kernel.Gen Cert.Kernel.GenP Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- Statements 121–180: chunks 5, 6 and 7 summed while chunks 6 to 9 are fetched. -/
theorem part3 (hT : TgtOK m) (qx qt : PosShare TreeShare) (O : CellTallies nD τ sig (HIx 1)) (W : Waits sig (HIx 1)) (v2 : BitVec 32) :
    iprop(Core m d L qt O W ∗ ((xV).view.loc (thr d L) ↦{qx} m (xLoc d))
        ∗ ((sA).view.loc (thr d L) ↦{fullShare} xRd m d L 512#32 (k0_off2_inb L 4))
        ∗ ((sB).view.loc (thr d L) ↦{fullShare} xRd m d L 640#32 (k0_off2_inb L 5))
        ∗ semVal (thr d L, SemLoc.dma cc0_scratch4.sem) 0 ∗ semVal (thr d L, SemLoc.dma cc0_scratch5.sem) 0)
      ⊢ (wp frame (wpE (defs₀ (F := F)) 𝒱₀ (thr d L) none) Set.univ
          (k0_part3 (F := F) L xV (Memref.isWhole_whole _) tV (Memref.isWhole_whole _) oV (Memref.isWhole_whole _)
            sT (Memref.isWhole_whole _) sA (Memref.isWhole_whole _) sB (Memref.isWhole_whole _) sO (Memref.isWhole_whole _)
            cc0_scratch4 cc0_scratch5 cc0_scoped0 cc0_scoped1 v2 (iota .scVector S16 32 [0] iota_S16_d0_w32_scVector) (accAt m d L 40))
          fun r => iprop(⌜r.1 = accAt m d L 64 ∧ r.2 = 0#32⌝
            ∗ ∃ W', ⌜∀ p ∈ W', p ∈ W ∨ p.2 = none⌝ ∗ Core m d L qt O W' ∗ xRest (F := F) m d L qx 1152#32 (k0_off2_inb L 9)
              ∗ ((sA).view.loc (thr d L) ↦{fullShare} xRd m d L 1024#32 (k0_off2_inb L 8)) ∗ semVal (thr d L, SemLoc.dma cc0_scratch4.sem) 0 ∗ flightB m d L qx 1152#32 (k0_off2_inb L 9)) : sProp 𝕄) := by
  try unfold Core
  try unfold xRest
  try unfold flightA
  try unfold flightB
  iintro ⟨⟨#Hmw, Ht, HsT, Hc0, HO⟩, Hx, HA, HB, H4, H5⟩
  sl_unfold [k0_part3]
  sl_exec
  sl_for (invB m d L 640#32 (k0_off2_inb L 5) 40) $$ [HsT HB]
  case region =>
    intro k acc
    exact tripB m d L hT 5 k0_t6_abs.2.1 k0_off8 k0_off8_inb (k0_pay12 (iota .scVector S16 32 [0] iota_S16_d0_w32_scVector)) k0_chk6 k0_chk6.dec k0_idx6_inb k0_pay13 k0_off8_eq (by decide +kernel) (fun _ _ h => h) (fun _ _ => rfl) k acc
  · unfold invB
    isplitr; · ipureintro; rfl
    isplitl [HsT]; · iexact HsT
    iexact HB
  iintro %acc6 HI
  unfold invB
  icases HI with ⟨%hacc6, HsT, HB⟩
  have h8_6 : Scf.trips k0_t6_loop.lb k0_t6_loop.ub k0_t6_loop.st = 8 := by decide
  rw [h8_6] at hacc6
  sl_exec
  ihave HA := (Entails.of_eq (heldA_write (F := F) d L _ _)) $$ HA
  sl_for (invA m d L 768#32 (k0_off2_inb L 6) 48) $$ [HsT HA]
  case region =>
    intro k acc
    exact tripA m d L hT 6 k0_t7_abs.2.1 k0_off9 k0_off9_inb (k0_pay14 (iota .scVector S16 32 [0] iota_S16_d0_w32_scVector)) k0_chk7 k0_chk7.dec k0_idx7_inb k0_pay15 k0_off9_eq (by decide +kernel) (fun _ _ h => h) (fun _ _ => rfl) k acc
  · unfold invA
    isplitr; · ipureintro; exact hacc6
    isplitl [HsT]; · iexact HsT
    iexact HA
  iintro %acc7 HI
  unfold invA
  icases HI with ⟨%hacc7, HsT, HA⟩
  have h8_7 : Scf.trips k0_t7_loop.lb k0_t7_loop.ub k0_t7_loop.st = 8 := by decide
  rw [h8_7] at hacc7
  sl_exec
  ihave HB := (Entails.of_eq (heldB_write (F := F) d L _ _)) $$ HB
  sl_for (invB m d L 896#32 (k0_off2_inb L 7) 56) $$ [HsT HB]
  case region =>
    intro k acc
    exact tripB m d L hT 7 k0_t8_abs.2.1 k0_off10 k0_off10_inb (k0_pay16 (iota .scVector S16 32 [0] iota_S16_d0_w32_scVector)) k0_chk8 k0_chk8.dec k0_idx8_inb k0_pay17 k0_off10_eq (by decide +kernel) (fun _ _ h => h) (fun _ _ => rfl) k acc
  · unfold invB
    isplitr; · ipureintro; exact hacc7
    isplitl [HsT]; · iexact HsT
    iexact HB
  iintro %acc8 HI
  unfold invB
  icases HI with ⟨%hacc8, HsT, HB⟩
  have h8_8 : Scf.trips k0_t8_loop.lb k0_t8_loop.ub k0_t8_loop.st = 8 := by decide
  rw [h8_8] at hacc8
  sl_exec
  ihave HA := (Entails.of_eq (heldA_write (F := F) d L _ _)) $$ HA
  sl_step
  ihave H5 := (flightB_norm (F := F) d L _ _ _ _ _ _) $$ H5
  isplitr; · ipureintro; exact ⟨hacc8, rfl⟩
  iexists _; isplitr
  swap
  · isplitl [Ht HsT Hc0 HO]
    · isplitr; · iexact Hmw
      isplitl [Ht]; · iexact Ht
      isplitl [HsT]; · iexact HsT
      isplitl [Hc0]; · iexact Hc0
      iexact HO
    isplitl [Hx]; · iexact Hx
    isplitl [HA]; · iexact HA
    isplitl [H4]; · iexact H4
    iexact H5
  · ipureintro; exact (waits_insert _ (waits_insert _ (waits_insert _ (fun p hp => .inl hp))))

end Cert.Kernel.Tile
end
-- ==== Proof.Kernel.TileP4.lean ====
/-
  Statements 181–240: chunks 8, 9, 10 and 11 summed (groups 64 … 95: the accumulator from `Spec.tileAcc … 64` to `… 96`)
  while chunks 10 and 11 are fetched; chunk 12's copy into the first buffer is left in flight.
-/
import proofs.«213812_g11871289606185_cont_fleet_226_25_alg».proof.Proof.Kernel.Iface
import proofs.«213812_g11871289606185_cont_fleet_226_25_alg».proof.Proof.Kernel.SkeletonP
import proofs.«213812_g11871289606185_cont_fleet_226_25_alg».proof.Proof.Kernel.TileBase
import proofs.«213812_g11871289606185_cont_fleet_226_25_alg».proof.Proof.Kernel.TileVal
import proofs.«213812_g11871289606185_cont_fleet_226_25_alg».proof.Proof.Kernel.TileSeg

noncomputable section

namespace Cert.Kernel.Tile

open Cert.Kernel Cert.Kernel.Gen Cert.Kernel.GenP Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- Statements 181–240: chunks 8 to 11 summed while chunks 10, 11 and 12 are fetched. -/
theorem part4 (hT : TgtOK m) (qx qt : PosShare TreeShare) (O : CellTallies nD τ sig (HIx 1)) (W : Waits sig (HIx 1)) (v2 : BitVec 32) :
    iprop(Core m d L qt O W ∗ xRest (F := F) m d L qx 1152#32 (k0_off2_inb L 9)
        ∗ ((sA).view.loc (thr d L) ↦{fullShare} xRd m d L 1024#32 (k0_off2_inb L 8)) ∗ semVal (thr d L, SemLoc.dma cc0_scratch4.sem) 0 ∗ flightB m d L qx 1152#32 (k0_off2_inb L 9))
      ⊢ (wp frame (wpE (defs₀ (F := F)) 𝒱₀ (thr d L) none) Set.univ
          (k0_part4 (F := F) L xV (Memref.isWhole_whole _) tV (Memref.isWhole_whole _) oV (Memref.isWhole_whole _)
            sT (Memref.isWhole_whole _) sA (Memref.isWhole_whole _) sB (Memref.isWhole_whole _) sO (Memref.isWhole_whole _)
            cc0_scratch4 cc0_scratch5 cc0_scoped0 cc0_scoped1 v2 (iota .scVector S16 32 [0] iota_S16_d0_w32_scVector) (accAt m d L 64) 0#32)
          fun r => iprop(⌜r = accAt m d L 96⌝
            ∗ ∃ W', ⌜∀ p ∈ W', p ∈ W ∨ p.2 = none⌝ ∗ Core m d L qt O W' ∗ xRest (F := F) m d L qx 1536#32 (k0_off2_inb L 12) ∗ flightA m d L qx 1536#32 (k0_off2_inb L 12)
              ∗ ((sB).view.loc (thr d L) ↦{fullShare} xRd m d L 1408#32 (k0_off2_inb L 11)) ∗ semVal (thr d L, SemLoc.dma cc0_scratch5.sem) 0) : sProp 𝕄) := by
  try unfold Core
  try unfold xRest
  try unfold flightA
  try unfold flightB
  iintro ⟨⟨#Hmw, Ht, HsT, Hc0, HO⟩, Hx, HA, H4, H5⟩
  sl_unfold [k0_part4]
  sl_exec
  sl_for (invA m d L 1024#32 (k0_off2_inb L 8) 64) $$ [HsT HA]
  case region =>
    intro k acc
    exact tripA m d L hT 8 k0_t9_abs.2.1 k0_off11 k0_off11_inb (k0_pay18 (iota .scVector S16 32 [0] iota_S16_d0_w32_scVector) 0#32) k0_chk9 k0_chk9.dec k0_idx9_inb k0_pay19 k0_off11_eq (by decide +kernel) (fun _ _ h => h) (fun _ _ => rfl) k acc
  · unfold invA
    isplitr; · ipureintro; rfl
    isplitl [HsT]; · iexact HsT
    iexact HA
  iintro %acc9 HI
  unfold invA
  icases HI with ⟨%hacc9, HsT, HA⟩
  have h8_9 : Scf.trips k0_t9_loop.lb k0_t9_loop.ub k0_t9_loop.st = 8 := by decide
  rw [h8_9] at hacc9
  sl_exec
  irename H5_dst => HB
  sl_for (invB m d L 1152#32 (k0_off2_inb L 9) 72) $$ [HsT HB]
  case region =>
    intro k acc
    exact tripB m d L hT 9 k0_t10_abs.2.1 k0_off12 k0_off12_inb (k0_pay20 (iota .scVector S16 32 [0] iota_S16_d0_w32_scVector)) k0_chk10 k0_chk10.dec k0_idx10_inb k0_pay21 k0_off12_eq (by decide +kernel) (fun _ _ h => h) (fun _ _ => rfl) k acc
  · unfold invB
    isplitr; · ipureintro; exact hacc9
    isplitl [HsT]; · iexact HsT
    iexact HB
  iintro %acc10 HI
  unfold invB
  icases HI with ⟨%hacc10, HsT, HB⟩
  have h8_10 : Scf.trips k0_t10_loop.lb k0_t10_loop.ub k0_t10_loop.st = 8 := by decide
  rw [h8_10] at hacc10
  sl_exec
  ihave HA := (Entails.of_eq (heldA_write (F := F) d L _ _)) $$ HA
  sl_for (invA m d L 1280#32 (k0_off2_inb L 10) 80) $$ [HsT HA]
  case region =>
    intro k acc
    exact tripA m d L hT 10 k0_t11_abs.2.1 k0_off13 k0_off13_inb (k0_pay22 (iota .scVector S16 32 [0] iota_S16_d0_w32_scVector)) k0_chk11 k0_chk11.dec k0_idx11_inb k0_pay23 k0_off13_eq (by decide +kernel) (fun _ _ h => h) (fun _ _ => rfl) k acc
  · unfold invA
    isplitr; · ipureintro; exact hacc10
    isplitl [HsT]; · iexact HsT
    iexact HA
  iintro %acc11 HI
  unfold invA
  icases HI with ⟨%hacc11, HsT, HA⟩
  have h8_11 : Scf.trips k0_t11_loop.lb k0_t11_loop.ub k0_t11_loop.st = 8 := by decide
  rw [h8_11] at hacc11
  sl_exec
  ihave HB := (Entails.of_eq (heldB_write (F := F) d L _ _)) $$ HB
  sl_for (invB m d L 1408#32 (k0_off2_inb L 11) 88) $$ [HsT HB]
  case region =>
    intro k acc
    exact tripB m d L hT 11 k0_t12_abs.2.1 k0_off14 k0_off14_inb (k0_pay24 (iota .scVector S16 32 [0] iota_S16_d0_w32_scVector)) k0_chk12 k0_chk12.dec k0_idx12_inb k0_pay25 k0_off14_eq (by decide +kernel) (fun _ _ h => h) (fun _ _ => rfl) k acc
  · unfold invB
    isplitr; · ipureintro; exact hacc11
    isplitl [HsT]; · iexact HsT
    iexact HB
  iintro %acc12 HI
  unfold invB
  icases HI with ⟨%hacc12, HsT, HB⟩
  have h8_12 : Scf.trips k0_t12_loop.lb k0_t12_loop.ub k0_t12_loop.st = 8 := by decide
  rw [h8_12] at hacc12
  sl_exec
  sl_step
  ihave H4 := (flightA_norm (F := F) d L _ _ _ _ _ _) $$ H4
  isplitr; · ipureintro; exact hacc12
  iexists _; isplitr
  swap
  · isplitl [Ht HsT Hc0 HO]
    · isplitr; · iexact Hmw
      isplitl [Ht]; · iexact Ht
      isplitl [HsT]; · iexact HsT
      isplitl [Hc0]; · iexact Hc0
      iexact HO
    isplitl [Hx]; · iexact Hx
    isplitl [H4]; · iexact H4
    isplitl [HB]; · iexact HB
    iexact H5
  · ipureintro; exact (waits_insert _ (waits_insert _ (waits_insert _ (fun p hp => .inl hp))))

end Cert.Kernel.Tile
end
-- ==== Proof.Kernel.TileP5.lean ====
/-
  Statements 241–300: chunks 12, 13 and 14 summed (groups 96 … 119: the accumulator from `Spec.tileAcc … 96` to `… 120`)
  while chunks 13, 14 and 15 are fetched; at the end no copy is in flight, the buffers hold chunks 14 and 15.
-/
import proofs.«213812_g11871289606185_cont_fleet_226_25_alg».proof.Proof.Kernel.Iface
import proofs.«213812_g11871289606185_cont_fleet_226_25_alg».proof.Proof.Kernel.SkeletonP
import proofs.«213812_g11871289606185_cont_fleet_226_25_alg».proof.Proof.Kernel.TileBase
import proofs.«213812_g11871289606185_cont_fleet_226_25_alg».proof.Proof.Kernel.TileVal
import proofs.«213812_g11871289606185_cont_fleet_226_25_alg».proof.Proof.Kernel.TileSeg

noncomputable section

namespace Cert.Kernel.Tile

open Cert.Kernel Cert.Kernel.Gen Cert.Kernel.GenP Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- Statements 241–300: chunks 12, 13 and 14 summed while chunks 13, 14 and 15 are fetched. -/
theorem part5 (hT : TgtOK m) (qx qt : PosShare TreeShare) (O : CellTallies nD τ sig (HIx 1)) (W : Waits sig (HIx 1)) (v2 : BitVec 32) :
    iprop(Core m d L qt O W ∗ xRest (F := F) m d L qx 1536#32 (k0_off2_inb L 12) ∗ flightA m d L qx 1536#32 (k0_off2_inb L 12)
        ∗ ((sB).view.loc (thr d L) ↦{fullShare} xRd m d L 1408#32 (k0_off2_inb L 11)) ∗ semVal (thr d L, SemLoc.dma cc0_scratch5.sem) 0)
      ⊢ (wp frame (wpE (defs₀ (F := F)) 𝒱₀ (thr d L) none) Set.univ
          (k0_part5 (F := F) L xV (Memref.isWhole_whole _) tV (Memref.isWhole_whole _) oV (Memref.isWhole_whole _)
            sT (Memref.isWhole_whole _) sA (Memref.isWhole_whole _) sB (Memref.isWhole_whole _) sO (Memref.isWhole_whole _)
            cc0_scratch4 cc0_scratch5 cc0_scoped0 cc0_scoped1 v2 (iota .scVector S16 32 [0] iota_S16_d0_w32_scVector) (accAt m d L 96))
          fun r => iprop(⌜r = accAt m d L 120⌝
            ∗ ∃ W', ⌜∀ p ∈ W', p ∈ W ∨ p.2 = none⌝ ∗ Core m d L qt O W' ∗ ((xV).view.loc (thr d L) ↦{qx} m (xLoc d))
              ∗ ((sA).view.loc (thr d L) ↦{fullShare} xRd m d L 1792#32 (k0_off2_inb L 14))
              ∗ ((sB).view.loc (thr d L) ↦{fullShare} xRd m d L 1920#32 (k0_off2_inb L 15))
              ∗ semVal (thr d L, SemLoc.dma cc0_scratch4.sem) 0 ∗ semVal (thr d L, SemLoc.dma cc0_scratch5.sem) 0) : sProp 𝕄) := by
  try unfold Core
  try unfold xRest
  try unfold flightA
  try unfold flightB
  iintro ⟨⟨#Hmw, Ht, HsT, Hc0, HO⟩, Hx, H4, HB, H5⟩
  sl_unfold [k0_part5]
  sl_exec
  irename H4_dst => HA
  sl_for (invA m d L 1536#32 (k0_off2_inb L 12) 96) $$ [HsT HA]
  case region =>
    intro k acc
    exact tripA m d L hT 12 k0_t13_abs.2.1 k0_off15 k0_off15_inb (k0_pay26 (iota .scVector S16 32 [0] iota_S16_d0_w32_scVector)) k0_chk13 k0_chk13.dec k0_idx13_inb k0_pay27 k0_off15_eq (by decide +kernel) (fun _ _ h => h) (fun _ _ => rfl) k acc
  · unfold invA
    isplitr; · ipureintro; rfl
    isplitl [HsT]; · iexact HsT
    iexact HA
  iintro %acc13 HI
  unfold invA
  icases HI with ⟨%hacc13, HsT, HA⟩
  have h8_13 : Scf.trips k0_t13_loop.lb k0_t13_loop.ub k0_t13_loop.st = 8 := by decide
  rw [h8_13] at hacc13
  sl_exec
  ihave HB := (Entails.of_eq (heldB_write (F := F) d L _ _)) $$ HB
  sl_for (invB m d L 1664#32 (k0_off2_inb L 13) 104) $$ [HsT HB]
  case region =>
    intro k acc
    exact tripB m d L hT 13 k0_t14_abs.2.1 k0_off16 k0_off16_inb (k0_pay28 (iota .scVector S16 32 [0] iota_S16_d0_w32_scVector)) k0_chk14 k0_chk14.dec k0_idx14_inb k0_pay29 k0_off16_eq (by decide +kernel) (fun _ _ h => h) (fun _ _ => rfl) k acc
  · unfold invB
    isplitr; · ipureintro; exact hacc13
    isplitl [HsT]; · iexact HsT
    iexact HB
  iintro %acc14 HI
  unfold invB
  icases HI with ⟨%hacc14, HsT, HB⟩
  have h8_14 : Scf.trips k0_t14_loop.lb k0_t14_loop.ub k0_t14_loop.st = 8 := by decide
  rw [h8_14] at hacc14
  sl_exec
  ihave HA := (Entails.of_eq (heldA_write (F := F) d L _ _)) $$ HA
  sl_for (invA m d L 1792#32 (k0_off2_inb L 14) 112) $$ [HsT HA]
  case region =>
    intro k acc
    exact tripA m d L hT 14 k0_t15_abs.2.1 k0_off17 k0_off17_inb (k0_pay30 (iota .scVector S16 32 [0] iota_S16_d0_w32_scVector)) k0_chk15 k0_chk15.dec k0_idx15_inb k0_pay31 k0_off17_eq (by decide +kernel) (fun _ _ h => h) (fun _ _ => rfl) k acc
  · unfold invA
    isplitr; · ipureintro; exact hacc14
    isplitl [HsT]; · iexact HsT
    iexact HA
  iintro %acc15 HI
  unfold invA
  icases HI with ⟨%hacc15, HsT, HA⟩
  have h8_15 : Scf.trips k0_t15_loop.lb k0_t15_loop.ub k0_t15_loop.st = 8 := by decide
  rw [h8_15] at hacc15
  sl_exec
  ihave HB := (Entails.of_eq (heldB_write (F := F) d L _ _)) $$ HB
  sl_step
  isplitr; · ipureintro; exact hacc15
  iexists _; isplitr
  swap
  · isplitl [Ht HsT Hc0 HO]
    · isplitr; · iexact Hmw
      isplitl [Ht]; · iexact Ht
      isplitl [HsT]; · iexact HsT
      isplitl [Hc0]; · iexact Hc0
      iexact HO
    isplitl [Hx]; · iexact Hx
    isplitl [HA]; · iexact HA
    isplitl [HB]; · iexact HB
    isplitl [H4]; · iexact H4
    iexact H5
  · ipureintro; exact (waits_insert _ (waits_insert _ (waits_insert _ (waits_insert _ (fun p hp => .inl hp)))))

end Cert.Kernel.Tile
end
-- ==== Proof.Kernel.TileP6.lean ====
/-
  Statements 301–360: chunks 15, 16 and 17 summed (groups 120 … 143: the accumulator from `Spec.tileAcc … 120` to `… 144`)
  while chunks 16, 17 and 18 are fetched; chunk 19's copy into the second buffer is left in flight.
-/
import proofs.«213812_g11871289606185_cont_fleet_226_25_alg».proof.Proof.Kernel.Iface
import proofs.«213812_g11871289606185_cont_fleet_226_25_alg».proof.Proof.Kernel.SkeletonP
import proofs.«213812_g11871289606185_cont_fleet_226_25_alg».proof.Proof.Kernel.TileBase
import proofs.«213812_g11871289606185_cont_fleet_226_25_alg».proof.Proof.Kernel.TileVal
import proofs.«213812_g11871289606185_cont_fleet_226_25_alg».proof.Proof.Kernel.TileSeg

noncomputable section

namespace Cert.Kernel.Tile

open Cert.Kernel Cert.Kernel.Gen Cert.Kernel.GenP Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- Statements 301–360: chunks 15, 16 and 17 summed while chunks 16 to 19 are fetched. -/
theorem part6 (hT : TgtOK m) (qx qt : PosShare TreeShare) (O : CellTallies nD τ sig (HIx 1)) (W : Waits sig (HIx 1)) (v2 : BitVec 32) :
    iprop(Core m d L qt O W ∗ ((xV).view.loc (thr d L) ↦{qx} m (xLoc d))
        ∗ ((sA).view.loc (thr d L) ↦{fullShare} xRd m d L 1792#32 (k0_off2_inb L 14))
        ∗ ((sB).view.loc (thr d L) ↦{fullShare} xRd m d L 1920#32 (k0_off2_inb L 15))
        ∗ semVal (thr d L, SemLoc.dma cc0_scratch4.sem) 0 ∗ semVal (thr d L, SemLoc.dma cc0_scratch5.sem) 0)
      ⊢ (wp frame (wpE (defs₀ (F := F)) 𝒱₀ (thr d L) none) Set.univ
          (k0_part6 (F := F) L xV (Memref.isWhole_whole _) tV (Memref.isWhole_whole _) oV (Memref.isWhole_whole _)
            sT (Memref.isWhole_whole _) sA (Memref.isWhole_whole _) sB (Memref.isWhole_whole _) sO (Memref.isWhole_whole _)
            cc0_scratch4 cc0_scratch5 cc0_scoped0 cc0_scoped1 v2 (iota .scVector S16 32 [0] iota_S16_d0_w32_scVector) (accAt m d L 120))
          fun r => iprop(⌜r.1 = accAt m d L 144 ∧ r.2 = 0#32⌝
            ∗ ∃ W', ⌜∀ p ∈ W', p ∈ W ∨ p.2 = none⌝ ∗ Core m d L qt O W' ∗ xRest (F := F) m d L qx 2432#32 (k0_off2_inb L 19)
              ∗ ((sA).view.loc (thr d L) ↦{fullShare} xRd m d L 2304#32 (k0_off2_inb L 18)) ∗ semVal (thr d L, SemLoc.dma cc0_scratch4.sem) 0 ∗ flightB m d L qx 2432#32 (k0_off2_inb L 19)) : sProp 𝕄) := by
  try unfold Core
  try unfold xRest
  try unfold flightA
  try unfold flightB
  iintro ⟨⟨#Hmw, Ht, HsT, Hc0, HO⟩, Hx, HA, HB, H4, H5⟩
  sl_unfold [k0_part6]
  sl_exec
  sl_for (invB m d L 1920#32 (k0_off2_inb L 15) 120) $$ [HsT HB]
  case region =>
    intro k acc
    exact tripB m d L hT 15 k0_t16_abs.2.1 k0_off18 k0_off18_inb (k0_pay32 (iota .scVector S16 32 [0] iota_S16_d0_w32_scVector)) k0_chk16 k0_chk16.dec k0_idx16_inb k0_pay33 k0_off18_eq (by decide +kernel) (fun _ _ h => h) (fun _ _ => rfl) k acc
  · unfold invB
    isplitr; · ipureintro; rfl
    isplitl [HsT]; · iexact HsT
    iexact HB
  iintro %acc16 HI
  unfold invB
  icases HI with ⟨%hacc16, HsT, HB⟩
  have h8_16 : Scf.trips k0_t16_loop.lb k0_t16_loop.ub k0_t16_loop.st = 8 := by decide
  rw [h8_16] at hacc16
  sl_exec
  ihave HA := (Entails.of_eq (heldA_write (F := F) d L _ _)) $$ HA
  sl_for (invA m d L 2048#32 (k0_off2_inb L 16) 128) $$ [HsT HA]
  case region =>
    intro k acc
    exact tripA m d L hT 16 k0_t17_abs.2.1 k0_off19 k0_off19_inb (k0_pay34 (iota .scVector S16 32 [0] iota_S16_d0_w32_scVector)) k0_chk17 k0_chk17.dec k0_idx17_inb k0_pay35 k0_off19_eq (by decide +kernel) (fun _ _ h => h) (fun _ _ => rfl) k acc
  · unfold invA
    isplitr; · ipureintro; exact hacc16
    isplitl [HsT]; · iexact HsT
    iexact HA
  iintro %acc17 HI
  unfold invA
  icases HI with ⟨%hacc17, HsT, HA⟩
  have h8_17 : Scf.trips k0_t17_loop.lb k0_t17_loop.ub k0_t17_loop.st = 8 := by decide
  rw [h8_17] at hacc17
  sl_exec
  ihave HB := (Entails.of_eq (heldB_write (F := F) d L _ _)) $$ HB
  sl_for (invB m d L 2176#32 (k0_off2_inb L 17) 136) $$ [HsT HB]
  case region =>
    intro k acc
    exact tripB m d L hT 17 k0_t18_abs.2.1 k0_off20 k0_off20_inb (k0_pay36 (iota .scVector S16 32 [0] iota_S16_d0_w32_scVector)) k0_chk18 k0_chk18.dec k0_idx18_inb k0_pay37 k0_off20_eq (by decide +kernel) (fun _ _ h => h) (fun _ _ => rfl) k acc
  · unfold invB
    isplitr; · ipureintro; exact hacc17
    isplitl [HsT]; · iexact HsT
    iexact HB
  iintro %acc18 HI
  unfold invB
  icases HI with ⟨%hacc18, HsT, HB⟩
  have h8_18 : Scf.trips k0_t18_loop.lb k0_t18_loop.ub k0_t18_loop.st = 8 := by decide
  rw [h8_18] at hacc18
  sl_exec
  ihave HA := (Entails.of_eq (heldA_write (F := F) d L _ _)) $$ HA
  sl_step
  ihave H5 := (flightB_norm (F := F) d L _ _ _ _ _ _) $$ H5
  isplitr; · ipureintro; exact ⟨hacc18, rfl⟩
  iexists _; isplitr
  swap
  · isplitl [Ht HsT Hc0 HO]
    · isplitr; · iexact Hmw
      isplitl [Ht]; · iexact Ht
      isplitl [HsT]; · iexact HsT
      isplitl [Hc0]; · iexact Hc0
      iexact HO
    isplitl [Hx]; · iexact Hx
    isplitl [HA]; · iexact HA
    isplitl [H4]; · iexact H4
    iexact H5
  · ipureintro; exact (waits_insert _ (waits_insert _ (waits_insert _ (fun p hp => .inl hp))))

end Cert.Kernel.Tile
end
-- ==== Proof.Kernel.TileP7.lean ====
/-
  Statements 361–420: chunks 18, 19, 20 and 21 summed (groups 144 … 175: the accumulator from `Spec.tileAcc … 144` to
  `… 176`) while chunks 20 and 21 are fetched; chunk 22's copy into the first buffer is left in flight.
-/
import proofs.«213812_g11871289606185_cont_fleet_226_25_alg».proof.Proof.Kernel.Iface
import proofs.«213812_g11871289606185_cont_fleet_226_25_alg».proof.Proof.Kernel.SkeletonP
import proofs.«213812_g11871289606185_cont_fleet_226_25_alg».proof.Proof.Kernel.TileBase
import proofs.«213812_g11871289606185_cont_fleet_226_25_alg».proof.Proof.Kernel.TileVal
import proofs.«213812_g11871289606185_cont_fleet_226_25_alg».proof.Proof.Kernel.TileSeg

noncomputable section

namespace Cert.Kernel.Tile

open Cert.Kernel Cert.Kernel.Gen Cert.Kernel.GenP Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- Statements 361–420: chunks 18, 19, 20 and 21 summed, each next chunk's copy waited for and the one after it started
    in between; chunk 22's copy is in flight at the end. -/
theorem part7 (hT : TgtOK m) (qx qt : PosShare TreeShare) (O : CellTallies nD τ sig (HIx 1)) (W : Waits sig (HIx 1)) (v2 : BitVec 32) :
    iprop(Core m d L qt O W ∗ xRest (F := F) m d L qx 2432#32 (k0_off2_inb L 19)
        ∗ ((sA).view.loc (thr d L) ↦{fullShare} xRd m d L 2304#32 (k0_off2_inb L 18))
        ∗ semVal (thr d L, SemLoc.dma cc0_scratch4.sem) 0 ∗ flightB m d L qx 2432#32 (k0_off2_inb L 19))
      ⊢ (wp frame (wpE (defs₀ (F := F)) 𝒱₀ (thr d L) none) Set.univ
          (k0_part7 (F := F) L xV (Memref.isWhole_whole _) tV (Memref.isWhole_whole _) oV (Memref.isWhole_whole _)
            sT (Memref.isWhole_whole _) sA (Memref.isWhole_whole _) sB (Memref.isWhole_whole _) sO (Memref.isWhole_whole _)
            cc0_scratch4 cc0_scratch5 cc0_scoped0 cc0_scoped1 v2 (iota .scVector S16 32 [0] iota_S16_d0_w32_scVector) (accAt m d L 144) 0#32)
          fun r => iprop(⌜r = accAt m d L 176⌝
            ∗ ∃ W', ⌜∀ p ∈ W', p ∈ W ∨ p.2 = none⌝ ∗ Core m d L qt O W' ∗ xRest (F := F) m d L qx 2816#32 (k0_off2_inb L 22)
              ∗ flightA m d L qx 2816#32 (k0_off2_inb L 22)
              ∗ ((sB).view.loc (thr d L) ↦{fullShare} xRd m d L 2688#32 (k0_off2_inb L 21))
              ∗ semVal (thr d L, SemLoc.dma cc0_scratch5.sem) 0) : sProp 𝕄) := by
  unfold Core xRest flightB
  iintro ⟨⟨#Hmw, Ht, HsT, Hc0, HO⟩, Hx, HsA, Hs4, Hs5⟩
  sl_unfold [k0_part7]
  sl_exec
  sl_for (invA m d L 2304#32 (k0_off2_inb L 18) 144) $$ [HsT HsA]
  case region =>
    intro k acc
    exact tripA m d L hT 18 k0_t19_abs.2.1 k0_off21 k0_off21_inb (k0_pay38 (iota .scVector S16 32 [0] iota_S16_d0_w32_scVector) 0#32) k0_chk19 k0_chk19.dec k0_idx19_inb k0_pay39 k0_off21_eq (by decide +kernel) (fun _ _ h => h) (fun _ _ => rfl) k acc
  · unfold invA
    isplitr; · ipureintro; rfl
    isplitl [HsT]; · iexact HsT
    iexact HsA
  iintro %acc1 HI
  unfold invA
  icases HI with ⟨%hacc1, HsT, HsA⟩
  have h19 : Scf.trips k0_t19_loop.lb k0_t19_loop.ub k0_t19_loop.st = 8 := by decide
  rw [h19] at hacc1
  sl_exec
  sl_for (invB m d L 2432#32 (k0_off2_inb L 19) 152) $$ [HsT Hs5_dst]
  case region =>
    intro k acc
    exact tripB m d L hT 19 k0_t20_abs.2.1 k0_off22 k0_off22_inb (k0_pay40 (iota .scVector S16 32 [0] iota_S16_d0_w32_scVector)) k0_chk20 k0_chk20.dec k0_idx20_inb k0_pay41 k0_off22_eq (by decide +kernel) (fun _ _ h => h) (fun _ _ => rfl) k acc
  · unfold invB
    isplitr; · ipureintro; exact hacc1
    isplitl [HsT]; · iexact HsT
    iexact Hs5_dst
  iintro %acc2 HI
  unfold invB
  icases HI with ⟨%hacc2, HsT, HsB⟩
  have h20 : Scf.trips k0_t20_loop.lb k0_t20_loop.ub k0_t20_loop.st = 8 := by decide
  rw [h20] at hacc2
  sl_exec
  ihave HsA := (Entails.of_eq (heldA_write (F := F) d L _ _)) $$ HsA
  sl_for (invA m d L 2560#32 (k0_off2_inb L 20) 160) $$ [HsT HsA]
  case region =>
    intro k acc
    exact tripA m d L hT 20 k0_t21_abs.2.1 k0_off23 k0_off23_inb (k0_pay42 (iota .scVector S16 32 [0] iota_S16_d0_w32_scVector)) k0_chk21 k0_chk21.dec k0_idx21_inb k0_pay43 k0_off23_eq (by decide +kernel) (fun _ _ h => h) (fun _ _ => rfl) k acc
  · unfold invA
    isplitr; · ipureintro; exact hacc2
    isplitl [HsT]; · iexact HsT
    iexact HsA
  iintro %acc3 HI
  unfold invA
  icases HI with ⟨%hacc3, HsT, HsA⟩
  have h21 : Scf.trips k0_t21_loop.lb k0_t21_loop.ub k0_t21_loop.st = 8 := by decide
  rw [h21] at hacc3
  sl_exec
  ihave HsB := (Entails.of_eq (heldB_write (F := F) d L _ _)) $$ HsB
  sl_for (invB m d L 2688#32 (k0_off2_inb L 21) 168) $$ [HsT HsB]
  case region =>
    intro k acc
    exact tripB m d L hT 21 k0_t22_abs.2.1 k0_off24 k0_off24_inb (k0_pay44 (iota .scVector S16 32 [0] iota_S16_d0_w32_scVector)) k0_chk22 k0_chk22.dec k0_idx22_inb k0_pay45 k0_off24_eq (by decide +kernel) (fun _ _ h => h) (fun _ _ => rfl) k acc
  · unfold invB
    isplitr; · ipureintro; exact hacc3
    isplitl [HsT]; · iexact HsT
    iexact HsB
  iintro %acc4 HI
  unfold invB
  icases HI with ⟨%hacc4, HsT, HsB⟩
  have h22 : Scf.trips k0_t22_loop.lb k0_t22_loop.ub k0_t22_loop.st = 8 := by decide
  rw [h22] at hacc4
  sl_exec
  sl_step
  ihave Hs4 := (flightA_norm (F := F) d L _ _ _ _ _ _) $$ Hs4
  isplitr; · ipureintro; exact hacc4
  iexists _; isplitr
  swap
  · unfold flightA
    isplitl [Ht HsT Hc0 HO]
    · isplitr; · iexact Hmw
      isplitl [Ht]; · iexact Ht
      isplitl [HsT]; · iexact HsT
      isplitl [Hc0]; · iexact Hc0
      iexact HO
    isplitl [Hx]; · iexact Hx
    isplitl [Hs4]; · iexact Hs4
    isplitl [HsB]; · iexact HsB
    iexact Hs5
  · ipureintro; exact waits_insert _ (waits_insert _ (waits_insert _ (fun p hp => .inl hp)))

end Cert.Kernel.Tile
end
-- ==== Proof.Kernel.TileP8.lean ====
/-
  Statements 421–480: chunks 22, 23 and 24 summed (groups 176 … 199: the accumulator from `Spec.tileAcc … 176` to `… 200`)
  while chunks 23, 24 and 25 are fetched; at the end no copy is in flight, the buffers hold chunks 24 and 25.
-/
import proofs.«213812_g11871289606185_cont_fleet_226_25_alg».proof.Proof.Kernel.Iface
import proofs.«213812_g11871289606185_cont_fleet_226_25_alg».proof.Proof.Kernel.SkeletonP
import proofs.«213812_g11871289606185_cont_fleet_226_25_alg».proof.Proof.Kernel.TileBase
import proofs.«213812_g11871289606185_cont_fleet_226_25_alg».proof.Proof.Kernel.TileVal
import proofs.«213812_g11871289606185_cont_fleet_226_25_alg».proof.Proof.Kernel.TileSeg

noncomputable section

namespace Cert.Kernel.Tile

open Cert.Kernel Cert.Kernel.Gen Cert.Kernel.GenP Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- Statements 421–480: chunks 22, 23 and 24 summed while chunks 23, 24 and 25 are fetched. -/
theorem part8 (hT : TgtOK m) (qx qt : PosShare TreeShare) (O : CellTallies nD τ sig (HIx 1)) (W : Waits sig (HIx 1)) (v2 : BitVec 32) :
    iprop(Core m d L qt O W ∗ xRest (F := F) m d L qx 2816#32 (k0_off2_inb L 22) ∗ flightA m d L qx 2816#32 (k0_off2_inb L 22)
        ∗ ((sB).view.loc (thr d L) ↦{fullShare} xRd m d L 2688#32 (k0_off2_inb L 21)) ∗ semVal (thr d L, SemLoc.dma cc0_scratch5.sem) 0)
      ⊢ (wp frame (wpE (defs₀ (F := F)) 𝒱₀ (thr d L) none) Set.univ
          (k0_part8 (F := F) L xV (Memref.isWhole_whole _) tV (Memref.isWhole_whole _) oV (Memref.isWhole_whole _)
            sT (Memref.isWhole_whole _) sA (Memref.isWhole_whole _) sB (Memref.isWhole_whole _) sO (Memref.isWhole_whole _)
            cc0_scratch4 cc0_scratch5 cc0_scoped0 cc0_scoped1 v2 (iota .scVector S16 32 [0] iota_S16_d0_w32_scVector) (accAt m d L 176))
          fun r => iprop(⌜r = accAt m d L 200⌝
            ∗ ∃ W', ⌜∀ p ∈ W', p ∈ W ∨ p.2 = none⌝ ∗ Core m d L qt O W' ∗ ((xV).view.loc (thr d L) ↦{qx} m (xLoc d))
              ∗ ((sA).view.loc (thr d L) ↦{fullShare} xRd m d L 3072#32 (k0_off2_inb L 24))
              ∗ ((sB).view.loc (thr d L) ↦{fullShare} xRd m d L 3200#32 (k0_off2_inb L 25))
              ∗ semVal (thr d L, SemLoc.dma cc0_scratch4.sem) 0 ∗ semVal (thr d L, SemLoc.dma cc0_scratch5.sem) 0) : sProp 𝕄) := by
  try unfold Core
  try unfold xRest
  try unfold flightA
  try unfold flightB
  iintro ⟨⟨#Hmw, Ht, HsT, Hc0, HO⟩, Hx, H4, HB, H5⟩
  sl_unfold [k0_part8]
  sl_exec
  irename H4_dst => HA
  sl_for (invA m d L 2816#32 (k0_off2_inb L 22) 176) $$ [HsT HA]
  case region =>
    intro k acc
    exact tripA m d L hT 22 k0_t23_abs.2.1 k0_off25 k0_off25_inb (k0_pay46 (iota .scVector S16 32 [0] iota_S16_d0_w32_scVector)) k0_chk23 k0_chk23.dec k0_idx23_inb k0_pay47 k0_off25_eq (by decide +kernel) (fun _ _ h => h) (fun _ _ => rfl) k acc
  · unfold invA
    isplitr; · ipureintro; rfl
    isplitl [HsT]; · iexact HsT
    iexact HA
  iintro %acc23 HI
  unfold invA
  icases HI with ⟨%hacc23, HsT, HA⟩
  have h8_23 : Scf.trips k0_t23_loop.lb k0_t23_loop.ub k0_t23_loop.st = 8 := by decide
  rw [h8_23] at hacc23
  sl_exec
  ihave HB := (Entails.of_eq (heldB_write (F := F) d L _ _)) $$ HB
  sl_for (invB m d L 2944#32 (k0_off2_inb L 23) 184) $$ [HsT HB]
  case region =>
    intro k acc
    exact tripB m d L hT 23 k0_t24_abs.2.1 k0_off26 k0_off26_inb (k0_pay48 (iota .scVector S16 32 [0] iota_S16_d0_w32_scVector)) k0_chk24 k0_chk24.dec k0_idx24_inb k0_pay49 k0_off26_eq (by decide +kernel) (fun _ _ h => h) (fun _ _ => rfl) k acc
  · unfold invB
    isplitr; · ipureintro; exact hacc23
    isplitl [HsT]; · iexact HsT
    iexact HB
  iintro %acc24 HI
  unfold invB
  icases HI with ⟨%hacc24, HsT, HB⟩
  have h8_24 : Scf.trips k0_t24_loop.lb k0_t24_loop.ub k0_t24_loop.st = 8 := by decide
  rw [h8_24] at hacc24
  sl_exec
  ihave HA := (Entails.of_eq (heldA_write (F := F) d L _ _)) $$ HA
  sl_for (invA m d L 3072#32 (k0_off2_inb L 24) 192) $$ [HsT HA]
  case region =>
    intro k acc
    exact tripA m d L hT 24 k0_t25_abs.2.1 k0_off27 k0_off27_inb (k0_pay50 (iota .scVector S16 32 [0] iota_S16_d0_w32_scVector)) k0_chk25 k0_chk25.dec k0_idx25_inb k0_pay51 k0_off27_eq (by decide +kernel) (fun _ _ h => h) (fun _ _ => rfl) k acc
  · unfold invA
    isplitr; · ipureintro; exact hacc24
    isplitl [HsT]; · iexact HsT
    iexact HA
  iintro %acc25 HI
  unfold invA
  icases HI with ⟨%hacc25, HsT, HA⟩
  have h8_25 : Scf.trips k0_t25_loop.lb k0_t25_loop.ub k0_t25_loop.st = 8 := by decide
  rw [h8_25] at hacc25
  sl_exec
  ihave HB := (Entails.of_eq (heldB_write (F := F) d L _ _)) $$ HB
  sl_step
  isplitr; · ipureintro; exact hacc25
  iexists _; isplitr
  swap
  · isplitl [Ht HsT Hc0 HO]
    · isplitr; · iexact Hmw
      isplitl [Ht]; · iexact Ht
      isplitl [HsT]; · iexact HsT
      isplitl [Hc0]; · iexact Hc0
      iexact HO
    isplitl [Hx]; · iexact Hx
    isplitl [HA]; · iexact HA
    isplitl [HB]; · iexact HB
    isplitl [H4]; · iexact H4
    iexact H5
  · ipureintro; exact (waits_insert _ (waits_insert _ (waits_insert _ (waits_insert _ (fun p hp => .inl hp)))))

end Cert.Kernel.Tile
end
-- ==== Proof.Kernel.TileP9.lean ====
/-
  The body's statements in sequence: the eight stretches before, then chunks 25, 26 and 27 summed while chunks 26 and 27 are
  fetched (groups 200 … 223: the accumulator ends at `Spec.tileAcc … 224`, the worker's row of `Spec.partials`), the sixteen
  lane sums stored into their scratch and the copy of that scratch into the worker's row of the partial sums started.
-/
import proofs.«213812_g11871289606185_cont_fleet_226_25_alg».proof.Proof.Kernel.Iface
import proofs.«213812_g11871289606185_cont_fleet_226_25_alg».proof.Proof.Kernel.SkeletonP
import proofs.«213812_g11871289606185_cont_fleet_226_25_alg».proof.Proof.Kernel.TileBase
import proofs.«213812_g11871289606185_cont_fleet_226_25_alg».proof.Proof.Kernel.TileVal
import proofs.«213812_g11871289606185_cont_fleet_226_25_alg».proof.Proof.Kernel.TileSeg
import proofs.«213812_g11871289606185_cont_fleet_226_25_alg».proof.Proof.Kernel.TileSeq
import proofs.«213812_g11871289606185_cont_fleet_226_25_alg».proof.Proof.Kernel.TileEnds
import proofs.«213812_g11871289606185_cont_fleet_226_25_alg».proof.Proof.Kernel.TileP1
import proofs.«213812_g11871289606185_cont_fleet_226_25_alg».proof.Proof.Kernel.TileP2
import proofs.«213812_g11871289606185_cont_fleet_226_25_alg».proof.Proof.Kernel.TileP3
import proofs.«213812_g11871289606185_cont_fleet_226_25_alg».proof.Proof.Kernel.TileP4
import proofs.«213812_g11871289606185_cont_fleet_226_25_alg».proof.Proof.Kernel.TileP5
import proofs.«213812_g11871289606185_cont_fleet_226_25_alg».proof.Proof.Kernel.TileP6
import proofs.«213812_g11871289606185_cont_fleet_226_25_alg».proof.Proof.Kernel.TileP7
import proofs.«213812_g11871289606185_cont_fleet_226_25_alg».proof.Proof.Kernel.TileP8

noncomputable section

namespace Cert.Kernel.Tile

open Cert.Kernel Cert.Kernel.Gen Cert.Kernel.GenP Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

variable (d : Dev nD) (L : grid0.Coords)

/-- The body's nine parts in sequence: the eight before it, then chunks 25, 26 and 27 summed, the accumulator stored and
    its copy into the task's row of the partial sums started. -/
theorem part9 (hT : TgtOK m) (qx qt : PosShare TreeShare) (O : CellTallies nD τ sig (HIx 1)) (W : Waits sig (HIx 1))
    (fT : Buf (Elt F) ((thr d L).loc cc0_scratch0)) (fA : Buf (Elt F) ((thr d L).loc cc0_scratch1)) (fB : Buf (Elt F) ((thr d L).loc cc0_scratch2))
    (fO : Buf (Elt F) ((thr d L).loc cc0_scratch3)) (fo : Buf (Elt F) (oLoc d)) :
    iprop((Transfers.MayWaits (thr d L) (none : HIx 1) O
        ∗ ((xV).view.loc (thr d L) ↦{qx} m (xLoc d)) ∗ ((tV).view.loc (thr d L) ↦{qt} m (tLoc d))
        ∗ ((sT).view.loc (thr d L) ↦{fullShare} fT) ∗ ((sA).view.loc (thr d L) ↦{fullShare} fA) ∗ ((sB).view.loc (thr d L) ↦{fullShare} fB)
        ∗ semVal (thr d L, SemLoc.dma cc0_scratch4.sem) 0 ∗ semVal (thr d L, SemLoc.dma cc0_scratch5.sem) 0 ∗ semVal (thr d L, SemLoc.dma cc0_scoped0.sem) 0
        ∗ owes (thr d L) O W)
        ∗ (((sO).view.loc (thr d L) ↦{fullShare} fO) ∗ ((oRowM L).view.loc (thr d L) ↦[(oRowM L).view.set]{fullShare} fo)
          ∗ semVal (thr d L, SemLoc.dma cc0_scoped1.sem) 0))
      ⊢ (wp frame (wpE (defs₀ (F := F)) 𝒱₀ (thr d L) none) Set.univ
          (k0_part9 (F := F) L xV (Memref.isWhole_whole _) tV (Memref.isWhole_whole _) oV (Memref.isWhole_whole _)
            sT (Memref.isWhole_whole _) sA (Memref.isWhole_whole _) sB (Memref.isWhole_whole _) sO (Memref.isWhole_whole _)
            cc0_scratch4 cc0_scratch5 cc0_scoped0 cc0_scoped1)
          fun _ => iprop(∃ W', ⌜∀ p ∈ W', p ∈ W ∨ p.2 = none⌝ ∗ Core m d L qt O W' ∗ ((xV).view.loc (thr d L) ↦{qx} m (xLoc d))
            ∗ ((sA).view.loc (thr d L) ↦{fullShare} xRd m d L 3328#32 (k0_off2_inb L 26))
            ∗ ((sB).view.loc (thr d L) ↦{fullShare} xRd m d L 3456#32 (k0_off2_inb L 27))
            ∗ semVal (thr d L, SemLoc.dma cc0_scratch4.sem) 0 ∗ semVal (thr d L, SemLoc.dma cc0_scratch5.sem) 0
            ∗ Transfers.Flight countersEmb (thr d L) (SemLoc.dma cc0_scoped1.sem) (default : HIx 1) 512
                iprop(((oRowM L).view.loc (thr d L) ↦[(oRowM L).view.set]{fullShare}
                      (oRowM L).view.writes (Elt F) fo [⟨Rect.whole S16, ReadAs.same.apply (View.read (Elt F) (sO).view ((sO).view.writes (Elt F) fO [⟨Rect.unit (s := S16) ![0] S16.size inb_S16_S16_0, accAt m d L 224⟩]))⟩])
                  ∗ ((sO).view.loc (thr d L) ↦[(sO).view.set]{fullShare} ((sO).view.writes (Elt F) fO [⟨Rect.unit (s := S16) ![0] S16.size inb_S16_S16_0, accAt m d L 224⟩])))
            ∗ ((sO).view.loc (thr d L) ↦[Finset.univ \ (sO).view.set]{fullShare} ((sO).view.writes (Elt F) fO [⟨Rect.unit (s := S16) ![0] S16.size inb_S16_S16_0, accAt m d L 224⟩]))) : sProp 𝕄) := by
  sl_unfold [k0_part9]
  refine seqW d L W _ _ (part1 m d L hT qx qt O W fT fA fB) (fun r W1 hr hW1 => ?_)
  obtain ⟨v2, v3, v21⟩ := r
  obtain ⟨rfl, rfl⟩ := hr
  refine seqW d L W1 _ _ (part2 m d L hT qx qt O W1 v2) (fun r W2 hr hW2 => ?_)
  subst hr
  refine seqW d L W2 _ _ (part3 m d L hT qx qt O W2 v2) (fun r W3 hr hW3 => ?_)
  obtain ⟨v63, c68⟩ := r
  obtain ⟨rfl, rfl⟩ := hr
  refine seqW d L W3 _ _ (part4 m d L hT qx qt O W3 v2) (fun r W4 hr hW4 => ?_)
  subst hr
  refine seqW d L W4 _ _ (part5 m d L hT qx qt O W4 v2) (fun r W5 hr hW5 => ?_)
  subst hr
  refine seqW d L W5 _ _ (part6 m d L hT qx qt O W5 v2) (fun r W6 hr hW6 => ?_)
  obtain ⟨v133, c148⟩ := r
  obtain ⟨rfl, rfl⟩ := hr
  refine seqW d L W6 _ _ (part7 m d L hT qx qt O W6 v2) (fun r W7 hr hW7 => ?_)
  subst hr
  refine seqW d L W7 _ _ (part8 m d L hT qx qt O W7 v2) (fun r W8 hr hW8 => ?_)
  subst hr
  have hW : ∀ q ∈ W8, q ∈ W ∨ q.2 = none :=
    waits_trans (waits_trans (waits_trans (waits_trans (waits_trans (waits_trans (waits_trans hW1 hW2) hW3) hW4) hW5) hW6) hW7) hW8
  try unfold Core
  iintro ⟨⟨⟨#Hmw, Ht, HsT, Hc0, HO⟩, Hx, HA, HB, H4, H5⟩, HsO, Ho, Hc1⟩
  sl_exec
  sl_for (invB m d L 3200#32 (k0_off2_inb L 25) 200) $$ [HsT HB]
  case region =>
    intro k acc
    exact tripB m d L hT 25 k0_t26_abs.2.1 k0_off28 k0_off28_inb (k0_pay52 (iota .scVector S16 32 [0] iota_S16_d0_w32_scVector)) k0_chk26 k0_chk26.dec k0_idx26_inb k0_pay53 k0_off28_eq (by decide +kernel) (fun _ _ h => h) (fun _ _ => rfl) k acc
  · unfold invB
    isplitr; · ipureintro; rfl
    isplitl [HsT]; · iexact HsT
    iexact HB
  iintro %acc26 HI
  unfold invB
  icases HI with ⟨%hacc26, HsT, HB⟩
  have h8_26 : Scf.trips k0_t26_loop.lb k0_t26_loop.ub k0_t26_loop.st = 8 := by decide
  rw [h8_26] at hacc26
  sl_exec
  ihave HA := (Entails.of_eq (heldA_write (F := F) d L _ _)) $$ HA
  sl_for (invA m d L 3328#32 (k0_off2_inb L 26) 208) $$ [HsT HA]
  case region =>
    intro k acc
    exact tripA m d L hT 26 k0_t27_abs.2.1 k0_off29 k0_off29_inb (k0_pay54 (iota .scVector S16 32 [0] iota_S16_d0_w32_scVector)) k0_chk27 k0_chk27.dec k0_idx27_inb k0_pay55 k0_off29_eq (by decide +kernel) (fun _ _ h => h) (fun _ _ => rfl) k acc
  · unfold invA
    isplitr; · ipureintro; exact hacc26
    isplitl [HsT]; · iexact HsT
    iexact HA
  iintro %acc27 HI
  unfold invA
  icases HI with ⟨%hacc27, HsT, HA⟩
  have h8_27 : Scf.trips k0_t27_loop.lb k0_t27_loop.ub k0_t27_loop.st = 8 := by decide
  rw [h8_27] at hacc27
  sl_exec
  ihave HB := (Entails.of_eq (heldB_write (F := F) d L _ _)) $$ HB
  sl_for (invB m d L 3456#32 (k0_off2_inb L 27) 216) $$ [HsT HB]
  case region =>
    intro k acc
    exact tripB m d L hT 27 k0_t28_abs.2.1 k0_off30 k0_off30_inb (k0_pay56 (iota .scVector S16 32 [0] iota_S16_d0_w32_scVector)) k0_chk28 k0_chk28.dec k0_idx28_inb k0_pay57 k0_off30_eq (by decide +kernel) (fun _ _ h => h) (fun _ _ => rfl) k acc
  · unfold invB
    isplitr; · ipureintro; exact hacc27
    isplitl [HsT]; · iexact HsT
    iexact HB
  iintro %acc28 HI
  unfold invB
  icases HI with ⟨%hacc28, HsT, HB⟩
  have h8_28 : Scf.trips k0_t28_loop.lb k0_t28_loop.ub k0_t28_loop.st = 8 := by decide
  rw [h8_28] at hacc28
  sl_exec
  sl_step
  subst hacc28
  iexists _; isplitr
  swap
  · isplitl [Ht HsT Hc0 HO]
    · isplitr; · iexact Hmw
      isplitl [Ht]; · iexact Ht
      isplitl [HsT]; · iexact HsT
      isplitl [Hc0]; · iexact Hc0
      iexact HO
    isplitl [Hx]; · iexact Hx
    isplitl [HA]; · iexact HA
    isplitl [HB]; · iexact HB
    isplitl [H4]; · iexact H4
    isplitl [H5]; · iexact H5
    isplitl [Hc1]; · iexact Hc1
    iexact HsO
  · ipureintro; exact waits_insert _ (waits_insert _ hW)

end Cert.Kernel.Tile
end
-- ==== Proof.Kernel.Tile.lean ====
/-
  One vector subcore's task, whole: from read shares of `x` and `t`, its own row of the 32×16 array of partial sums and its
  scoped storage, the task runs to its end, hands the shares back unchanged and leaves its row at
  `Spec.partials x t`'s row `2·s + c`: the sixteen lane sums of `(1 − x[r, t r])²` over its 3584 rows.
-/
import proofs.«213812_g11871289606185_cont_fleet_226_25_alg».proof.Proof.Kernel.Iface
import proofs.«213812_g11871289606185_cont_fleet_226_25_alg».proof.Proof.Kernel.SkeletonP
import proofs.«213812_g11871289606185_cont_fleet_226_25_alg».proof.Proof.Kernel.TileBase
import proofs.«213812_g11871289606185_cont_fleet_226_25_alg».proof.Proof.Kernel.TileVal
import proofs.«213812_g11871289606185_cont_fleet_226_25_alg».proof.Proof.Kernel.TileSeg
import proofs.«213812_g11871289606185_cont_fleet_226_25_alg».proof.Proof.Kernel.TileSeq
import proofs.«213812_g11871289606185_cont_fleet_226_25_alg».proof.Proof.Kernel.TileEnds
import proofs.«213812_g11871289606185_cont_fleet_226_25_alg».proof.Proof.Kernel.TileFrame
import proofs.«213812_g11871289606185_cont_fleet_226_25_alg».proof.Proof.Kernel.TileOut
import proofs.«213812_g11871289606185_cont_fleet_226_25_alg».proof.Proof.Kernel.TileP9

noncomputable section

namespace Cert.Kernel.Tile

open Cert.Kernel Cert.Kernel.Gen Cert.Kernel.GenP Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U] [CountersIn U]

local notation "𝕄" => MT nD τ sig (HIx 1) (Elt F) ℕ U ℕ

variable (m : (ℓ : Loc nD τ sig) → Buf (Elt F) ℓ)

/-- **One vector subcore's task**: the column words fetched, the 28 chunks of 128 rows fetched in turn into two buffers and
    summed sixteen rows at a time, the sixteen lane sums copied into the task's row of the partial sums. -/
theorem tile_body : Cert.Kernel.Iface.TileBody (F := F) (U := U) m := by
  intro d L qx qt fo O W hO hT
  iintro H
  ihave H := (tile_open (F := F) (U := U) m d L qx qt fo O W hO) $$ H
  icases H with ⟨#Hmw, ⟨Hx, Ht, Ho⟩, ⟨⟨%fT, HsT⟩, ⟨%fA, HsA⟩, ⟨%fB, HsB⟩, ⟨%fO, HsO⟩, Hrb⟩, ⟨Hs4, Hs5, Hc0, Hc1, Hrs⟩, HO⟩
  ihave Ho := (Entails.of_eq (pts_oRow (F := F) (U := U) d L fo).symm) $$ Ho
  sl_unfold [tileProg]
  sl_unfold [cc0__sc_body]
  sl_unfold [cc0__sc_body_skel]
  rw [wp_bind]
  iapply (wp_wand_r frame _ _)
  isplitl [Hx Ht HsT HsA HsB Hs4 Hs5 Hc0 HO HsO Ho Hc1]
  · iapply (part9 m d L hT qx qt O W fT fA fB fO fo)
    isplitl [Hx Ht HsT HsA HsB Hs4 Hs5 Hc0 HO]
    · isplitr; · iexact Hmw
      isplitl [Hx]; · iexact Hx
      isplitl [Ht]; · iexact Ht
      isplitl [HsT]; · iexact HsT
      isplitl [HsA]; · iexact HsA
      isplitl [HsB]; · iexact HsB
      isplitl [Hs4]; · iexact Hs4
      isplitl [Hs5]; · iexact Hs5
      isplitl [Hc0]; · iexact Hc0
      iexact HO
    isplitl [HsO]; · iexact HsO
    isplitl [Ho]; · iexact Ho
    iexact Hc1
  unfold Core
  iintro %_ ⟨%W', %hW', ⟨-, Ht, HsT, Hc0, HO⟩, Hx, HA, HB, H4, H5, Hc1, HsO⟩
  sl_exec
  sl_step
  ihave Ho := (Entails.of_eq (pts_oRow_final (F := F) (U := U) m d L _ _)) $$ Hc1_dst
  iapply (tile_close (F := F) (U := U) m d L qx qt O W)
  isplitl [Hx Ht Ho]
  · isplitl [Hx]; · iexact Hx
    isplitl [Ht]; · iexact Ht
    iexact Ho
  isplitl [HsT HA HB HsO Hrb]
  · isplitl [HsT]; · iexists _; iexact HsT
    isplitl [HA]; · iexists _; iexact HA
    isplitl [HB]; · iexists _; iexact HB
    isplitl [HsO]; · iexists _; iexact HsO
    iexact Hrb
  isplitl [H4 H5 Hc0 Hc1 Hrs]
  · isplitl [H4]; · iexact H4
    isplitl [H5]; · iexact H5
    isplitl [Hc0]; · iexact Hc0
    isplitl [Hc1]; · iexact Hc1
    iexact Hrs
  iexists _; isplitr
  swap
  · iexact HO
  · ipureintro; exact waits_insert _ hW'

end Cert.Kernel.Tile
end
-- ==== Proof.KernelIdeal.TcBody.lean ====
/-
  The TensorCore kernel's body at one grid point, on whole staging buffers: what it leaves in the two accumulators and,
  at the last point, in the scalar's buffer — in the three cases of its two conditionals (first point, a middle point,
  last point) —, then the same arithmetic read in `Spec`'s words, and the grid's closed forms (which points take which
  branch, which block each window is on).
-/
import proofs.«213812_g11871289606185_cont_fleet_226_25_alg».proof.Proof.KernelIdeal.Iface
import proofs.«213812_g11871289606185_cont_fleet_226_25_alg».proof.Proof.KernelIdeal.SkeletonP
import proofs.«213812_g11871289606185_cont_fleet_226_25_alg».proof.Proof.Gen.KernelIdeal.Launch
import proofs.«213812_g11871289606185_cont_fleet_226_25_alg».proof.Proof.Gen.KernelIdeal.Points
import Idealize.ShloMosaic.Lib.Pipeline.Regions
import Idealize.ShloMosaic.Lib.Tactic
import Idealize.ShloMosaic.Lib.Pipeline.Frame
import Idealize.ShloMosaic.Lib.Pipeline.FrameBody
import Idealize.ShloMosaic.Lib.Pipeline.Value

set_option maxRecDepth 16384

noncomputable section

namespace Cert.KernelIdeal.Tc

open Cert.KernelIdeal Cert.KernelIdeal.Gen Cert.KernelIdeal.GenP Cert.KernelIdeal.Iface
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] {U : Type} [URA U]

local notation "𝕄" => MT nD τ sig (HIx 1) (Elt F) ℕ U ℕ

/-! ## Whole staging buffers: what a load reads and what a store leaves -/

section Whole

variable {sig' : RefSig} {κ : Kind} {sp : Space} {S : Shape} {e : EltTy} {Val : EltTy → Type}

/-- A load through a whole memref held at the contents that read as `X` reads `X` through the load's coordinates. -/
theorem readAt_unread {m : Memref sig' κ sp S e} (h : m.IsWhole) (X : S.Idx → Val e) (r : Rect S) :
    m.view.readAt Val r.toLoadRect (h.unread X) = View.ld X r := by
  funext x; rw [View.readAt_apply, h.read_unread]

/-- The zero offsets, as the printed program spells them. -/
theorem zz2 : (![0, 0] : Fin 2 → ℕ) = fun _ => 0 := by decide

/-- One store through the whole-shape rectangle at zero offsets leaves its payload. -/
theorem read_writes_unit_zero (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f (⟨Rect.unit off S.size inb, w⟩ :: L)) = w := by
  subst h; funext y
  have h := View.read_writes_cons_emb v f (Rect.whole S) w L y
  rwa [Rect.emb_whole_apply] at h

end Whole

/-! ## The point's arithmetic over what the staging buffers hold -/

/-- The first branch's condition: the grid coordinate is 0. -/
abbrev cond1 (i : grid1.Coords) : Prop := (Scalar.cmpi .ne (Scalar.extui (Scalar.cmpi .eq (BitVec.ofNat 32 (i 0).val) 0#32)) 0#32) = 1#1

/-- Stream `k`'s 2048 column words, out of the staged 1×4×2048 block. -/
abbrev row0 (T0 : Vec F S1x4x2048 .i32) : Vec F S1x1x2048 .i32 := View.ld T0 (Rect.unit (s := S1x4x2048) ![0, 0, 0] S1x1x2048.size inb_S1x4x2048_S1x1x2048_0_0_0)
abbrev row1 (T0 : Vec F S1x4x2048 .i32) : Vec F S1x1x2048 .i32 := View.ld T0 (Rect.unit (s := S1x4x2048) ![0, 1, 0] S1x1x2048.size inb_S1x4x2048_S1x1x2048_0_1_0)
abbrev row2 (T0 : Vec F S1x4x2048 .i32) : Vec F S1x1x2048 .i32 := View.ld T0 (Rect.unit (s := S1x4x2048) ![0, 2, 0] S1x1x2048.size inb_S1x4x2048_S1x1x2048_0_2_0)
abbrev row3 (T0 : Vec F S1x4x2048 .i32) : Vec F S1x1x2048 .i32 := View.ld T0 (Rect.unit (s := S1x4x2048) ![0, 3, 0] S1x1x2048.size inb_S1x4x2048_S1x1x2048_0_3_0)

abbrev v3c : IVec S2048x170 32 := iota .tc S2048x170 32 [1] iota_S2048x170_d1_w32

/-- What a point leaves in the first accumulator, from what it found there (`s1`) and the staged blocks. -/
def new1 (T0 : Vec F S1x4x2048 .i32) (X1 X2 X3 X4 : Vec F S2048x170 .f32) (s1 : Vec F S8x170 .f32) : Vec F S8x170 .f32 :=
  k1_pay11 v3c (k1_pay7 X1 (row0 T0) X2 (row1 T0)) X3 (row2 T0) X4 (row3 T0) s1
/-- and in the second. -/
def new2 (T0 : Vec F S1x4x2048 .i32) (X1 X2 X3 X4 : Vec F S2048x170 .f32) (s2 : Vec F S8x170 .f32) : Vec F S8x170 .f32 :=
  k1_pay1 (k1_pay12 v3c (k1_pay8 X1 (row0 T0) X2 (row1 T0)) X3 (row2 T0) X4 (row3 T0) s2)

set_option maxHeartbeats 2000000 in
/-- The body at the first point: both accumulators zeroed, then updated. -/
theorem run_A (c : Dev nD) (i : grid1.Coords) (arg1 : Memref sig .tc .vmem S1x4x2048 .i32) (harg1 : arg1.IsWhole) (arg2 : Memref sig .tc .vmem S2048x170 .f32) (harg2 : arg2.IsWhole) (arg3 : Memref sig .tc .vmem S2048x170 .f32) (harg3 : arg3.IsWhole) (arg4 : Memref sig .tc .vmem S2048x170 .f32) (harg4 : arg4.IsWhole) (arg5 : Memref sig .tc .vmem S2048x170 .f32) (harg5 : arg5.IsWhole) (arg6 : Memref sig .tc .smem S1x1 .f32) (harg6 : arg6.IsWhole) (arg7 : Memref sig .tc .vmem S8x170 .f32) (harg7 : arg7.IsWhole) (arg8 : Memref sig .tc .vmem S8x170 .f32) (harg8 : arg8.IsWhole) (h1 : cond1 i) (h2 : ¬k1_cond2 i = 1#1)
    (T0 : Vec F S1x4x2048 .i32) (X1 X2 X3 X4 : Vec F S2048x170 .f32) (s1 s2 : Vec F S8x170 .f32) (Kc : PUnit → sProp 𝕄) :
    iprop(owns (c : Thread nD τ) arg1 fullShare T0 ∗ owns (c : Thread nD τ) arg2 fullShare X1 ∗ owns (c : Thread nD τ) arg3 fullShare X2
        ∗ owns (c : Thread nD τ) arg4 fullShare X3 ∗ owns (c : Thread nD τ) arg5 fullShare X4
        ∗ owns (c : Thread nD τ) arg7 fullShare s1 ∗ owns (c : Thread nD τ) arg8 fullShare s2
        ∗ (iprop(owns (c : Thread nD τ) arg1 fullShare T0 ∗ owns (c : Thread nD τ) arg2 fullShare X1 ∗ owns (c : Thread nD τ) arg3 fullShare X2
        ∗ owns (c : Thread nD τ) arg4 fullShare X3 ∗ owns (c : Thread nD τ) arg5 fullShare X4
        ∗ owns (c : Thread nD τ) arg7 fullShare (new1 T0 X1 X2 X3 X4 k1_pay3) ∗ owns (c : Thread nD τ) arg8 fullShare (new2 T0 X1 X2 X3 X4 k1_pay4)) -∗ Kc ⟨⟩))
      ⊢ (wp frame (wpE (defs₀ (F := F)) Variants.none c none) Set.univ (cc1__tc_body i arg1 harg1 arg2 harg2 arg3 harg3 arg4 harg4 arg5 harg5 arg6 harg6 arg7 harg7 arg8 harg8) Kc : sProp 𝕄) := by
  simp only [cc1__tc_body_eq_skeleton]; unfold cc1__tc_body_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg7.eq_unread hf7; obtain rfl := harg8.eq_unread hf8
  sl_exec (disch := first | exact h1 | exact h2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H7]
  · iexists _; isplitr
    swap; · iexact H7
    ipureintro
    sl_unfold_run_names
    rw [read_writes_unit_zero _ _ zz2]
    simp only [readAt_unread, View.readCov_unit_zero (S := S8x170) _ zz2]
    unfold new1
    simp only [View.ld_unit_zero (S := S2048x170) zz2, View.ld_unit_zero (S := S8x170) zz2]
  · iexists _; isplitr
    swap; · iexact H8
    ipureintro
    sl_unfold_run_names
    rw [read_writes_unit_zero _ _ zz2]
    simp only [readAt_unread, View.readCov_unit_zero (S := S8x170) _ zz2]
    unfold new2
    simp only [View.ld_unit_zero (S := S2048x170) zz2, View.ld_unit_zero (S := S8x170) zz2]

set_option maxHeartbeats 2000000 in
/-- The body at a point that is neither the first nor the last: both accumulators updated, nothing else touched. -/
theorem run_B (c : Dev nD) (i : grid1.Coords) (arg1 : Memref sig .tc .vmem S1x4x2048 .i32) (harg1 : arg1.IsWhole) (arg2 : Memref sig .tc .vmem S2048x170 .f32) (harg2 : arg2.IsWhole) (arg3 : Memref sig .tc .vmem S2048x170 .f32) (harg3 : arg3.IsWhole) (arg4 : Memref sig .tc .vmem S2048x170 .f32) (harg4 : arg4.IsWhole) (arg5 : Memref sig .tc .vmem S2048x170 .f32) (harg5 : arg5.IsWhole) (arg6 : Memref sig .tc .smem S1x1 .f32) (harg6 : arg6.IsWhole) (arg7 : Memref sig .tc .vmem S8x170 .f32) (harg7 : arg7.IsWhole) (arg8 : Memref sig .tc .vmem S8x170 .f32) (harg8 : arg8.IsWhole) (h1 : ¬cond1 i) (h2 : ¬k1_cond2 i = 1#1)
    (T0 : Vec F S1x4x2048 .i32) (X1 X2 X3 X4 : Vec F S2048x170 .f32) (s1 s2 : Vec F S8x170 .f32) (Kc : PUnit → sProp 𝕄) :
    iprop(owns (c : Thread nD τ) arg1 fullShare T0 ∗ owns (c : Thread nD τ) arg2 fullShare X1 ∗ owns (c : Thread nD τ) arg3 fullShare X2
        ∗ owns (c : Thread nD τ) arg4 fullShare X3 ∗ owns (c : Thread nD τ) arg5 fullShare X4
        ∗ owns (c : Thread nD τ) arg7 fullShare s1 ∗ owns (c : Thread nD τ) arg8 fullShare s2
        ∗ (iprop(owns (c : Thread nD τ) arg1 fullShare T0 ∗ owns (c : Thread nD τ) arg2 fullShare X1 ∗ owns (c : Thread nD τ) arg3 fullShare X2
        ∗ owns (c : Thread nD τ) arg4 fullShare X3 ∗ owns (c : Thread nD τ) arg5 fullShare X4
        ∗ owns (c : Thread nD τ) arg7 fullShare (new1 T0 X1 X2 X3 X4 s1) ∗ owns (c : Thread nD τ) arg8 fullShare (new2 T0 X1 X2 X3 X4 s2)) -∗ Kc ⟨⟩))
      ⊢ (wp frame (wpE (defs₀ (F := F)) Variants.none c none) Set.univ (cc1__tc_body i arg1 harg1 arg2 harg2 arg3 harg3 arg4 harg4 arg5 harg5 arg6 harg6 arg7 harg7 arg8 harg8) Kc : sProp 𝕄) := by
  simp only [cc1__tc_body_eq_skeleton]; unfold cc1__tc_body_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg7.eq_unread hf7; obtain rfl := harg8.eq_unread hf8
  sl_exec (disch := first | exact h1 | exact h2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H7]
  · iexists _; isplitr
    swap; · iexact H7
    ipureintro
    sl_unfold_run_names
    rw [read_writes_unit_zero _ _ zz2]
    simp only [readAt_unread, View.readCov_unit_zero (S := S8x170) _ zz2]
    unfold new1
    simp only [View.ld_unit_zero (S := S2048x170) zz2, View.ld_unit_zero (S := S8x170) zz2]
  · iexists _; isplitr
    swap; · iexact H8
    ipureintro
    sl_unfold_run_names
    rw [read_writes_unit_zero _ _ zz2]
    simp only [readAt_unread, View.readCov_unit_zero (S := S8x170) _ zz2]
    unfold new2
    simp only [View.ld_unit_zero (S := S2048x170) zz2, View.ld_unit_zero (S := S8x170) zz2]

set_option maxHeartbeats 2000000 in
/-- The body at the last point: both accumulators updated, then the scalar written from them. -/
theorem run_C (c : Dev nD) (i : grid1.Coords) (arg1 : Memref sig .tc .vmem S1x4x2048 .i32) (harg1 : arg1.IsWhole) (arg2 : Memref sig .tc .vmem S2048x170 .f32) (harg2 : arg2.IsWhole) (arg3 : Memref sig .tc .vmem S2048x170 .f32) (harg3 : arg3.IsWhole) (arg4 : Memref sig .tc .vmem S2048x170 .f32) (harg4 : arg4.IsWhole) (arg5 : Memref sig .tc .vmem S2048x170 .f32) (harg5 : arg5.IsWhole) (arg6 : Memref sig .tc .smem S1x1 .f32) (harg6 : arg6.IsWhole) (arg7 : Memref sig .tc .vmem S8x170 .f32) (harg7 : arg7.IsWhole) (arg8 : Memref sig .tc .vmem S8x170 .f32) (harg8 : arg8.IsWhole) (h1 : ¬cond1 i) (h2 : k1_cond2 i = 1#1)
    (T0 : Vec F S1x4x2048 .i32) (X1 X2 X3 X4 : Vec F S2048x170 .f32) (s1 s2 : Vec F S8x170 .f32) (o : Vec F S1x1 .f32) (Kc : PUnit → sProp 𝕄) :
    iprop(owns (c : Thread nD τ) arg1 fullShare T0 ∗ owns (c : Thread nD τ) arg2 fullShare X1 ∗ owns (c : Thread nD τ) arg3 fullShare X2
        ∗ owns (c : Thread nD τ) arg4 fullShare X3 ∗ owns (c : Thread nD τ) arg5 fullShare X4
        ∗ owns (c : Thread nD τ) arg7 fullShare s1 ∗ owns (c : Thread nD τ) arg8 fullShare s2
        ∗ owns (c : Thread nD τ) arg6 fullShare o
        ∗ (iprop(owns (c : Thread nD τ) arg1 fullShare T0 ∗ owns (c : Thread nD τ) arg2 fullShare X1 ∗ owns (c : Thread nD τ) arg3 fullShare X2
        ∗ owns (c : Thread nD τ) arg4 fullShare X3 ∗ owns (c : Thread nD τ) arg5 fullShare X4
        ∗ owns (c : Thread nD τ) arg7 fullShare (new1 T0 X1 X2 X3 X4 s1) ∗ owns (c : Thread nD τ) arg8 fullShare (new2 T0 X1 X2 X3 X4 s2)
        ∗ owns (c : Thread nD τ) arg6 fullShare (fun _ => k1_pay2 (new1 T0 X1 X2 X3 X4 s1) (new2 T0 X1 X2 X3 X4 s2))) -∗ Kc ⟨⟩))
      ⊢ (wp frame (wpE (defs₀ (F := F)) Variants.none c none) Set.univ (cc1__tc_body i arg1 harg1 arg2 harg2 arg3 harg3 arg4 harg4 arg5 harg5 arg6 harg6 arg7 harg7 arg8 harg8) Kc : sProp 𝕄) := by
  simp only [cc1__tc_body_eq_skeleton]; unfold cc1__tc_body_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg7.eq_unread hf7; obtain rfl := harg8.eq_unread hf8; obtain rfl := harg6.eq_unread hf6
  sl_exec (disch := first | exact h1 | exact h2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H7]
  · iexists _; isplitr
    swap; · iexact H7
    ipureintro
    sl_unfold_run_names
    rw [read_writes_unit_zero _ _ zz2]
    simp only [readAt_unread, View.readCov_unit_zero (S := S8x170) _ zz2]
    unfold new1
    simp only [View.ld_unit_zero (S := S2048x170) zz2, View.ld_unit_zero (S := S8x170) zz2]
  isplitl [H8]
  · iexists _; isplitr
    swap; · iexact H8
    ipureintro
    sl_unfold_run_names
    rw [read_writes_unit_zero _ _ zz2]
    simp only [readAt_unread, View.readCov_unit_zero (S := S8x170) _ zz2]
    unfold new2
    simp only [View.ld_unit_zero (S := S2048x170) zz2, View.ld_unit_zero (S := S8x170) zz2]
  · iexists _; isplitr
    swap; · iexact H6
    ipureintro
    sl_unfold_run_names
    rw [read_writes_unit_zero _ _ zz2]
    simp only [readAt_unread, View.readCov_unit_zero (S := S8x170) _ zz2]
    unfold new1 new2
    simp only [View.ld_unit_zero (S := S2048x170) zz2, View.ld_unit_zero (S := S8x170) zz2]
    rfl

/-! ## The point's arithmetic in `Spec`'s words -/

theorem pay3_eq : (k1_pay3 : FVec F S8x170 .f32) = Spec.zeroA := by
  unfold k1_pay3 Spec.zeroA; exact shapeCast_self _ _
theorem pay4_eq : (k1_pay4 : FVec F S8x170 .f32) = Spec.zeroA := by
  unfold k1_pay4 Spec.zeroA; exact shapeCast_self _ _

/-- The first accumulator's step: what it held plus the four streams' masked blocks, folded. -/
theorem new1_eq (T0 : Vec F S1x4x2048 .i32) (X1 X2 X3 X4 : Vec F S2048x170 .f32) (s1 : Vec F S8x170 .f32) :
    new1 T0 X1 X2 X3 X4 s1 = addf s1 (addf (addf (addf (addf Spec.zeroA (Spec.fold8 (Spec.masked X1 (row0 T0)))) (Spec.fold8 (Spec.masked X2 (row1 T0))))
      (Spec.fold8 (Spec.masked X3 (row2 T0)))) (Spec.fold8 (Spec.masked X4 (row3 T0)))) := by
  unfold new1 k1_pay11 k1_pay7 k1_pay9 k1_pay10 k1_pay5 k1_pay6
  simp only [shapeCast_self]; rfl

/-- The second accumulator's step: what it held plus the four streams' masked blocks times the blocks, folded. -/
theorem new2_eq (T0 : Vec F S1x4x2048 .i32) (X1 X2 X3 X4 : Vec F S2048x170 .f32) (s2 : Vec F S8x170 .f32) :
    new2 T0 X1 X2 X3 X4 s2 = addf s2 (addf (addf (addf (addf Spec.zeroA (Spec.fold8 (mulf (Spec.masked X1 (row0 T0)) X1))) (Spec.fold8 (mulf (Spec.masked X2 (row1 T0)) X2)))
      (Spec.fold8 (mulf (Spec.masked X3 (row2 T0)) X3))) (Spec.fold8 (mulf (Spec.masked X4 (row3 T0)) X4))) := by
  unfold new2 k1_pay1 k1_pay12 k1_pay8 k1_pay9 k1_pay10 k1_pay5 k1_pay6
  simp only [shapeCast_self]; rfl

/-- The scalar the last point writes, from the two accumulators. -/
theorem pay2_eq (a b : Vec F S8x170 .f32) :
    k1_pay2 a b = Scalar.addf (Scalar.subf (Scalar.ofBits .f32 0x48100000#32) (Scalar.mulf (Scalar.ofBits .f32 0x40000000#32) (Spec.sumA a))) (Spec.sumA b) := rfl

/-! ## Closed forms over the grid's eighteen points -/

theorem cond1_iff : ∀ t : Fin grid1.N, cond1 (grid1.coords t) ↔ t.val = 0 := by decide +kernel
theorem cond2_iff : ∀ t : Fin grid1.N, k1_cond2 (grid1.coords t) = 1#1 ↔ t.val = 17 := by decide +kernel
theorem idx0 : ∀ t : Fin grid1.N, cc1_transform_0 (grid1.coords t) = ![t.val, 0, 0] := by decide +kernel
theorem idx1 : ∀ t : Fin grid1.N, cc1_transform_1 (grid1.coords t) = ![56 + 4 * t.val, 0] := by decide +kernel
theorem idx2 : ∀ t : Fin grid1.N, cc1_transform_2 (grid1.coords t) = ![56 + 4 * t.val + 1, 0] := by decide +kernel
theorem idx3 : ∀ t : Fin grid1.N, cc1_transform_3 (grid1.coords t) = ![56 + 4 * t.val + 2, 0] := by decide +kernel
theorem idx4 : ∀ t : Fin grid1.N, cc1_transform_4 (grid1.coords t) = ![56 + 4 * t.val + 3, 0] := by decide +kernel
theorem idle5_iff : ∀ t : Fin grid1.N, cfg1.idle 5 (grid1.coords t) = true ↔ t.val ≠ 17 := by decide +kernel

end Cert.KernelIdeal.Tc

end
-- ==== Proof.KernelIdeal.TcDat.lean ====
/-
  The proof data of the TensorCore region (one pipeline of eighteen points): what each window's staging buffer holds
  after the body at each point, the invariant that carries the two accumulators across the points (after `n` points
  they hold `Spec.acc1` / `Spec.acc2` of `n`), the staged blocks read as `Spec`'s blocks of the table and of the
  column words, and the body obligation at a symbolic point, in the three cases of the body's two conditionals.
-/
import proofs.«213812_g11871289606185_cont_fleet_226_25_alg».proof.Proof.KernelIdeal.Iface
import proofs.«213812_g11871289606185_cont_fleet_226_25_alg».proof.Proof.KernelIdeal.SkeletonP
import proofs.«213812_g11871289606185_cont_fleet_226_25_alg».proof.Proof.Gen.KernelIdeal.Launch
import proofs.«213812_g11871289606185_cont_fleet_226_25_alg».proof.Proof.Gen.KernelIdeal.Points
import Idealize.ShloMosaic.Lib.Pipeline.Regions
import Idealize.ShloMosaic.Lib.Tactic
import Idealize.ShloMosaic.Lib.Pipeline.Frame
import Idealize.ShloMosaic.Lib.Pipeline.FrameBody
import Idealize.ShloMosaic.Lib.Pipeline.Value
import proofs.«213812_g11871289606185_cont_fleet_226_25_alg».proof.Proof.KernelIdeal.TcBody

set_option maxRecDepth 16384

noncomputable section

namespace Cert.KernelIdeal.Tc

open Cert.KernelIdeal Cert.KernelIdeal.Gen Cert.KernelIdeal.GenP Cert.KernelIdeal.Iface
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] {U : Type} [URA U]

local notation "𝕄" => MT nD τ sig (HIx 1) (Elt F) ℕ U ℕ

/-! ## The proof data of the region on core `d` -/

section Data

variable (m : (ℓ : Loc nD τ sig) → Buf (Elt F) ℓ) (d : Dev nD)

abbrev v3Loc (d : Dev nD) : Loc nD τ sig := (SparseCore.T d).loc main_v3
abbrev v4Loc (d : Dev nD) : Loc nD τ sig := (SparseCore.T d).loc main_v4

variable (V3 : Buf (Elt F) (v3Loc d)) (f4 : Buf (Elt F) (v4Loc d))
  (q3 qx : PosShare TreeShare) (O : CellTallies nD τ sig (HIx 1)) (W : Waits sig (HIx 1))

/-- The table and the column words, as `Spec` takes them. -/
abbrev xA : FVec F Spec.SX .f32 := m (xLoc d)
abbrev tA : IVec Spec.ST 32 := m (tLoc d)

/-- The blocks the five input windows are on at point `t`, read off their arrays. -/
def blk0 (t : Fin cfg1.N) : Vec F S1x4x2048 .i32 := ((cfg1.win 0).blk t).view.read (Elt F) V3
def blk1 (t : Fin cfg1.N) : Vec F S2048x170 .f32 := ((cfg1.win 1).blk t).view.read (Elt F) (m (xLoc d))
def blk2 (t : Fin cfg1.N) : Vec F S2048x170 .f32 := ((cfg1.win 2).blk t).view.read (Elt F) (m (xLoc d))
def blk3 (t : Fin cfg1.N) : Vec F S2048x170 .f32 := ((cfg1.win 3).blk t).view.read (Elt F) (m (xLoc d))
def blk4 (t : Fin cfg1.N) : Vec F S2048x170 .f32 := ((cfg1.win 4).blk t).view.read (Elt F) (m (xLoc d))

/-- The two accumulators. -/
abbrev sc0 : Memref sig .tc .vmem S8x170 .f32 := Memref.whole cc1_scratch0
abbrev sc1 : Memref sig .tc .vmem S8x170 .f32 := Memref.whole cc1_scratch1

/-- The invariant between points: before the first, the two accumulators at anything; after `n` points, at
    `Spec.acc1` / `Spec.acc2` of `n`. -/
def Phi : ℕ → sProp 𝕄
  | 0 => Pipeline.scopedRest (Ix := HIx 1) (Name := ℕ) (U := U) (Lvl := ℕ) (Val := Elt F) spec1 d
  | n + 1 => iprop(owns (d : Thread nD τ) sc0 fullShare (Spec.acc1 (xA m d) (tA m d) (n + 1))
      ∗ owns (d : Thread nD τ) sc1 fullShare (Spec.acc2 (xA m d) (tA m d) (n + 1)))

/-- The proof data: the arrays as the region finds them; each input's buffer left at its block, the scalar's at
    `Spec.tcOut`; the accumulators' invariant; `x` under four windows at four read tokens of the share held; the core
    owing throughout what it owes at entry, its recorded pairs within those recorded at entry. -/
def dat : Dat τ (Elt F) (HIx 1) ℕ U ℕ cfg1 d where
  A w := match w with
    | ⟨0, _⟩ => V3
    | ⟨1, _⟩ => m (xLoc d)
    | ⟨2, _⟩ => m (xLoc d)
    | ⟨3, _⟩ => m (xLoc d)
    | ⟨4, _⟩ => m (xLoc d)
    | ⟨5, _⟩ => f4
  after w t := match w with
    | ⟨0, _⟩ => blk0 d V3 t
    | ⟨1, _⟩ => blk1 m d t
    | ⟨2, _⟩ => blk2 m d t
    | ⟨3, _⟩ => blk3 m d t
    | ⟨4, _⟩ => blk4 m d t
    | ⟨5, _⟩ => fun _ => Spec.tcOut (xA m d) (tA m d)
  Φ t := Phi (U := U) m d t.val
  q w := match w with
    | ⟨0, _⟩ => q3
    | ⟨1, _⟩ => Transfers.shareTok qx 4 0
    | ⟨2, _⟩ => Transfers.shareTok qx 4 1
    | ⟨3, _⟩ => Transfers.shareTok qx 4 2
    | ⟨4, _⟩ => Transfers.shareTok qx 4 3
    | ⟨5, _⟩ => fullShare
  owed _ := O
  recorded _ := (↑W : Set (SemLoc sig × HIx 1))

/-! ### What the proof data says at a point, window by window -/

theorem after0 (t : Fin cfg1.N) : (dat (U := U) m d V3 f4 q3 qx O W).after 0 t = blk0 d V3 t := by dsimp only [dat]
theorem after1 (t : Fin cfg1.N) : (dat (U := U) m d V3 f4 q3 qx O W).after 1 t = blk1 m d t := by dsimp only [dat]
theorem after2 (t : Fin cfg1.N) : (dat (U := U) m d V3 f4 q3 qx O W).after 2 t = blk2 m d t := by dsimp only [dat]
theorem after3 (t : Fin cfg1.N) : (dat (U := U) m d V3 f4 q3 qx O W).after 3 t = blk3 m d t := by dsimp only [dat]
theorem after4 (t : Fin cfg1.N) : (dat (U := U) m d V3 f4 q3 qx O W).after 4 t = blk4 m d t := by dsimp only [dat]
theorem after5 (t : Fin cfg1.N) : (dat (U := U) m d V3 f4 q3 qx O W).after 5 t = fun _ => Spec.tcOut (xA m d) (tA m d) := by dsimp only [dat]

/-- Every input is fetched at every point: its current buffer holds its block. -/
theorem before0 (t : Fin cfg1.N) (d0) : (dat (U := U) m d V3 f4 q3 qx O W).before 0 t d0 = blk0 d V3 t :=
  ((dat (U := U) m d V3 f4 q3 qx O W).before_fetched 0 t (fetch1_0 t) d0).trans (by unfold Dat.fetched Dat.blockOf blk0; rfl)
theorem before1 (t : Fin cfg1.N) (d0) : (dat (U := U) m d V3 f4 q3 qx O W).before 1 t d0 = blk1 m d t :=
  ((dat (U := U) m d V3 f4 q3 qx O W).before_fetched 1 t (fetch1_1 t) d0).trans (by unfold Dat.fetched Dat.blockOf blk1; rfl)
theorem before2 (t : Fin cfg1.N) (d0) : (dat (U := U) m d V3 f4 q3 qx O W).before 2 t d0 = blk2 m d t :=
  ((dat (U := U) m d V3 f4 q3 qx O W).before_fetched 2 t (fetch1_2 t) d0).trans (by unfold Dat.fetched Dat.blockOf blk2; rfl)
theorem before3 (t : Fin cfg1.N) (d0) : (dat (U := U) m d V3 f4 q3 qx O W).before 3 t d0 = blk3 m d t :=
  ((dat (U := U) m d V3 f4 q3 qx O W).before_fetched 3 t (fetch1_3 t) d0).trans (by unfold Dat.fetched Dat.blockOf blk3; rfl)
theorem before4 (t : Fin cfg1.N) (d0) : (dat (U := U) m d V3 f4 q3 qx O W).before 4 t d0 = blk4 m d t :=
  ((dat (U := U) m d V3 f4 q3 qx O W).before_fetched 4 t (fetch1_4 t) d0).trans (by unfold Dat.fetched Dat.blockOf blk4; rfl)

/-! ### The staged blocks are `Spec`'s blocks -/

theorem blk1_eq (t : Fin cfg1.N) : blk1 m d t = Spec.xBlk (xA m d) (56 + 4 * t.val) := by
  funext j
  unfold blk1 Spec.xBlk
  rw [View.read_apply]
  refine congrArg (m (xLoc d)) ?_
  have hN : t.val < 18 := lt_of_lt_of_eq t.isLt N_1
  have hj : (j 0).val < 2048 := (j 0).isLt
  funext a
  fin_cases a
  · apply Fin.ext
    show cc1_transform_1 (grid1.coords t) 0 * 2048 + 1 * (j 0).val = (2048 * (56 + 4 * t.val) + (j 0).val) % 262144
    rw [idx1 t]
    show (56 + 4 * t.val) * 2048 + 1 * (j 0).val = _
    omega
  · apply Fin.ext
    show cc1_transform_1 (grid1.coords t) 1 * 170 + 1 * (j 1).val = (j 1).val
    rw [idx1 t]
    show 0 * 170 + 1 * (j 1).val = _
    omega

theorem blk2_eq (t : Fin cfg1.N) : blk2 m d t = Spec.xBlk (xA m d) (56 + 4 * t.val + 1) := by
  funext j
  unfold blk2 Spec.xBlk
  rw [View.read_apply]
  refine congrArg (m (xLoc d)) ?_
  have hN : t.val < 18 := lt_of_lt_of_eq t.isLt N_1
  have hj : (j 0).val < 2048 := (j 0).isLt
  funext a
  fin_cases a
  · apply Fin.ext
    show cc1_transform_2 (grid1.coords t) 0 * 2048 + 1 * (j 0).val = (2048 * (56 + 4 * t.val + 1) + (j 0).val) % 262144
    rw [idx2 t]
    show (56 + 4 * t.val + 1) * 2048 + 1 * (j 0).val = _
    omega
  · apply Fin.ext
    show cc1_transform_2 (grid1.coords t) 1 * 170 + 1 * (j 1).val = (j 1).val
    rw [idx2 t]
    show 0 * 170 + 1 * (j 1).val = _
    omega

theorem blk3_eq (t : Fin cfg1.N) : blk3 m d t = Spec.xBlk (xA m d) (56 + 4 * t.val + 2) := by
  funext j
  unfold blk3 Spec.xBlk
  rw [View.read_apply]
  refine congrArg (m (xLoc d)) ?_
  have hN : t.val < 18 := lt_of_lt_of_eq t.isLt N_1
  have hj : (j 0).val < 2048 := (j 0).isLt
  funext a
  fin_cases a
  · apply Fin.ext
    show cc1_transform_3 (grid1.coords t) 0 * 2048 + 1 * (j 0).val = (2048 * (56 + 4 * t.val + 2) + (j 0).val) % 262144
    rw [idx3 t]
    show (56 + 4 * t.val + 2) * 2048 + 1 * (j 0).val = _
    omega
  · apply Fin.ext
    show cc1_transform_3 (grid1.coords t) 1 * 170 + 1 * (j 1).val = (j 1).val
    rw [idx3 t]
    show 0 * 170 + 1 * (j 1).val = _
    omega

theorem blk4_eq (t : Fin cfg1.N) : blk4 m d t = Spec.xBlk (xA m d) (56 + 4 * t.val + 3) := by
  funext j
  unfold blk4 Spec.xBlk
  rw [View.read_apply]
  refine congrArg (m (xLoc d)) ?_
  have hN : t.val < 18 := lt_of_lt_of_eq t.isLt N_1
  have hj : (j 0).val < 2048 := (j 0).isLt
  funext a
  fin_cases a
  · apply Fin.ext
    show cc1_transform_4 (grid1.coords t) 0 * 2048 + 1 * (j 0).val = (2048 * (56 + 4 * t.val + 3) + (j 0).val) % 262144
    rw [idx4 t]
    show (56 + 4 * t.val + 3) * 2048 + 1 * (j 0).val = _
    omega
  · apply Fin.ext
    show cc1_transform_4 (grid1.coords t) 1 * 170 + 1 * (j 1).val = (j 1).val
    rw [idx4 t]
    show 0 * 170 + 1 * (j 1).val = _
    omega

/-- `main_v3` holds the column words of rows 114688 …, as 18×4×2048: word `[i, k, r]` is row `114688 + 8192·i + 2048·k + r`'s. -/
def V3OK (V3 : Buf (Elt F) (v3Loc d)) : Prop :=
  ∀ j : S18x4x2048.Idx, V3 j = m (tLoc d) (ix1 (Spec.rowOf (114688 + 8192 * (j 0).val + 2048 * (j 1).val + (j 2).val)))

theorem row0_eq (hV3 : V3OK m d V3) (t : Fin cfg1.N) : row0 (blk0 d V3 t) = Spec.tBlk (tA m d) t.val 0 := by
  funext j
  have hN : t.val < 18 := lt_of_lt_of_eq t.isLt N_1
  have hj0 : (j 0).val < 1 := (j 0).isLt
  have hj1 : (j 1).val < 1 := (j 1).isLt
  unfold Spec.tBlk
  show blk0 d V3 t _ = _
  unfold blk0
  rw [View.read_apply]
  show V3 _ = _
  rw [hV3]
  refine congrArg (fun n => m (tLoc d) (ix1 (Spec.rowOf n))) ?_
  have e0 : ((((cfg1.win 0).blk t).view.emb ((Rect.unit (s := S1x4x2048) ![0, 0, 0] S1x1x2048.size inb_S1x4x2048_S1x1x2048_0_0_0).idx j)) 0).val
      = cc1_transform_0 (grid1.coords t) 0 * 1 + 1 * (0 + 1 * (j 0).val) := rfl
  have e1 : ((((cfg1.win 0).blk t).view.emb ((Rect.unit (s := S1x4x2048) ![0, 0, 0] S1x1x2048.size inb_S1x4x2048_S1x1x2048_0_0_0).idx j)) 1).val
      = cc1_transform_0 (grid1.coords t) 1 * 4 + 1 * (0 + 1 * (j 1).val) := rfl
  have e2 : ((((cfg1.win 0).blk t).view.emb ((Rect.unit (s := S1x4x2048) ![0, 0, 0] S1x1x2048.size inb_S1x4x2048_S1x1x2048_0_0_0).idx j)) 2).val
      = cc1_transform_0 (grid1.coords t) 2 * 2048 + 1 * (0 + 1 * (j 2).val) := rfl
  rw [e0, e1, e2, idx0 t]
  show 114688 + 8192 * (t.val * 1 + 1 * (0 + 1 * (j 0).val)) + 2048 * (0 * 4 + 1 * (0 + 1 * (j 1).val)) + (0 * 2048 + 1 * (0 + 1 * (j 2).val)) = _
  omega

theorem row1_eq (hV3 : V3OK m d V3) (t : Fin cfg1.N) : row1 (blk0 d V3 t) = Spec.tBlk (tA m d) t.val 1 := by
  funext j
  have hN : t.val < 18 := lt_of_lt_of_eq t.isLt N_1
  have hj0 : (j 0).val < 1 := (j 0).isLt
  have hj1 : (j 1).val < 1 := (j 1).isLt
  unfold Spec.tBlk
  show blk0 d V3 t _ = _
  unfold blk0
  rw [View.read_apply]
  show V3 _ = _
  rw [hV3]
  refine congrArg (fun n => m (tLoc d) (ix1 (Spec.rowOf n))) ?_
  have e0 : ((((cfg1.win 0).blk t).view.emb ((Rect.unit (s := S1x4x2048) ![0, 1, 0] S1x1x2048.size inb_S1x4x2048_S1x1x2048_0_1_0).idx j)) 0).val
      = cc1_transform_0 (grid1.coords t) 0 * 1 + 1 * (0 + 1 * (j 0).val) := rfl
  have e1 : ((((cfg1.win 0).blk t).view.emb ((Rect.unit (s := S1x4x2048) ![0, 1, 0] S1x1x2048.size inb_S1x4x2048_S1x1x2048_0_1_0).idx j)) 1).val
      = cc1_transform_0 (grid1.coords t) 1 * 4 + 1 * (1 + 1 * (j 1).val) := rfl
  have e2 : ((((cfg1.win 0).blk t).view.emb ((Rect.unit (s := S1x4x2048) ![0, 1, 0] S1x1x2048.size inb_S1x4x2048_S1x1x2048_0_1_0).idx j)) 2).val
      = cc1_transform_0 (grid1.coords t) 2 * 2048 + 1 * (0 + 1 * (j 2).val) := rfl
  rw [e0, e1, e2, idx0 t]
  show 114688 + 8192 * (t.val * 1 + 1 * (0 + 1 * (j 0).val)) + 2048 * (0 * 4 + 1 * (1 + 1 * (j 1).val)) + (0 * 2048 + 1 * (0 + 1 * (j 2).val)) = _
  omega

theorem row2_eq (hV3 : V3OK m d V3) (t : Fin cfg1.N) : row2 (blk0 d V3 t) = Spec.tBlk (tA m d) t.val 2 := by
  funext j
  have hN : t.val < 18 := lt_of_lt_of_eq t.isLt N_1
  have hj0 : (j 0).val < 1 := (j 0).isLt
  have hj1 : (j 1).val < 1 := (j 1).isLt
  unfold Spec.tBlk
  show blk0 d V3 t _ = _
  unfold blk0
  rw [View.read_apply]
  show V3 _ = _
  rw [hV3]
  refine congrArg (fun n => m (tLoc d) (ix1 (Spec.rowOf n))) ?_
  have e0 : ((((cfg1.win 0).blk t).view.emb ((Rect.unit (s := S1x4x2048) ![0, 2, 0] S1x1x2048.size inb_S1x4x2048_S1x1x2048_0_2_0).idx j)) 0).val
      = cc1_transform_0 (grid1.coords t) 0 * 1 + 1 * (0 + 1 * (j 0).val) := rfl
  have e1 : ((((cfg1.win 0).blk t).view.emb ((Rect.unit (s := S1x4x2048) ![0, 2, 0] S1x1x2048.size inb_S1x4x2048_S1x1x2048_0_2_0).idx j)) 1).val
      = cc1_transform_0 (grid1.coords t) 1 * 4 + 1 * (2 + 1 * (j 1).val) := rfl
  have e2 : ((((cfg1.win 0).blk t).view.emb ((Rect.unit (s := S1x4x2048) ![0, 2, 0] S1x1x2048.size inb_S1x4x2048_S1x1x2048_0_2_0).idx j)) 2).val
      = cc1_transform_0 (grid1.coords t) 2 * 2048 + 1 * (0 + 1 * (j 2).val) := rfl
  rw [e0, e1, e2, idx0 t]
  show 114688 + 8192 * (t.val * 1 + 1 * (0 + 1 * (j 0).val)) + 2048 * (0 * 4 + 1 * (2 + 1 * (j 1).val)) + (0 * 2048 + 1 * (0 + 1 * (j 2).val)) = _
  omega

theorem row3_eq (hV3 : V3OK m d V3) (t : Fin cfg1.N) : row3 (blk0 d V3 t) = Spec.tBlk (tA m d) t.val 3 := by
  funext j
  have hN : t.val < 18 := lt_of_lt_of_eq t.isLt N_1
  have hj0 : (j 0).val < 1 := (j 0).isLt
  have hj1 : (j 1).val < 1 := (j 1).isLt
  unfold Spec.tBlk
  show blk0 d V3 t _ = _
  unfold blk0
  rw [View.read_apply]
  show V3 _ = _
  rw [hV3]
  refine congrArg (fun n => m (tLoc d) (ix1 (Spec.rowOf n))) ?_
  have e0 : ((((cfg1.win 0).blk t).view.emb ((Rect.unit (s := S1x4x2048) ![0, 3, 0] S1x1x2048.size inb_S1x4x2048_S1x1x2048_0_3_0).idx j)) 0).val
      = cc1_transform_0 (grid1.coords t) 0 * 1 + 1 * (0 + 1 * (j 0).val) := rfl
  have e1 : ((((cfg1.win 0).blk t).view.emb ((Rect.unit (s := S1x4x2048) ![0, 3, 0] S1x1x2048.size inb_S1x4x2048_S1x1x2048_0_3_0).idx j)) 1).val
      = cc1_transform_0 (grid1.coords t) 1 * 4 + 1 * (3 + 1 * (j 1).val) := rfl
  have e2 : ((((cfg1.win 0).blk t).view.emb ((Rect.unit (s := S1x4x2048) ![0, 3, 0] S1x1x2048.size inb_S1x4x2048_S1x1x2048_0_3_0).idx j)) 2).val
      = cc1_transform_0 (grid1.coords t) 2 * 2048 + 1 * (0 + 1 * (j 2).val) := rfl
  rw [e0, e1, e2, idx0 t]
  show 114688 + 8192 * (t.val * 1 + 1 * (0 + 1 * (j 0).val)) + 2048 * (0 * 4 + 1 * (3 + 1 * (j 1).val)) + (0 * 2048 + 1 * (0 + 1 * (j 2).val)) = _
  omega

/-- One point's step of the first accumulator is `Spec`'s. -/
theorem step1 (hV3 : V3OK m d V3) (t : Fin cfg1.N) (s1 : Vec F S8x170 .f32) :
    new1 (blk0 d V3 t) (blk1 m d t) (blk2 m d t) (blk3 m d t) (blk4 m d t) s1 = addf s1 (Spec.inc1 (xA m d) (tA m d) t.val) := by
  rw [new1_eq, row0_eq m d V3 hV3, row1_eq m d V3 hV3, row2_eq m d V3 hV3, row3_eq m d V3 hV3, blk1_eq, blk2_eq, blk3_eq, blk4_eq]
  rfl
/-- and of the second. -/
theorem step2 (hV3 : V3OK m d V3) (t : Fin cfg1.N) (s2 : Vec F S8x170 .f32) :
    new2 (blk0 d V3 t) (blk1 m d t) (blk2 m d t) (blk3 m d t) (blk4 m d t) s2 = addf s2 (Spec.inc2 (xA m d) (tA m d) t.val) := by
  rw [new2_eq, row0_eq m d V3 hV3, row1_eq m d V3 hV3, row2_eq m d V3 hV3, row3_eq m d V3 hV3, blk1_eq, blk2_eq, blk3_eq, blk4_eq]
  rfl

/-! ### The invariant, point by point -/

theorem Phi0_eq : (Phi (U := U) m d 0 : sProp 𝕄)
    = iprop((∃ f, owns (d : Thread nD τ) sc0 fullShare f) ∗ (∃ f, owns (d : Thread nD τ) sc1 fullShare f)) := by
  unfold Phi; rw [Gen.scopedRest1_eq]; simp only [owns_whole]; rfl
theorem Phi_succ (n : ℕ) : (Phi (U := U) m d (n + 1) : sProp 𝕄)
    = iprop(owns (d : Thread nD τ) sc0 fullShare (Spec.acc1 (xA m d) (tA m d) (n + 1)) ∗ owns (d : Thread nD τ) sc1 fullShare (Spec.acc2 (xA m d) (tA m d) (n + 1))) := rfl
theorem Phi_pos (n : ℕ) (h : n ≠ 0) : (Phi (U := U) m d n : sProp 𝕄)
    = iprop(owns (d : Thread nD τ) sc0 fullShare (Spec.acc1 (xA m d) (tA m d) n) ∗ owns (d : Thread nD τ) sc1 fullShare (Spec.acc2 (xA m d) (tA m d) n)) := by
  cases n with
  | zero => exact absurd rfl h
  | succ n => rfl

/-- Where the windows are idle: an input never; the scalar's window at every point but the last. -/
theorem live0 (t : Fin cfg1.N) : cfg1.idle 0 (grid1.coords t) = false := rfl
theorem live1 (t : Fin cfg1.N) : cfg1.idle 1 (grid1.coords t) = false := rfl
theorem live2 (t : Fin cfg1.N) : cfg1.idle 2 (grid1.coords t) = false := rfl
theorem live3 (t : Fin cfg1.N) : cfg1.idle 3 (grid1.coords t) = false := rfl
theorem live4 (t : Fin cfg1.N) : cfg1.idle 4 (grid1.coords t) = false := rfl
theorem idle5 (t : Fin cfg1.N) (h : t.val ≠ 17) : cfg1.idle 5 (cfg1.grid.coords t) = true := (idle5_iff t).mpr h
theorem live5 (t : Fin cfg1.N) (h : t.val = 17) : cfg1.idle 5 (cfg1.grid.coords t) = false := by
  cases hb : cfg1.idle 5 (cfg1.grid.coords t) with
  | false => rfl
  | true => exact absurd h ((idle5_iff t).mp hb)
theorem noflush5 (t : Fin cfg1.N) (h : t.val ≠ 17) : (cfg1.win 5).flush t = false := by
  have hN : t.val < 18 := lt_of_lt_of_eq t.isLt N_1
  cases hb : (cfg1.win 5).flush t with
  | false => rfl
  | true => exact absurd ((flush1_5 t).mp hb) (by omega)

/-- The accumulators' steps, in the three cases. -/
theorem eqA1 (hV3 : V3OK m d V3) (t : Fin cfg1.N) (h0 : t.val = 0) :
    new1 (blk0 d V3 t) (blk1 m d t) (blk2 m d t) (blk3 m d t) (blk4 m d t) k1_pay3 = Spec.acc1 (xA m d) (tA m d) (t.val + 1) := by
  rw [step1 m d V3 hV3, pay3_eq]
  show _ = addf (Spec.acc1 (xA m d) (tA m d) t.val) _
  rw [h0]; rfl
theorem eqA2 (hV3 : V3OK m d V3) (t : Fin cfg1.N) (h0 : t.val = 0) :
    new2 (blk0 d V3 t) (blk1 m d t) (blk2 m d t) (blk3 m d t) (blk4 m d t) k1_pay4 = Spec.acc2 (xA m d) (tA m d) (t.val + 1) := by
  rw [step2 m d V3 hV3, pay4_eq]
  show _ = addf (Spec.acc2 (xA m d) (tA m d) t.val) _
  rw [h0]; rfl
theorem eqB1 (hV3 : V3OK m d V3) (t : Fin cfg1.N) :
    new1 (blk0 d V3 t) (blk1 m d t) (blk2 m d t) (blk3 m d t) (blk4 m d t) (Spec.acc1 (xA m d) (tA m d) t.val) = Spec.acc1 (xA m d) (tA m d) (t.val + 1) := by
  rw [step1 m d V3 hV3]; rfl
theorem eqB2 (hV3 : V3OK m d V3) (t : Fin cfg1.N) :
    new2 (blk0 d V3 t) (blk1 m d t) (blk2 m d t) (blk3 m d t) (blk4 m d t) (Spec.acc2 (xA m d) (tA m d) t.val) = Spec.acc2 (xA m d) (tA m d) (t.val + 1) := by
  rw [step2 m d V3 hV3]; rfl
theorem eqC (t : Fin cfg1.N) (h17 : t.val = 17) :
    k1_pay2 (Spec.acc1 (xA m d) (tA m d) (t.val + 1)) (Spec.acc2 (xA m d) (tA m d) (t.val + 1)) = Spec.tcOut (xA m d) (tA m d) := by
  rw [h17]; rfl

/-! ### The body obligation -/

set_option maxHeartbeats 4000000 in
/-- The body at any point: the inputs' buffers hold their blocks, the accumulators what the points before left (anything
    at the first point), the scalar's buffer is handed back as found but at the last point, where it takes the scalar. -/
theorem sound_body (hV3 : V3OK m d V3) (t : Fin cfg1.N) :
    iprop((dat (U := U) m d V3 f4 q3 qx O W).Φ t.castSucc ∗ (dat (U := U) m d V3 f4 q3 qx O W).owesAt none t.castSucc
        ∗ (∃ d0, owns (d : Thread nD τ) (st1_0 t) fullShare ((dat (U := U) m d V3 f4 q3 qx O W).before 0 t d0))
        ∗ (∃ d0, owns (d : Thread nD τ) (st1_1 t) fullShare ((dat (U := U) m d V3 f4 q3 qx O W).before 1 t d0))
        ∗ (∃ d0, owns (d : Thread nD τ) (st1_2 t) fullShare ((dat (U := U) m d V3 f4 q3 qx O W).before 2 t d0))
        ∗ (∃ d0, owns (d : Thread nD τ) (st1_3 t) fullShare ((dat (U := U) m d V3 f4 q3 qx O W).before 3 t d0))
        ∗ (∃ d0, owns (d : Thread nD τ) (st1_4 t) fullShare ((dat (U := U) m d V3 f4 q3 qx O W).before 4 t d0))
        ∗ (∃ d0, owns (d : Thread nD τ) (st1_5 t) fullShare ((dat (U := U) m d V3 f4 q3 qx O W).before 5 t d0)))
      ⊢ wp frame (wpE (defs₀ (F := F)) Variants.none d none) Set.univ (bodyAt1 t) (fun _ =>
          iprop((dat (U := U) m d V3 f4 q3 qx O W).Φ t.succ ∗ (dat (U := U) m d V3 f4 q3 qx O W).owesAt none t.succ
            ∗ (dat (U := U) m d V3 f4 q3 qx O W).leavesExact 0 t ∗ (dat (U := U) m d V3 f4 q3 qx O W).leavesExact 1 t ∗ (dat (U := U) m d V3 f4 q3 qx O W).leavesExact 2 t
            ∗ (dat (U := U) m d V3 f4 q3 qx O W).leavesExact 3 t ∗ (dat (U := U) m d V3 f4 q3 qx O W).leavesExact 4 t ∗ (dat (U := U) m d V3 f4 q3 qx O W).leavesExact 5 t)) := by
  simp only [before0, before1, before2, before3, before4]
  rw [show (dat (U := U) m d V3 f4 q3 qx O W).owesAt none t.succ = (dat (U := U) m d V3 f4 q3 qx O W).owesAt none t.castSucc from rfl]
  rw [show (dat (U := U) m d V3 f4 q3 qx O W).Φ t.succ = Phi (U := U) m d (t.val + 1) from rfl, show (dat (U := U) m d V3 f4 q3 qx O W).Φ t.castSucc = Phi (U := U) m d t.val from rfl, Phi_succ]
  rw [show (dat (U := U) m d V3 f4 q3 qx O W).leavesExact 0 t = owns (d : Thread nD τ) (st1_0 t) fullShare (blk0 d V3 t) from by unfold Dat.leavesExact; rw [live0 t, after0]]
  rw [show (dat (U := U) m d V3 f4 q3 qx O W).leavesExact 1 t = owns (d : Thread nD τ) (st1_1 t) fullShare (blk1 m d t) from by unfold Dat.leavesExact; rw [live1 t, after1]]
  rw [show (dat (U := U) m d V3 f4 q3 qx O W).leavesExact 2 t = owns (d : Thread nD τ) (st1_2 t) fullShare (blk2 m d t) from by unfold Dat.leavesExact; rw [live2 t, after2]]
  rw [show (dat (U := U) m d V3 f4 q3 qx O W).leavesExact 3 t = owns (d : Thread nD τ) (st1_3 t) fullShare (blk3 m d t) from by unfold Dat.leavesExact; rw [live3 t, after3]]
  rw [show (dat (U := U) m d V3 f4 q3 qx O W).leavesExact 4 t = owns (d : Thread nD τ) (st1_4 t) fullShare (blk4 m d t) from by unfold Dat.leavesExact; rw [live4 t, after4]]
  have hN : t.val < 18 := lt_of_lt_of_eq t.isLt N_1
  by_cases h0 : t.val = 0
  · have hc1 : cond1 (grid1.coords t) := (cond1_iff t).mpr h0
    have hc2 : ¬k1_cond2 (grid1.coords t) = 1#1 := fun h => by have := (cond2_iff t).mp h; omega
    rw [Dat.leavesExact_idle (dat (U := U) m d V3 f4 q3 qx O W) 5 t (idle5 t (by omega)) (noflush5 t (by omega))]
    rw [show (Phi (U := U) m d t.val : sProp 𝕄) = Phi (U := U) m d 0 from by rw [h0], Phi0_eq]
    rw [← eqA1 m d V3 hV3 t h0, ← eqA2 m d V3 hV3 t h0]
    iintro ⟨⟨⟨%f0, HS0⟩, ⟨%f1, HS1⟩⟩, Ho, ⟨%d0, H0⟩, ⟨%d1, H1⟩, ⟨%d2, H2⟩, ⟨%d3, H3⟩, ⟨%d4, H4⟩, H5⟩
    iapply (run_A (U := U) d (grid1.coords t) _ _ _ _ _ _ _ _ _ _ _ _ _ _ _ _ hc1 hc2 (blk0 d V3 t) (blk1 m d t) (blk2 m d t) (blk3 m d t) (blk4 m d t) f0 f1 _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    iexact H5
  · by_cases h17 : t.val = 17
    · have hc1 : ¬cond1 (grid1.coords t) := fun h => h0 ((cond1_iff t).mp h)
      have hc2 : k1_cond2 (grid1.coords t) = 1#1 := (cond2_iff t).mpr h17
      rw [show (dat (U := U) m d V3 f4 q3 qx O W).leavesExact 5 t = owns (d : Thread nD τ) (st1_5 t) fullShare (fun _ => Spec.tcOut (xA m d) (tA m d)) from by
        unfold Dat.leavesExact; rw [live5 t h17, after5]]
      rw [Phi_pos m d t.val h0]
      rw [← eqC m d t h17, ← eqB1 m d V3 hV3 t, ← eqB2 m d V3 hV3 t]
      iintro ⟨⟨HS0, HS1⟩, Ho, ⟨%d0, H0⟩, ⟨%d1, H1⟩, ⟨%d2, H2⟩, ⟨%d3, H3⟩, ⟨%d4, H4⟩, ⟨%d5, H5⟩⟩
      iapply (run_C (U := U) d (grid1.coords t) _ _ _ _ _ _ _ _ _ _ _ _ _ _ _ _ hc1 hc2 (blk0 d V3 t) (blk1 m d t) (blk2 m d t) (blk3 m d t) (blk4 m d t) _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [H5]; · iexact H5
      iintro ⟨H0, H1, H2, H3, H4, HS0, HS1, H5⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1 (grid1.coords t) := fun h => h0 ((cond1_iff t).mp h)
      have hc2 : ¬k1_cond2 (grid1.coords t) = 1#1 := fun h => h17 ((cond2_iff t).mp h)
      rw [Dat.leavesExact_idle (dat (U := U) m d V3 f4 q3 qx O W) 5 t (idle5 t h17) (noflush5 t h17)]
      rw [Phi_pos m d t.val h0]
      rw [← eqB1 m d V3 hV3 t, ← eqB2 m d V3 hV3 t]
      iintro ⟨⟨HS0, HS1⟩, Ho, ⟨%d0, H0⟩, ⟨%d1, H1⟩, ⟨%d2, H2⟩, ⟨%d3, H3⟩, ⟨%d4, H4⟩, H5⟩
      iapply (run_B (U := U) d (grid1.coords t) _ _ _ _ _ _ _ _ _ _ _ _ _ _ _ _ hc1 hc2 (blk0 d V3 t) (blk1 m d t) (blk2 m d t) (blk3 m d t) (blk4 m d t) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (hV3 : V3OK m d V3) : BodyObligation (dat (U := U) m d V3 f4 q3 qx O W) (defs₀ (F := F)) Variants.none none Set.univ := fun t => by
  rw [Gen.bigSep_W1, Gen.bigSep_W1]
  exact sound_body m d V3 f4 q3 qx O W hV3 t

end Data

end Cert.KernelIdeal.Tc

end
-- ==== Proof.KernelIdeal.TcRegion.lean ====
/-
  The TensorCore pallas_call of the program as ONE step of @main on the TensorCore thread: the pipeline's region entered
  from the thread state that holds the column words' block array, the table and the scalar's array, and left with the
  scalar's array at `Spec.tcOut`. The table is one array under four windows: its share is split into four read tokens
  at entry and joined back at exit.
-/
import proofs.«213812_g11871289606185_cont_fleet_226_25_alg».proof.Proof.KernelIdeal.Iface
import proofs.«213812_g11871289606185_cont_fleet_226_25_alg».proof.Proof.KernelIdeal.SkeletonP
import proofs.«213812_g11871289606185_cont_fleet_226_25_alg».proof.Proof.Gen.KernelIdeal.Launch
import proofs.«213812_g11871289606185_cont_fleet_226_25_alg».proof.Proof.Gen.KernelIdeal.Points
import Idealize.ShloMosaic.Lib.Pipeline.Regions
import Idealize.ShloMosaic.Lib.Tactic
import Idealize.ShloMosaic.Lib.Pipeline.Frame
import Idealize.ShloMosaic.Lib.Pipeline.FrameBody
import Idealize.ShloMosaic.Lib.Pipeline.Value
import proofs.«213812_g11871289606185_cont_fleet_226_25_alg».proof.Proof.KernelIdeal.TcDat

set_option maxRecDepth 16384

noncomputable section

namespace Cert.KernelIdeal.Tc

open Cert.KernelIdeal Cert.KernelIdeal.Gen Cert.KernelIdeal.GenP Cert.KernelIdeal.Iface
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] {U : Type} [URA U]

local notation "𝕄" => MT nD τ sig (HIx 1) (Elt F) ℕ U ℕ

/-! ## The region as one step of @main on the TensorCore -/

section Region

variable (m : (ℓ : Loc nD τ sig) → Buf (Elt F) ℓ) (d : Dev nD) (V3 : Buf (Elt F) (v3Loc d)) (f4 : Buf (Elt F) (v4Loc d))
  (q3 qx : PosShare TreeShare) (O : CellTallies nD τ sig (HIx 1)) (W : Waits sig (HIx 1))

/-- No pipeline has a prefetched table: the one admissible contents. -/
abbrev adm : (p : Fin 1) → (pcfgs (F := F) p).Adm := fun p => (cfgs p).toPCfg_adm

/-- The proof data on every core: there is one core. -/
def pdats : (p : Fin 1) → (c : Dev nD) → Dat τ (Elt F) (HIx 1) ℕ U ℕ (Pipeline.pin (pcfgs (F := F)) adm p) c :=
  fun _ c => (Subsingleton.elim d c) ▸ dat (U := U) m d V3 f4 q3 qx O W

/-- What the region is entered from: the column words' block array and the table at the shares held, the scalar's
    array at anything, what the core owes. -/
def preT : sProp 𝕄 :=
  iprop((v3Loc d ↦{q3} V3) ∗ (xLoc d ↦{qx} m (xLoc d)) ∗ (v4Loc d ↦{fullShare} f4) ∗ owes (SparseCore.T d) O W)

/-- What it leaves: the same, the scalar's array at `Spec.tcOut`, the core owing what it owed, its newly recorded pairs at
    index `none`. -/
def postT : sProp 𝕄 :=
  iprop((v3Loc d ↦{q3} V3) ∗ (xLoc d ↦{qx} m (xLoc d)) ∗ (v4Loc d ↦{fullShare} fun _ => Spec.tcOut (xA m d) (tA m d))
    ∗ ∃ W', ⌜∀ p ∈ W', p ∈ W ∨ p.2 = none⌝ ∗ owes (SparseCore.T d) O W')

/-- What bypasses the region: the table's share less the four read tokens its windows hold. -/
def ZT : sProp 𝕄 := xLoc d ↦{Transfers.shareDrop qx 4} m (xLoc d)

/-- The windows' arrays, one by one: the column words' blocks, the table under its four windows at four read tokens,
    the scalar's array. -/
theorem arrays_eq (G : (w : Fin cfg1.W) → Buf (Elt F) ((cfg1.win w).arr.view.loc (d.tc : Thread nD τ))) :
    ((dat (U := U) m d V3 f4 q3 qx O W).arrays G : sProp 𝕄)
      = iprop((v3Loc d ↦{q3} G 0) ∗ (xLoc d ↦{Transfers.shareTok qx 4 0} G 1) ∗ (xLoc d ↦{Transfers.shareTok qx 4 1} G 2)
        ∗ (xLoc d ↦{Transfers.shareTok qx 4 2} G 3) ∗ (xLoc d ↦{Transfers.shareTok qx 4 3} G 4) ∗ (v4Loc d ↦{fullShare} G 5)) := by
  unfold Dat.arrays; rw [Gen.bigSep_W1]
  show iprop((View.loc (d.tc : Thread nD τ) (View.whole main_v3) ↦[(View.whole main_v3 : View sig .tc _ _ _).set]{q3} G 0)
    ∗ (View.loc (d.tc : Thread nD τ) (View.whole main_arg0) ↦[(View.whole main_arg0 : View sig .tc _ _ _).set]{Transfers.shareTok qx 4 0} G 1)
    ∗ (View.loc (d.tc : Thread nD τ) (View.whole main_arg0) ↦[(View.whole main_arg0 : View sig .tc _ _ _).set]{Transfers.shareTok qx 4 1} G 2)
    ∗ (View.loc (d.tc : Thread nD τ) (View.whole main_arg0) ↦[(View.whole main_arg0 : View sig .tc _ _ _).set]{Transfers.shareTok qx 4 2} G 3)
    ∗ (View.loc (d.tc : Thread nD τ) (View.whole main_arg0) ↦[(View.whole main_arg0 : View sig .tc _ _ _).set]{Transfers.shareTok qx 4 3} G 4)
    ∗ (View.loc (d.tc : Thread nD τ) (View.whole main_v4) ↦[(View.whole main_v4 : View sig .tc _ _ _).set]{fullShare} G 5)) = _
  simp only [View.set_whole]

/-- Four read tokens, one by one. -/
theorem toks4 (ℓ : Loc nD τ sig) (f : Buf (Elt F) ℓ) :
    (bigSep Finset.univ (fun i : Fin 4 => (ℓ ↦{Transfers.shareTok qx 4 i} f : sProp 𝕄)))
      = iprop((ℓ ↦{Transfers.shareTok qx 4 0} f) ∗ (ℓ ↦{Transfers.shareTok qx 4 1} f) ∗ (ℓ ↦{Transfers.shareTok qx 4 2} f) ∗ (ℓ ↦{Transfers.shareTok qx 4 3} f)) :=
  bigSep_univ_eq_bigSepL [(0 : Fin 4), 1, 2, 3] (by decide) (by decide) _

/-- ENTRY: the table's share split into the windows' four tokens and the rest. -/
theorem hentry_d :
    iprop(preT (U := U) m d V3 f4 q3 qx O W)
      ⊢ iprop((dat (U := U) m d V3 f4 q3 qx O W).arrays ((dat (U := U) m d V3 f4 q3 qx O W).arrAt · 0)
        ∗ (dat (U := U) m d V3 f4 q3 qx O W).owesAt none 0 ∗ ZT (U := U) m d qx) := by
  rw [arrays_eq]
  unfold preT ZT
  iintro ⟨H3, Hx, H4, Ho⟩
  ihave Hx := (Transfers.pointsTo_toks_split qx 4) $$ Hx
  rw [toks4]
  icases Hx with ⟨Hr, Ht0, Ht1, Ht2, Ht3⟩
  isplitl [H3 Ht0 Ht1 Ht2 Ht3 H4]
  · isplitl [H3]; · iexact H3
    isplitl [Ht0]; · iexact Ht0
    isplitl [Ht1]; · iexact Ht1
    isplitl [Ht2]; · iexact Ht2
    isplitl [Ht3]; · iexact Ht3
    iexact H4
  isplitl [Ho]
  · unfold Pipeline.Dat.owesAt Pipeline.owesWithin
    iexists W; isplitr
    · ipureintro; exact fun p hp => Or.inl hp
    iexact Ho
  iexact Hr

/-! ### The arrays at the region's exit -/

theorem arrAt0 (n : ℕ) : (dat (U := U) m d V3 f4 q3 qx O W).arrAt 0 n = V3 := (dat (U := U) m d V3 f4 q3 qx O W).arrAt_in 0 rfl n
theorem arrAt1 (n : ℕ) : (dat (U := U) m d V3 f4 q3 qx O W).arrAt 1 n = m (xLoc d) := (dat (U := U) m d V3 f4 q3 qx O W).arrAt_in 1 rfl n
theorem arrAt2 (n : ℕ) : (dat (U := U) m d V3 f4 q3 qx O W).arrAt 2 n = m (xLoc d) := (dat (U := U) m d V3 f4 q3 qx O W).arrAt_in 2 rfl n
theorem arrAt3 (n : ℕ) : (dat (U := U) m d V3 f4 q3 qx O W).arrAt 3 n = m (xLoc d) := (dat (U := U) m d V3 f4 q3 qx O W).arrAt_in 3 rfl n
theorem arrAt4 (n : ℕ) : (dat (U := U) m d V3 f4 q3 qx O W).arrAt 4 n = m (xLoc d) := (dat (U := U) m d V3 f4 q3 qx O W).arrAt_in 4 rfl n

/-- The scalar's window is the whole 1×1 array at every point. -/
theorem mem5 (t : Fin cfg1.N) (i : S1x1.Idx) : i ∈ ((cfg1.win 5).blk t).view.set := by
  rw [show ((cfg1.win 5).blk t).view.set = ((cfg1.win 5).rect t).set from View.set_slice_whole _ _]
  refine Rect.mem_set_unit.mpr fun a => ?_
  fin_cases a
  · exact ⟨Nat.zero_le _, (i 0).isLt⟩
  · exact ⟨Nat.zero_le _, (i 1).isLt⟩

/-- The scalar's array after the one write-back, at the last point. -/
theorem arrAt5 : (dat (U := U) m d V3 f4 q3 qx O W).arrAt 5 cfg1.N = fun _ => Spec.tcOut (xA m d) (tA m d) :=
  (dat (U := U) m d V3 f4 q3 qx O W).arrAt_eq_of_cover 5 (fun _ => Spec.tcOut (xA m d) (tA m d)) (fun t _ => rfl)
    (fun i => ⟨⟨17, by decide⟩, (flush1_5 _).mpr (by decide), mem5 _ i⟩)

/-- EXIT: the table's tokens joined back; the recorded pairs are the entry's or the loop's own, at index `none`. -/
theorem hexit_d :
    iprop((dat (U := U) m d V3 f4 q3 qx O W).arrays ((dat (U := U) m d V3 f4 q3 qx O W).arrAt · cfg1.N) ∗ (dat (U := U) m d V3 f4 q3 qx O W).owesAt none (Fin.last cfg1.N) ∗ ZT (U := U) m d qx)
      ⊢ postT (U := U) m d V3 q3 qx O W := by
  rw [arrays_eq]
  show iprop(((v3Loc d ↦{q3} (dat (U := U) m d V3 f4 q3 qx O W).arrAt 0 cfg1.N) ∗ (xLoc d ↦{Transfers.shareTok qx 4 0} (dat (U := U) m d V3 f4 q3 qx O W).arrAt 1 cfg1.N)
    ∗ (xLoc d ↦{Transfers.shareTok qx 4 1} (dat (U := U) m d V3 f4 q3 qx O W).arrAt 2 cfg1.N) ∗ (xLoc d ↦{Transfers.shareTok qx 4 2} (dat (U := U) m d V3 f4 q3 qx O W).arrAt 3 cfg1.N)
    ∗ (xLoc d ↦{Transfers.shareTok qx 4 3} (dat (U := U) m d V3 f4 q3 qx O W).arrAt 4 cfg1.N) ∗ (v4Loc d ↦{fullShare} (dat (U := U) m d V3 f4 q3 qx O W).arrAt 5 cfg1.N)) ∗ _ ∗ _) ⊢ _
  rw [arrAt0, arrAt1, arrAt2, arrAt3, arrAt4, arrAt5]
  unfold postT ZT
  iintro ⟨⟨H3, Ht0, Ht1, Ht2, Ht3, H4⟩, Ho, Hr⟩
  ihave Hx := (Transfers.pointsTo_toks_join qx 4) $$ [Hr Ht0 Ht1 Ht2 Ht3]
  · isplitl [Hr]; · iexact Hr
    rw [toks4]
    isplitl [Ht0]; · iexact Ht0
    isplitl [Ht1]; · iexact Ht1
    isplitl [Ht2]; · iexact Ht2
    iexact Ht3
  isplitl [H3]; · iexact H3
  isplitl [Hx]; · iexact Hx
  isplitl [H4]; · iexact H4
  unfold Pipeline.Dat.owesAt Pipeline.owesWithin
  icases Ho with ⟨%W', %hW', Ho⟩
  iexists W'; isplitr
  · ipureintro
    intro p hp
    rcases hW' (Finset.mem_coe.mpr hp) with h | ⟨w, s, rfl⟩
    · exact Or.inl (Finset.mem_coe.mp h)
    · exact Or.inr rfl
  iexact Ho

/-! ### The region's record and its step -/

set_option backward.isDefEq.respectTransparency.types false in
/-- THE REGION: the pipeline's layout, no semaphore of the kernel's own, the body obligation, the wait evidence (the
    loop's waits are recorded at index `none`, below everything the core owes), and the four entailments around the
    thread states `preT` / `postT`. -/
def region (hV3 : V3OK m d V3) (hO : ∀ g, O g none = 0) :
    Pipeline.RegionSeg (pcfgs (F := F)) adm (pdats (U := U) m d V3 f4 q3 qx O W) none (defs₀ (F := F)) 𝒱₀
      (K (F := F)).L (K (F := F)).lev 0 where
  win := Gen.winFacts₀1
  block_pos := Gen.block_pos1
  stage_whole := Gen.stage_whole1
  K := PEmpty
  osem := fun k => k.elim
  ho := Pipeline.OwnSemFacts.none _
  hbody c := by
    obtain rfl := Subsingleton.elim d c
    exact (body_obligation m d V3 f4 q3 qx O W hV3).loose
  hwaits c := Pipeline.cellsWaits_intro (Pipeline.pin (pcfgs (F := F)) adm) (pdats (U := U) m d V3 f4 q3 qx O W) none 0 c fun w s t => by
    obtain rfl := Subsingleton.elim d c
    exact (K (F := F)).mayWait_none _ hO
  pre _ := preT (U := U) m d V3 f4 q3 qx O W
  post _ := postT (U := U) m d V3 q3 qx O W
  X _ := iprop(emp)
  Y _ := iprop(emp)
  Z _ := ZT (U := U) m d qx
  hentry c := by
    obtain rfl := Subsingleton.elim d c
    iintro ⟨Hpre, -, -⟩
    ihave H := (hentry_d (U := U) m d V3 f4 q3 qx O W) $$ Hpre
    icases H with ⟨Ha, HO, HZ⟩
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    iexact HZ
  hin c := by
    obtain rfl := Subsingleton.elim d c
    show _ ⊢ (Phi (U := U) m d 0 : sProp 𝕄)
    unfold Phi
    iintro ⟨-, -, Hr⟩
    iexact Hr
  hout c := by
    obtain rfl := Subsingleton.elim d c
    show (Phi (U := U) m d (17 + 1) : sProp 𝕄) ⊢ _
    rw [Phi_succ m d 17, Pipeline.ownSems0_none, Gen.scopedRest1_eq, owns_whole, owns_whole]
    iintro ⟨H0, H1⟩
    isplitr; · iempintro
    isplitr; · iempintro
    isplitl [H0]; · iexists _; iexact H0
    iexists _; iexact H1
  hexit c := by
    obtain rfl := Subsingleton.elim d c
    iintro ⟨Ha, HO, -, HZ⟩
    imodintro
    iapply (hexit_d (U := U) m d V3 f4 q3 qx O W)
    isplitl [Ha]; · iexact Ha
    isplitl [HO]; · iexact HO
    iexact HZ

end Region

set_option maxHeartbeats 1000000 in
set_option backward.isDefEq.respectTransparency.types false in
/-- **The TensorCore region, as @main runs it.** From the region boundary, the level facts, pipeline 0's ghost state and duty
    tokens on core `d`, the column words' block array and the table at any shares, the scalar's array at anything, and
    what the core owes (nothing at index `none`), the call runs to the boundary, the two arrays as they were, the
    scalar's array at `Spec.tcOut` of the table and the column words, the core owing what it owed, its newly recorded
    pairs at index `none`. -/
theorem tc_region (EP : Emb (URounds (GSem nD τ sig) Unit) 𝕄) [EP.LandsIn (upEmb : UEmb _ 𝕄)]
    (m : (ℓ : Loc nD τ sig) → Buf (Elt F) ℓ) (d : Dev nD) (q3 qx : PosShare TreeShare)
    (V3 : Buf (Elt F) (v3Loc d)) (f4 : Buf (Elt F) (v4Loc d)) (hV3 : V3OK m d V3)
    (O : CellTallies nD τ sig (HIx 1)) (W : Waits sig (HIx 1)) (hO : ∀ g, O g none = 0) :
    iprop(boundary (SparseCore.T d) ∗ levAts (K (F := F)).L (K (F := F)).lev
        ∗ Pipeline.cellsGhost cfgs EP 0 d ∗ Pipeline.toksInit cfgs EP 0 d
        ∗ (v3Loc d ↦{q3} V3) ∗ (xLoc d ↦{qx} m (xLoc d)) ∗ (v4Loc d ↦{fullShare} f4) ∗ owes (SparseCore.T d) O W)
      ⊢ (wp frame (wpE ((K (F := F)).defs (D (F := F))) 𝒱 (SparseCore.T d) none) Set.univ
          (Prog.lift (.customCall (SparseCore.inner (Pipeline.entry 0)) ()))
          fun _ => iprop(boundary (SparseCore.T d) ∗ (v3Loc d ↦{q3} V3) ∗ (xLoc d ↦{qx} m (xLoc d))
            ∗ (v4Loc d ↦{fullShare} fun _ => Spec.tcOut (m (xLoc d)) (m (tLoc d)))
            ∗ ∃ W', ⌜∀ p ∈ W', p ∈ W ∨ p.2 = none⌝ ∗ owes (SparseCore.T d) O W') : sProp 𝕄) := by
  have hR := Pipeline.RegionSeg.wp (pcfgs (F := F)) adm (pdats (U := U) m d V3 f4 q3 qx O W) none Gen.cellOf_inj EP (defs₀ (F := F)) 𝒱₀
    (K (F := F)).L (K (F := F)).lev (region (U := U) m d V3 f4 q3 qx O W hV3 hO) d none (fun _ h => by cases h) (α := PUnit) (fun _ => Prog.ret PUnit.unit)
    (fun _ => iprop(boundary (SparseCore.T d) ∗ postT (U := U) m d V3 q3 qx O W))
  have hL := (K (F := F)).wp_liftProg (D (F := F)) 𝒱 (SparseCore.T d) (Name := ℕ) (U := U) Set.univ none (Prog.lift (.customCall (Pipeline.entry 0) ()))
    (fun _ => iprop(boundary (SparseCore.T d) ∗ postT (U := U) m d V3 q3 qx O W))
  refine BIBase.Entails.trans ?_ (hR.trans hL)
  iintro ⟨Hbd, #Hla, Hg, Ht, H3, Hx, H4, Ho⟩
  isplitr
  · iintro ⟨Hbd, Hpost⟩
    dsimp only
    rw [wp_ret]; imodintro
    isplitl [Hbd]; · iexact Hbd
    iapply (show (region (U := U) m d V3 f4 q3 qx O W hV3 hO).post d ⊢ postT (U := U) m d V3 q3 qx O W from .rfl)
    iexact Hpost
  isplitl [Hbd]; · iexact Hbd
  isplitl [H3 Hx H4 Ho]
  · iapply (show preT (U := U) m d V3 f4 q3 qx O W ⊢ (region (U := U) m d V3 f4 q3 qx O W hV3 hO).pre d from .rfl)
    unfold preT
    isplitl [H3]; · iexact H3
    isplitl [Hx]; · iexact Hx
    isplitl [H4]; · iexact H4
    iexact Ho
  isplitr; · iexact Hla
  isplitl [Hg]; · iexact Hg
  iexact Ht

end Cert.KernelIdeal.Tc

end
-- ==== Proof.Kernel.TcBody.lean ====
/-
  The TensorCore kernel's body at one grid point, on whole staging buffers: what it leaves in the two accumulators and,
  at the last point, in the scalar's buffer — in the three cases of its two conditionals (first point, a middle point,
  last point) —, then the same arithmetic read in `Spec`'s words, and the grid's closed forms (which points take which
  branch, which block each window is on).
-/
import proofs.«213812_g11871289606185_cont_fleet_226_25_alg».proof.Proof.Kernel.Iface
import proofs.«213812_g11871289606185_cont_fleet_226_25_alg».proof.Proof.Kernel.SkeletonP
import proofs.«213812_g11871289606185_cont_fleet_226_25_alg».proof.Proof.Gen.Kernel.Launch
import proofs.«213812_g11871289606185_cont_fleet_226_25_alg».proof.Proof.Gen.Kernel.Points
import Idealize.ShloMosaic.Lib.Pipeline.Regions
import Idealize.ShloMosaic.Lib.Tactic
import Idealize.ShloMosaic.Lib.Pipeline.Frame
import Idealize.ShloMosaic.Lib.Pipeline.FrameBody
import Idealize.ShloMosaic.Lib.Pipeline.Value

set_option maxRecDepth 16384

noncomputable section

namespace Cert.Kernel.Tc

open Cert.Kernel Cert.Kernel.Gen Cert.Kernel.GenP Cert.Kernel.Iface
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] {U : Type} [URA U]

local notation "𝕄" => MT nD τ sig (HIx 1) (Elt F) ℕ U ℕ

/-! ## Whole staging buffers: what a load reads and what a store leaves -/

section Whole

variable {sig' : RefSig} {κ : Kind} {sp : Space} {S : Shape} {e : EltTy} {Val : EltTy → Type}

/-- A load through a whole memref held at the contents that read as `X` reads `X` through the load's coordinates. -/
theorem readAt_unread {m : Memref sig' κ sp S e} (h : m.IsWhole) (X : S.Idx → Val e) (r : Rect S) :
    m.view.readAt Val r.toLoadRect (h.unread X) = View.ld X r := by
  funext x; rw [View.readAt_apply, h.read_unread]

/-- The zero offsets, as the printed program spells them. -/
theorem zz2 : (![0, 0] : Fin 2 → ℕ) = fun _ => 0 := by decide

/-- One store through the whole-shape rectangle at zero offsets leaves its payload. -/
theorem read_writes_unit_zero (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f (⟨Rect.unit off S.size inb, w⟩ :: L)) = w := by
  subst h; funext y
  have h := View.read_writes_cons_emb v f (Rect.whole S) w L y
  rwa [Rect.emb_whole_apply] at h

end Whole

/-! ## The point's arithmetic over what the staging buffers hold -/

/-- The first branch's condition: the grid coordinate is 0. -/
abbrev cond1 (i : grid1.Coords) : Prop := (Scalar.cmpi .ne (Scalar.extui (Scalar.cmpi .eq (BitVec.ofNat 32 (i 0).val) 0#32)) 0#32) = 1#1

/-- Stream `k`'s 2048 column words, out of the staged 1×4×2048 block. -/
abbrev row0 (T0 : Vec F S1x4x2048 .i32) : Vec F S1x1x2048 .i32 := View.ld T0 (Rect.unit (s := S1x4x2048) ![0, 0, 0] S1x1x2048.size inb_S1x4x2048_S1x1x2048_0_0_0)
abbrev row1 (T0 : Vec F S1x4x2048 .i32) : Vec F S1x1x2048 .i32 := View.ld T0 (Rect.unit (s := S1x4x2048) ![0, 1, 0] S1x1x2048.size inb_S1x4x2048_S1x1x2048_0_1_0)
abbrev row2 (T0 : Vec F S1x4x2048 .i32) : Vec F S1x1x2048 .i32 := View.ld T0 (Rect.unit (s := S1x4x2048) ![0, 2, 0] S1x1x2048.size inb_S1x4x2048_S1x1x2048_0_2_0)
abbrev row3 (T0 : Vec F S1x4x2048 .i32) : Vec F S1x1x2048 .i32 := View.ld T0 (Rect.unit (s := S1x4x2048) ![0, 3, 0] S1x1x2048.size inb_S1x4x2048_S1x1x2048_0_3_0)

abbrev v3c : IVec S2048x170 32 := iota .tc S2048x170 32 [1] iota_S2048x170_d1_w32

/-- What a point leaves in the first accumulator, from what it found there (`s1`) and the staged blocks. -/
def new1 (T0 : Vec F S1x4x2048 .i32) (X1 X2 X3 X4 : Vec F S2048x170 .f32) (s1 : Vec F S8x170 .f32) : Vec F S8x170 .f32 :=
  k1_pay11 v3c (k1_pay7 X1 (row0 T0) X2 (row1 T0)) X3 (row2 T0) X4 (row3 T0) s1
/-- and in the second. -/
def new2 (T0 : Vec F S1x4x2048 .i32) (X1 X2 X3 X4 : Vec F S2048x170 .f32) (s2 : Vec F S8x170 .f32) : Vec F S8x170 .f32 :=
  k1_pay1 (k1_pay12 v3c (k1_pay8 X1 (row0 T0) X2 (row1 T0)) X3 (row2 T0) X4 (row3 T0) s2)

set_option maxHeartbeats 2000000 in
/-- The body at the first point: both accumulators zeroed, then updated. -/
theorem run_A (c : Dev nD) (i : grid1.Coords) (arg1 : Memref sig .tc .vmem S1x4x2048 .i32) (harg1 : arg1.IsWhole) (arg2 : Memref sig .tc .vmem S2048x170 .f32) (harg2 : arg2.IsWhole) (arg3 : Memref sig .tc .vmem S2048x170 .f32) (harg3 : arg3.IsWhole) (arg4 : Memref sig .tc .vmem S2048x170 .f32) (harg4 : arg4.IsWhole) (arg5 : Memref sig .tc .vmem S2048x170 .f32) (harg5 : arg5.IsWhole) (arg6 : Memref sig .tc .smem S1x1 .f32) (harg6 : arg6.IsWhole) (arg7 : Memref sig .tc .vmem S8x170 .f32) (harg7 : arg7.IsWhole) (arg8 : Memref sig .tc .vmem S8x170 .f32) (harg8 : arg8.IsWhole) (h1 : cond1 i) (h2 : ¬k1_cond2 i = 1#1)
    (T0 : Vec F S1x4x2048 .i32) (X1 X2 X3 X4 : Vec F S2048x170 .f32) (s1 s2 : Vec F S8x170 .f32) (Kc : PUnit → sProp 𝕄) :
    iprop(owns (c : Thread nD τ) arg1 fullShare T0 ∗ owns (c : Thread nD τ) arg2 fullShare X1 ∗ owns (c : Thread nD τ) arg3 fullShare X2
        ∗ owns (c : Thread nD τ) arg4 fullShare X3 ∗ owns (c : Thread nD τ) arg5 fullShare X4
        ∗ owns (c : Thread nD τ) arg7 fullShare s1 ∗ owns (c : Thread nD τ) arg8 fullShare s2
        ∗ (iprop(owns (c : Thread nD τ) arg1 fullShare T0 ∗ owns (c : Thread nD τ) arg2 fullShare X1 ∗ owns (c : Thread nD τ) arg3 fullShare X2
        ∗ owns (c : Thread nD τ) arg4 fullShare X3 ∗ owns (c : Thread nD τ) arg5 fullShare X4
        ∗ owns (c : Thread nD τ) arg7 fullShare (new1 T0 X1 X2 X3 X4 k1_pay3) ∗ owns (c : Thread nD τ) arg8 fullShare (new2 T0 X1 X2 X3 X4 k1_pay4)) -∗ Kc ⟨⟩))
      ⊢ (wp frame (wpE (defs₀ (F := F)) Variants.none c none) Set.univ (cc1__tc_body i arg1 harg1 arg2 harg2 arg3 harg3 arg4 harg4 arg5 harg5 arg6 harg6 arg7 harg7 arg8 harg8) Kc : sProp 𝕄) := by
  simp only [cc1__tc_body_eq_skeleton]; unfold cc1__tc_body_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg7.eq_unread hf7; obtain rfl := harg8.eq_unread hf8
  sl_exec (disch := first | exact h1 | exact h2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H7]
  · iexists _; isplitr
    swap; · iexact H7
    ipureintro
    sl_unfold_run_names
    rw [read_writes_unit_zero _ _ zz2]
    simp only [readAt_unread, View.readCov_unit_zero (S := S8x170) _ zz2]
    unfold new1
    simp only [View.ld_unit_zero (S := S2048x170) zz2, View.ld_unit_zero (S := S8x170) zz2]
  · iexists _; isplitr
    swap; · iexact H8
    ipureintro
    sl_unfold_run_names
    rw [read_writes_unit_zero _ _ zz2]
    simp only [readAt_unread, View.readCov_unit_zero (S := S8x170) _ zz2]
    unfold new2
    simp only [View.ld_unit_zero (S := S2048x170) zz2, View.ld_unit_zero (S := S8x170) zz2]

set_option maxHeartbeats 2000000 in
/-- The body at a point that is neither the first nor the last: both accumulators updated, nothing else touched. -/
theorem run_B (c : Dev nD) (i : grid1.Coords) (arg1 : Memref sig .tc .vmem S1x4x2048 .i32) (harg1 : arg1.IsWhole) (arg2 : Memref sig .tc .vmem S2048x170 .f32) (harg2 : arg2.IsWhole) (arg3 : Memref sig .tc .vmem S2048x170 .f32) (harg3 : arg3.IsWhole) (arg4 : Memref sig .tc .vmem S2048x170 .f32) (harg4 : arg4.IsWhole) (arg5 : Memref sig .tc .vmem S2048x170 .f32) (harg5 : arg5.IsWhole) (arg6 : Memref sig .tc .smem S1x1 .f32) (harg6 : arg6.IsWhole) (arg7 : Memref sig .tc .vmem S8x170 .f32) (harg7 : arg7.IsWhole) (arg8 : Memref sig .tc .vmem S8x170 .f32) (harg8 : arg8.IsWhole) (h1 : ¬cond1 i) (h2 : ¬k1_cond2 i = 1#1)
    (T0 : Vec F S1x4x2048 .i32) (X1 X2 X3 X4 : Vec F S2048x170 .f32) (s1 s2 : Vec F S8x170 .f32) (Kc : PUnit → sProp 𝕄) :
    iprop(owns (c : Thread nD τ) arg1 fullShare T0 ∗ owns (c : Thread nD τ) arg2 fullShare X1 ∗ owns (c : Thread nD τ) arg3 fullShare X2
        ∗ owns (c : Thread nD τ) arg4 fullShare X3 ∗ owns (c : Thread nD τ) arg5 fullShare X4
        ∗ owns (c : Thread nD τ) arg7 fullShare s1 ∗ owns (c : Thread nD τ) arg8 fullShare s2
        ∗ (iprop(owns (c : Thread nD τ) arg1 fullShare T0 ∗ owns (c : Thread nD τ) arg2 fullShare X1 ∗ owns (c : Thread nD τ) arg3 fullShare X2
        ∗ owns (c : Thread nD τ) arg4 fullShare X3 ∗ owns (c : Thread nD τ) arg5 fullShare X4
        ∗ owns (c : Thread nD τ) arg7 fullShare (new1 T0 X1 X2 X3 X4 s1) ∗ owns (c : Thread nD τ) arg8 fullShare (new2 T0 X1 X2 X3 X4 s2)) -∗ Kc ⟨⟩))
      ⊢ (wp frame (wpE (defs₀ (F := F)) Variants.none c none) Set.univ (cc1__tc_body i arg1 harg1 arg2 harg2 arg3 harg3 arg4 harg4 arg5 harg5 arg6 harg6 arg7 harg7 arg8 harg8) Kc : sProp 𝕄) := by
  simp only [cc1__tc_body_eq_skeleton]; unfold cc1__tc_body_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg7.eq_unread hf7; obtain rfl := harg8.eq_unread hf8
  sl_exec (disch := first | exact h1 | exact h2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H7]
  · iexists _; isplitr
    swap; · iexact H7
    ipureintro
    sl_unfold_run_names
    rw [read_writes_unit_zero _ _ zz2]
    simp only [readAt_unread, View.readCov_unit_zero (S := S8x170) _ zz2]
    unfold new1
    simp only [View.ld_unit_zero (S := S2048x170) zz2, View.ld_unit_zero (S := S8x170) zz2]
  · iexists _; isplitr
    swap; · iexact H8
    ipureintro
    sl_unfold_run_names
    rw [read_writes_unit_zero _ _ zz2]
    simp only [readAt_unread, View.readCov_unit_zero (S := S8x170) _ zz2]
    unfold new2
    simp only [View.ld_unit_zero (S := S2048x170) zz2, View.ld_unit_zero (S := S8x170) zz2]

set_option maxHeartbeats 2000000 in
/-- The body at the last point: both accumulators updated, then the scalar written from them. -/
theorem run_C (c : Dev nD) (i : grid1.Coords) (arg1 : Memref sig .tc .vmem S1x4x2048 .i32) (harg1 : arg1.IsWhole) (arg2 : Memref sig .tc .vmem S2048x170 .f32) (harg2 : arg2.IsWhole) (arg3 : Memref sig .tc .vmem S2048x170 .f32) (harg3 : arg3.IsWhole) (arg4 : Memref sig .tc .vmem S2048x170 .f32) (harg4 : arg4.IsWhole) (arg5 : Memref sig .tc .vmem S2048x170 .f32) (harg5 : arg5.IsWhole) (arg6 : Memref sig .tc .smem S1x1 .f32) (harg6 : arg6.IsWhole) (arg7 : Memref sig .tc .vmem S8x170 .f32) (harg7 : arg7.IsWhole) (arg8 : Memref sig .tc .vmem S8x170 .f32) (harg8 : arg8.IsWhole) (h1 : ¬cond1 i) (h2 : k1_cond2 i = 1#1)
    (T0 : Vec F S1x4x2048 .i32) (X1 X2 X3 X4 : Vec F S2048x170 .f32) (s1 s2 : Vec F S8x170 .f32) (o : Vec F S1x1 .f32) (Kc : PUnit → sProp 𝕄) :
    iprop(owns (c : Thread nD τ) arg1 fullShare T0 ∗ owns (c : Thread nD τ) arg2 fullShare X1 ∗ owns (c : Thread nD τ) arg3 fullShare X2
        ∗ owns (c : Thread nD τ) arg4 fullShare X3 ∗ owns (c : Thread nD τ) arg5 fullShare X4
        ∗ owns (c : Thread nD τ) arg7 fullShare s1 ∗ owns (c : Thread nD τ) arg8 fullShare s2
        ∗ owns (c : Thread nD τ) arg6 fullShare o
        ∗ (iprop(owns (c : Thread nD τ) arg1 fullShare T0 ∗ owns (c : Thread nD τ) arg2 fullShare X1 ∗ owns (c : Thread nD τ) arg3 fullShare X2
        ∗ owns (c : Thread nD τ) arg4 fullShare X3 ∗ owns (c : Thread nD τ) arg5 fullShare X4
        ∗ owns (c : Thread nD τ) arg7 fullShare (new1 T0 X1 X2 X3 X4 s1) ∗ owns (c : Thread nD τ) arg8 fullShare (new2 T0 X1 X2 X3 X4 s2)
        ∗ owns (c : Thread nD τ) arg6 fullShare (fun _ => k1_pay2 (new1 T0 X1 X2 X3 X4 s1) (new2 T0 X1 X2 X3 X4 s2))) -∗ Kc ⟨⟩))
      ⊢ (wp frame (wpE (defs₀ (F := F)) Variants.none c none) Set.univ (cc1__tc_body i arg1 harg1 arg2 harg2 arg3 harg3 arg4 harg4 arg5 harg5 arg6 harg6 arg7 harg7 arg8 harg8) Kc : sProp 𝕄) := by
  simp only [cc1__tc_body_eq_skeleton]; unfold cc1__tc_body_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg7.eq_unread hf7; obtain rfl := harg8.eq_unread hf8; obtain rfl := harg6.eq_unread hf6
  sl_exec (disch := first | exact h1 | exact h2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H7]
  · iexists _; isplitr
    swap; · iexact H7
    ipureintro
    sl_unfold_run_names
    rw [read_writes_unit_zero _ _ zz2]
    simp only [readAt_unread, View.readCov_unit_zero (S := S8x170) _ zz2]
    unfold new1
    simp only [View.ld_unit_zero (S := S2048x170) zz2, View.ld_unit_zero (S := S8x170) zz2]
  isplitl [H8]
  · iexists _; isplitr
    swap; · iexact H8
    ipureintro
    sl_unfold_run_names
    rw [read_writes_unit_zero _ _ zz2]
    simp only [readAt_unread, View.readCov_unit_zero (S := S8x170) _ zz2]
    unfold new2
    simp only [View.ld_unit_zero (S := S2048x170) zz2, View.ld_unit_zero (S := S8x170) zz2]
  · iexists _; isplitr
    swap; · iexact H6
    ipureintro
    sl_unfold_run_names
    rw [read_writes_unit_zero _ _ zz2]
    simp only [readAt_unread, View.readCov_unit_zero (S := S8x170) _ zz2]
    unfold new1 new2
    simp only [View.ld_unit_zero (S := S2048x170) zz2, View.ld_unit_zero (S := S8x170) zz2]
    rfl

/-! ## The point's arithmetic in `Spec`'s words -/

theorem pay3_eq : (k1_pay3 : FVec F S8x170 .f32) = Spec.zeroA := by
  unfold k1_pay3 Spec.zeroA; exact shapeCast_self _ _
theorem pay4_eq : (k1_pay4 : FVec F S8x170 .f32) = Spec.zeroA := by
  unfold k1_pay4 Spec.zeroA; exact shapeCast_self _ _

/-- The first accumulator's step: what it held plus the four streams' masked blocks, folded. -/
theorem new1_eq (T0 : Vec F S1x4x2048 .i32) (X1 X2 X3 X4 : Vec F S2048x170 .f32) (s1 : Vec F S8x170 .f32) :
    new1 T0 X1 X2 X3 X4 s1 = addf s1 (addf (addf (addf (addf Spec.zeroA (Spec.fold8 (Spec.masked X1 (row0 T0)))) (Spec.fold8 (Spec.masked X2 (row1 T0))))
      (Spec.fold8 (Spec.masked X3 (row2 T0)))) (Spec.fold8 (Spec.masked X4 (row3 T0)))) := by
  unfold new1 k1_pay11 k1_pay7 k1_pay9 k1_pay10 k1_pay5 k1_pay6
  simp only [shapeCast_self]; rfl

/-- The second accumulator's step: what it held plus the four streams' masked blocks times the blocks, folded. -/
theorem new2_eq (T0 : Vec F S1x4x2048 .i32) (X1 X2 X3 X4 : Vec F S2048x170 .f32) (s2 : Vec F S8x170 .f32) :
    new2 T0 X1 X2 X3 X4 s2 = addf s2 (addf (addf (addf (addf Spec.zeroA (Spec.fold8 (mulf (Spec.masked X1 (row0 T0)) X1))) (Spec.fold8 (mulf (Spec.masked X2 (row1 T0)) X2)))
      (Spec.fold8 (mulf (Spec.masked X3 (row2 T0)) X3))) (Spec.fold8 (mulf (Spec.masked X4 (row3 T0)) X4))) := by
  unfold new2 k1_pay1 k1_pay12 k1_pay8 k1_pay9 k1_pay10 k1_pay5 k1_pay6
  simp only [shapeCast_self]; rfl

/-- The scalar the last point writes, from the two accumulators. -/
theorem pay2_eq (a b : Vec F S8x170 .f32) :
    k1_pay2 a b = Scalar.addf (Scalar.subf (Scalar.ofBits .f32 0x48100000#32) (Scalar.mulf (Scalar.ofBits .f32 0x40000000#32) (Spec.sumA a))) (Spec.sumA b) := rfl

/-! ## Closed forms over the grid's eighteen points -/

theorem cond1_iff : ∀ t : Fin grid1.N, cond1 (grid1.coords t) ↔ t.val = 0 := by decide +kernel
theorem cond2_iff : ∀ t : Fin grid1.N, k1_cond2 (grid1.coords t) = 1#1 ↔ t.val = 17 := by decide +kernel
theorem idx0 : ∀ t : Fin grid1.N, cc1_transform_0 (grid1.coords t) = ![t.val, 0, 0] := by decide +kernel
theorem idx1 : ∀ t : Fin grid1.N, cc1_transform_1 (grid1.coords t) = ![56 + 4 * t.val, 0] := by decide +kernel
theorem idx2 : ∀ t : Fin grid1.N, cc1_transform_2 (grid1.coords t) = ![56 + 4 * t.val + 1, 0] := by decide +kernel
theorem idx3 : ∀ t : Fin grid1.N, cc1_transform_3 (grid1.coords t) = ![56 + 4 * t.val + 2, 0] := by decide +kernel
theorem idx4 : ∀ t : Fin grid1.N, cc1_transform_4 (grid1.coords t) = ![56 + 4 * t.val + 3, 0] := by decide +kernel
theorem idle5_iff : ∀ t : Fin grid1.N, cfg1.idle 5 (grid1.coords t) = true ↔ t.val ≠ 17 := by decide +kernel

end Cert.Kernel.Tc

end
-- ==== Proof.Kernel.TcDat.lean ====
/-
  The proof data of the TensorCore region (one pipeline of eighteen points): what each window's staging buffer holds
  after the body at each point, the invariant that carries the two accumulators across the points (after `n` points
  they hold `Spec.acc1` / `Spec.acc2` of `n`), the staged blocks read as `Spec`'s blocks of the table and of the
  column words, and the body obligation at a symbolic point, in the three cases of the body's two conditionals.
-/
import proofs.«213812_g11871289606185_cont_fleet_226_25_alg».proof.Proof.Kernel.Iface
import proofs.«213812_g11871289606185_cont_fleet_226_25_alg».proof.Proof.Kernel.SkeletonP
import proofs.«213812_g11871289606185_cont_fleet_226_25_alg».proof.Proof.Gen.Kernel.Launch
import proofs.«213812_g11871289606185_cont_fleet_226_25_alg».proof.Proof.Gen.Kernel.Points
import Idealize.ShloMosaic.Lib.Pipeline.Regions
import Idealize.ShloMosaic.Lib.Tactic
import Idealize.ShloMosaic.Lib.Pipeline.Frame
import Idealize.ShloMosaic.Lib.Pipeline.FrameBody
import Idealize.ShloMosaic.Lib.Pipeline.Value
import proofs.«213812_g11871289606185_cont_fleet_226_25_alg».proof.Proof.Kernel.TcBody

set_option maxRecDepth 16384

noncomputable section

namespace Cert.Kernel.Tc

open Cert.Kernel Cert.Kernel.Gen Cert.Kernel.GenP Cert.Kernel.Iface
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] {U : Type} [URA U]

local notation "𝕄" => MT nD τ sig (HIx 1) (Elt F) ℕ U ℕ

/-! ## The proof data of the region on core `d` -/

section Data

variable (m : (ℓ : Loc nD τ sig) → Buf (Elt F) ℓ) (d : Dev nD)

abbrev v3Loc (d : Dev nD) : Loc nD τ sig := (SparseCore.T d).loc main_v3
abbrev v4Loc (d : Dev nD) : Loc nD τ sig := (SparseCore.T d).loc main_v4

variable (V3 : Buf (Elt F) (v3Loc d)) (f4 : Buf (Elt F) (v4Loc d))
  (q3 qx : PosShare TreeShare) (O : CellTallies nD τ sig (HIx 1)) (W : Waits sig (HIx 1))

/-- The table and the column words, as `Spec` takes them. -/
abbrev xA : FVec F Spec.SX .f32 := m (xLoc d)
abbrev tA : IVec Spec.ST 32 := m (tLoc d)

/-- The blocks the five input windows are on at point `t`, read off their arrays. -/
def blk0 (t : Fin cfg1.N) : Vec F S1x4x2048 .i32 := ((cfg1.win 0).blk t).view.read (Elt F) V3
def blk1 (t : Fin cfg1.N) : Vec F S2048x170 .f32 := ((cfg1.win 1).blk t).view.read (Elt F) (m (xLoc d))
def blk2 (t : Fin cfg1.N) : Vec F S2048x170 .f32 := ((cfg1.win 2).blk t).view.read (Elt F) (m (xLoc d))
def blk3 (t : Fin cfg1.N) : Vec F S2048x170 .f32 := ((cfg1.win 3).blk t).view.read (Elt F) (m (xLoc d))
def blk4 (t : Fin cfg1.N) : Vec F S2048x170 .f32 := ((cfg1.win 4).blk t).view.read (Elt F) (m (xLoc d))

/-- The two accumulators. -/
abbrev sc0 : Memref sig .tc .vmem S8x170 .f32 := Memref.whole cc1_scratch0
abbrev sc1 : Memref sig .tc .vmem S8x170 .f32 := Memref.whole cc1_scratch1

/-- The invariant between points: before the first, the two accumulators at anything; after `n` points, at
    `Spec.acc1` / `Spec.acc2` of `n`. -/
def Phi : ℕ → sProp 𝕄
  | 0 => Pipeline.scopedRest (Ix := HIx 1) (Name := ℕ) (U := U) (Lvl := ℕ) (Val := Elt F) spec1 d
  | n + 1 => iprop(owns (d : Thread nD τ) sc0 fullShare (Spec.acc1 (xA m d) (tA m d) (n + 1))
      ∗ owns (d : Thread nD τ) sc1 fullShare (Spec.acc2 (xA m d) (tA m d) (n + 1)))

/-- The proof data: the arrays as the region finds them; each input's buffer left at its block, the scalar's at
    `Spec.tcOut`; the accumulators' invariant; `x` under four windows at four read tokens of the share held; the core
    owing throughout what it owes at entry, its recorded pairs within those recorded at entry. -/
def dat : Dat τ (Elt F) (HIx 1) ℕ U ℕ cfg1 d where
  A w := match w with
    | ⟨0, _⟩ => V3
    | ⟨1, _⟩ => m (xLoc d)
    | ⟨2, _⟩ => m (xLoc d)
    | ⟨3, _⟩ => m (xLoc d)
    | ⟨4, _⟩ => m (xLoc d)
    | ⟨5, _⟩ => f4
  after w t := match w with
    | ⟨0, _⟩ => blk0 d V3 t
    | ⟨1, _⟩ => blk1 m d t
    | ⟨2, _⟩ => blk2 m d t
    | ⟨3, _⟩ => blk3 m d t
    | ⟨4, _⟩ => blk4 m d t
    | ⟨5, _⟩ => fun _ => Spec.tcOut (xA m d) (tA m d)
  Φ t := Phi (U := U) m d t.val
  q w := match w with
    | ⟨0, _⟩ => q3
    | ⟨1, _⟩ => Transfers.shareTok qx 4 0
    | ⟨2, _⟩ => Transfers.shareTok qx 4 1
    | ⟨3, _⟩ => Transfers.shareTok qx 4 2
    | ⟨4, _⟩ => Transfers.shareTok qx 4 3
    | ⟨5, _⟩ => fullShare
  owed _ := O
  recorded _ := (↑W : Set (SemLoc sig × HIx 1))

/-! ### What the proof data says at a point, window by window -/

theorem after0 (t : Fin cfg1.N) : (dat (U := U) m d V3 f4 q3 qx O W).after 0 t = blk0 d V3 t := by dsimp only [dat]
theorem after1 (t : Fin cfg1.N) : (dat (U := U) m d V3 f4 q3 qx O W).after 1 t = blk1 m d t := by dsimp only [dat]
theorem after2 (t : Fin cfg1.N) : (dat (U := U) m d V3 f4 q3 qx O W).after 2 t = blk2 m d t := by dsimp only [dat]
theorem after3 (t : Fin cfg1.N) : (dat (U := U) m d V3 f4 q3 qx O W).after 3 t = blk3 m d t := by dsimp only [dat]
theorem after4 (t : Fin cfg1.N) : (dat (U := U) m d V3 f4 q3 qx O W).after 4 t = blk4 m d t := by dsimp only [dat]
theorem after5 (t : Fin cfg1.N) : (dat (U := U) m d V3 f4 q3 qx O W).after 5 t = fun _ => Spec.tcOut (xA m d) (tA m d) := by dsimp only [dat]

/-- Every input is fetched at every point: its current buffer holds its block. -/
theorem before0 (t : Fin cfg1.N) (d0) : (dat (U := U) m d V3 f4 q3 qx O W).before 0 t d0 = blk0 d V3 t :=
  ((dat (U := U) m d V3 f4 q3 qx O W).before_fetched 0 t (fetch1_0 t) d0).trans (by unfold Dat.fetched Dat.blockOf blk0; rfl)
theorem before1 (t : Fin cfg1.N) (d0) : (dat (U := U) m d V3 f4 q3 qx O W).before 1 t d0 = blk1 m d t :=
  ((dat (U := U) m d V3 f4 q3 qx O W).before_fetched 1 t (fetch1_1 t) d0).trans (by unfold Dat.fetched Dat.blockOf blk1; rfl)
theorem before2 (t : Fin cfg1.N) (d0) : (dat (U := U) m d V3 f4 q3 qx O W).before 2 t d0 = blk2 m d t :=
  ((dat (U := U) m d V3 f4 q3 qx O W).before_fetched 2 t (fetch1_2 t) d0).trans (by unfold Dat.fetched Dat.blockOf blk2; rfl)
theorem before3 (t : Fin cfg1.N) (d0) : (dat (U := U) m d V3 f4 q3 qx O W).before 3 t d0 = blk3 m d t :=
  ((dat (U := U) m d V3 f4 q3 qx O W).before_fetched 3 t (fetch1_3 t) d0).trans (by unfold Dat.fetched Dat.blockOf blk3; rfl)
theorem before4 (t : Fin cfg1.N) (d0) : (dat (U := U) m d V3 f4 q3 qx O W).before 4 t d0 = blk4 m d t :=
  ((dat (U := U) m d V3 f4 q3 qx O W).before_fetched 4 t (fetch1_4 t) d0).trans (by unfold Dat.fetched Dat.blockOf blk4; rfl)

/-! ### The staged blocks are `Spec`'s blocks -/

theorem blk1_eq (t : Fin cfg1.N) : blk1 m d t = Spec.xBlk (xA m d) (56 + 4 * t.val) := by
  funext j
  unfold blk1 Spec.xBlk
  rw [View.read_apply]
  refine congrArg (m (xLoc d)) ?_
  have hN : t.val < 18 := lt_of_lt_of_eq t.isLt N_1
  have hj : (j 0).val < 2048 := (j 0).isLt
  funext a
  fin_cases a
  · apply Fin.ext
    show cc1_transform_1 (grid1.coords t) 0 * 2048 + 1 * (j 0).val = (2048 * (56 + 4 * t.val) + (j 0).val) % 262144
    rw [idx1 t]
    show (56 + 4 * t.val) * 2048 + 1 * (j 0).val = _
    omega
  · apply Fin.ext
    show cc1_transform_1 (grid1.coords t) 1 * 170 + 1 * (j 1).val = (j 1).val
    rw [idx1 t]
    show 0 * 170 + 1 * (j 1).val = _
    omega

theorem blk2_eq (t : Fin cfg1.N) : blk2 m d t = Spec.xBlk (xA m d) (56 + 4 * t.val + 1) := by
  funext j
  unfold blk2 Spec.xBlk
  rw [View.read_apply]
  refine congrArg (m (xLoc d)) ?_
  have hN : t.val < 18 := lt_of_lt_of_eq t.isLt N_1
  have hj : (j 0).val < 2048 := (j 0).isLt
  funext a
  fin_cases a
  · apply Fin.ext
    show cc1_transform_2 (grid1.coords t) 0 * 2048 + 1 * (j 0).val = (2048 * (56 + 4 * t.val + 1) + (j 0).val) % 262144
    rw [idx2 t]
    show (56 + 4 * t.val + 1) * 2048 + 1 * (j 0).val = _
    omega
  · apply Fin.ext
    show cc1_transform_2 (grid1.coords t) 1 * 170 + 1 * (j 1).val = (j 1).val
    rw [idx2 t]
    show 0 * 170 + 1 * (j 1).val = _
    omega

theorem blk3_eq (t : Fin cfg1.N) : blk3 m d t = Spec.xBlk (xA m d) (56 + 4 * t.val + 2) := by
  funext j
  unfold blk3 Spec.xBlk
  rw [View.read_apply]
  refine congrArg (m (xLoc d)) ?_
  have hN : t.val < 18 := lt_of_lt_of_eq t.isLt N_1
  have hj : (j 0).val < 2048 := (j 0).isLt
  funext a
  fin_cases a
  · apply Fin.ext
    show cc1_transform_3 (grid1.coords t) 0 * 2048 + 1 * (j 0).val = (2048 * (56 + 4 * t.val + 2) + (j 0).val) % 262144
    rw [idx3 t]
    show (56 + 4 * t.val + 2) * 2048 + 1 * (j 0).val = _
    omega
  · apply Fin.ext
    show cc1_transform_3 (grid1.coords t) 1 * 170 + 1 * (j 1).val = (j 1).val
    rw [idx3 t]
    show 0 * 170 + 1 * (j 1).val = _
    omega

theorem blk4_eq (t : Fin cfg1.N) : blk4 m d t = Spec.xBlk (xA m d) (56 + 4 * t.val + 3) := by
  funext j
  unfold blk4 Spec.xBlk
  rw [View.read_apply]
  refine congrArg (m (xLoc d)) ?_
  have hN : t.val < 18 := lt_of_lt_of_eq t.isLt N_1
  have hj : (j 0).val < 2048 := (j 0).isLt
  funext a
  fin_cases a
  · apply Fin.ext
    show cc1_transform_4 (grid1.coords t) 0 * 2048 + 1 * (j 0).val = (2048 * (56 + 4 * t.val + 3) + (j 0).val) % 262144
    rw [idx4 t]
    show (56 + 4 * t.val + 3) * 2048 + 1 * (j 0).val = _
    omega
  · apply Fin.ext
    show cc1_transform_4 (grid1.coords t) 1 * 170 + 1 * (j 1).val = (j 1).val
    rw [idx4 t]
    show 0 * 170 + 1 * (j 1).val = _
    omega

/-- `main_v3` holds the column words of rows 114688 …, as 18×4×2048: word `[i, k, r]` is row `114688 + 8192·i + 2048·k + r`'s. -/
def V3OK (V3 : Buf (Elt F) (v3Loc d)) : Prop :=
  ∀ j : S18x4x2048.Idx, V3 j = m (tLoc d) (ix1 (Spec.rowOf (114688 + 8192 * (j 0).val + 2048 * (j 1).val + (j 2).val)))

theorem row0_eq (hV3 : V3OK m d V3) (t : Fin cfg1.N) : row0 (blk0 d V3 t) = Spec.tBlk (tA m d) t.val 0 := by
  funext j
  have hN : t.val < 18 := lt_of_lt_of_eq t.isLt N_1
  have hj0 : (j 0).val < 1 := (j 0).isLt
  have hj1 : (j 1).val < 1 := (j 1).isLt
  unfold Spec.tBlk
  show blk0 d V3 t _ = _
  unfold blk0
  rw [View.read_apply]
  show V3 _ = _
  rw [hV3]
  refine congrArg (fun n => m (tLoc d) (ix1 (Spec.rowOf n))) ?_
  have e0 : ((((cfg1.win 0).blk t).view.emb ((Rect.unit (s := S1x4x2048) ![0, 0, 0] S1x1x2048.size inb_S1x4x2048_S1x1x2048_0_0_0).idx j)) 0).val
      = cc1_transform_0 (grid1.coords t) 0 * 1 + 1 * (0 + 1 * (j 0).val) := rfl
  have e1 : ((((cfg1.win 0).blk t).view.emb ((Rect.unit (s := S1x4x2048) ![0, 0, 0] S1x1x2048.size inb_S1x4x2048_S1x1x2048_0_0_0).idx j)) 1).val
      = cc1_transform_0 (grid1.coords t) 1 * 4 + 1 * (0 + 1 * (j 1).val) := rfl
  have e2 : ((((cfg1.win 0).blk t).view.emb ((Rect.unit (s := S1x4x2048) ![0, 0, 0] S1x1x2048.size inb_S1x4x2048_S1x1x2048_0_0_0).idx j)) 2).val
      = cc1_transform_0 (grid1.coords t) 2 * 2048 + 1 * (0 + 1 * (j 2).val) := rfl
  rw [e0, e1, e2, idx0 t]
  show 114688 + 8192 * (t.val * 1 + 1 * (0 + 1 * (j 0).val)) + 2048 * (0 * 4 + 1 * (0 + 1 * (j 1).val)) + (0 * 2048 + 1 * (0 + 1 * (j 2).val)) = _
  omega

theorem row1_eq (hV3 : V3OK m d V3) (t : Fin cfg1.N) : row1 (blk0 d V3 t) = Spec.tBlk (tA m d) t.val 1 := by
  funext j
  have hN : t.val < 18 := lt_of_lt_of_eq t.isLt N_1
  have hj0 : (j 0).val < 1 := (j 0).isLt
  have hj1 : (j 1).val < 1 := (j 1).isLt
  unfold Spec.tBlk
  show blk0 d V3 t _ = _
  unfold blk0
  rw [View.read_apply]
  show V3 _ = _
  rw [hV3]
  refine congrArg (fun n => m (tLoc d) (ix1 (Spec.rowOf n))) ?_
  have e0 : ((((cfg1.win 0).blk t).view.emb ((Rect.unit (s := S1x4x2048) ![0, 1, 0] S1x1x2048.size inb_S1x4x2048_S1x1x2048_0_1_0).idx j)) 0).val
      = cc1_transform_0 (grid1.coords t) 0 * 1 + 1 * (0 + 1 * (j 0).val) := rfl
  have e1 : ((((cfg1.win 0).blk t).view.emb ((Rect.unit (s := S1x4x2048) ![0, 1, 0] S1x1x2048.size inb_S1x4x2048_S1x1x2048_0_1_0).idx j)) 1).val
      = cc1_transform_0 (grid1.coords t) 1 * 4 + 1 * (1 + 1 * (j 1).val) := rfl
  have e2 : ((((cfg1.win 0).blk t).view.emb ((Rect.unit (s := S1x4x2048) ![0, 1, 0] S1x1x2048.size inb_S1x4x2048_S1x1x2048_0_1_0).idx j)) 2).val
      = cc1_transform_0 (grid1.coords t) 2 * 2048 + 1 * (0 + 1 * (j 2).val) := rfl
  rw [e0, e1, e2, idx0 t]
  show 114688 + 8192 * (t.val * 1 + 1 * (0 + 1 * (j 0).val)) + 2048 * (0 * 4 + 1 * (1 + 1 * (j 1).val)) + (0 * 2048 + 1 * (0 + 1 * (j 2).val)) = _
  omega

theorem row2_eq (hV3 : V3OK m d V3) (t : Fin cfg1.N) : row2 (blk0 d V3 t) = Spec.tBlk (tA m d) t.val 2 := by
  funext j
  have hN : t.val < 18 := lt_of_lt_of_eq t.isLt N_1
  have hj0 : (j 0).val < 1 := (j 0).isLt
  have hj1 : (j 1).val < 1 := (j 1).isLt
  unfold Spec.tBlk
  show blk0 d V3 t _ = _
  unfold blk0
  rw [View.read_apply]
  show V3 _ = _
  rw [hV3]
  refine congrArg (fun n => m (tLoc d) (ix1 (Spec.rowOf n))) ?_
  have e0 : ((((cfg1.win 0).blk t).view.emb ((Rect.unit (s := S1x4x2048) ![0, 2, 0] S1x1x2048.size inb_S1x4x2048_S1x1x2048_0_2_0).idx j)) 0).val
      = cc1_transform_0 (grid1.coords t) 0 * 1 + 1 * (0 + 1 * (j 0).val) := rfl
  have e1 : ((((cfg1.win 0).blk t).view.emb ((Rect.unit (s := S1x4x2048) ![0, 2, 0] S1x1x2048.size inb_S1x4x2048_S1x1x2048_0_2_0).idx j)) 1).val
      = cc1_transform_0 (grid1.coords t) 1 * 4 + 1 * (2 + 1 * (j 1).val) := rfl
  have e2 : ((((cfg1.win 0).blk t).view.emb ((Rect.unit (s := S1x4x2048) ![0, 2, 0] S1x1x2048.size inb_S1x4x2048_S1x1x2048_0_2_0).idx j)) 2).val
      = cc1_transform_0 (grid1.coords t) 2 * 2048 + 1 * (0 + 1 * (j 2).val) := rfl
  rw [e0, e1, e2, idx0 t]
  show 114688 + 8192 * (t.val * 1 + 1 * (0 + 1 * (j 0).val)) + 2048 * (0 * 4 + 1 * (2 + 1 * (j 1).val)) + (0 * 2048 + 1 * (0 + 1 * (j 2).val)) = _
  omega

theorem row3_eq (hV3 : V3OK m d V3) (t : Fin cfg1.N) : row3 (blk0 d V3 t) = Spec.tBlk (tA m d) t.val 3 := by
  funext j
  have hN : t.val < 18 := lt_of_lt_of_eq t.isLt N_1
  have hj0 : (j 0).val < 1 := (j 0).isLt
  have hj1 : (j 1).val < 1 := (j 1).isLt
  unfold Spec.tBlk
  show blk0 d V3 t _ = _
  unfold blk0
  rw [View.read_apply]
  show V3 _ = _
  rw [hV3]
  refine congrArg (fun n => m (tLoc d) (ix1 (Spec.rowOf n))) ?_
  have e0 : ((((cfg1.win 0).blk t).view.emb ((Rect.unit (s := S1x4x2048) ![0, 3, 0] S1x1x2048.size inb_S1x4x2048_S1x1x2048_0_3_0).idx j)) 0).val
      = cc1_transform_0 (grid1.coords t) 0 * 1 + 1 * (0 + 1 * (j 0).val) := rfl
  have e1 : ((((cfg1.win 0).blk t).view.emb ((Rect.unit (s := S1x4x2048) ![0, 3, 0] S1x1x2048.size inb_S1x4x2048_S1x1x2048_0_3_0).idx j)) 1).val
      = cc1_transform_0 (grid1.coords t) 1 * 4 + 1 * (3 + 1 * (j 1).val) := rfl
  have e2 : ((((cfg1.win 0).blk t).view.emb ((Rect.unit (s := S1x4x2048) ![0, 3, 0] S1x1x2048.size inb_S1x4x2048_S1x1x2048_0_3_0).idx j)) 2).val
      = cc1_transform_0 (grid1.coords t) 2 * 2048 + 1 * (0 + 1 * (j 2).val) := rfl
  rw [e0, e1, e2, idx0 t]
  show 114688 + 8192 * (t.val * 1 + 1 * (0 + 1 * (j 0).val)) + 2048 * (0 * 4 + 1 * (3 + 1 * (j 1).val)) + (0 * 2048 + 1 * (0 + 1 * (j 2).val)) = _
  omega

/-- One point's step of the first accumulator is `Spec`'s. -/
theorem step1 (hV3 : V3OK m d V3) (t : Fin cfg1.N) (s1 : Vec F S8x170 .f32) :
    new1 (blk0 d V3 t) (blk1 m d t) (blk2 m d t) (blk3 m d t) (blk4 m d t) s1 = addf s1 (Spec.inc1 (xA m d) (tA m d) t.val) := by
  rw [new1_eq, row0_eq m d V3 hV3, row1_eq m d V3 hV3, row2_eq m d V3 hV3, row3_eq m d V3 hV3, blk1_eq, blk2_eq, blk3_eq, blk4_eq]
  rfl
/-- and of the second. -/
theorem step2 (hV3 : V3OK m d V3) (t : Fin cfg1.N) (s2 : Vec F S8x170 .f32) :
    new2 (blk0 d V3 t) (blk1 m d t) (blk2 m d t) (blk3 m d t) (blk4 m d t) s2 = addf s2 (Spec.inc2 (xA m d) (tA m d) t.val) := by
  rw [new2_eq, row0_eq m d V3 hV3, row1_eq m d V3 hV3, row2_eq m d V3 hV3, row3_eq m d V3 hV3, blk1_eq, blk2_eq, blk3_eq, blk4_eq]
  rfl

/-! ### The invariant, point by point -/

theorem Phi0_eq : (Phi (U := U) m d 0 : sProp 𝕄)
    = iprop((∃ f, owns (d : Thread nD τ) sc0 fullShare f) ∗ (∃ f, owns (d : Thread nD τ) sc1 fullShare f)) := by
  unfold Phi; rw [Gen.scopedRest1_eq]; simp only [owns_whole]; rfl
theorem Phi_succ (n : ℕ) : (Phi (U := U) m d (n + 1) : sProp 𝕄)
    = iprop(owns (d : Thread nD τ) sc0 fullShare (Spec.acc1 (xA m d) (tA m d) (n + 1)) ∗ owns (d : Thread nD τ) sc1 fullShare (Spec.acc2 (xA m d) (tA m d) (n + 1))) := rfl
theorem Phi_pos (n : ℕ) (h : n ≠ 0) : (Phi (U := U) m d n : sProp 𝕄)
    = iprop(owns (d : Thread nD τ) sc0 fullShare (Spec.acc1 (xA m d) (tA m d) n) ∗ owns (d : Thread nD τ) sc1 fullShare (Spec.acc2 (xA m d) (tA m d) n)) := by
  cases n with
  | zero => exact absurd rfl h
  | succ n => rfl

/-- Where the windows are idle: an input never; the scalar's window at every point but the last. -/
theorem live0 (t : Fin cfg1.N) : cfg1.idle 0 (grid1.coords t) = false := rfl
theorem live1 (t : Fin cfg1.N) : cfg1.idle 1 (grid1.coords t) = false := rfl
theorem live2 (t : Fin cfg1.N) : cfg1.idle 2 (grid1.coords t) = false := rfl
theorem live3 (t : Fin cfg1.N) : cfg1.idle 3 (grid1.coords t) = false := rfl
theorem live4 (t : Fin cfg1.N) : cfg1.idle 4 (grid1.coords t) = false := rfl
theorem idle5 (t : Fin cfg1.N) (h : t.val ≠ 17) : cfg1.idle 5 (cfg1.grid.coords t) = true := (idle5_iff t).mpr h
theorem live5 (t : Fin cfg1.N) (h : t.val = 17) : cfg1.idle 5 (cfg1.grid.coords t) = false := by
  cases hb : cfg1.idle 5 (cfg1.grid.coords t) with
  | false => rfl
  | true => exact absurd h ((idle5_iff t).mp hb)
theorem noflush5 (t : Fin cfg1.N) (h : t.val ≠ 17) : (cfg1.win 5).flush t = false := by
  have hN : t.val < 18 := lt_of_lt_of_eq t.isLt N_1
  cases hb : (cfg1.win 5).flush t with
  | false => rfl
  | true => exact absurd ((flush1_5 t).mp hb) (by omega)

/-- The accumulators' steps, in the three cases. -/
theorem eqA1 (hV3 : V3OK m d V3) (t : Fin cfg1.N) (h0 : t.val = 0) :
    new1 (blk0 d V3 t) (blk1 m d t) (blk2 m d t) (blk3 m d t) (blk4 m d t) k1_pay3 = Spec.acc1 (xA m d) (tA m d) (t.val + 1) := by
  rw [step1 m d V3 hV3, pay3_eq]
  show _ = addf (Spec.acc1 (xA m d) (tA m d) t.val) _
  rw [h0]; rfl
theorem eqA2 (hV3 : V3OK m d V3) (t : Fin cfg1.N) (h0 : t.val = 0) :
    new2 (blk0 d V3 t) (blk1 m d t) (blk2 m d t) (blk3 m d t) (blk4 m d t) k1_pay4 = Spec.acc2 (xA m d) (tA m d) (t.val + 1) := by
  rw [step2 m d V3 hV3, pay4_eq]
  show _ = addf (Spec.acc2 (xA m d) (tA m d) t.val) _
  rw [h0]; rfl
theorem eqB1 (hV3 : V3OK m d V3) (t : Fin cfg1.N) :
    new1 (blk0 d V3 t) (blk1 m d t) (blk2 m d t) (blk3 m d t) (blk4 m d t) (Spec.acc1 (xA m d) (tA m d) t.val) = Spec.acc1 (xA m d) (tA m d) (t.val + 1) := by
  rw [step1 m d V3 hV3]; rfl
theorem eqB2 (hV3 : V3OK m d V3) (t : Fin cfg1.N) :
    new2 (blk0 d V3 t) (blk1 m d t) (blk2 m d t) (blk3 m d t) (blk4 m d t) (Spec.acc2 (xA m d) (tA m d) t.val) = Spec.acc2 (xA m d) (tA m d) (t.val + 1) := by
  rw [step2 m d V3 hV3]; rfl
theorem eqC (t : Fin cfg1.N) (h17 : t.val = 17) :
    k1_pay2 (Spec.acc1 (xA m d) (tA m d) (t.val + 1)) (Spec.acc2 (xA m d) (tA m d) (t.val + 1)) = Spec.tcOut (xA m d) (tA m d) := by
  rw [h17]; rfl

/-! ### The body obligation -/

set_option maxHeartbeats 4000000 in
/-- The body at any point: the inputs' buffers hold their blocks, the accumulators what the points before left (anything
    at the first point), the scalar's buffer is handed back as found but at the last point, where it takes the scalar. -/
theorem sound_body (hV3 : V3OK m d V3) (t : Fin cfg1.N) :
    iprop((dat (U := U) m d V3 f4 q3 qx O W).Φ t.castSucc ∗ (dat (U := U) m d V3 f4 q3 qx O W).owesAt none t.castSucc
        ∗ (∃ d0, owns (d : Thread nD τ) (st1_0 t) fullShare ((dat (U := U) m d V3 f4 q3 qx O W).before 0 t d0))
        ∗ (∃ d0, owns (d : Thread nD τ) (st1_1 t) fullShare ((dat (U := U) m d V3 f4 q3 qx O W).before 1 t d0))
        ∗ (∃ d0, owns (d : Thread nD τ) (st1_2 t) fullShare ((dat (U := U) m d V3 f4 q3 qx O W).before 2 t d0))
        ∗ (∃ d0, owns (d : Thread nD τ) (st1_3 t) fullShare ((dat (U := U) m d V3 f4 q3 qx O W).before 3 t d0))
        ∗ (∃ d0, owns (d : Thread nD τ) (st1_4 t) fullShare ((dat (U := U) m d V3 f4 q3 qx O W).before 4 t d0))
        ∗ (∃ d0, owns (d : Thread nD τ) (st1_5 t) fullShare ((dat (U := U) m d V3 f4 q3 qx O W).before 5 t d0)))
      ⊢ wp frame (wpE (defs₀ (F := F)) Variants.none d none) Set.univ (bodyAt1 t) (fun _ =>
          iprop((dat (U := U) m d V3 f4 q3 qx O W).Φ t.succ ∗ (dat (U := U) m d V3 f4 q3 qx O W).owesAt none t.succ
            ∗ (dat (U := U) m d V3 f4 q3 qx O W).leavesExact 0 t ∗ (dat (U := U) m d V3 f4 q3 qx O W).leavesExact 1 t ∗ (dat (U := U) m d V3 f4 q3 qx O W).leavesExact 2 t
            ∗ (dat (U := U) m d V3 f4 q3 qx O W).leavesExact 3 t ∗ (dat (U := U) m d V3 f4 q3 qx O W).leavesExact 4 t ∗ (dat (U := U) m d V3 f4 q3 qx O W).leavesExact 5 t)) := by
  simp only [before0, before1, before2, before3, before4]
  rw [show (dat (U := U) m d V3 f4 q3 qx O W).owesAt none t.succ = (dat (U := U) m d V3 f4 q3 qx O W).owesAt none t.castSucc from rfl]
  rw [show (dat (U := U) m d V3 f4 q3 qx O W).Φ t.succ = Phi (U := U) m d (t.val + 1) from rfl, show (dat (U := U) m d V3 f4 q3 qx O W).Φ t.castSucc = Phi (U := U) m d t.val from rfl, Phi_succ]
  rw [show (dat (U := U) m d V3 f4 q3 qx O W).leavesExact 0 t = owns (d : Thread nD τ) (st1_0 t) fullShare (blk0 d V3 t) from by unfold Dat.leavesExact; rw [live0 t, after0]]
  rw [show (dat (U := U) m d V3 f4 q3 qx O W).leavesExact 1 t = owns (d : Thread nD τ) (st1_1 t) fullShare (blk1 m d t) from by unfold Dat.leavesExact; rw [live1 t, after1]]
  rw [show (dat (U := U) m d V3 f4 q3 qx O W).leavesExact 2 t = owns (d : Thread nD τ) (st1_2 t) fullShare (blk2 m d t) from by unfold Dat.leavesExact; rw [live2 t, after2]]
  rw [show (dat (U := U) m d V3 f4 q3 qx O W).leavesExact 3 t = owns (d : Thread nD τ) (st1_3 t) fullShare (blk3 m d t) from by unfold Dat.leavesExact; rw [live3 t, after3]]
  rw [show (dat (U := U) m d V3 f4 q3 qx O W).leavesExact 4 t = owns (d : Thread nD τ) (st1_4 t) fullShare (blk4 m d t) from by unfold Dat.leavesExact; rw [live4 t, after4]]
  have hN : t.val < 18 := lt_of_lt_of_eq t.isLt N_1
  by_cases h0 : t.val = 0
  · have hc1 : cond1 (grid1.coords t) := (cond1_iff t).mpr h0
    have hc2 : ¬k1_cond2 (grid1.coords t) = 1#1 := fun h => by have := (cond2_iff t).mp h; omega
    rw [Dat.leavesExact_idle (dat (U := U) m d V3 f4 q3 qx O W) 5 t (idle5 t (by omega)) (noflush5 t (by omega))]
    rw [show (Phi (U := U) m d t.val : sProp 𝕄) = Phi (U := U) m d 0 from by rw [h0], Phi0_eq]
    rw [← eqA1 m d V3 hV3 t h0, ← eqA2 m d V3 hV3 t h0]
    iintro ⟨⟨⟨%f0, HS0⟩, ⟨%f1, HS1⟩⟩, Ho, ⟨%d0, H0⟩, ⟨%d1, H1⟩, ⟨%d2, H2⟩, ⟨%d3, H3⟩, ⟨%d4, H4⟩, H5⟩
    iapply (run_A (U := U) d (grid1.coords t) _ _ _ _ _ _ _ _ _ _ _ _ _ _ _ _ hc1 hc2 (blk0 d V3 t) (blk1 m d t) (blk2 m d t) (blk3 m d t) (blk4 m d t) f0 f1 _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    iexact H5
  · by_cases h17 : t.val = 17
    · have hc1 : ¬cond1 (grid1.coords t) := fun h => h0 ((cond1_iff t).mp h)
      have hc2 : k1_cond2 (grid1.coords t) = 1#1 := (cond2_iff t).mpr h17
      rw [show (dat (U := U) m d V3 f4 q3 qx O W).leavesExact 5 t = owns (d : Thread nD τ) (st1_5 t) fullShare (fun _ => Spec.tcOut (xA m d) (tA m d)) from by
        unfold Dat.leavesExact; rw [live5 t h17, after5]]
      rw [Phi_pos m d t.val h0]
      rw [← eqC m d t h17, ← eqB1 m d V3 hV3 t, ← eqB2 m d V3 hV3 t]
      iintro ⟨⟨HS0, HS1⟩, Ho, ⟨%d0, H0⟩, ⟨%d1, H1⟩, ⟨%d2, H2⟩, ⟨%d3, H3⟩, ⟨%d4, H4⟩, ⟨%d5, H5⟩⟩
      iapply (run_C (U := U) d (grid1.coords t) _ _ _ _ _ _ _ _ _ _ _ _ _ _ _ _ hc1 hc2 (blk0 d V3 t) (blk1 m d t) (blk2 m d t) (blk3 m d t) (blk4 m d t) _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [H5]; · iexact H5
      iintro ⟨H0, H1, H2, H3, H4, HS0, HS1, H5⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1 (grid1.coords t) := fun h => h0 ((cond1_iff t).mp h)
      have hc2 : ¬k1_cond2 (grid1.coords t) = 1#1 := fun h => h17 ((cond2_iff t).mp h)
      rw [Dat.leavesExact_idle (dat (U := U) m d V3 f4 q3 qx O W) 5 t (idle5 t h17) (noflush5 t h17)]
      rw [Phi_pos m d t.val h0]
      rw [← eqB1 m d V3 hV3 t, ← eqB2 m d V3 hV3 t]
      iintro ⟨⟨HS0, HS1⟩, Ho, ⟨%d0, H0⟩, ⟨%d1, H1⟩, ⟨%d2, H2⟩, ⟨%d3, H3⟩, ⟨%d4, H4⟩, H5⟩
      iapply (run_B (U := U) d (grid1.coords t) _ _ _ _ _ _ _ _ _ _ _ _ _ _ _ _ hc1 hc2 (blk0 d V3 t) (blk1 m d t) (blk2 m d t) (blk3 m d t) (blk4 m d t) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (hV3 : V3OK m d V3) : BodyObligation (dat (U := U) m d V3 f4 q3 qx O W) (defs₀ (F := F)) Variants.none none Set.univ := fun t => by
  rw [Gen.bigSep_W1, Gen.bigSep_W1]
  exact sound_body m d V3 f4 q3 qx O W hV3 t

end Data

end Cert.Kernel.Tc

end
-- ==== Proof.Kernel.TcRegion.lean ====
/-
  The TensorCore pallas_call of the program as ONE step of @main on the TensorCore thread: the pipeline's region entered
  from the thread state that holds the column words' block array, the table and the scalar's array, and left with the
  scalar's array at `Spec.tcOut`. The table is one array under four windows: its share is split into four read tokens
  at entry and joined back at exit.
-/
import proofs.«213812_g11871289606185_cont_fleet_226_25_alg».proof.Proof.Kernel.Iface
import proofs.«213812_g11871289606185_cont_fleet_226_25_alg».proof.Proof.Kernel.SkeletonP
import proofs.«213812_g11871289606185_cont_fleet_226_25_alg».proof.Proof.Gen.Kernel.Launch
import proofs.«213812_g11871289606185_cont_fleet_226_25_alg».proof.Proof.Gen.Kernel.Points
import Idealize.ShloMosaic.Lib.Pipeline.Regions
import Idealize.ShloMosaic.Lib.Tactic
import Idealize.ShloMosaic.Lib.Pipeline.Frame
import Idealize.ShloMosaic.Lib.Pipeline.FrameBody
import Idealize.ShloMosaic.Lib.Pipeline.Value
import proofs.«213812_g11871289606185_cont_fleet_226_25_alg».proof.Proof.Kernel.TcDat

set_option maxRecDepth 16384

noncomputable section

namespace Cert.Kernel.Tc

open Cert.Kernel Cert.Kernel.Gen Cert.Kernel.GenP Cert.Kernel.Iface
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] {U : Type} [URA U]

local notation "𝕄" => MT nD τ sig (HIx 1) (Elt F) ℕ U ℕ

/-! ## The region as one step of @main on the TensorCore -/

section Region

variable (m : (ℓ : Loc nD τ sig) → Buf (Elt F) ℓ) (d : Dev nD) (V3 : Buf (Elt F) (v3Loc d)) (f4 : Buf (Elt F) (v4Loc d))
  (q3 qx : PosShare TreeShare) (O : CellTallies nD τ sig (HIx 1)) (W : Waits sig (HIx 1))

/-- No pipeline has a prefetched table: the one admissible contents. -/
abbrev adm : (p : Fin 1) → (pcfgs (F := F) p).Adm := fun p => (cfgs p).toPCfg_adm

/-- The proof data on every core: there is one core. -/
def pdats : (p : Fin 1) → (c : Dev nD) → Dat τ (Elt F) (HIx 1) ℕ U ℕ (Pipeline.pin (pcfgs (F := F)) adm p) c :=
  fun _ c => (Subsingleton.elim d c) ▸ dat (U := U) m d V3 f4 q3 qx O W

/-- What the region is entered from: the column words' block array and the table at the shares held, the scalar's
    array at anything, what the core owes. -/
def preT : sProp 𝕄 :=
  iprop((v3Loc d ↦{q3} V3) ∗ (xLoc d ↦{qx} m (xLoc d)) ∗ (v4Loc d ↦{fullShare} f4) ∗ owes (SparseCore.T d) O W)

/-- What it leaves: the same, the scalar's array at `Spec.tcOut`, the core owing what it owed, its newly recorded pairs at
    index `none`. -/
def postT : sProp 𝕄 :=
  iprop((v3Loc d ↦{q3} V3) ∗ (xLoc d ↦{qx} m (xLoc d)) ∗ (v4Loc d ↦{fullShare} fun _ => Spec.tcOut (xA m d) (tA m d))
    ∗ ∃ W', ⌜∀ p ∈ W', p ∈ W ∨ p.2 = none⌝ ∗ owes (SparseCore.T d) O W')

/-- What bypasses the region: the table's share less the four read tokens its windows hold. -/
def ZT : sProp 𝕄 := xLoc d ↦{Transfers.shareDrop qx 4} m (xLoc d)

/-- The windows' arrays, one by one: the column words' blocks, the table under its four windows at four read tokens,
    the scalar's array. -/
theorem arrays_eq (G : (w : Fin cfg1.W) → Buf (Elt F) ((cfg1.win w).arr.view.loc (d.tc : Thread nD τ))) :
    ((dat (U := U) m d V3 f4 q3 qx O W).arrays G : sProp 𝕄)
      = iprop((v3Loc d ↦{q3} G 0) ∗ (xLoc d ↦{Transfers.shareTok qx 4 0} G 1) ∗ (xLoc d ↦{Transfers.shareTok qx 4 1} G 2)
        ∗ (xLoc d ↦{Transfers.shareTok qx 4 2} G 3) ∗ (xLoc d ↦{Transfers.shareTok qx 4 3} G 4) ∗ (v4Loc d ↦{fullShare} G 5)) := by
  unfold Dat.arrays; rw [Gen.bigSep_W1]
  show iprop((View.loc (d.tc : Thread nD τ) (View.whole main_v3) ↦[(View.whole main_v3 : View sig .tc _ _ _).set]{q3} G 0)
    ∗ (View.loc (d.tc : Thread nD τ) (View.whole main_arg0) ↦[(View.whole main_arg0 : View sig .tc _ _ _).set]{Transfers.shareTok qx 4 0} G 1)
    ∗ (View.loc (d.tc : Thread nD τ) (View.whole main_arg0) ↦[(View.whole main_arg0 : View sig .tc _ _ _).set]{Transfers.shareTok qx 4 1} G 2)
    ∗ (View.loc (d.tc : Thread nD τ) (View.whole main_arg0) ↦[(View.whole main_arg0 : View sig .tc _ _ _).set]{Transfers.shareTok qx 4 2} G 3)
    ∗ (View.loc (d.tc : Thread nD τ) (View.whole main_arg0) ↦[(View.whole main_arg0 : View sig .tc _ _ _).set]{Transfers.shareTok qx 4 3} G 4)
    ∗ (View.loc (d.tc : Thread nD τ) (View.whole main_v4) ↦[(View.whole main_v4 : View sig .tc _ _ _).set]{fullShare} G 5)) = _
  simp only [View.set_whole]

/-- Four read tokens, one by one. -/
theorem toks4 (ℓ : Loc nD τ sig) (f : Buf (Elt F) ℓ) :
    (bigSep Finset.univ (fun i : Fin 4 => (ℓ ↦{Transfers.shareTok qx 4 i} f : sProp 𝕄)))
      = iprop((ℓ ↦{Transfers.shareTok qx 4 0} f) ∗ (ℓ ↦{Transfers.shareTok qx 4 1} f) ∗ (ℓ ↦{Transfers.shareTok qx 4 2} f) ∗ (ℓ ↦{Transfers.shareTok qx 4 3} f)) :=
  bigSep_univ_eq_bigSepL [(0 : Fin 4), 1, 2, 3] (by decide) (by decide) _

/-- ENTRY: the table's share split into the windows' four tokens and the rest. -/
theorem hentry_d :
    iprop(preT (U := U) m d V3 f4 q3 qx O W)
      ⊢ iprop((dat (U := U) m d V3 f4 q3 qx O W).arrays ((dat (U := U) m d V3 f4 q3 qx O W).arrAt · 0)
        ∗ (dat (U := U) m d V3 f4 q3 qx O W).owesAt none 0 ∗ ZT (U := U) m d qx) := by
  rw [arrays_eq]
  unfold preT ZT
  iintro ⟨H3, Hx, H4, Ho⟩
  ihave Hx := (Transfers.pointsTo_toks_split qx 4) $$ Hx
  rw [toks4]
  icases Hx with ⟨Hr, Ht0, Ht1, Ht2, Ht3⟩
  isplitl [H3 Ht0 Ht1 Ht2 Ht3 H4]
  · isplitl [H3]; · iexact H3
    isplitl [Ht0]; · iexact Ht0
    isplitl [Ht1]; · iexact Ht1
    isplitl [Ht2]; · iexact Ht2
    isplitl [Ht3]; · iexact Ht3
    iexact H4
  isplitl [Ho]
  · unfold Pipeline.Dat.owesAt Pipeline.owesWithin
    iexists W; isplitr
    · ipureintro; exact fun p hp => Or.inl hp
    iexact Ho
  iexact Hr

/-! ### The arrays at the region's exit -/

theorem arrAt0 (n : ℕ) : (dat (U := U) m d V3 f4 q3 qx O W).arrAt 0 n = V3 := (dat (U := U) m d V3 f4 q3 qx O W).arrAt_in 0 rfl n
theorem arrAt1 (n : ℕ) : (dat (U := U) m d V3 f4 q3 qx O W).arrAt 1 n = m (xLoc d) := (dat (U := U) m d V3 f4 q3 qx O W).arrAt_in 1 rfl n
theorem arrAt2 (n : ℕ) : (dat (U := U) m d V3 f4 q3 qx O W).arrAt 2 n = m (xLoc d) := (dat (U := U) m d V3 f4 q3 qx O W).arrAt_in 2 rfl n
theorem arrAt3 (n : ℕ) : (dat (U := U) m d V3 f4 q3 qx O W).arrAt 3 n = m (xLoc d) := (dat (U := U) m d V3 f4 q3 qx O W).arrAt_in 3 rfl n
theorem arrAt4 (n : ℕ) : (dat (U := U) m d V3 f4 q3 qx O W).arrAt 4 n = m (xLoc d) := (dat (U := U) m d V3 f4 q3 qx O W).arrAt_in 4 rfl n

/-- The scalar's window is the whole 1×1 array at every point. -/
theorem mem5 (t : Fin cfg1.N) (i : S1x1.Idx) : i ∈ ((cfg1.win 5).blk t).view.set := by
  rw [show ((cfg1.win 5).blk t).view.set = ((cfg1.win 5).rect t).set from View.set_slice_whole _ _]
  refine Rect.mem_set_unit.mpr fun a => ?_
  fin_cases a
  · exact ⟨Nat.zero_le _, (i 0).isLt⟩
  · exact ⟨Nat.zero_le _, (i 1).isLt⟩

/-- The scalar's array after the one write-back, at the last point. -/
theorem arrAt5 : (dat (U := U) m d V3 f4 q3 qx O W).arrAt 5 cfg1.N = fun _ => Spec.tcOut (xA m d) (tA m d) :=
  (dat (U := U) m d V3 f4 q3 qx O W).arrAt_eq_of_cover 5 (fun _ => Spec.tcOut (xA m d) (tA m d)) (fun t _ => rfl)
    (fun i => ⟨⟨17, by decide⟩, (flush1_5 _).mpr (by decide), mem5 _ i⟩)

/-- EXIT: the table's tokens joined back; the recorded pairs are the entry's or the loop's own, at index `none`. -/
theorem hexit_d :
    iprop((dat (U := U) m d V3 f4 q3 qx O W).arrays ((dat (U := U) m d V3 f4 q3 qx O W).arrAt · cfg1.N) ∗ (dat (U := U) m d V3 f4 q3 qx O W).owesAt none (Fin.last cfg1.N) ∗ ZT (U := U) m d qx)
      ⊢ postT (U := U) m d V3 q3 qx O W := by
  rw [arrays_eq]
  show iprop(((v3Loc d ↦{q3} (dat (U := U) m d V3 f4 q3 qx O W).arrAt 0 cfg1.N) ∗ (xLoc d ↦{Transfers.shareTok qx 4 0} (dat (U := U) m d V3 f4 q3 qx O W).arrAt 1 cfg1.N)
    ∗ (xLoc d ↦{Transfers.shareTok qx 4 1} (dat (U := U) m d V3 f4 q3 qx O W).arrAt 2 cfg1.N) ∗ (xLoc d ↦{Transfers.shareTok qx 4 2} (dat (U := U) m d V3 f4 q3 qx O W).arrAt 3 cfg1.N)
    ∗ (xLoc d ↦{Transfers.shareTok qx 4 3} (dat (U := U) m d V3 f4 q3 qx O W).arrAt 4 cfg1.N) ∗ (v4Loc d ↦{fullShare} (dat (U := U) m d V3 f4 q3 qx O W).arrAt 5 cfg1.N)) ∗ _ ∗ _) ⊢ _
  rw [arrAt0, arrAt1, arrAt2, arrAt3, arrAt4, arrAt5]
  unfold postT ZT
  iintro ⟨⟨H3, Ht0, Ht1, Ht2, Ht3, H4⟩, Ho, Hr⟩
  ihave Hx := (Transfers.pointsTo_toks_join qx 4) $$ [Hr Ht0 Ht1 Ht2 Ht3]
  · isplitl [Hr]; · iexact Hr
    rw [toks4]
    isplitl [Ht0]; · iexact Ht0
    isplitl [Ht1]; · iexact Ht1
    isplitl [Ht2]; · iexact Ht2
    iexact Ht3
  isplitl [H3]; · iexact H3
  isplitl [Hx]; · iexact Hx
  isplitl [H4]; · iexact H4
  unfold Pipeline.Dat.owesAt Pipeline.owesWithin
  icases Ho with ⟨%W', %hW', Ho⟩
  iexists W'; isplitr
  · ipureintro
    intro p hp
    rcases hW' (Finset.mem_coe.mpr hp) with h | ⟨w, s, rfl⟩
    · exact Or.inl (Finset.mem_coe.mp h)
    · exact Or.inr rfl
  iexact Ho

/-! ### The region's record and its step -/

set_option backward.isDefEq.respectTransparency.types false in
/-- THE REGION: the pipeline's layout, no semaphore of the kernel's own, the body obligation, the wait evidence (the
    loop's waits are recorded at index `none`, below everything the core owes), and the four entailments around the
    thread states `preT` / `postT`. -/
def region (hV3 : V3OK m d V3) (hO : ∀ g, O g none = 0) :
    Pipeline.RegionSeg (pcfgs (F := F)) adm (pdats (U := U) m d V3 f4 q3 qx O W) none (defs₀ (F := F)) 𝒱₀
      (K (F := F)).L (K (F := F)).lev 0 where
  win := Gen.winFacts₀1
  block_pos := Gen.block_pos1
  stage_whole := Gen.stage_whole1
  K := PEmpty
  osem := fun k => k.elim
  ho := Pipeline.OwnSemFacts.none _
  hbody c := by
    obtain rfl := Subsingleton.elim d c
    exact (body_obligation m d V3 f4 q3 qx O W hV3).loose
  hwaits c := Pipeline.cellsWaits_intro (Pipeline.pin (pcfgs (F := F)) adm) (pdats (U := U) m d V3 f4 q3 qx O W) none 0 c fun w s t => by
    obtain rfl := Subsingleton.elim d c
    exact (K (F := F)).mayWait_none _ hO
  pre _ := preT (U := U) m d V3 f4 q3 qx O W
  post _ := postT (U := U) m d V3 q3 qx O W
  X _ := iprop(emp)
  Y _ := iprop(emp)
  Z _ := ZT (U := U) m d qx
  hentry c := by
    obtain rfl := Subsingleton.elim d c
    iintro ⟨Hpre, -, -⟩
    ihave H := (hentry_d (U := U) m d V3 f4 q3 qx O W) $$ Hpre
    icases H with ⟨Ha, HO, HZ⟩
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    iexact HZ
  hin c := by
    obtain rfl := Subsingleton.elim d c
    show _ ⊢ (Phi (U := U) m d 0 : sProp 𝕄)
    unfold Phi
    iintro ⟨-, -, Hr⟩
    iexact Hr
  hout c := by
    obtain rfl := Subsingleton.elim d c
    show (Phi (U := U) m d (17 + 1) : sProp 𝕄) ⊢ _
    rw [Phi_succ m d 17, Pipeline.ownSems0_none, Gen.scopedRest1_eq, owns_whole, owns_whole]
    iintro ⟨H0, H1⟩
    isplitr; · iempintro
    isplitr; · iempintro
    isplitl [H0]; · iexists _; iexact H0
    iexists _; iexact H1
  hexit c := by
    obtain rfl := Subsingleton.elim d c
    iintro ⟨Ha, HO, -, HZ⟩
    imodintro
    iapply (hexit_d (U := U) m d V3 f4 q3 qx O W)
    isplitl [Ha]; · iexact Ha
    isplitl [HO]; · iexact HO
    iexact HZ

end Region

set_option maxHeartbeats 1000000 in
set_option backward.isDefEq.respectTransparency.types false in
/-- **The TensorCore region, as @main runs it.** From the region boundary, the level facts, pipeline 0's ghost state and duty
    tokens on core `d`, the column words' block array and the table at any shares, the scalar's array at anything, and
    what the core owes (nothing at index `none`), the call runs to the boundary, the two arrays as they were, the
    scalar's array at `Spec.tcOut` of the table and the column words, the core owing what it owed, its newly recorded
    pairs at index `none`. -/
theorem tc_region (EP : Emb (URounds (GSem nD τ sig) Unit) 𝕄) [EP.LandsIn (upEmb : UEmb _ 𝕄)]
    (m : (ℓ : Loc nD τ sig) → Buf (Elt F) ℓ) (d : Dev nD) (q3 qx : PosShare TreeShare)
    (V3 : Buf (Elt F) (v3Loc d)) (f4 : Buf (Elt F) (v4Loc d)) (hV3 : V3OK m d V3)
    (O : CellTallies nD τ sig (HIx 1)) (W : Waits sig (HIx 1)) (hO : ∀ g, O g none = 0) :
    iprop(boundary (SparseCore.T d) ∗ levAts (K (F := F)).L (K (F := F)).lev
        ∗ Pipeline.cellsGhost cfgs EP 0 d ∗ Pipeline.toksInit cfgs EP 0 d
        ∗ (v3Loc d ↦{q3} V3) ∗ (xLoc d ↦{qx} m (xLoc d)) ∗ (v4Loc d ↦{fullShare} f4) ∗ owes (SparseCore.T d) O W)
      ⊢ (wp frame (wpE ((K (F := F)).defs (D (F := F))) 𝒱 (SparseCore.T d) none) Set.univ
          (Prog.lift (.customCall (SparseCore.inner (Pipeline.entry 0)) ()))
          fun _ => iprop(boundary (SparseCore.T d) ∗ (v3Loc d ↦{q3} V3) ∗ (xLoc d ↦{qx} m (xLoc d))
            ∗ (v4Loc d ↦{fullShare} fun _ => Spec.tcOut (m (xLoc d)) (m (tLoc d)))
            ∗ ∃ W', ⌜∀ p ∈ W', p ∈ W ∨ p.2 = none⌝ ∗ owes (SparseCore.T d) O W') : sProp 𝕄) := by
  have hR := Pipeline.RegionSeg.wp (pcfgs (F := F)) adm (pdats (U := U) m d V3 f4 q3 qx O W) none Gen.cellOf_inj EP (defs₀ (F := F)) 𝒱₀
    (K (F := F)).L (K (F := F)).lev (region (U := U) m d V3 f4 q3 qx O W hV3 hO) d none (fun _ h => by cases h) (α := PUnit) (fun _ => Prog.ret PUnit.unit)
    (fun _ => iprop(boundary (SparseCore.T d) ∗ postT (U := U) m d V3 q3 qx O W))
  have hL := (K (F := F)).wp_liftProg (D (F := F)) 𝒱 (SparseCore.T d) (Name := ℕ) (U := U) Set.univ none (Prog.lift (.customCall (Pipeline.entry 0) ()))
    (fun _ => iprop(boundary (SparseCore.T d) ∗ postT (U := U) m d V3 q3 qx O W))
  refine BIBase.Entails.trans ?_ (hR.trans hL)
  iintro ⟨Hbd, #Hla, Hg, Ht, H3, Hx, H4, Ho⟩
  isplitr
  · iintro ⟨Hbd, Hpost⟩
    dsimp only
    rw [wp_ret]; imodintro
    isplitl [Hbd]; · iexact Hbd
    iapply (show (region (U := U) m d V3 f4 q3 qx O W hV3 hO).post d ⊢ postT (U := U) m d V3 q3 qx O W from .rfl)
    iexact Hpost
  isplitl [Hbd]; · iexact Hbd
  isplitl [H3 Hx H4 Ho]
  · iapply (show preT (U := U) m d V3 f4 q3 qx O W ⊢ (region (U := U) m d V3 f4 q3 qx O W hV3 hO).pre d from .rfl)
    unfold preT
    isplitl [H3]; · iexact H3
    isplitl [Hx]; · iexact Hx
    isplitl [H4]; · iexact H4
    iexact Ho
  isplitr; · iexact Hla
  isplitl [Hg]; · iexact Hg
  iexact Ht

end Cert.Kernel.Tc

end
-- ==== Proof.Val.Consts.lean ====
/-
  The float constants of the kernel and of the reference, as the extended reals their bit patterns denote.
  One module states them all, so that no other module unfolds the decoding of a bit pattern.
-/
import Idealize.ShloMosaic.PureOps.Ideal.Laws

noncomputable section

namespace Cert.Val

open Idealize.ShloMosaic

/-- `+0.0` denotes `0`. -/
theorem ofBits_zero : Ideal.ofBits .f32 0x00000000#32 = 0 := Ideal.ofBits_zero_f32

/-- `1.0` denotes `1`. -/
theorem ofBits_one : Ideal.ofBits .f32 0x3F800000#32 = ((1 : ℝ) : EReal) := by
  simp [Ideal.ofBits, Ideal.ieee, -EReal.coe_mul]; norm_num

/-- `2.0` denotes `2`. -/
theorem ofBits_two : Ideal.ofBits .f32 0x40000000#32 = ((2 : ℝ) : EReal) := by
  simp [Ideal.ofBits, Ideal.ieee, -EReal.coe_mul]; norm_num

/-- `147456.0`, the number of rows the TensorCore part covers. -/
theorem ofBits_147456 : Ideal.ofBits .f32 0x48100000#32 = ((147456 : ℝ) : EReal) := by
  simp [Ideal.ofBits, Ideal.ieee, -EReal.coe_mul]; norm_num

/-- `262144.0`, the number of rows of the table. -/
theorem ofBits_262144 : Ideal.ofBits .f32 0x48800000#32 = ((262144 : ℝ) : EReal) := by
  simp [Ideal.ofBits, Ideal.ieee, -EReal.coe_mul]; norm_num

end Cert.Val

end
-- ==== Proof.Val.Common.lean ====
/-
  The common value of the kernel and of the reference: the mean over all 262144 rows `r` of `(1 − x[r, t r])²`,
  with the square written as the product the programs compute. Also the two facts about finite sums every part of
  the argument uses: a sum over `a` blocks of `b` consecutive numbers is the sum over the `a·b` numbers, and the
  coercion of the reals into the extended reals commutes with finite sums.
-/
import proofs.«213812_g11871289606185_cont_fleet_226_25_alg».proof.Proof.Spec
import proofs.«213812_g11871289606185_cont_fleet_226_25_alg».proof.Proof.Val.Consts

noncomputable section

namespace Cert.Val

open Idealize.ShloMosaic Idealize.ShloMosaic.ValueIdx Cert.Spec
open scoped BigOperators

/-- What one row contributes: `(1 − v)·(1 − v)` for its entry `v`. -/
def sq (v : EReal) : EReal := (((1 : ℝ) : EReal) - v) * (((1 : ℝ) : EReal) - v)

/-- The entry of row number `n`, rows counted as naturals. -/
def P (x : FVec Ideal SX .f32) (t : IVec ST 32) (n : ℕ) : EReal := pick x t (rowOf n)

/-- THE VALUE both programs compute: the sum over all rows of `(1 − x[r, t r])²`, divided by the number of rows. -/
def G (x : FVec Ideal SX .f32) (t : IVec ST 32) : EReal :=
  Ideal.div (∑ n ∈ Finset.range 262144, sq (P x t n)) ((262144 : ℝ) : EReal)

/-- A sum over `a` consecutive blocks of `b` numbers is the sum over the first `a·b` numbers. -/
theorem sum_blocks {M : Type*} [AddCommMonoid M] (g : ℕ → M) (a b : ℕ) :
    ∑ i ∈ Finset.range a, ∑ j ∈ Finset.range b, g (b * i + j) = ∑ n ∈ Finset.range (a * b), g n := by
  induction a with
  | zero => simp
  | succ a ih =>
    rw [Finset.sum_range_succ, ih, Nat.succ_mul, Finset.sum_range_add, Nat.mul_comm b a]

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row number below the table's height names itself. -/
theorem rowOf_val (r : Fin 262144) : rowOf r.val = r := Fin.ext (Nat.mod_eq_of_lt r.isLt)

end Cert.Val

end
-- ==== Proof.Val.SparseSum.lean ====
/-
  The vector subcores' part. Worker `w`'s accumulator, lane `l`, after all 224 groups holds the sum of `(1 − v)·(1 − v)`
  over its rows `3584·w + 16·k + l`, `k < 224`; adding the 32 × 16 partial sums up runs over every row below 114688
  exactly once, since `(w, k, l) ↦ 3584·w + 16·k + l` counts them in order.
-/
import proofs.«213812_g11871289606185_cont_fleet_226_25_alg».proof.Proof.Val.Common

noncomputable section

namespace Cert.Val

open Idealize.ShloMosaic Idealize.ShloMosaic.ValueIdx Cert.Spec
open scoped BigOperators

/-- One step of the accumulator at a lane: the lane's value plus `(1 − v)·(1 − v)`. -/
theorem sqStep_apply (a v : FVec Ideal SL .f32) (l : SL.Idx) : sqStep a v l = a l + sq (v l) := by
  show a l + (Ideal.ofBits .f32 0x3F800000#32 - v l) * (Ideal.ofBits .f32 0x3F800000#32 - v l) = a l + sq (v l)
  rw [ofBits_one]; rfl

/-- A worker's accumulator after `n` groups, at lane `l`: the sum over the groups of its row's contribution. -/
theorem tileAcc_apply (x : FVec Ideal SX .f32) (t : IVec ST 32) (base : ℕ) (n : ℕ) (l : Fin 16) :
    tileAcc x t base n (ix1 l) = ∑ k ∈ Finset.range n, sq (P x t (base + 16 * k + l.val)) := by
  induction n with
  | zero =>
    show Ideal.ofBits .f32 0x00000000#32 = _
    rw [ofBits_zero, Finset.sum_range_zero]
  | succ n ih =>
    rw [Finset.sum_range_succ, ← ih]
    exact sqStep_apply _ _ _

/-- All 32 × 16 partial sums added up: the sum over the rows below 114688. -/
theorem partials_sum (x : FVec Ideal SX .f32) (t : IVec ST 32) (i : S0.Idx) :
    Host.reduceAdd (partials x t) (constant (F := Ideal) S0 .f32 0x00000000#32) redTo_SO_S0 h_S0 i
      = ∑ n ∈ Finset.range 114688, sq (P x t n) := by
  generalize hy : partials x t = y
  have e : Host.reduceAdd y (constant (F := Ideal) S0 .f32 0x00000000#32) redTo_SO_S0 h_S0 i
      = Ideal.ofBits .f32 0x00000000#32 + ∑ j : SO.Idx, y j := by
    simp only [Host.reduceAdd, Ideal.hostReduceAdd_def]
    exact Ideal.hostReduceAdd_total redTo_SO_S0 (fun b => b.elim0) y _ i
  rw [e, ofBits_zero, zero_add, sum_idx2, ← hy]
  calc ∑ a : Fin 32, ∑ b : Fin 16, partials x t (ix2 a b)
      = ∑ a : Fin 32, ∑ b : Fin 16, ∑ k ∈ Finset.range 224, sq (P x t (3584 * a.val + 16 * k + b.val)) :=
        Finset.sum_congr rfl fun a _ => Finset.sum_congr rfl fun b _ => tileAcc_apply x t (3584 * a.val) 224 b
    _ = ∑ a ∈ Finset.range 32, ∑ b ∈ Finset.range 16, ∑ k ∈ Finset.range 224, sq (P x t (3584 * a + 16 * k + b)) := by
        rw [← Fin.sum_univ_eq_sum_range (fun a => ∑ b ∈ Finset.range 16, ∑ k ∈ Finset.range 224, sq (P x t (3584 * a + 16 * k + b))) 32]
        refine Finset.sum_congr rfl fun a _ => ?_
        rw [← Fin.sum_univ_eq_sum_range (fun b => ∑ k ∈ Finset.range 224, sq (P x t (3584 * a.val + 16 * k + b))) 16]
    _ = ∑ a ∈ Finset.range 32, ∑ m ∈ Finset.range 3584, sq (P x t (3584 * a + m)) := by
        refine Finset.sum_congr rfl fun a _ => ?_
        rw [Finset.sum_comm]
        exact (Finset.sum_congr rfl fun k _ => Finset.sum_congr rfl fun b _ => by rw [Nat.add_assoc]).trans
          (sum_blocks (fun m => sq (P x t (3584 * a + m))) 224 16)
    _ = ∑ n ∈ Finset.range 114688, sq (P x t n) := sum_blocks (fun n => sq (P x t n)) 32 3584

end Cert.Val

end
-- ==== Proof.Val.TcLayout.lean ====
/-
  The TensorCore part's operations read as sums. A block masked to the named column has, in each row, the row's
  named entry at the named column and zero elsewhere, so a row of it sums to the named entry; folding 2048 rows
  to 8 and then adding all 8 × 170 entries up adds every entry of the block up, because a sum of partial sums over
  the fibres of a map is the whole sum.
-/
import proofs.«213812_g11871289606185_cont_fleet_226_25_alg».proof.Proof.Val.Common
import Idealize.ShloMosaic.Lib.Pipeline.Value

noncomputable section

namespace Cert.Val

open Idealize.ShloMosaic Idealize.ShloMosaic.ValueIdx Cert.Spec
open scoped BigOperators

/-- The entries of a float add-reduction add up to the sum of all the source's entries. -/
theorem sum_multiReduction_add {s t : Shape} {axes : List (Fin s.rank)} {φ : FTy} (src : FVec Ideal s φ) (acc : BitVec φ.bits)
    (h : s.Reduces axes t) (hφ : FKind.Formats φ) (hacc : acc = FKind.add.neutral φ hφ) :
    ∑ j : t.Idx, multiReduction .add axes t src acc h hφ hacc j = ∑ i : s.Idx, src i := by
  show ∑ j : t.Idx, Ideal.reduceAdd h src j = _
  unfold Ideal.reduceAdd
  exact Finset.sum_fiberwise Finset.univ (fun i => h.drop i) src

/-- A shape cast has the same entries, so the same sum. -/
theorem sum_shapeCast {s t : Shape} (x : s.Idx → EReal) (h : s.ShapeCasts t) :
    ∑ j : t.Idx, shapeCast t x h j = ∑ i : s.Idx, x i :=
  Equiv.sum_comp (Shape.reshapeEquiv h) x

/-- `sumA` is the sum of all 8 × 170 entries. -/
theorem sumA_eq (s : FVec Ideal SA .f32) : sumA s = ∑ j : SA.Idx, s j := by
  unfold sumA extractAt shapeCast
  refine (Ideal.multiReduction_add_total _ _ red_SA1_S1 (by decide) _ _ _).trans ?_
  exact sum_shapeCast s sc_SA_SA1

theorem sumA_addf (a b : FVec Ideal SA .f32) : sumA (addf a b) = sumA a + sumA b := by
  rw [sumA_eq, sumA_eq, sumA_eq, ← Finset.sum_add_distrib]; rfl

theorem sumA_zeroA : sumA (zeroA (F := Ideal)) = 0 := by
  rw [sumA_eq]
  show ∑ _j : SA.Idx, Ideal.ofBits .f32 0x00000000#32 = 0
  rw [ofBits_zero, Finset.sum_const_zero]

/-- Folding a block to 8 rows and adding the result up adds the whole block up. -/
theorem sumA_fold8 (Y : FVec Ideal SB .f32) : sumA (fold8 Y) = ∑ j : SB.Idx, Y j := by
  rw [sumA_eq]; unfold fold8
  exact (sum_multiReduction_add _ _ red_SG_SA _ _).trans (sum_shapeCast Y sc_SB_SG)

/-- A column number below 170, as a 32-bit word, is a given word exactly when it is the word's value. -/
theorem ofNat_eq_iff (c : ℕ) (hc : c < 170) (w : BitVec 32) : BitVec.ofNat 32 c = w ↔ c = w.toNat := by
  rw [← BitVec.toNat_inj, BitVec.toNat_ofNat, Nat.mod_eq_of_lt (by omega)]

/-- The masked block at `[r, c]`: the block's entry where `c` is the column named for row `r`, zero elsewhere. -/
theorem masked_apply (X : FVec Ideal SB .f32) (T : IVec SBT 32) (r : Fin 2048) (c : Fin 170) :
    masked X T (ix2 r c) = if c.val = (T (ix3 0 0 r)).toNat then X (ix2 r c) else 0 := by
  have hb : broadcastTo SB (shapeCast SBc (shapeCast SB1 T sc_SBT_SB1) sc_SB1_SBc) bc_SBc_SB (ix2 r c) = T (ix3 0 0 r) := by
    refine (broadcastTo_apply _ bc_SBc_SB (ix2 r c) (ix2 r (0 : Fin 1)) ?_).trans ?_
    · intro a
      match a with
      | ⟨0, _⟩ => rfl
      | ⟨1, _⟩ => rfl
    · refine (shapeCast_apply _ sc_SB1_SBc (ix2 r (0 : Fin 1)) (ix1 r) ?_).trans ?_
      · rw [Shape.rowMajor_val_one, Shape.rowMajor_val_two]
        show r.val = r.val * 1 + 0
        omega
      · refine shapeCast_apply T sc_SBT_SB1 (ix1 r) (ix3 0 0 r) ?_
        rw [Shape.rowMajor_val_three, Shape.rowMajor_val_one]
        show (0 * 1 + 0) * 2048 + r.val = r.val
        omega
  unfold masked
  rw [select_apply]
  show Scalar.select (IntOp.cmpi .eq (BitVec.ofNat 32 (0 * 170 + c.val)) (broadcastTo SB (shapeCast SBc (shapeCast SB1 T sc_SBT_SB1) sc_SB1_SBc) bc_SBc_SB (ix2 r c)))
    (X (ix2 r c)) (Ideal.ofBits .f32 0x00000000#32) = _
  rw [hb, ofBits_zero, Nat.zero_mul, Nat.zero_add]
  by_cases h : c.val = (T (ix3 0 0 r)).toNat
  · rw [if_pos h]
    have : BitVec.ofNat 32 c.val = T (ix3 0 0 r) := (ofNat_eq_iff c.val c.isLt _).mpr h
    rw [this]
    show Scalar.select (BitVec.ofBool (T (ix3 0 0 r) == T (ix3 0 0 r))) _ _ = _
    rw [beq_self_eq_true]
    rfl
  · rw [if_neg h]
    have : ¬ BitVec.ofNat 32 c.val = T (ix3 0 0 r) := fun e => h ((ofNat_eq_iff c.val c.isLt _).mp e)
    show Scalar.select (BitVec.ofBool (BitVec.ofNat 32 c.val == T (ix3 0 0 r))) _ _ = _
    rw [beq_eq_false_iff_ne.mpr this]
    rfl

/-- A row of the masked block sums to the row's entry at the named column. -/
theorem masked_row_sum (X : FVec Ideal SB .f32) (T : IVec SBT 32) (r : Fin 2048) (hT : (T (ix3 0 0 r)).toNat < 170) :
    ∑ c : Fin 170, masked X T (ix2 r c) = X (ix2 r ⟨(T (ix3 0 0 r)).toNat, hT⟩) := by
  rw [Finset.sum_eq_single (⟨(T (ix3 0 0 r)).toNat, hT⟩ : Fin 170)]
  · rw [masked_apply, if_pos rfl]
  · intro c _ hc
    rw [masked_apply, if_neg (fun e => hc (Fin.ext e))]
  · intro h; exact absurd (Finset.mem_univ _) h

/-- A row of the masked block times the block sums to the square of the row's entry at the named column. -/
theorem masked_mul_row_sum (X : FVec Ideal SB .f32) (T : IVec SBT 32) (r : Fin 2048) (hT : (T (ix3 0 0 r)).toNat < 170) :
    ∑ c : Fin 170, mulf (masked X T) X (ix2 r c)
      = X (ix2 r ⟨(T (ix3 0 0 r)).toNat, hT⟩) * X (ix2 r ⟨(T (ix3 0 0 r)).toNat, hT⟩) := by
  rw [Finset.sum_eq_single (⟨(T (ix3 0 0 r)).toNat, hT⟩ : Fin 170)]
  · rw [mulf_apply, masked_apply, if_pos rfl]
  · intro c _ hc
    rw [mulf_apply, masked_apply, if_neg (fun e => hc (Fin.ext e)), zero_mul]
  · intro h; exact absurd (Finset.mem_univ _) h

end Cert.Val

end
-- ==== Proof.Val.TcSum.lean ====
/-
  The TensorCore part's scalar. Grid point `i`, stream `k`, covers rows `114688 + 8192·i + 2048·k + r`, `r < 2048`;
  the first accumulator's entries add up to the sum of the named entries `p` of all 147456 rows from 114688 on, the
  second's to the sum of their squares, and `147456 − 2·Σ p + Σ p·p = Σ (1 − p)·(1 − p)` over those rows — an identity
  of real numbers, which is where the entries' finiteness is used.
-/
import proofs.«213812_g11871289606185_cont_fleet_226_25_alg».proof.Proof.Val.TcLayout

noncomputable section

namespace Cert.Val

open Idealize.ShloMosaic Idealize.ShloMosaic.ValueIdx Cert.Spec
open scoped BigOperators

variable (x : FVec Ideal SX .f32) (t : IVec ST 32)

/-- When every word names a column, a row's entry of interest sits at the word's value. -/
theorem pick_eq (ht : ∀ j, (t j).toNat < 170) (R : Fin 262144) :
    pick x t R = x (ix2 R ⟨(t (ix1 R)).toNat, ht _⟩) := by
  unfold pick col; rw [dif_pos (ht _)]

/-- The masked block `b` with the words of stream `k` of grid point `i` (the same 2048 rows) adds up to the sum of
    those rows' named entries. -/
theorem block_sum1 (ht : ∀ j, (t j).toNat < 170) (b i k : ℕ) (hb : 2048 * b = 114688 + 8192 * i + 2048 * k) :
    ∑ j : SB.Idx, masked (xBlk x b) (tBlk t i k) j
      = ∑ r ∈ Finset.range 2048, P x t (114688 + (8192 * i + (2048 * k + r))) := by
  rw [sum_idx2, ← Fin.sum_univ_eq_sum_range (fun r => P x t (114688 + (8192 * i + (2048 * k + r)))) 2048]
  refine Finset.sum_congr rfl fun r _ => ?_
  rw [masked_row_sum _ _ r (ht _)]
  have hrow : 2048 * b + r.val = 114688 + (8192 * i + (2048 * k + r.val)) := by omega
  show x (ix2 (rowOf (2048 * b + r.val)) ⟨(t (ix1 (rowOf (114688 + 8192 * i + 2048 * k + r.val)))).toNat, ht _⟩) = P x t _
  have hrow' : 114688 + 8192 * i + 2048 * k + r.val = 114688 + (8192 * i + (2048 * k + r.val)) := by omega
  rw [hrow]
  simp only [hrow']
  exact (pick_eq x t ht _).symm

/-- The same block times the unmasked block adds up to the sum of the squares of those entries. -/
theorem block_sum2 (ht : ∀ j, (t j).toNat < 170) (b i k : ℕ) (hb : 2048 * b = 114688 + 8192 * i + 2048 * k) :
    ∑ j : SB.Idx, mulf (masked (xBlk x b) (tBlk t i k)) (xBlk x b) j
      = ∑ r ∈ Finset.range 2048, P x t (114688 + (8192 * i + (2048 * k + r))) * P x t (114688 + (8192 * i + (2048 * k + r))) := by
  rw [sum_idx2, ← Fin.sum_univ_eq_sum_range (fun r => P x t (114688 + (8192 * i + (2048 * k + r))) * P x t (114688 + (8192 * i + (2048 * k + r)))) 2048]
  refine Finset.sum_congr rfl fun r _ => ?_
  rw [masked_mul_row_sum _ _ r (ht _)]
  have hrow : 2048 * b + r.val = 114688 + (8192 * i + (2048 * k + r.val)) := by omega
  show x (ix2 (rowOf (2048 * b + r.val)) ⟨(t (ix1 (rowOf (114688 + 8192 * i + 2048 * k + r.val)))).toNat, ht _⟩)
      * x (ix2 (rowOf (2048 * b + r.val)) ⟨(t (ix1 (rowOf (114688 + 8192 * i + 2048 * k + r.val)))).toNat, ht _⟩) = P x t _ * P x t _
  have hrow' : 114688 + 8192 * i + 2048 * k + r.val = 114688 + (8192 * i + (2048 * k + r.val)) := by omega
  rw [hrow]
  simp only [hrow']
  rw [← pick_eq x t ht _]
  rfl

/-- What grid point `i` adds to the first accumulator adds up to the sum of its 8192 rows' named entries. -/
theorem sumA_inc1 (ht : ∀ j, (t j).toNat < 170) (i : ℕ) :
    sumA (inc1 x t i) = ∑ m ∈ Finset.range 8192, P x t (114688 + (8192 * i + m)) := by
  unfold inc1
  rw [sumA_addf, sumA_addf, sumA_addf, sumA_addf, sumA_zeroA, sumA_fold8, sumA_fold8, sumA_fold8, sumA_fold8,
    block_sum1 x t ht (56 + 4 * i) i 0 (by omega), block_sum1 x t ht (56 + 4 * i + 1) i 1 (by omega),
    block_sum1 x t ht (56 + 4 * i + 2) i 2 (by omega), block_sum1 x t ht (56 + 4 * i + 3) i 3 (by omega)]
  have h := sum_blocks (fun m => P x t (114688 + (8192 * i + m))) 4 2048
  rw [Finset.sum_range_succ, Finset.sum_range_succ, Finset.sum_range_succ, Finset.sum_range_succ, Finset.sum_range_zero] at h
  exact h

/-- … and to the second, to the sum of their squares. -/
theorem sumA_inc2 (ht : ∀ j, (t j).toNat < 170) (i : ℕ) :
    sumA (inc2 x t i) = ∑ m ∈ Finset.range 8192, P x t (114688 + (8192 * i + m)) * P x t (114688 + (8192 * i + m)) := by
  unfold inc2
  rw [sumA_addf, sumA_addf, sumA_addf, sumA_addf, sumA_zeroA, sumA_fold8, sumA_fold8, sumA_fold8, sumA_fold8,
    block_sum2 x t ht (56 + 4 * i) i 0 (by omega), block_sum2 x t ht (56 + 4 * i + 1) i 1 (by omega),
    block_sum2 x t ht (56 + 4 * i + 2) i 2 (by omega), block_sum2 x t ht (56 + 4 * i + 3) i 3 (by omega)]
  have h := sum_blocks (fun m => P x t (114688 + (8192 * i + m)) * P x t (114688 + (8192 * i + m))) 4 2048
  rw [Finset.sum_range_succ, Finset.sum_range_succ, Finset.sum_range_succ, Finset.sum_range_succ, Finset.sum_range_zero] at h
  exact h

/-- The first accumulator after `n` grid points adds up to the sum of the named entries of the rows covered so far. -/
theorem sumA_acc1 (ht : ∀ j, (t j).toNat < 170) (n : ℕ) :
    sumA (acc1 x t n) = ∑ i ∈ Finset.range n, ∑ m ∈ Finset.range 8192, P x t (114688 + (8192 * i + m)) := by
  induction n with
  | zero => rw [Finset.sum_range_zero]; exact sumA_zeroA
  | succ n ih => rw [Finset.sum_range_succ, ← ih, ← sumA_inc1 x t ht n]; exact sumA_addf _ _

theorem sumA_acc2 (ht : ∀ j, (t j).toNat < 170) (n : ℕ) :
    sumA (acc2 x t n) = ∑ i ∈ Finset.range n, ∑ m ∈ Finset.range 8192,
      P x t (114688 + (8192 * i + m)) * P x t (114688 + (8192 * i + m)) := by
  induction n with
  | zero => rw [Finset.sum_range_zero]; exact sumA_zeroA
  | succ n ih => rw [Finset.sum_range_succ, ← ih, ← sumA_inc2 x t ht n]; exact sumA_addf _ _

/-- After all 18 grid points: the sums over the 147456 rows from 114688 on. -/
theorem sumA_acc1_all (ht : ∀ j, (t j).toNat < 170) :
    sumA (acc1 x t 18) = ∑ n ∈ Finset.range 147456, P x t (114688 + n) :=
  (sumA_acc1 x t ht 18).trans (sum_blocks (fun n => P x t (114688 + n)) 18 8192)

theorem sumA_acc2_all (ht : ∀ j, (t j).toNat < 170) :
    sumA (acc2 x t 18) = ∑ n ∈ Finset.range 147456, P x t (114688 + n) * P x t (114688 + n) :=
  (sumA_acc2 x t ht 18).trans (sum_blocks (fun n => P x t (114688 + n) * P x t (114688 + n)) 18 8192)

/-- Over the reals, `N − 2·Σ f + Σ f·f = Σ (1 − f)·(1 − f)` for a sum over `N` numbers. -/
theorem real_expand (N : ℕ) (f : ℕ → ℝ) :
    (N : ℝ) - 2 * ∑ n ∈ Finset.range N, f n + ∑ n ∈ Finset.range N, f n * f n
      = ∑ n ∈ Finset.range N, (1 - f n) * (1 - f n) := by
  have h : ∀ n, (1 - f n) * (1 - f n) = 1 - 2 * f n + f n * f n := fun n => by ring
  simp only [h, Finset.sum_add_distrib, Finset.sum_sub_distrib, Finset.sum_const, Finset.card_range, ← Finset.mul_sum,
    nsmul_eq_mul, mul_one]

/-- THE TENSORCORE PART'S SCALAR: the sum of `(1 − p)·(1 − p)` over the rows from 114688 on. -/
theorem tcOut_eq (hx : ∀ j, ∃ r : ℝ, x j = (r : EReal)) (ht : ∀ j, (t j).toNat < 170) :
    tcOut x t = ∑ n ∈ Finset.range 147456, sq (P x t (114688 + n)) := by
  have hP : ∀ n, ∃ r : ℝ, P x t n = (r : EReal) := fun n => hx _
  choose p hp using hP
  show Ideal.ofBits .f32 0x48100000#32 - Ideal.ofBits .f32 0x40000000#32 * sumA (acc1 x t 18) + sumA (acc2 x t 18) = _
  rw [sumA_acc1_all x t ht, sumA_acc2_all x t ht, ofBits_147456, ofBits_two]
  unfold sq
  simp only [hp, ← EReal.coe_mul, ← EReal.coe_sub, ← coe_sum, ← EReal.coe_add]
  rw [← real_expand 147456 (fun n => p (114688 + n))]
  norm_num

end Cert.Val

end
-- ==== Proof.Val.Total.lean ====
/-
  The kernel's result: the partial sums of the vector subcores run over the rows below 114688, the TensorCore part's
  scalar over the rows from 114688 on; together they run over all 262144 rows, and the host divides by 262144.
-/
import proofs.«213812_g11871289606185_cont_fleet_226_25_alg».proof.Proof.Val.SparseSum
import proofs.«213812_g11871289606185_cont_fleet_226_25_alg».proof.Proof.Val.TcSum

noncomputable section

namespace Cert.Val

open Idealize.ShloMosaic Idealize.ShloMosaic.ValueIdx Cert.Spec
open scoped BigOperators

/-- THE KERNEL'S VALUE is the common value `G`. -/
theorem kFinal_eq (x : FVec Ideal SX .f32) (t : IVec ST 32) (hx : ∀ j, ∃ r : ℝ, x j = (r : EReal))
    (ht : ∀ j, (t j).toNat < 170) (i : S0.Idx) :
    kFinal (F := Ideal) (partials x t) (fun _ => tcOut x t) i = G x t := by
  show Ideal.div (Host.reduceAdd (partials x t) (constant (F := Ideal) S0 .f32 0x00000000#32) redTo_SO_S0 h_S0 i + tcOut x t)
    (Ideal.ofBits .f32 0x48800000#32) = G x t
  rw [partials_sum, tcOut_eq x t hx ht, ofBits_262144]
  unfold G
  rw [← Finset.sum_range_add (fun n => sq (P x t n)) 114688 147456]

end Cert.Val

end
-- ==== Proof.Ref.RefValue.lean ====
/-
  The reference computes the common value. When every column word `w` satisfies `0 ≤ w ≤ 169`: clipping to
  `[0, 169]` is the identity; the word is not `−1`, so every row is valid and the count of valid rows is 262144,
  which is also its maximum with 1; the gather's index is in bounds, so its bounds mask is all true and the gathered
  entry of row `r` is `x[r, w]`; and the masked sum is the sum of `(1 − x[r, w])·(1 − x[r, w])` over all rows.
-/
import proofs.«213812_g11871289606185_cont_fleet_226_25_alg».proof.Proof.Ref.ReadP
import proofs.«213812_g11871289606185_cont_fleet_226_25_alg».proof.Proof.Val.Total
import Idealize.ShloMosaic.Lib.Affine

noncomputable section

namespace Cert.ReferenceIdeal.RefValue

open Cert.ReferenceIdeal Cert.ReferenceIdeal.Gen Cert.ReferenceIdeal.ReadP Idealize.ShloMosaic Idealize.ShloMosaic.ValueIdx
open scoped BigOperators

/-! ## Words: a column word between 0 and 169 -/

section Words
variable (w : BitVec 32) (hw : w.toNat < 170)
include hw

theorem toInt_word : w.toInt = (w.toNat : ℤ) := BitVec.toInt_eq_toNat_of_lt (by omega)

/-- Clipping to `[0, 169]` leaves the word alone. -/
theorem clip_word : IntOp.minsi 169#32 (IntOp.maxsi 0#32 w) = w := by
  have h1 : IntOp.maxsi 0#32 w = w := by
    unfold IntOp.maxsi
    rw [if_neg]
    rw [BitVec.slt_iff_toInt_lt, toInt_word w hw]
    simp
  rw [h1]
  unfold IntOp.minsi
  rw [if_neg]
  rw [BitVec.slt_iff_toInt_lt, toInt_word w hw]
  have : (169#32 : BitVec 32).toInt = 169 := by decide
  rw [this]
  omega

theorem slt_zero_word : IntOp.cmpi .slt w 0#32 = 0#1 := by
  refine eq_zero_of_ne_one fun h => ?_
  rw [IntOp.cmpi_slt, toInt_word w hw] at h
  have : (0#32 : BitVec 32).toInt = 0 := by decide
  rw [this] at h
  omega

theorem sge_zero_word : IntOp.cmpi .sge w 0#32 = 1#1 := by
  rw [IntOp.cmpi_sge, toInt_word w hw]
  have : (0#32 : BitVec 32).toInt = 0 := by decide
  rw [this]
  omega

theorem sle_169_word : IntOp.cmpi .sle w 169#32 = 1#1 := by
  rw [IntOp.cmpi_sle, toInt_word w hw]
  have : (169#32 : BitVec 32).toInt = 169 := by decide
  rw [this]
  omega

theorem ne_neg_one_word : IntOp.cmpi .ne w 4294967295#32 = 1#1 := by
  rw [IntOp.cmpi_ne]
  intro h
  rw [h] at hw
  exact absurd hw (by decide)

end Words

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    have : IntOp.andi 1#1 1#1 = 1#1 := by decide
    rw [this]
    exact foldl_andi_ones f hf l

/-- A sum over a rank-1 index set is the sum over its coordinate. -/
theorem sum_idx1 {M : Type*} [AddCommMonoid M] {n : ℕ} (f : (⟨1, ![n]⟩ : Shape).Idx → M) :
    ∑ j, f j = ∑ a : Fin n, f (ix1 a) :=
  (Equiv.sum_comp (⟨ix1, fun j => j 0, fun _ => rfl, fun j => (eq_ix1 j).symm⟩ : Fin n ≃ (⟨1, ![n]⟩ : Shape).Idx) f).symm

variable (x : FVec Ideal Spec.SX .f32) (t : IVec Spec.ST 32)

/-! ## The column words through the clip and the index normalisation -/

theorem v2_apply (ht : ∀ j, (t j).toNat < 170) (r : Fin 262144) : val_main_v2 (F := Ideal) t (ix1 r) = t (ix1 r) := by
  rw [val_main_v2_apply, val_main_call0_v4_apply, val_main_call0_v3_apply, val_main_c_1_apply, val_main_call0_v2_apply,
    val_main_call0_v1_apply, val_main_call0_v0_apply, val_main_c_0_apply]
  exact clip_word _ (ht _)

theorem v3_apply (ht : ∀ j, (t j).toNat < 170) (r : Fin 262144) :
    val_main_v3 (F := Ideal) t (ix2 r (0 : Fin 1)) = t (ix1 r) := by
  rw [val_main_v3_apply]
  have e : idx_main_v3 (ix2 r (0 : Fin 1)) = ix1 r := funext fun a => by match a with | ⟨0, _⟩ => rfl
  rw [e]
  exact v2_apply t ht r

theorem call1_v4_apply (ht : ∀ j, (t j).toNat < 170) (r : Fin 262144) :
    val_main_call1_v4 (F := Ideal) t (ix2 r (0 : Fin 1)) = t (ix1 r) := by
  rw [val_main_call1_v4_apply, val_main_call1_v1_apply, val_main_call1_v0_apply, val_main_call1_c_apply, v3_apply t ht r,
    slt_zero_word _ (ht _), select_zero]

theorem call1_v5_apply (ht : ∀ j, (t j).toNat < 170) (r : Fin 262144) :
    val_main_call1_v5 (F := Ideal) t (ix3 r (0 : Fin 1) (0 : Fin 1)) = t (ix1 r) := by
  rw [val_main_call1_v5_apply]
  have e : idx_main_call1_v5 (ix3 r (0 : Fin 1) (0 : Fin 1)) = ix2 r (0 : Fin 1) := funext fun a => Fin.ext (by
    match a with
    | ⟨0, _⟩ => show ((r.val * 1 + 0) * 1 + 0) / 1 = r.val; omega
    | ⟨1, _⟩ => rfl)
  rw [e]
  exact call1_v4_apply t ht r

/-- The gather's bounds mask is true everywhere. -/
theorem call1_v11_apply (ht : ∀ j, (t j).toNat < 170) (i : S262144x1x1.Idx) : val_main_call1_v11 (F := Ideal) t i = 1#1 := by
  obtain ⟨r, b, c, rfl⟩ : ∃ (r : Fin 262144) (b : Fin 1) (c : Fin 1), i = ix3 r b c := ⟨i 0, i 1, i 2, eq_ix3 i⟩
  obtain rfl : b = 0 := Subsingleton.elim _ _
  obtain rfl : c = 0 := Subsingleton.elim _ _
  rw [val_main_call1_v11_apply, val_main_call1_v7_apply, val_main_call1_v10_apply, val_main_call1_v6_apply, val_main_call1_c_2_apply,
    val_main_call1_v9_apply, val_main_call1_v8_apply, val_main_call1_c_1_apply, call1_v5_apply t ht r,
    sge_zero_word _ (ht _), sle_169_word _ (ht _)]
  decide

theorem call1_v12_apply (ht : ∀ j, (t j).toNat < 170) (k : S262144x1.Idx) : val_main_call1_v12 (F := Ideal) t k = 1#1 := by
  unfold val_main_call1_v12
  have hy := call1_v11_apply t ht
  generalize val_main_call1_v11 (F := Ideal) t = y at hy
  rw [Host.reduce_eq_foldl]
  exact foldl_andi_ones y hy _

/-! ## The gather -/

/-- The gather's dimension numbers: batching on the rows, one start index per row on the column axis. -/
abbrev D := gather_S262144x170_S262144x1x1_S262144x1_n_1_0_0_1_2_11

/-- The gathered entry of row `r`: the row's entry at the column its word names. -/
theorem call1_v13_apply (ht : ∀ j, (t j).toNat < 170) (r : Fin 262144) :
    val_main_call1_v13 (F := Ideal) x t (ix2 r (0 : Fin 1)) = x (ix2 r ⟨(t (ix1 r)).toNat, ht _⟩) := by
  unfold val_main_call1_v13
  have hidx := call1_v5_apply t ht r
  generalize val_main_call1_v5 (F := Ideal) t = idx at hidx
  unfold Host.gather
  refine congrArg x (funext fun a => Fin.ext ?_)
  match a with
  | ⟨0, _⟩ =>
    show D.start (ix2 r (0 : Fin 1)) idx 0 + D.batchCoord (ix2 r (0 : Fin 1)) 0 + D.offCoord (ix2 r (0 : Fin 1)) 0 = r.val
    rw [GatherDims.start_batching D _ idx 0 (List.mem_singleton.mpr rfl),
      GatherDims.offCoord_eq_zero D _ 0 (fun h => ((GatherDims.mem_sKept D 0).mp h).2 (List.mem_singleton.mpr rfl)),
      Nat.zero_add, Nat.add_zero]
    rfl
  | ⟨1, _⟩ =>
    show D.start (ix2 r (0 : Fin 1)) idx 1 + D.batchCoord (ix2 r (0 : Fin 1)) 1 + D.offCoord (ix2 r (0 : Fin 1)) 1 = (t (ix1 r)).toNat
    rw [GatherDims.batchCoord_eq_zero D _ 1 (by decide),
      GatherDims.offCoord_eq_zero D _ 1 (fun h => ((GatherDims.mem_sKept D 1).mp h).1 (List.mem_singleton.mpr rfl)),
      Nat.add_zero]
    unfold GatherDims.start
    rw [dif_pos (show (1 : Fin 2) ∈ D.startIndexMap from List.mem_singleton.mpr rfl)]
    have hsi : D.siIdx (ix2 r (0 : Fin 1)) ⟨List.idxOf (1 : Fin 2) D.startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi, hidx, toInt_word _ (ht _), Int.toNat_natCast]
    have := ht (ix1 r)
    show min (t (ix1 r)).toNat (170 - 1) = (t (ix1 r)).toNat
    omega

/-! ## The rows' contributions and the two sums -/

theorem v4_apply (ht : ∀ j, (t j).toNat < 170) (r : Fin 262144) :
    val_main_v4 (F := Ideal) x t (ix2 r (0 : Fin 1)) = x (ix2 r ⟨(t (ix1 r)).toNat, ht _⟩) := by
  rw [val_main_v4_apply, call1_v12_apply t ht, select_one, call1_v13_apply x t ht r]

theorem v5_apply (ht : ∀ j, (t j).toNat < 170) (r : Fin 262144) :
    val_main_v5 (F := Ideal) x t (ix1 r) = Spec.pick x t r := by
  rw [val_main_v5_apply]
  have e : idx_main_v5 (ix1 r) = ix2 r (0 : Fin 1) := funext fun a => Fin.ext (by
    match a with
    | ⟨0, _⟩ => show r.val / 1 = r.val; omega
    | ⟨1, _⟩ => rfl)
  rw [e, v4_apply x t ht r]
  exact (Val.pick_eq x t ht r).symm

/-- Every row is valid: no word is `−1`. -/
theorem v1_apply (ht : ∀ j, (t j).toNat < 170) (j : S262144.Idx) : val_main_v1 (F := Ideal) t j = 1#1 := by
  rw [val_main_v1_apply, val_main_v0_apply, val_main_c_apply]
  exact ne_neg_one_word _ (ht _)

theorem v9_apply (ht : ∀ j, (t j).toNat < 170) (r : Fin 262144) :
    val_main_v9 (F := Ideal) x t (ix1 r) = Val.sq (Spec.pick x t r) := by
  rw [val_main_v9_apply, v1_apply t ht, select_one, val_main_v8_apply, val_main_v7_apply, val_main_v6_apply, val_main_cst_apply,
    v5_apply x t ht r]
  show (Ideal.ofBits .f32 0x3F800000#32 - Spec.pick x t r) * (Ideal.ofBits .f32 0x3F800000#32 - Spec.pick x t r) = _
  rw [Val.ofBits_one]
  rfl

/-- The masked sum: the sum over all rows of `(1 − p)·(1 − p)`. -/
theorem v13_eq (ht : ∀ j, (t j).toNat < 170) (i : S_.Idx) :
    val_main_v13 (F := Ideal) x t i = ∑ n ∈ Finset.range 262144, Val.sq (Val.P x t n) := by
  rw [val_main_v13_apply, val_main_cst_5_apply]
  show Ideal.ofBits .f32 0x00000000#32 + _ = _
  rw [Val.ofBits_zero, zero_add, sum_idx1, ← Fin.sum_univ_eq_sum_range (fun n => Val.sq (Val.P x t n)) 262144]
  refine Finset.sum_congr rfl fun r _ => ?_
  rw [v9_apply x t ht r]
  show _ = Val.sq (Spec.pick x t (Spec.rowOf r.val))
  rw [Val.rowOf_val]

/-- The count of valid rows, and its maximum with 1: 262144. -/
theorem v12_eq (ht : ∀ j, (t j).toNat < 170) (i : S_.Idx) :
    val_main_v12 (F := Ideal) t i = ((262144 : ℝ) : EReal) := by
  have h10 : ∀ j, val_main_v10 (F := Ideal) t j = ((1 : ℝ) : EReal) := fun j => by
    rw [val_main_v10_apply, v1_apply t ht j]
    show ((((1#1 : BitVec 1).toNat : ℕ) : ℝ) : EReal) = _
    norm_num
  rw [val_main_v12_apply, val_main_v11_apply, val_main_cst_3_apply, val_main_cst_4_apply, sum_idx1]
  show max (Ideal.ofBits .f32 0x00000000#32 + ∑ a : Fin 262144, val_main_v10 (F := Ideal) t (ix1 a)) (Ideal.ofBits .f32 0x3F800000#32) = _
  have hs : (∑ _a : Fin 262144, (1 : ℝ)) = 262144 := by
    rw [Finset.sum_const, Finset.card_univ, Fintype.card_fin, nsmul_eq_mul, mul_one]
    norm_num
  rw [Finset.sum_congr rfl (fun a _ => h10 (ix1 a)), Val.ofBits_zero, zero_add, Val.ofBits_one, ← Val.coe_sum, hs]
  exact max_eq_left (EReal.coe_le_coe_iff.mpr (by norm_num))

/-- THE REFERENCE'S VALUE is the common value `G`. -/
theorem ref_eq (ht : ∀ j, (t j).toNat < 170) (i : S_.Idx) : val_main_v14 (F := Ideal) x t i = Val.G x t := by
  rw [val_main_v14_apply, v13_eq x t ht, v12_eq t ht]
  rfl

/-- The kernel's last operations applied to its two parts give the reference's result. -/
theorem final_eq (hx : ∀ j, ∃ r : ℝ, x j = (r : EReal)) (ht : ∀ j, (t j).toNat < 170) :
    Spec.kFinal (F := Ideal) (Spec.partials x t) (fun _ => Spec.tcOut x t) = val_main_v14 (F := Ideal) x t :=
  funext fun i => (Val.kFinal_eq x t hx ht i).trans (ref_eq x t ht i).symm

end Cert.ReferenceIdeal.RefValue

end
-- ==== Proof.PreFacts.lean ====
/-
  What the precondition says of the arguments. It is the conjunction of two `all`s: every entry `v` of the table has
  `|v| < +∞`, and every column word `w` has `0 ≤ w` and `w ≤ 169` as signed integers. From the second, a word's
  unsigned value is below 170 (a word whose sign bit is set would be negative); from the first, read on the extended
  reals, an entry is neither infinity, so it is a real number.
-/
import proofs.«213812_g11871289606185_cont_fleet_226_25_alg».proof.Pre_input_domain
import proofs.«213812_g11871289606185_cont_fleet_226_25_alg».proof.Proof.Gen.Pre_input_domain
import Idealize.ShloMosaic.Lib.ReduceAll
import Idealize.ShloMosaic.Lib.ValueIdx
import Idealize.ShloMosaic.PureOps.Ideal.Laws

noncomputable section

namespace Cert.PreFacts

open Idealize.ShloMosaic Idealize.ShloMosaic.ValueIdx Cert.Pre_input_domain

/-- The scalar shape has one index. -/
instance : Subsingleton S_.Idx := ⟨fun _ _ => funext fun d => d.elim0⟩

/-- Every column word names a column: its unsigned value is below 170. -/
theorem tgt_of_pre {F : FTy → Type} [FloatOps F] (x : FVec F S262144x170 .f32) (t : IVec S262144 32)
    (h : fn (F := F) x t = fun _ => 1#1) : ∀ r, (t r).toNat < 170 := by
  intro r
  have h0 := congrFun h ix0
  dsimp only [fn] at h0
  change IntOp.andi _ _ = 1#1 at h0
  have h1 := (IntOp.andi_eq_one.mp h0).2
  have h2 := Host.reduce_andi_all _ _ _ _ _ h1 r
  change IntOp.andi (IntOp.cmpi .sge (t r) 0#32) (IntOp.cmpi .sle (t r) 169#32) = 1#1 at h2
  obtain ⟨hge, hle⟩ := IntOp.andi_eq_one.mp h2
  rw [IntOp.cmpi_sge] at hge
  rw [IntOp.cmpi_sle] at hle
  have e0 : (0#32 : BitVec 32).toInt = 0 := by decide
  have e169 : (169#32 : BitVec 32).toInt = 169 := by decide
  rw [e0] at hge
  rw [e169] at hle
  have hcond := BitVec.toInt_eq_toNat_cond (t r)
  have hlt := (t r).isLt
  by_cases hc : 2 * (t r).toNat < 2 ^ 32
  · rw [if_pos hc] at hcond; omega
  · rw [if_neg hc] at hcond; omega

/-- Read on the extended reals, every entry of the table is a real number. -/
theorem finite_of_pre (x : FVec Ideal S262144x170 .f32) (t : IVec S262144 32)
    (h : fn (F := Ideal) x t = fun _ => 1#1) : ∀ j, ∃ r : ℝ, x j = (r : EReal) := by
  intro j
  have h0 := congrFun h ix0
  dsimp only [fn] at h0
  change IntOp.andi _ _ = 1#1 at h0
  have h1 := (IntOp.andi_eq_one.mp h0).1
  have h2 := Host.reduce_andi_all _ _ _ _ _ h1 j
  change Ideal.cmp .olt (max (x j) (-(x j))) (Ideal.ofBits .f32 0x7F800000#32) = 1#1 at h2
  have htop : Ideal.ofBits .f32 0x7F800000#32 = ⊤ := by simp [Ideal.ofBits, Ideal.ieee]
  rw [htop] at h2
  generalize x j = v at h2 ⊢
  induction v using EReal.rec with
  | bot => simp [Ideal.cmp] at h2
  | coe r => exact ⟨r, rfl⟩
  | top => simp [Ideal.cmp] at h2

end Cert.PreFacts

end
-- ==== Proof.lean ====
/-
  The certificate's claims assembled.

  The kernel computes the mean over 262144 rows `r` of `(1 − x[r, t r])²`: rows 0…114687 on the SparseCores (32 vector
  subcores, each a 16-lane accumulator over its 3584 rows, written as one row of a 32×16 array of partial sums that the
  host adds up), rows 114688… on the TensorCore (two 8×170 accumulators `s1 = Σ x[r, t r]`, `s2 = Σ x[r, t r]²` over the
  masked blocks, the scalar `147456 − 2·Σ s1 + Σ s2`), the two parts added and divided by 262144. The reference gathers
  `x[r, clip (t r)]`, squares `1 −` it, masks by `t r ≠ −1`, adds up and divides by the number of unmasked rows. Under the
  precondition (every entry finite, `0 ≤ t r ≤ 169`) the clip is the identity, no row is masked, the count is 262144, and
  `147456 − 2·Σ p + Σ p² = Σ (1 − p)²` over the TensorCore's rows — an identity of real numbers, which is where finiteness
  is used. So both programs end at one extended real.

  Frames: each kernel program's run is the SparseCore launch theorem applied to one vector subcore's task (its body run
  once at a symbolic place), the split of a SparseCore's operands among its tasks, and @main on the TensorCore — the call,
  the host operations, the TensorCore pallas_call's region; the reference's is its run read back. `preserves` has no
  conjunct: the idealization rewrote no operation.
-/
import proofs.«213812_g11871289606185_cont_fleet_226_25_alg».proof.Defs
import proofs.«213812_g11871289606185_cont_fleet_226_25_alg».proof.Proof.Gen.Kernel
import proofs.«213812_g11871289606185_cont_fleet_226_25_alg».proof.Proof.Gen.KernelIdeal
import proofs.«213812_g11871289606185_cont_fleet_226_25_alg».proof.Proof.Gen.ReferenceIdeal
import proofs.«213812_g11871289606185_cont_fleet_226_25_alg».proof.Proof.Gen.Pre_input_domain
import proofs.«213812_g11871289606185_cont_fleet_226_25_alg».proof.Proof.KernelIdeal.Run
import proofs.«213812_g11871289606185_cont_fleet_226_25_alg».proof.Proof.Kernel.Run
import proofs.«213812_g11871289606185_cont_fleet_226_25_alg».proof.Proof.KernelIdeal.Tile
import proofs.«213812_g11871289606185_cont_fleet_226_25_alg».proof.Proof.Kernel.Tile
import proofs.«213812_g11871289606185_cont_fleet_226_25_alg».proof.Proof.KernelIdeal.TcRegion
import proofs.«213812_g11871289606185_cont_fleet_226_25_alg».proof.Proof.Kernel.TcRegion
import proofs.«213812_g11871289606185_cont_fleet_226_25_alg».proof.Proof.Ref.RefValue
import proofs.«213812_g11871289606185_cont_fleet_226_25_alg».proof.Proof.PreFacts
import Idealize.ShloMosaic.Adequacy
import Idealize.ShloMosaic.Init

noncomputable section

namespace Cert.Proof

open Idealize.ShloMosaic Idealize.SL.Sem

/-! ## What the precondition gives -/

theorem tgt_k (m : (ℓ : Loc Cert.Kernel.nD Cert.Kernel.τ Cert.Kernel.sig) → Buf (Elt Bits) ℓ)
    (h : Cert.Pre_Kernel (hPre_input_domain := Cert.Pre_input_domain.Gen.facts) m) : Cert.Kernel.Iface.TgtOK m :=
  fun d r => Cert.PreFacts.tgt_of_pre _ _ (h d) r

theorem tgt_ki (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : Cert.KernelIdeal.Iface.TgtOK m :=
  fun d r => Cert.PreFacts.tgt_of_pre _ _ (h d) r

/-! ## The two kernel programs' runs -/

theorem run_k (m : (ℓ : Loc Cert.Kernel.nD Cert.Kernel.τ Cert.Kernel.sig) → Buf (Elt Bits) ℓ) (ρ : Dev Cert.Kernel.nD → PrngReg)
    (h : Cert.Pre_Kernel (hPre_input_domain := Cert.Pre_input_domain.Gen.facts) m) :
    θ_run (Cert.Kernel.defs (F := Bits)) (Cert.Kernel.threads (F := Bits)) ⟨m, fun _ => 0, ρ⟩ (Cert.Kernel.Launch.QC m) :=
  Cert.Kernel.Launch.run_main (F := Bits) m ρ (Cert.Kernel.Tile.tile_body m)
    (fun d q3 qx V3 f4 hV3 O W hO => Cert.Kernel.Tc.tc_region Cert.Kernel.Launch.EP m d q3 qx V3 f4 hV3 O W hO) (tgt_k m h)

theorem run_ki (m : (ℓ : Loc Cert.KernelIdeal.nD Cert.KernelIdeal.τ Cert.KernelIdeal.sig) → Buf (Elt Ideal) ℓ) (ρ : Dev Cert.KernelIdeal.nD → PrngReg)
    (h : Cert.Pre_KernelIdeal (hPre_input_domain := Cert.Pre_input_domain.Gen.facts) m) :
    θ_run (Cert.KernelIdeal.defs (F := Ideal)) (Cert.KernelIdeal.threads (F := Ideal)) ⟨m, fun _ => 0, ρ⟩ (Cert.KernelIdeal.Launch.QC m) :=
  Cert.KernelIdeal.Launch.run_main (F := Ideal) m ρ (Cert.KernelIdeal.Tile.tile_body m)
    (fun d q3 qx V3 f4 hV3 O W hO => Cert.KernelIdeal.Tc.tc_region Cert.KernelIdeal.Launch.EP m d q3 qx V3 f4 hV3 O W hO) (tgt_ki m h)

/-! ## The claims -/

theorem frame_k : Cert.frame_Kernel (hKernel := Cert.Kernel.Gen.facts) (hPre_input_domain := Cert.Pre_input_domain.Gen.facts) :=
  fun m ρ h => (θ_run Cert.Kernel.defs _ _).mono (fun _ hr c => (hr c).2) (run_k m ρ h)

theorem frame_ki : Cert.frame_KernelIdeal (hKernelIdeal := Cert.KernelIdeal.Gen.facts) (hPre_input_domain := Cert.Pre_input_domain.Gen.facts) :=
  fun m ρ h => (θ_run Cert.KernelIdeal.defs _ _).mono (fun _ hr c => (hr c).2) (run_ki m ρ h)

theorem frame_ri : Cert.frame_ReferenceIdeal (hReferenceIdeal := Cert.ReferenceIdeal.Gen.facts) (hPre_input_domain := Cert.Pre_input_domain.Gen.facts) :=
  fun m ρ _ => (θ_run Cert.ReferenceIdeal.defs _ _).mono (fun _ hr c => (hr c).2) (Cert.ReferenceIdeal.ValueP.run (F := Ideal) m ρ)

/-- At `Ideal` the kernel ends at `Spec.kFinal` of its partial sums and its TensorCore scalar, the reference at its last
    stage's value of arguments that agree: one extended real. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' h hagree
  refine ⟨_, run_ki m ρ h, ?_⟩
  refine (θ_run Cert.ReferenceIdeal.defs _ _).mono (fun _ hr c => ⟨(hr c).1.trans ?_, (hr c).2⟩)
    (Cert.ReferenceIdeal.ValueP.run (F := Ideal) m' ρ')
  rw [Cert.ReferenceIdeal.ReadP.val_main_v14_eq, (hagree c).1, (hagree c).2]
  exact (Cert.ReferenceIdeal.RefValue.final_eq _ _ (Cert.PreFacts.finite_of_pre _ _ (h c)) (Cert.PreFacts.tgt_of_pre _ _ (h c))).symm

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
